-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v51)) (v1 : (c : Dev Cert.KernelIdeal.nD) → Buf (Elt Ideal) ((c.tc : Thread Cert.KernelIdeal.nD Cert.KernelIdeal.τ).loc Cert.KernelIdeal.main_v40_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v51) = v0 c
          ∧ r.2.mem ((c.tc : Thread Cert.KernelIdeal.nD Cert.KernelIdeal.τ).loc Cert.KernelIdeal.main_v40_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v93) = v0 c
          ∧ r.2.mem ((c.tc : Thread Cert.ReferenceIdeal.nD Cert.ReferenceIdeal.τ).loc Cert.ReferenceIdeal.main_v51) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S640000x128 : Shape := ⟨2, ![640000, 128]⟩
abbrev S2x640000 : Shape := ⟨2, ![2, 640000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S640000x128 : S_.BroadcastsInDim S640000x128 (![] : Fin 0 → Fin S640000x128.rank)
  reducesTo_S640000x128_S_d0_1 : S640000x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  reducesTo_S_S_d : S_.ReducesTo [] S_

variable [Facts]

def fn_part4 {F : FTy → Type} [FloatOps F] (main_arg15 : FVec F S128 .f32) (main_arg16 : FVec F S_ .f32) (main_v63 : IVec S_ 1) (main_v67 : IVec S_ 1) : IVec S_ 1 :=
  let main_v68 : IVec S_ 1 := andi main_v63 main_v67
  let main_v69 : FVec F S128 .f32 := Host.absf main_arg15
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S_ .f32 := Host.absf main_arg16
  let main_cst_28 : FVec F S_ .f32 := constant S_ .f32 0x7F800000#32
  let main_v75 : IVec S_ 1 := cmpf .olt main_v74 main_cst_28
  let main_c_29 : IVec S_ 1 := constantI S_ 1 1#1
  let main_v76 : IVec S_ 1 := (fun x v => Host.reduce IntOp.andi x v reducesTo_S_S_d h_S_) main_v75 main_c_29
  let main_v77 : IVec S_ 1 := andi main_v73 main_v76
  main_v77

def fn_part3 {F : FTy → Type} [FloatOps F] (main_arg12 : FVec F S128 .f32) (main_arg13 : FVec F S128 .f32) (main_arg14 : FVec F S128 .f32) (main_arg15 : FVec F S128 .f32) (main_arg16 : FVec F S_ .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128 .f32 := Host.absf main_arg12
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128 .f32 := Host.absf main_arg13
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128 .f32 := Host.absf main_arg14
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg15 main_arg16 main_v63 main_v67

def fn_part2 {F : FTy → Type} [FloatOps F] (main_arg8 : FVec F S128x128 .f32) (main_arg9 : FVec F S128 .f32) (main_arg10 : FVec F S128x128 .f32) (main_arg11 : FVec F S128 .f32) (main_arg12 : FVec F S128 .f32) (main_arg13 : FVec F S128 .f32) (main_arg14 : FVec F S128 .f32) (main_arg15 : FVec F S128 .f32) (main_arg16 : FVec F S_ .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg10
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_arg12 main_arg13 main_arg14 main_arg15 main_arg16 main_v48 main_v49 main_v50

def fn_part1 {F : FTy → Type} [FloatOps F] (main_arg5 : FVec F S128x128 .f32) (main_arg6 : FVec F S128x128 .f32) (main_arg7 : FVec F S128x128 .f32) (main_arg8 : FVec F S128x128 .f32) (main_arg9 : FVec F S128 .f32) (main_arg10 : FVec F S128x128 .f32) (main_arg11 : FVec F S128 .f32) (main_arg12 : FVec F S128 .f32) (main_arg13 : FVec F S128 .f32) (main_arg14 : FVec F S128 .f32) (main_arg15 : FVec F S128 .f32) (main_arg16 : FVec F S_ .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_arg9 main_arg10 main_arg11 main_arg12 main_arg13 main_arg14 main_arg15 main_arg16 main_v33

def fn {F : FTy → Type} [FloatOps F] (main_arg0 : FVec F S50000x128 .f32) (main_arg1 : FVec F S640000x128 .f32) (main_arg2 : IVec S2x640000 32) (main_arg3 : FVec F S128x128 .f32) (main_arg4 : FVec F S128x128 .f32) (main_arg5 : FVec F S128x128 .f32) (main_arg6 : FVec F S128x128 .f32) (main_arg7 : FVec F S128x128 .f32) (main_arg8 : FVec F S128x128 .f32) (main_arg9 : FVec F S128 .f32) (main_arg10 : FVec F S128x128 .f32) (main_arg11 : FVec F S128 .f32) (main_arg12 : FVec F S128 .f32) (main_arg13 : FVec F S128 .f32) (main_arg14 : FVec F S128 .f32) (main_arg15 : FVec F S128 .f32) (main_arg16 : FVec F S_ .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S640000x128 .f32 := Host.absf main_arg1
  let main_cst_0 : FVec F S_ .f32 := constant S_ .f32 0x7F800000#32
  let main_v5 : FVec F S640000x128 .f32 := broadcastInDim S640000x128 ![] bcast_S_S640000x128 main_cst_0
  let main_v6 : IVec S640000x128 1 := cmpf .olt main_v4 main_v5
  let main_c_1 : IVec S_ 1 := constantI S_ 1 1#1
  let main_v7 : IVec S_ 1 := (fun x v => Host.reduce IntOp.andi x v reducesTo_S640000x128_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_arg10 main_arg11 main_arg12 main_arg13 main_arg14 main_arg15 main_arg16 main_v13 main_v16
-- ==== Kernel.lean ====
abbrev S50000x128 : Shape := ⟨2, ![50000, 128]⟩
abbrev S640000x128 : Shape := ⟨2, ![640000, 128]⟩
abbrev S2x640000 : Shape := ⟨2, ![2, 640000]⟩
abbrev S128x128 : Shape := ⟨2, ![128, 128]⟩
abbrev S128 : Shape := ⟨1, ![128]⟩
abbrev S_ : Shape := ⟨0, ![]⟩
abbrev S1x640000 : Shape := ⟨2, ![1, 640000]⟩
abbrev S640000 : Shape := ⟨1, ![640000]⟩
abbrev S640000x1 : Shape := ⟨2, ![640000, 1]⟩
abbrev S1x128 : Shape := ⟨2, ![1, 128]⟩
abbrev S1x1 : Shape := ⟨2, ![1, 1]⟩
abbrev S5000x128 : Shape := ⟨2, ![5000, 128]⟩
abbrev S2000x128 : Shape := ⟨2, ![2000, 128]⟩

abbrev nBuf : Space → Nat
  | .hbm => 83
  | .vmem => 58
  | .smem => 0
  | _ => 0

abbrev bufTy : (tb : Table) → Fin (tcTables nBuf tb) → BufTy
  | .hbm, ⟨0, _⟩ => ⟨S50000x128, .f32⟩
  | .hbm, ⟨1, _⟩ => ⟨S640000x128, .f32⟩
  | .hbm, ⟨2, _⟩ => ⟨S2x640000, .i32⟩
  | .hbm, ⟨3, _⟩ => ⟨S128x128, .f32⟩
  | .hbm, ⟨4, _⟩ => ⟨S128x128, .f32⟩
  | .hbm, ⟨5, _⟩ => ⟨S128x128, .f32⟩
  | .hbm, ⟨6, _⟩ => ⟨S128x128, .f32⟩
  | .hbm, ⟨7, _⟩ => ⟨S128x128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S128, .f32⟩
  | .hbm, ⟨13, _⟩ => ⟨S128, .f32⟩
  | .hbm, ⟨14, _⟩ => ⟨S128, .f32⟩
  | .hbm, ⟨15, _⟩ => ⟨S128, .f32⟩
  | .hbm, ⟨16, _⟩ => ⟨S_, .f32⟩
  | .hbm, ⟨17, _⟩ => ⟨S1x640000, .i32⟩
  | .hbm, ⟨18, _⟩ => ⟨S640000, .i32⟩
  | .hbm, ⟨19, _⟩ => ⟨S1x640000, .i32⟩
  | .hbm, ⟨20, _⟩ => ⟨S640000, .i32⟩
  | .hbm, ⟨21, _⟩ => ⟨S_, .i32⟩
  | .hbm, ⟨22, _⟩ => ⟨S640000, .i32⟩
  | .hbm, ⟨23, _⟩ => ⟨S640000, .i1⟩
  | .hbm, ⟨24, _⟩ => ⟨S_, .i32⟩
  | .hbm, ⟨25, _⟩ => ⟨S640000, .i32⟩
  | .hbm, ⟨26, _⟩ => ⟨S640000, .i32⟩
  | .hbm, ⟨27, _⟩ => ⟨S640000, .i32⟩
  | .hbm, ⟨28, _⟩ => ⟨S640000x1, .i32⟩
  | .hbm, ⟨29, _⟩ => ⟨S640000x128, .f32⟩
  | .hbm, ⟨30, _⟩ => ⟨S_, .i32⟩
  | .hbm, ⟨31, _⟩ => ⟨S640000, .i32⟩
  | .hbm, ⟨32, _⟩ => ⟨S640000, .i1⟩
  | .hbm, ⟨33, _⟩ => ⟨S_, .i32⟩
  | .hbm, ⟨34, _⟩ => ⟨S640000, .i32⟩
  | .hbm, ⟨35, _⟩ => ⟨S640000, .i32⟩
  | .hbm, ⟨36, _⟩ => ⟨S640000, .i32⟩
  | .hbm, ⟨37, _⟩ => ⟨S640000x1, .i32⟩
  | .hbm, ⟨38, _⟩ => ⟨S640000x128, .f32⟩
  | .hbm, ⟨39, _⟩ => ⟨S1x128, .f32⟩
  | .hbm, ⟨40, _⟩ => ⟨S1x128, .f32⟩
  | .hbm, ⟨41, _⟩ => ⟨S1x128, .f32⟩
  | .hbm, ⟨42, _⟩ => ⟨S1x128, .f32⟩
  | .hbm, ⟨43, _⟩ => ⟨S1x128, .f32⟩
  | .hbm, ⟨44, _⟩ => ⟨S1x128, .f32⟩
  | .hbm, ⟨45, _⟩ => ⟨S1x1, .f32⟩
  | .hbm, ⟨46, _⟩ => ⟨S50000x128, .f32⟩
  | .hbm, ⟨47, _⟩ => ⟨S_, .i32⟩
  | .hbm, ⟨48, _⟩ => ⟨S640000, .i32⟩
  | .hbm, ⟨49, _⟩ => ⟨S640000, .i1⟩
  | .hbm, ⟨50, _⟩ => ⟨S_, .i32⟩
  | .hbm, ⟨51, _⟩ => ⟨S640000, .i32⟩
  | .hbm, ⟨52, _⟩ => ⟨S640000, .i32⟩
  | .hbm, ⟨53, _⟩ => ⟨S640000, .i32⟩
  | .hbm, ⟨54, _⟩ => ⟨S640000x1, .i32⟩
  | .hbm, ⟨55, _⟩ => ⟨S640000x128, .f32⟩
  | .hbm, ⟨56, _⟩ => ⟨S1x128, .f32⟩
  | .hbm, ⟨57, _⟩ => ⟨S1x128, .f32⟩
  | .hbm, ⟨58, _⟩ => ⟨S_, .f32⟩
  | .hbm, ⟨59, _⟩ => ⟨S1x128, .f32⟩
  | .hbm, ⟨60, _⟩ => ⟨S1x128, .f32⟩
  | .hbm, ⟨61, _⟩ => ⟨S_, .f32⟩
  | .hbm, ⟨62, _⟩ => ⟨S1x128, .f32⟩
  | .hbm, ⟨63, _⟩ => ⟨S1x128, .f32⟩
  | .hbm, ⟨64, _⟩ => ⟨S1x128, .f32⟩
  | .hbm, ⟨65, _⟩ => ⟨S1x128, .f32⟩
  | .hbm, ⟨66, _⟩ => ⟨S640000x128, .f32⟩
  | .hbm, ⟨67, _⟩ => ⟨S640000x128, .f32⟩
  | .hbm, ⟨68, _⟩ => ⟨S_, .f32⟩
  | .hbm, ⟨69, _⟩ => ⟨S50000x128, .f32⟩
  | .hbm, ⟨70, _⟩ => ⟨S640000x1, .i32⟩
  | .hbm, ⟨71, _⟩ => ⟨S50000x128, .f32⟩
  | .hbm, ⟨72, _⟩ => ⟨S1x128, .f32⟩
  | .hbm, ⟨73, _⟩ => ⟨S1x128, .f32⟩
  | .hbm, ⟨74, _⟩ => ⟨S_, .f32⟩
  | .hbm, ⟨75, _⟩ => ⟨S1x128, .f32⟩
  | .hbm, ⟨76, _⟩ => ⟨S1x128, .f32⟩
  | .hbm, ⟨77, _⟩ => ⟨S_, .f32⟩
  | .hbm, ⟨78, _⟩ => ⟨S1x128, .f32⟩
  | .hbm, ⟨79, _⟩ => ⟨S1x128, .f32⟩
  | .hbm, ⟨80, _⟩ => ⟨S1x128, .f32⟩
  | .hbm, ⟨81, _⟩ => ⟨S1x128, .f32⟩
  | .hbm, ⟨82, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S2000x128, .f32⟩
  | .local _ .vmem, ⟨6, _⟩ => ⟨S2000x128, .f32⟩
  | .local _ .vmem, ⟨7, _⟩ => ⟨S2000x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S128x128, .f32⟩
  | .local _ .vmem, ⟨12, _⟩ => ⟨S128x128, .f32⟩
  | .local _ .vmem, ⟨13, _⟩ => ⟨S128x128, .f32⟩
  | .local _ .vmem, ⟨14, _⟩ => ⟨S1x128, .f32⟩
  | .local _ .vmem, ⟨15, _⟩ => ⟨S1x128, .f32⟩
  | .local _ .vmem, ⟨16, _⟩ => ⟨S2000x128, .f32⟩
  | .local _ .vmem, ⟨17, _⟩ => ⟨S2000x128, .f32⟩
  | .local _ .vmem, ⟨18, _⟩ => ⟨S2000x128, .f32⟩
  | .local _ .vmem, ⟨19, _⟩ => ⟨S2000x128, .f32⟩
  | .local _ .vmem, ⟨20, _⟩ => ⟨S2000x128, .f32⟩
  | .local _ .vmem, ⟨21, _⟩ => ⟨S2000x128, .f32⟩
  | .local _ .vmem, ⟨22, _⟩ => ⟨S2000x128, .f32⟩
  | .local _ .vmem, ⟨23, _⟩ => ⟨S2000x128, .f32⟩
  | .local _ .vmem, ⟨24, _⟩ => ⟨S128x128, .f32⟩
  | .local _ .vmem, ⟨25, _⟩ => ⟨S128x128, .f32⟩
  | .local _ .vmem, ⟨26, _⟩ => ⟨S128x128, .f32⟩
  | .local _ .vmem, ⟨27, _⟩ => ⟨S1x128, .f32⟩
  | .local _ .vmem, ⟨28, _⟩ => ⟨S1x128, .f32⟩
  | .local _ .vmem, ⟨29, _⟩ => ⟨S1x128, .f32⟩
  | .local _ .vmem, ⟨30, _⟩ => ⟨S1x128, .f32⟩
  | .local _ .vmem, ⟨31, _⟩ => ⟨S128x128, .f32⟩
  | .local _ .vmem, ⟨32, _⟩ => ⟨S1x128, .f32⟩
  | .local _ .vmem, ⟨33, _⟩ => ⟨S128x128, .f32⟩
  | .local _ .vmem, ⟨34, _⟩ => ⟨S1x128, .f32⟩
  | .local _ .vmem, ⟨35, _⟩ => ⟨S2000x128, .f32⟩
  | .local _ .vmem, ⟨36, _⟩ => ⟨S2000x128, .f32⟩
  | .local _ .vmem, ⟨37, _⟩ => ⟨S2000x128, .f32⟩
  | .local _ .vmem, ⟨38, _⟩ => ⟨S2000x128, .f32⟩
  | .local _ .vmem, ⟨39, _⟩ => ⟨S5000x128, .f32⟩
  | .local _ .vmem, ⟨40, _⟩ => ⟨S5000x128, .f32⟩
  | .local _ .vmem, ⟨41, _⟩ => ⟨S5000x128, .f32⟩
  | .local _ .vmem, ⟨42, _⟩ => ⟨S5000x128, .f32⟩
  | .local _ .vmem, ⟨43, _⟩ => ⟨S128x128, .f32⟩
  | .local _ .vmem, ⟨44, _⟩ => ⟨S1x128, .f32⟩
  | .local _ .vmem, ⟨45, _⟩ => ⟨S1x128, .f32⟩
  | .local _ .vmem, ⟨46, _⟩ => ⟨S5000x128, .f32⟩
  | .local _ .vmem, ⟨47, _⟩ => ⟨S5000x128, .f32⟩
  | .local _ .vmem, ⟨48, _⟩ => ⟨S5000x128, .f32⟩
  | .local _ .vmem, ⟨49, _⟩ => ⟨S5000x128, .f32⟩
  | .local _ .vmem, ⟨50, _⟩ => ⟨S128x128, .f32⟩
  | .local _ .vmem, ⟨51, _⟩ => ⟨S1x128, .f32⟩
  | .local _ .vmem, ⟨52, _⟩ => ⟨S1x128, .f32⟩
  | .local _ .vmem, ⟨53, _⟩ => ⟨S1x128, .f32⟩
  | .local _ .vmem, ⟨54, _⟩ => ⟨S1x128, .f32⟩
  | .local _ .vmem, ⟨55, _⟩ => ⟨S1x1, .f32⟩
  | .local _ .vmem, ⟨56, _⟩ => ⟨S5000x128, .f32⟩
  | .local _ .vmem, ⟨57, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | _, _ => false

abbrev semScoped : Fin 0 → Bool
  | ⟨_, h⟩ => absurd h (Nat.not_lt_zero _)

abbrev dmaSemScoped : Fin 58 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | _ => false

abbrev sig : RefSig :=
  ofTc nBuf bufTy 0 58 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_c : Ref sig .tc := ⟨.hbm, 21, rfl⟩
abbrev main_v4 : Ref sig .tc := ⟨.hbm, 22, rfl⟩
abbrev main_v5 : Ref sig .tc := ⟨.hbm, 23, rfl⟩
abbrev main_c_0 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_c_1 : Ref sig .tc := ⟨.hbm, 30, rfl⟩
abbrev main_v11 : Ref sig .tc := ⟨.hbm, 31, rfl⟩
abbrev main_v12 : Ref sig .tc := ⟨.hbm, 32, rfl⟩
abbrev main_c_2 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_c_3 : Ref sig .tc := ⟨.hbm, 47, rfl⟩
abbrev main_v26 : Ref sig .tc := ⟨.hbm, 48, rfl⟩
abbrev main_v27 : Ref sig .tc := ⟨.hbm, 49, rfl⟩
abbrev main_c_4 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33_0 : Ref sig .tc := ⟨.hbm, 56, rfl⟩
abbrev main_v33_1 : Ref sig .tc := ⟨.hbm, 57, rfl⟩
abbrev main_cst : Ref sig .tc := ⟨.hbm, 58, rfl⟩
abbrev main_v34 : Ref sig .tc := ⟨.hbm, 59, rfl⟩
abbrev main_v35 : Ref sig .tc := ⟨.hbm, 60, rfl⟩
abbrev main_cst_5 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40_0 : Ref sig .tc := ⟨.hbm, 66, rfl⟩
abbrev main_v40_1 : Ref sig .tc := ⟨.hbm, 67, rfl⟩
abbrev main_cst_6 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44_0 : Ref sig .tc := ⟨.hbm, 72, rfl⟩
abbrev main_v44_1 : Ref sig .tc := ⟨.hbm, 73, rfl⟩
abbrev main_cst_7 : Ref sig .tc := ⟨.hbm, 74, rfl⟩
abbrev main_v45 : Ref sig .tc := ⟨.hbm, 75, rfl⟩
abbrev main_v46 : Ref sig .tc := ⟨.hbm, 76, rfl⟩
abbrev main_cst_8 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg7_0 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg2_1 : Ref sig .tc := ⟨.vmem, 21, rfl⟩
abbrev cc2_stg3_0 : Ref sig .tc := ⟨.vmem, 22, rfl⟩
abbrev cc2_stg3_1 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg6_0 : Ref sig .tc := ⟨.vmem, 26, rfl⟩
abbrev cc2_stg7_0 : Ref sig .tc := ⟨.vmem, 27, rfl⟩
abbrev cc2_stg8_0 : Ref sig .tc := ⟨.vmem, 28, rfl⟩
abbrev cc2_stg9_0 : Ref sig .tc := ⟨.vmem, 29, rfl⟩
abbrev cc2_stg10_0 : Ref sig .tc := ⟨.vmem, 30, rfl⟩
abbrev cc2_stg11_0 : Ref sig .tc := ⟨.vmem, 31, rfl⟩
abbrev cc2_stg12_0 : Ref sig .tc := ⟨.vmem, 32, rfl⟩
abbrev cc2_stg13_0 : Ref sig .tc := ⟨.vmem, 33, rfl⟩
abbrev cc2_stg14_0 : Ref sig .tc := ⟨.vmem, 34, rfl⟩
abbrev cc2_stg15_0 : Ref sig .tc := ⟨.vmem, 35, rfl⟩
abbrev cc2_stg15_1 : Ref sig .tc := ⟨.vmem, 36, rfl⟩
abbrev cc2_stg16_0 : Ref sig .tc := ⟨.vmem, 37, rfl⟩
abbrev cc2_stg16_1 : Ref sig .tc := ⟨.vmem, 38, rfl⟩
abbrev cc3_stg0_0 : Ref sig .tc := ⟨.vmem, 39, rfl⟩
abbrev cc3_stg0_1 : Ref sig .tc := ⟨.vmem, 40, rfl⟩
abbrev cc3_stg1_0 : Ref sig .tc := ⟨.vmem, 41, rfl⟩
abbrev cc3_stg1_1 : Ref sig .tc := ⟨.vmem, 42, rfl⟩
abbrev cc3_stg2_0 : Ref sig .tc := ⟨.vmem, 43, rfl⟩
abbrev cc3_stg3_0 : Ref sig .tc := ⟨.vmem, 44, rfl⟩
abbrev cc3_stg4_0 : Ref sig .tc := ⟨.vmem, 45, rfl⟩
abbrev cc4_stg0_0 : Ref sig .tc := ⟨.vmem, 46, rfl⟩
abbrev cc4_stg0_1 : Ref sig .tc := ⟨.vmem, 47, rfl⟩
abbrev cc4_stg1_0 : Ref sig .tc := ⟨.vmem, 48, rfl⟩
abbrev cc4_stg1_1 : Ref sig .tc := ⟨.vmem, 49, rfl⟩
abbrev cc4_stg2_0 : Ref sig .tc := ⟨.vmem, 50, rfl⟩
abbrev cc4_stg3_0 : Ref sig .tc := ⟨.vmem, 51, rfl⟩
abbrev cc4_stg4_0 : Ref sig .tc := ⟨.vmem, 52, rfl⟩
abbrev cc4_stg5_0 : Ref sig .tc := ⟨.vmem, 53, rfl⟩
abbrev cc4_stg6_0 : Ref sig .tc := ⟨.vmem, 54, rfl⟩
abbrev cc4_stg7_0 : Ref sig .tc := ⟨.vmem, 55, rfl⟩
abbrev cc4_stg8_0 : Ref sig .tc := ⟨.vmem, 56, rfl⟩
abbrev cc4_stg8_1 : Ref sig .tc := ⟨.vmem, 57, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem7_0 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem2_1 : DmaSem sig := 21
abbrev cc2_sem3_0 : DmaSem sig := 22
abbrev cc2_sem3_1 : DmaSem sig := 23
abbrev cc2_sem4_0 : DmaSem sig := 24
abbrev cc2_sem5_0 : DmaSem sig := 25
abbrev cc2_sem6_0 : DmaSem sig := 26
abbrev cc2_sem7_0 : DmaSem sig := 27
abbrev cc2_sem8_0 : DmaSem sig := 28
abbrev cc2_sem9_0 : DmaSem sig := 29
abbrev cc2_sem10_0 : DmaSem sig := 30
abbrev cc2_sem11_0 : DmaSem sig := 31
abbrev cc2_sem12_0 : DmaSem sig := 32
abbrev cc2_sem13_0 : DmaSem sig := 33
abbrev cc2_sem14_0 : DmaSem sig := 34
abbrev cc2_sem15_0 : DmaSem sig := 35
abbrev cc2_sem15_1 : DmaSem sig := 36
abbrev cc2_sem16_0 : DmaSem sig := 37
abbrev cc2_sem16_1 : DmaSem sig := 38
abbrev cc3_sem0_0 : DmaSem sig := 39
abbrev cc3_sem0_1 : DmaSem sig := 40
abbrev cc3_sem1_0 : DmaSem sig := 41
abbrev cc3_sem1_1 : DmaSem sig := 42
abbrev cc3_sem2_0 : DmaSem sig := 43
abbrev cc3_sem3_0 : DmaSem sig := 44
abbrev cc3_sem4_0 : DmaSem sig := 45
abbrev cc4_sem0_0 : DmaSem sig := 46
abbrev cc4_sem0_1 : DmaSem sig := 47
abbrev cc4_sem1_0 : DmaSem sig := 48
abbrev cc4_sem1_1 : DmaSem sig := 49
abbrev cc4_sem2_0 : DmaSem sig := 50
abbrev cc4_sem3_0 : DmaSem sig := 51
abbrev cc4_sem4_0 : DmaSem sig := 52
abbrev cc4_sem5_0 : DmaSem sig := 53
abbrev cc4_sem6_0 : DmaSem sig := 54
abbrev cc4_sem7_0 : DmaSem sig := 55
abbrev cc4_sem8_0 : DmaSem sig := 56
abbrev cc4_sem8_1 : DmaSem sig := 57

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![320], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev grid2 : Pipeline.Grid := ⟨1, ![320], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_11 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_12 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_13 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_14 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_15 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_16 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S2000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S128x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x128 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S1x128 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 1 → Memref sig .tc .vmem S1x128 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false]

abbrev stage2_11 : Fin 1 → Memref sig .tc .vmem S128x128 .f32 := fun | 0 => Memref.whole cc2_stg11_0 | ⟨_ + 1, h⟩ => absurd h (Nat.not_lt.2 (Nat.le_add_left _ _))
abbrev sem2_11 : Fin 1 → DmaSem sig := fun | 0 => cc2_sem11_0 | ⟨_ + 1, h⟩ => absurd h (Nat.not_lt.2 (Nat.le_add_left _ _))
abbrev reads2_11 : Fin grid2.rank → Bool := ![false]

abbrev stage2_12 : Fin 1 → Memref sig .tc .vmem S1x128 .f32 := fun | 0 => Memref.whole cc2_stg12_0 | ⟨_ + 1, h⟩ => absurd h (Nat.not_lt.2 (Nat.le_add_left _ _))
abbrev sem2_12 : Fin 1 → DmaSem sig := fun | 0 => cc2_sem12_0 | ⟨_ + 1, h⟩ => absurd h (Nat.not_lt.2 (Nat.le_add_left _ _))
abbrev reads2_12 : Fin grid2.rank → Bool := ![false]

abbrev stage2_13 : Fin 1 → Memref sig .tc .vmem S128x128 .f32 := fun | 0 => Memref.whole cc2_stg13_0 | ⟨_ + 1, h⟩ => absurd h (Nat.not_lt.2 (Nat.le_add_left _ _))
abbrev sem2_13 : Fin 1 → DmaSem sig := fun | 0 => cc2_sem13_0 | ⟨_ + 1, h⟩ => absurd h (Nat.not_lt.2 (Nat.le_add_left _ _))
abbrev reads2_13 : Fin grid2.rank → Bool := ![false]

abbrev stage2_14 : Fin 1 → Memref sig .tc .vmem S1x128 .f32 := fun | 0 => Memref.whole cc2_stg14_0 | ⟨_ + 1, h⟩ => absurd h (Nat.not_lt.2 (Nat.le_add_left _ _))
abbrev sem2_14 : Fin 1 → DmaSem sig := fun | 0 => cc2_sem14_0 | ⟨_ + 1, h⟩ => absurd h (Nat.not_lt.2 (Nat.le_add_left _ _))
abbrev reads2_14 : Fin grid2.rank → Bool := ![false]

abbrev stage2_15 : Fin 2 → Memref sig .tc .vmem S2000x128 .f32 := fun | 0 => Memref.whole cc2_stg15_0 | 1 => Memref.whole cc2_stg15_1 | ⟨_ + 2, h⟩ => absurd h (Nat.not_lt.2 (Nat.le_add_left _ _))
abbrev sem2_15 : Fin 2 → DmaSem sig := fun | 0 => cc2_sem15_0 | 1 => cc2_sem15_1 | ⟨_ + 2, h⟩ => absurd h (Nat.not_lt.2 (Nat.le_add_left _ _))
abbrev reads2_15 : Fin grid2.rank → Bool := ![true]

abbrev stage2_16 : Fin 2 → Memref sig .tc .vmem S2000x128 .f32 := fun | 0 => Memref.whole cc2_stg16_0 | 1 => Memref.whole cc2_stg16_1 | ⟨_ + 2, h⟩ => absurd h (Nat.not_lt.2 (Nat.le_add_left _ _))
abbrev sem2_16 : Fin 2 → DmaSem sig := fun | 0 => cc2_sem16_0 | 1 => cc2_sem16_1 | ⟨_ + 2, h⟩ => absurd h (Nat.not_lt.2 (Nat.le_add_left _ _))
abbrev reads2_16 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_8 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S128x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1x128 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 1 → Memref sig .tc .vmem S1x1 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev stage4_8 : Fin 2 → Memref sig .tc .vmem S5000x128 .f32 := fun | 0 => Memref.whole cc4_stg8_0 | 1 => Memref.whole cc4_stg8_1 | ⟨_ + 2, h⟩ => absurd h (Nat.not_lt.2 (Nat.le_add_left _ _))
abbrev sem4_8 : Fin 2 → DmaSem sig := fun | 0 => cc4_sem8_0 | 1 => cc4_sem8_1 | ⟨_ + 2, h⟩ => absurd h (Nat.not_lt.2 (Nat.le_add_left _ _))
abbrev reads4_8 : Fin grid4.rank → Bool := ![true]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  shapeCasts_S128_S1x128 : S128.ShapeCasts S1x128
  shapeCasts_S_S1x1 : S_.ShapeCasts S1x1
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  shapeCasts_S1x128_S1x128 : S1x128.ShapeCasts S1x128
  reduces_S2000x128_S128 : S2000x128.Reduces [0] S128
  bcast_S_S1x128 : S_.BroadcastsInDim S1x128 (![] : Fin 0 → Fin S1x128.rank)
  broadcasts_S1x128_S2000x128 : S1x128.Broadcasts S2000x128
  bcast_S_S50000x128 : S_.BroadcastsInDim S50000x128 (![] : Fin 0 → Fin S50000x128.rank)
  shapeCasts_S5000x128_S5000x128 : S5000x128.ShapeCasts S5000x128
  reduces_S5000x128_S128 : S5000x128.Reduces [0] S128
  broadcasts_S1x128_S5000x128 : S1x128.Broadcasts S5000x128
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  gather_S50000x128_S640000x1_S640000x128_1_0_n_n_0_1_1128_wf : GatherDims.WF S50000x128 S640000x1 S640000x128 [1] [0] [] [0] [] 1 ![1, 128]
  dot_S5000x128_S128x128_S5000x128_1_0_0_1_n_n_wf : DotDims.WF S5000x128 S128x128 S5000x128 [1] [0] [0] [1] [] []
  dot_S2000x128_S128x128_S2000x128_1_0_0_1_n_n_wf : DotDims.WF S2000x128 S128x128 S2000x128 [1] [0] [0] [1] [] []
  scatter_S50000x128_S640000x1_S640000x128_1_0_0_1_wf : ScatterDims.WF S50000x128 S640000x1 S640000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S640000x128.size a
  hwx1_0 : ∀ i : grid1.Coords, EltTy.bits .f32 = 32 ∨ (Rect.block (s := S640000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S640000x128.size a
  hwx1_1 : ∀ i : grid1.Coords, EltTy.bits .f32 = 32 ∨ (Rect.block (s := S640000x128) S2000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S640000x128.size a
  hwx1_2 : ∀ i : grid1.Coords, EltTy.bits .f32 = 32 ∨ (Rect.block (s := S640000x128) S2000x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x128.size a ≤ S1x128.size a
  hwx1_7 : ∀ i : grid1.Coords, EltTy.bits .f32 = 32 ∨ (Rect.block (s := S1x128) S1x128.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S640000x128.size a
  hwx2_0 : ∀ i : grid2.Coords, EltTy.bits .f32 = 32 ∨ (Rect.block (s := S640000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S640000x128.size a
  hwx2_1 : ∀ i : grid2.Coords, EltTy.bits .f32 = 32 ∨ (Rect.block (s := S640000x128) S2000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x128.size a ≤ S640000x128.size a
  hwx2_2 : ∀ i : grid2.Coords, EltTy.bits .f32 = 32 ∨ (Rect.block (s := S640000x128) S2000x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x128.size a ≤ S640000x128.size a
  hwx2_3 : ∀ i : grid2.Coords, EltTy.bits .f32 = 32 ∨ (Rect.block (s := S640000x128) S2000x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x128.size a ≤ S128x128.size a
  hwx2_5 : ∀ i : grid2.Coords, EltTy.bits .f32 = 32 ∨ (Rect.block (s := S128x128) S128x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S128x128.size a ≤ S128x128.size a
  hwx2_6 : ∀ i : grid2.Coords, EltTy.bits .f32 = 32 ∨ (Rect.block (s := S128x128) S128x128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x128.size a ≤ S1x128.size a
  hwx2_7 : ∀ i : grid2.Coords, EltTy.bits .f32 = 32 ∨ (Rect.block (s := S1x128) S1x128.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x128.size a ≤ S1x128.size a
  hwx2_8 : ∀ i : grid2.Coords, EltTy.bits .f32 = 32 ∨ (Rect.block (s := S1x128) S1x128.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S1x128.size a ≤ S1x128.size a
  hwx2_9 : ∀ i : grid2.Coords, EltTy.bits .f32 = 32 ∨ (Rect.block (s := S1x128) S1x128.size (cc2_transform_9 i) (hinb2_9 i)).WholeWords (EltTy.packing .f32)
  hstage2_10 : ∀ j, (stage2_10 j).IsWhole
  nbuf2_10 : grid2.bufCount reads2_10 true = 1
  hreads2_10 : ∀ i i' : grid2.Coords, (∀ a, reads2_10 a = true → i a = i' a) → cc2_transform_10 i = cc2_transform_10 i'
  hinb2_10 : ∀ (i : grid2.Coords) a, (cc2_transform_10 i a + 1) * S1x128.size a ≤ S1x128.size a
  hwx2_10 : ∀ i : grid2.Coords, EltTy.bits .f32 = 32 ∨ (Rect.block (s := S1x128) S1x128.size (cc2_transform_10 i) (hinb2_10 i)).WholeWords (EltTy.packing .f32)
  hstage2_11 : ∀ j, (stage2_11 j).IsWhole
  nbuf2_11 : grid2.bufCount reads2_11 true = 1
  hreads2_11 : ∀ i i' : grid2.Coords, (∀ a, reads2_11 a = true → i a = i' a) → cc2_transform_11 i = cc2_transform_11 i'
  hinb2_11 : ∀ (i : grid2.Coords) a, (cc2_transform_11 i a + 1) * S128x128.size a ≤ S128x128.size a
  hwx2_11 : ∀ i : grid2.Coords, EltTy.bits .f32 = 32 ∨ (Rect.block (s := S128x128) S128x128.size (cc2_transform_11 i) (hinb2_11 i)).WholeWords (EltTy.packing .f32)
  hstage2_12 : ∀ j, (stage2_12 j).IsWhole
  nbuf2_12 : grid2.bufCount reads2_12 true = 1
  hreads2_12 : ∀ i i' : grid2.Coords, (∀ a, reads2_12 a = true → i a = i' a) → cc2_transform_12 i = cc2_transform_12 i'
  hinb2_12 : ∀ (i : grid2.Coords) a, (cc2_transform_12 i a + 1) * S1x128.size a ≤ S1x128.size a
  hwx2_12 : ∀ i : grid2.Coords, EltTy.bits .f32 = 32 ∨ (Rect.block (s := S1x128) S1x128.size (cc2_transform_12 i) (hinb2_12 i)).WholeWords (EltTy.packing .f32)
  hstage2_13 : ∀ j, (stage2_13 j).IsWhole
  nbuf2_13 : grid2.bufCount reads2_13 true = 1
  hreads2_13 : ∀ i i' : grid2.Coords, (∀ a, reads2_13 a = true → i a = i' a) → cc2_transform_13 i = cc2_transform_13 i'
  hinb2_13 : ∀ (i : grid2.Coords) a, (cc2_transform_13 i a + 1) * S128x128.size a ≤ S128x128.size a
  hwx2_13 : ∀ i : grid2.Coords, EltTy.bits .f32 = 32 ∨ (Rect.block (s := S128x128) S128x128.size (cc2_transform_13 i) (hinb2_13 i)).WholeWords (EltTy.packing .f32)
  hstage2_14 : ∀ j, (stage2_14 j).IsWhole
  nbuf2_14 : grid2.bufCount reads2_14 true = 1
  hreads2_14 : ∀ i i' : grid2.Coords, (∀ a, reads2_14 a = true → i a = i' a) → cc2_transform_14 i = cc2_transform_14 i'
  hinb2_14 : ∀ (i : grid2.Coords) a, (cc2_transform_14 i a + 1) * S1x128.size a ≤ S1x128.size a
  hwx2_14 : ∀ i : grid2.Coords, EltTy.bits .f32 = 32 ∨ (Rect.block (s := S1x128) S1x128.size (cc2_transform_14 i) (hinb2_14 i)).WholeWords (EltTy.packing .f32)
  hstage2_15 : ∀ j, (stage2_15 j).IsWhole
  nbuf2_15 : grid2.bufCount reads2_15 false = 2
  hreads2_15 : ∀ i i' : grid2.Coords, (∀ a, reads2_15 a = true → i a = i' a) → cc2_transform_15 i = cc2_transform_15 i'
  hinb2_15 : ∀ (i : grid2.Coords) a, (cc2_transform_15 i a + 1) * S2000x128.size a ≤ S640000x128.size a
  hwx2_15 : ∀ i : grid2.Coords, EltTy.bits .f32 = 32 ∨ (Rect.block (s := S640000x128) S2000x128.size (cc2_transform_15 i) (hinb2_15 i)).WholeWords (EltTy.packing .f32)
  hstage2_16 : ∀ j, (stage2_16 j).IsWhole
  nbuf2_16 : grid2.bufCount reads2_16 false = 2
  hreads2_16 : ∀ i i' : grid2.Coords, (∀ a, reads2_16 a = true → i a = i' a) → cc2_transform_16 i = cc2_transform_16 i'
  hinb2_16 : ∀ (i : grid2.Coords) a, (cc2_transform_16 i a + 1) * S2000x128.size a ≤ S640000x128.size a
  hwx2_16 : ∀ i : grid2.Coords, EltTy.bits .f32 = 32 ∨ (Rect.block (s := S640000x128) S2000x128.size (cc2_transform_16 i) (hinb2_16 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S50000x128.size a
  hwx3_1 : ∀ i : grid3.Coords, EltTy.bits .f32 = 32 ∨ (Rect.block (s := S50000x128) S5000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .f32 = 32 ∨ (Rect.block (s := S128x128) S128x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x128.size a ≤ S50000x128.size a
  hwx4_1 : ∀ i : grid4.Coords, EltTy.bits .f32 = 32 ∨ (Rect.block (s := S50000x128) S5000x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x128.size a ≤ S128x128.size a
  hwx4_2 : ∀ i : grid4.Coords, EltTy.bits .f32 = 32 ∨ (Rect.block (s := S128x128) S128x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x128.size a ≤ S1x128.size a
  hwx4_4 : ∀ i : grid4.Coords, EltTy.bits .f32 = 32 ∨ (Rect.block (s := S1x128) S1x128.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x128.size a ≤ S1x128.size a
  hwx4_5 : ∀ i : grid4.Coords, EltTy.bits .f32 = 32 ∨ (Rect.block (s := S1x128) S1x128.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x128.size a ≤ S1x128.size a
  hwx4_6 : ∀ i : grid4.Coords, EltTy.bits .f32 = 32 ∨ (Rect.block (s := S1x128) S1x128.size (cc4_transform_6 i) (hinb4_6 i)).WholeWords (EltTy.packing .f32)
  hstage4_7 : ∀ j, (stage4_7 j).IsWhole
  nbuf4_7 : grid4.bufCount reads4_7 true = 1
  hreads4_7 : ∀ i i' : grid4.Coords, (∀ a, reads4_7 a = true → i a = i' a) → cc4_transform_7 i = cc4_transform_7 i'
  hinb4_7 : ∀ (i : grid4.Coords) a, (cc4_transform_7 i a + 1) * S1x1.size a ≤ S1x1.size a
  hwx4_7 : ∀ i : grid4.Coords, EltTy.bits .f32 = 32 ∨ (Rect.block (s := S1x1) S1x1.size (cc4_transform_7 i) (hinb4_7 i)).WholeWords (EltTy.packing .f32)
  hstage4_8 : ∀ j, (stage4_8 j).IsWhole
  nbuf4_8 : grid4.bufCount reads4_8 false = 2
  hreads4_8 : ∀ i i' : grid4.Coords, (∀ a, reads4_8 a = true → i a = i' a) → cc4_transform_8 i = cc4_transform_8 i'
  hinb4_8 : ∀ (i : grid4.Coords) a, (cc4_transform_8 i a + 1) * S5000x128.size a ≤ S50000x128.size a
  hwx4_8 : ∀ i : grid4.Coords, EltTy.bits .f32 = 32 ∨ (Rect.block (s := S50000x128) S5000x128.size (cc4_transform_8 i) (hinb4_8 i)).WholeWords (EltTy.packing .f32)

variable [Facts₀]

def gather_S50000x128_S640000x1_S640000x128_1_0_n_n_0_1_1128 : GatherDims S50000x128 S640000x1 S640000x128 where
  offsetDims := [1]
  collapsedSliceDims := [0]
  operandBatchingDims := []
  startIndicesBatchingDims := []
  startIndexMap := [0]
  indexVectorDim := 1
  sliceSizes := ![1, 128]
  wf := gather_S50000x128_S640000x1_S640000x128_1_0_n_n_0_1_1128_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def scatter_S50000x128_S640000x1_S640000x128_1_0_0_1 : ScatterDims S50000x128 S640000x1 S640000x128 where
  updateWindowDims := [1]
  insertedWindowDims := [0]
  scatterDimsToOperandDims := [0]
  indexVectorDim := 1
  wf := scatter_S50000x128_S640000x1_S640000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg7) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v25) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v10) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v17) S2000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg3) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg4) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg5) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v33_0) S1x128.size cc1_transform_6 reads1_6 true true 1 stage1_6 sem1_6
    hrank1 hreads1_6 hinb1_6 nbuf1_6 (Memref.isWhole_whole _) hwx1_6 hstage1_6

abbrev win1_7 : Pipeline.Window sig grid1 :=
  Pipeline.Window.ofSpec (Memref.whole main_v33_1) S1x128.size cc1_transform_7 reads1_7 true true 1 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_arg1) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v10) S2000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v17) S2000x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v32) S2000x128.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_arg3) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg4) S128x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_arg5) S128x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v35) S1x128.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v39) S1x128.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v18) S1x128.size cc2_transform_9 reads2_9 false true 1 stage2_9 sem2_9
    hrank2 hreads2_9 hinb2_9 nbuf2_9 (Memref.isWhole_whole _) hwx2_9 hstage2_9

abbrev win2_10 : Pipeline.Window sig grid2 :=
  Pipeline.Window.ofSpec (Memref.whole main_v19) S1x128.size cc2_transform_10 reads2_10 false true 1 stage2_10 sem2_10
    hrank2 hreads2_10 hinb2_10 nbuf2_10 (Memref.isWhole_whole _) hwx2_10 hstage2_10

abbrev win2_11 : Pipeline.Window sig grid2 :=
  Pipeline.Window.ofSpec (Memref.whole main_arg8) S128x128.size cc2_transform_11 reads2_11 false true 1 stage2_11 sem2_11
    hrank2 hreads2_11 hinb2_11 nbuf2_11 (Memref.isWhole_whole _) hwx2_11 hstage2_11

abbrev win2_12 : Pipeline.Window sig grid2 :=
  Pipeline.Window.ofSpec (Memref.whole main_v22) S1x128.size cc2_transform_12 reads2_12 false true 1 stage2_12 sem2_12
    hrank2 hreads2_12 hinb2_12 nbuf2_12 (Memref.isWhole_whole _) hwx2_12 hstage2_12

abbrev win2_13 : Pipeline.Window sig grid2 :=
  Pipeline.Window.ofSpec (Memref.whole main_arg10) S128x128.size cc2_transform_13 reads2_13 false true 1 stage2_13 sem2_13
    hrank2 hreads2_13 hinb2_13 nbuf2_13 (Memref.isWhole_whole _) hwx2_13 hstage2_13

abbrev win2_14 : Pipeline.Window sig grid2 :=
  Pipeline.Window.ofSpec (Memref.whole main_v23) S1x128.size cc2_transform_14 reads2_14 false true 1 stage2_14 sem2_14
    hrank2 hreads2_14 hinb2_14 nbuf2_14 (Memref.isWhole_whole _) hwx2_14 hstage2_14

abbrev win2_15 : Pipeline.Window sig grid2 :=
  Pipeline.Window.ofSpec (Memref.whole main_v40_0) S2000x128.size cc2_transform_15 reads2_15 true false 2 stage2_15 sem2_15
    hrank2 hreads2_15 hinb2_15 nbuf2_15 (Memref.isWhole_whole _) hwx2_15 hstage2_15

abbrev win2_16 : Pipeline.Window sig grid2 :=
  Pipeline.Window.ofSpec (Memref.whole main_v40_1) S2000x128.size cc2_transform_16 reads2_16 true false 2 stage2_16 sem2_16
    hrank2 hreads2_16 hinb2_16 nbuf2_16 (Memref.isWhole_whole _) hwx2_16 hstage2_16

abbrev win2 : Fin 17 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | 11 => win2_11 | 12 => win2_12 | 13 => win2_13 | 14 => win2_14 | 15 => win2_15 | 16 => win2_16 | ⟨_ + 17, h⟩ => absurd h (Nat.not_lt.2 (Nat.le_add_left _ _))
abbrev spec2 : Fin 17 → Pipeline.WinSpec sig grid2.rank := fun w => (win2 w).toWinSpec

abbrev win3_0 : Pipeline.Window sig grid3 :=
  Pipeline.Window.ofSpec (Memref.whole main_arg0) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v43) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg6) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v44_0) S1x128.size cc3_transform_3 reads3_3 true true 1 stage3_3 sem3_3
    hrank3 hreads3_3 hinb3_3 nbuf3_3 (Memref.isWhole_whole _) hwx3_3 hstage3_3

abbrev win3_4 : Pipeline.Window sig grid3 :=
  Pipeline.Window.ofSpec (Memref.whole main_v44_1) S1x128.size cc3_transform_4 reads3_4 true true 1 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_arg0) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v43) S5000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_arg6) S128x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v46) S1x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v50) S1x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v20) S1x128.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v21) S1x128.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v24) S1x1.size cc4_transform_7 reads4_7 false true 1 stage4_7 sem4_7
    hrank4 hreads4_7 hinb4_7 nbuf4_7 (Memref.isWhole_whole _) hwx4_7 hstage4_7

abbrev win4_8 : Pipeline.Window sig grid4 :=
  Pipeline.Window.ofSpec (Memref.whole main_v51) S5000x128.size cc4_transform_8 reads4_8 true false 2 stage4_8 sem4_8
    hrank4 hreads4_8 hinb4_8 nbuf4_8 (Memref.isWhole_whole _) hwx4_8 hstage4_8

abbrev win4 : Fin 9 → Pipeline.Window sig grid4 := fun | 0 => win4_0 | 1 => win4_1 | 2 => win4_2 | 3 => win4_3 | 4 => win4_4 | 5 => win4_5 | 6 => win4_6 | 7 => win4_7 | 8 => win4_8 | ⟨_ + 9, h⟩ => absurd h (Nat.not_lt.2 (Nat.le_add_left _ _))
abbrev spec4 : Fin 9 → Pipeline.WinSpec sig grid4.rank := fun w => (win4 w).toWinSpec

class Facts : Prop extends Facts₀ where

variable [Facts]
-- ==== ReferenceIdeal.lean ====
abbrev S50000x128 : Shape := ⟨2, ![50000, 128]⟩
abbrev S640000x128 : Shape := ⟨2, ![640000, 128]⟩
abbrev S2x640000 : Shape := ⟨2, ![2, 640000]⟩
abbrev S128x128 : Shape := ⟨2, ![128, 128]⟩
abbrev S128 : Shape := ⟨1, ![128]⟩
abbrev S_ : Shape := ⟨0, ![]⟩
abbrev S1x640000 : Shape := ⟨2, ![1, 640000]⟩
abbrev S640000 : Shape := ⟨1, ![640000]⟩
abbrev S640000x1 : Shape := ⟨2, ![640000, 1]⟩
abbrev S1x128 : Shape := ⟨2, ![1, 128]⟩

abbrev nBuf : Space → Nat
  | .hbm => 172
  | .vmem => 0
  | .smem => 0
  | _ => 0

abbrev hbmTy0_0 (i : Nat) : BufTy := match i % 128 with
  | 0 => ⟨S50000x128, .f32⟩
  | 1 => ⟨S640000x128, .f32⟩
  | 2 => ⟨S2x640000, .i32⟩
  | 3 => ⟨S128x128, .f32⟩
  | 4 => ⟨S128x128, .f32⟩
  | 5 => ⟨S128x128, .f32⟩
  | 6 => ⟨S128x128, .f32⟩
  | 7 => ⟨S128x128, .f32⟩
  | 8 => ⟨S128x128, .f32⟩
  | 9 => ⟨S128, .f32⟩
  | 10 => ⟨S128x128, .f32⟩
  | 11 => ⟨S128, .f32⟩
  | 12 => ⟨S128, .f32⟩
  | 13 => ⟨S128, .f32⟩
  | 14 => ⟨S128, .f32⟩
  | 15 => ⟨S128, .f32⟩
  | 16 => ⟨S_, .f32⟩
  | 17 => ⟨S1x640000, .i32⟩
  | 18 => ⟨S640000, .i32⟩
  | 19 => ⟨S1x640000, .i32⟩
  | 20 => ⟨S640000, .i32⟩
  | 21 => ⟨S640000x128, .f32⟩
  | 22 => ⟨S_, .i32⟩
  | 23 => ⟨S640000, .i32⟩
  | 24 => ⟨S640000, .i1⟩
  | 25 => ⟨S_, .i32⟩
  | 26 => ⟨S640000, .i32⟩
  | 27 => ⟨S640000, .i32⟩
  | 28 => ⟨S640000, .i32⟩
  | 29 => ⟨S640000x1, .i32⟩
  | 30 => ⟨S640000x128, .f32⟩
  | 31 => ⟨S640000x128, .f32⟩
  | 32 => ⟨S640000x128, .f32⟩
  | 33 => ⟨S_, .i32⟩
  | 34 => ⟨S640000, .i32⟩
  | 35 => ⟨S640000, .i1⟩
  | 36 => ⟨S_, .i32⟩
  | 37 => ⟨S640000, .i32⟩
  | 38 => ⟨S640000, .i32⟩
  | 39 => ⟨S640000, .i32⟩
  | 40 => ⟨S640000x1, .i32⟩
  | 41 => ⟨S640000x128, .f32⟩
  | 42 => ⟨S640000x128, .f32⟩
  | 43 => ⟨S640000x128, .f32⟩
  | 44 => ⟨S_, .f32⟩
  | 45 => ⟨S128, .f32⟩
  | 46 => ⟨S_, .f32⟩
  | 47 => ⟨S128, .f32⟩
  | 48 => ⟨S128, .f32⟩
  | 49 => ⟨S_, .i32⟩
  | 50 => ⟨S_, .f32⟩
  | 51 => ⟨S128, .f32⟩
  | 52 => ⟨S1x128, .f32⟩
  | 53 => ⟨S_, .f32⟩
  | 54 => ⟨S1x128, .f32⟩
  | 55 => ⟨S1x128, .f32⟩
  | 56 => ⟨S640000x128, .f32⟩
  | 57 => ⟨S640000x128, .f32⟩
  | 58 => ⟨S640000x128, .f32⟩
  | 59 => ⟨S_, .f32⟩
  | 60 => ⟨S_, .f32⟩
  | 61 => ⟨S_, .f32⟩
  | 62 => ⟨S_, .f32⟩
  | 63 => ⟨S128, .f32⟩
  | 64 => ⟨S128, .f32⟩
  | 65 => ⟨S128, .f32⟩
  | 66 => ⟨S_, .f32⟩
  | 67 => ⟨S_, .i1⟩
  | 68 => ⟨S_, .f32⟩
  | 69 => ⟨S_, .f32⟩
  | 70 => ⟨S128, .f32⟩
  | 71 => ⟨S128, .f32⟩
  | 72 => ⟨S1x128, .f32⟩
  | 73 => ⟨S640000x128, .f32⟩
  | 74 => ⟨S640000x128, .f32⟩
  | 75 => ⟨S_, .f32⟩
  | 76 => ⟨S128, .f32⟩
  | 77 => ⟨S128, .f32⟩
  | 78 => ⟨S128, .f32⟩
  | 79 => ⟨S1x128, .f32⟩
  | 80 => ⟨S640000x128, .f32⟩
  | 81 => ⟨S640000x128, .f32⟩
  | 82 => ⟨S1x128, .f32⟩
  | 83 => ⟨S640000x128, .f32⟩
  | 84 => ⟨S640000x128, .f32⟩
  | 85 => ⟨S1x128, .f32⟩
  | 86 => ⟨S640000x128, .f32⟩
  | 87 => ⟨S640000x128, .f32⟩
  | 88 => ⟨S640000x128, .f32⟩
  | 89 => ⟨S1x128, .f32⟩
  | 90 => ⟨S640000x128, .f32⟩
  | 91 => ⟨S640000x128, .f32⟩
  | 92 => ⟨S_, .f32⟩
  | 93 => ⟨S640000x128, .f32⟩
  | 94 => ⟨S640000x128, .f32⟩
  | 95 => ⟨S640000x128, .f32⟩
  | 96 => ⟨S640000x128, .f32⟩
  | 97 => ⟨S1x128, .f32⟩
  | 98 => ⟨S640000x128, .f32⟩
  | 99 => ⟨S640000x128, .f32⟩
  | 100 => ⟨S640000x128, .f32⟩
  | 101 => ⟨S640000x128, .f32⟩
  | 102 => ⟨S_, .f32⟩
  | 103 => ⟨S640000x128, .f32⟩
  | 104 => ⟨S640000x128, .f32⟩
  | 105 => ⟨S_, .f32⟩
  | 106 => ⟨S640000x128, .f32⟩
  | 107 => ⟨S640000x128, .f32⟩
  | 108 => ⟨S50000x128, .f32⟩
  | 109 => ⟨S_, .i32⟩
  | 110 => ⟨S640000, .i32⟩
  | 111 => ⟨S640000, .i1⟩
  | 112 => ⟨S_, .i32⟩
  | 113 => ⟨S640000, .i32⟩
  | 114 => ⟨S640000, .i32⟩
  | 115 => ⟨S640000, .i32⟩
  | 116 => ⟨S640000x1, .i32⟩
  | 117 => ⟨S640000x128, .f32⟩
  | 118 => ⟨S640000x128, .f32⟩
  | 119 => ⟨S_, .f32⟩
  | 120 => ⟨S50000x128, .f32⟩
  | 121 => ⟨S640000x1, .i32⟩
  | 122 => ⟨S50000x128, .f32⟩
  | 123 => ⟨S50000x128, .f32⟩
  | 124 => ⟨S50000x128, .f32⟩
  | 125 => ⟨S_, .f32⟩
  | 126 => ⟨S128, .f32⟩
  | 127 => ⟨S_, .f32⟩
  | _ => ⟨S50000x128, .f32⟩

abbrev hbmTy0_1 (i : Nat) : BufTy := match i % 128 with
  | 0 => ⟨S128, .f32⟩
  | 1 => ⟨S128, .f32⟩
  | 2 => ⟨S_, .i32⟩
  | 3 => ⟨S_, .f32⟩
  | 4 => ⟨S128, .f32⟩
  | 5 => ⟨S1x128, .f32⟩
  | 6 => ⟨S_, .f32⟩
  | 7 => ⟨S1x128, .f32⟩
  | 8 => ⟨S1x128, .f32⟩
  | 9 => ⟨S50000x128, .f32⟩
  | 10 => ⟨S50000x128, .f32⟩
  | 11 => ⟨S50000x128, .f32⟩
  | 12 => ⟨S_, .f32⟩
  | 13 => ⟨S_, .f32⟩
  | 14 => ⟨S_, .f32⟩
  | 15 => ⟨S_, .f32⟩
  | 16 => ⟨S128, .f32⟩
  | 17 => ⟨S128, .f32⟩
  | 18 => ⟨S128, .f32⟩
  | 19 => ⟨S_, .f32⟩
  | 20 => ⟨S_, .i1⟩
  | 21 => ⟨S_, .f32⟩
  | 22 => ⟨S_, .f32⟩
  | 23 => ⟨S128, .f32⟩
  | 24 => ⟨S128, .f32⟩
  | 25 => ⟨S1x128, .f32⟩
  | 26 => ⟨S50000x128, .f32⟩
  | 27 => ⟨S50000x128, .f32⟩
  | 28 => ⟨S_, .f32⟩
  | 29 => ⟨S128, .f32⟩
  | 30 => ⟨S128, .f32⟩
  | 31 => ⟨S128, .f32⟩
  | 32 => ⟨S1x128, .f32⟩
  | 33 => ⟨S50000x128, .f32⟩
  | 34 => ⟨S50000x128, .f32⟩
  | 35 => ⟨S1x128, .f32⟩
  | 36 => ⟨S50000x128, .f32⟩
  | 37 => ⟨S50000x128, .f32⟩
  | 38 => ⟨S1x128, .f32⟩
  | 39 => ⟨S50000x128, .f32⟩
  | 40 => ⟨S50000x128, .f32⟩
  | 41 => ⟨S50000x128, .f32⟩
  | 42 => ⟨S50000x128, .f32⟩
  | 43 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_c : Ref sig .tc := ⟨.hbm, 22, rfl⟩
abbrev main_v5 : Ref sig .tc := ⟨.hbm, 23, rfl⟩
abbrev main_v6 : Ref sig .tc := ⟨.hbm, 24, rfl⟩
abbrev main_c_0 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_c_1 : Ref sig .tc := ⟨.hbm, 33, rfl⟩
abbrev main_v14 : Ref sig .tc := ⟨.hbm, 34, rfl⟩
abbrev main_v15 : Ref sig .tc := ⟨.hbm, 35, rfl⟩
abbrev main_c_2 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_cst : Ref sig .tc := ⟨.hbm, 44, rfl⟩
abbrev main_v23 : Ref sig .tc := ⟨.hbm, 45, rfl⟩
abbrev main_cst_3 : Ref sig .tc := ⟨.hbm, 46, rfl⟩
abbrev main_v24 : Ref sig .tc := ⟨.hbm, 47, rfl⟩
abbrev main_v25 : Ref sig .tc := ⟨.hbm, 48, rfl⟩
abbrev main_c_4 : Ref sig .tc := ⟨.hbm, 49, rfl⟩
abbrev main_call0_cst : Ref sig .tc := ⟨.hbm, 50, rfl⟩
abbrev main_call0_v0 : Ref sig .tc := ⟨.hbm, 51, rfl⟩
abbrev main_call0_v1 : Ref sig .tc := ⟨.hbm, 52, rfl⟩
abbrev main_call0_cst_0 : Ref sig .tc := ⟨.hbm, 53, rfl⟩
abbrev main_call0_v2 : Ref sig .tc := ⟨.hbm, 54, rfl⟩
abbrev main_call0_v3 : Ref sig .tc := ⟨.hbm, 55, rfl⟩
abbrev main_call0_v4 : Ref sig .tc := ⟨.hbm, 56, rfl⟩
abbrev main_call0_v5 : Ref sig .tc := ⟨.hbm, 57, rfl⟩
abbrev main_call0_v6 : Ref sig .tc := ⟨.hbm, 58, rfl⟩
abbrev main_call0_v7 : Ref sig .tc := ⟨.hbm, 59, rfl⟩
abbrev main_call0_cst_1 : Ref sig .tc := ⟨.hbm, 60, rfl⟩
abbrev main_call0_v8 : Ref sig .tc := ⟨.hbm, 61, rfl⟩
abbrev main_call0_cst_2 : Ref sig .tc := ⟨.hbm, 62, rfl⟩
abbrev main_call0_v9 : Ref sig .tc := ⟨.hbm, 63, rfl⟩
abbrev main_call0_v10 : Ref sig .tc := ⟨.hbm, 64, rfl⟩
abbrev main_call0_v11 : Ref sig .tc := ⟨.hbm, 65, rfl⟩
abbrev main_call0_cst_3 : Ref sig .tc := ⟨.hbm, 66, rfl⟩
abbrev main_call0_v12 : Ref sig .tc := ⟨.hbm, 67, rfl⟩
abbrev main_call0_cst_4 : Ref sig .tc := ⟨.hbm, 68, rfl⟩
abbrev main_call0_call0_v0 : Ref sig .tc := ⟨.hbm, 69, rfl⟩
abbrev main_call0_call0_v1 : Ref sig .tc := ⟨.hbm, 70, rfl⟩
abbrev main_v26 : Ref sig .tc := ⟨.hbm, 71, rfl⟩
abbrev main_v27 : Ref sig .tc := ⟨.hbm, 72, rfl⟩
abbrev main_v28 : Ref sig .tc := ⟨.hbm, 73, rfl⟩
abbrev main_v29 : Ref sig .tc := ⟨.hbm, 74, rfl⟩
abbrev main_cst_5 : Ref sig .tc := ⟨.hbm, 75, rfl⟩
abbrev main_v30 : Ref sig .tc := ⟨.hbm, 76, rfl⟩
abbrev main_v31 : Ref sig .tc := ⟨.hbm, 77, rfl⟩
abbrev main_v32 : Ref sig .tc := ⟨.hbm, 78, rfl⟩
abbrev main_v33 : Ref sig .tc := ⟨.hbm, 79, rfl⟩
abbrev main_v34 : Ref sig .tc := ⟨.hbm, 80, rfl⟩
abbrev main_v35 : Ref sig .tc := ⟨.hbm, 81, rfl⟩
abbrev main_v36 : Ref sig .tc := ⟨.hbm, 82, rfl⟩
abbrev main_v37 : Ref sig .tc := ⟨.hbm, 83, rfl⟩
abbrev main_v38 : Ref sig .tc := ⟨.hbm, 84, rfl⟩
abbrev main_v39 : Ref sig .tc := ⟨.hbm, 85, rfl⟩
abbrev main_v40 : Ref sig .tc := ⟨.hbm, 86, rfl⟩
abbrev main_v41 : Ref sig .tc := ⟨.hbm, 87, rfl⟩
abbrev main_v42 : Ref sig .tc := ⟨.hbm, 88, rfl⟩
abbrev main_v43 : Ref sig .tc := ⟨.hbm, 89, rfl⟩
abbrev main_v44 : Ref sig .tc := ⟨.hbm, 90, rfl⟩
abbrev main_v45 : Ref sig .tc := ⟨.hbm, 91, rfl⟩
abbrev main_call1_cst : Ref sig .tc := ⟨.hbm, 92, rfl⟩
abbrev main_call1_v0 : Ref sig .tc := ⟨.hbm, 93, rfl⟩
abbrev main_v46 : Ref sig .tc := ⟨.hbm, 94, rfl⟩
abbrev main_v47 : Ref sig .tc := ⟨.hbm, 95, rfl⟩
abbrev main_v48 : Ref sig .tc := ⟨.hbm, 96, rfl⟩
abbrev main_v49 : Ref sig .tc := ⟨.hbm, 97, rfl⟩
abbrev main_v50 : Ref sig .tc := ⟨.hbm, 98, rfl⟩
abbrev main_v51 : Ref sig .tc := ⟨.hbm, 99, rfl⟩
abbrev main_v52 : Ref sig .tc := ⟨.hbm, 100, rfl⟩
abbrev main_v53 : Ref sig .tc := ⟨.hbm, 101, rfl⟩
abbrev main_cst_6 : Ref sig .tc := ⟨.hbm, 102, rfl⟩
abbrev main_v54 : Ref sig .tc := ⟨.hbm, 103, rfl⟩
abbrev main_v55 : Ref sig .tc := ⟨.hbm, 104, rfl⟩
abbrev main_cst_7 : Ref sig .tc := ⟨.hbm, 105, rfl⟩
abbrev main_v56 : Ref sig .tc := ⟨.hbm, 106, rfl⟩
abbrev main_v57 : Ref sig .tc := ⟨.hbm, 107, rfl⟩
abbrev main_v58 : Ref sig .tc := ⟨.hbm, 108, rfl⟩
abbrev main_c_8 : Ref sig .tc := ⟨.hbm, 109, rfl⟩
abbrev main_v59 : Ref sig .tc := ⟨.hbm, 110, rfl⟩
abbrev main_v60 : Ref sig .tc := ⟨.hbm, 111, rfl⟩
abbrev main_c_9 : Ref sig .tc := ⟨.hbm, 112, rfl⟩
abbrev main_v61 : Ref sig .tc := ⟨.hbm, 113, rfl⟩
abbrev main_v62 : Ref sig .tc := ⟨.hbm, 114, rfl⟩
abbrev main_v63 : Ref sig .tc := ⟨.hbm, 115, rfl⟩
abbrev main_v64 : Ref sig .tc := ⟨.hbm, 116, rfl⟩
abbrev main_v65 : Ref sig .tc := ⟨.hbm, 117, rfl⟩
abbrev main_v66 : Ref sig .tc := ⟨.hbm, 118, rfl⟩
abbrev main_cst_10 : Ref sig .tc := ⟨.hbm, 119, rfl⟩
abbrev main_v67 : Ref sig .tc := ⟨.hbm, 120, rfl⟩
abbrev main_v68 : Ref sig .tc := ⟨.hbm, 121, rfl⟩
abbrev main_v69 : Ref sig .tc := ⟨.hbm, 122, rfl⟩
abbrev main_v70 : Ref sig .tc := ⟨.hbm, 123, rfl⟩
abbrev main_v71 : Ref sig .tc := ⟨.hbm, 124, rfl⟩
abbrev main_cst_11 : Ref sig .tc := ⟨.hbm, 125, rfl⟩
abbrev main_v72 : Ref sig .tc := ⟨.hbm, 126, rfl⟩
abbrev main_cst_12 : Ref sig .tc := ⟨.hbm, 127, rfl⟩
abbrev main_v73 : Ref sig .tc := ⟨.hbm, 128, rfl⟩
abbrev main_v74 : Ref sig .tc := ⟨.hbm, 129, rfl⟩
abbrev main_c_13 : Ref sig .tc := ⟨.hbm, 130, rfl⟩
abbrev main_call2_cst : Ref sig .tc := ⟨.hbm, 131, rfl⟩
abbrev main_call2_v0 : Ref sig .tc := ⟨.hbm, 132, rfl⟩
abbrev main_call2_v1 : Ref sig .tc := ⟨.hbm, 133, rfl⟩
abbrev main_call2_cst_0 : Ref sig .tc := ⟨.hbm, 134, rfl⟩
abbrev main_call2_v2 : Ref sig .tc := ⟨.hbm, 135, rfl⟩
abbrev main_call2_v3 : Ref sig .tc := ⟨.hbm, 136, rfl⟩
abbrev main_call2_v4 : Ref sig .tc := ⟨.hbm, 137, rfl⟩
abbrev main_call2_v5 : Ref sig .tc := ⟨.hbm, 138, rfl⟩
abbrev main_call2_v6 : Ref sig .tc := ⟨.hbm, 139, rfl⟩
abbrev main_call2_v7 : Ref sig .tc := ⟨.hbm, 140, rfl⟩
abbrev main_call2_cst_1 : Ref sig .tc := ⟨.hbm, 141, rfl⟩
abbrev main_call2_v8 : Ref sig .tc := ⟨.hbm, 142, rfl⟩
abbrev main_call2_cst_2 : Ref sig .tc := ⟨.hbm, 143, rfl⟩
abbrev main_call2_v9 : Ref sig .tc := ⟨.hbm, 144, rfl⟩
abbrev main_call2_v10 : Ref sig .tc := ⟨.hbm, 145, rfl⟩
abbrev main_call2_v11 : Ref sig .tc := ⟨.hbm, 146, rfl⟩
abbrev main_call2_cst_3 : Ref sig .tc := ⟨.hbm, 147, rfl⟩
abbrev main_call2_v12 : Ref sig .tc := ⟨.hbm, 148, rfl⟩
abbrev main_call2_cst_4 : Ref sig .tc := ⟨.hbm, 149, rfl⟩
abbrev main_call2_call0_v0 : Ref sig .tc := ⟨.hbm, 150, rfl⟩
abbrev main_call2_call0_v1 : Ref sig .tc := ⟨.hbm, 151, rfl⟩
abbrev main_v75 : Ref sig .tc := ⟨.hbm, 152, rfl⟩
abbrev main_v76 : Ref sig .tc := ⟨.hbm, 153, rfl⟩
abbrev main_v77 : Ref sig .tc := ⟨.hbm, 154, rfl⟩
abbrev main_v78 : Ref sig .tc := ⟨.hbm, 155, rfl⟩
abbrev main_cst_14 : Ref sig .tc := ⟨.hbm, 156, rfl⟩
abbrev main_v79 : Ref sig .tc := ⟨.hbm, 157, rfl⟩
abbrev main_v80 : Ref sig .tc := ⟨.hbm, 158, rfl⟩
abbrev main_v81 : Ref sig .tc := ⟨.hbm, 159, rfl⟩
abbrev main_v82 : Ref sig .tc := ⟨.hbm, 160, rfl⟩
abbrev main_v83 : Ref sig .tc := ⟨.hbm, 161, rfl⟩
abbrev main_v84 : Ref sig .tc := ⟨.hbm, 162, rfl⟩
abbrev main_v85 : Ref sig .tc := ⟨.hbm, 163, rfl⟩
abbrev main_v86 : Ref sig .tc := ⟨.hbm, 164, rfl⟩
abbrev main_v87 : Ref sig .tc := ⟨.hbm, 165, rfl⟩
abbrev main_v88 : Ref sig .tc := ⟨.hbm, 166, rfl⟩
abbrev main_v89 : Ref sig .tc := ⟨.hbm, 167, rfl⟩
abbrev main_v90 : Ref sig .tc := ⟨.hbm, 168, rfl⟩
abbrev main_v91 : Ref sig .tc := ⟨.hbm, 169, rfl⟩
abbrev main_v92 : Ref sig .tc := ⟨.hbm, 170, rfl⟩
abbrev main_v93 : Ref sig .tc := ⟨.hbm, 171, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  reducesTo_S640000x128_S128_d0 : S640000x128.ReducesTo [0] S128
  h_S_ : 0 < S_.numel
  bcast_S_S128 : S_.BroadcastsInDim S128 (![] : Fin 0 → Fin S128.rank)
  bcast_S128_S1x128_1 : S128.BroadcastsInDim S1x128 (![1] : Fin 1 → Fin S1x128.rank)
  bcast_S_S1x128 : S_.BroadcastsInDim S1x128 (![] : Fin 0 → Fin S1x128.rank)
  bcast_S1x128_S640000x128_0_1 : S1x128.BroadcastsInDim S640000x128 (![0, 1] : Fin 2 → Fin S640000x128.rank)
  bcast_S_S640000x128 : S_.BroadcastsInDim S640000x128 (![] : Fin 0 → Fin S640000x128.rank)
  bcast_S_S50000x128 : S_.BroadcastsInDim S50000x128 (![] : Fin 0 → Fin S50000x128.rank)
  reducesTo_S50000x128_S128_d0 : S50000x128.ReducesTo [0] S128
  bcast_S1x128_S50000x128_0_1 : S1x128.BroadcastsInDim S50000x128 (![0, 1] : Fin 2 → Fin S50000x128.rank)
  dot_S640000x128_S128x128_S640000x128_1_0_0_1_n_n_wf : DotDims.WF S640000x128 S128x128 S640000x128 [1] [0] [0] [1] [] []
  gather_S50000x128_S640000x1_S640000x128_1_0_n_n_0_1_1128_wf : GatherDims.WF S50000x128 S640000x1 S640000x128 [1] [0] [] [0] [] 1 ![1, 128]
  dot_S50000x128_S128x128_S50000x128_1_0_0_1_n_n_wf : DotDims.WF S50000x128 S128x128 S50000x128 [1] [0] [0] [1] [] []
  scatter_S50000x128_S640000x1_S640000x128_1_0_0_1_wf : ScatterDims.WF S50000x128 S640000x1 S640000x128 [1] [0] [0] 1

variable [Facts₀]

def dot_S640000x128_S128x128_S640000x128_1_0_0_1_n_n : DotDims S640000x128 S128x128 S640000x128 where
  lhsContracting := [1]
  rhsContracting := [0]
  lhsNonContracting := [0]
  rhsNonContracting := [1]
  lhsBatch := []
  rhsBatch := []
  wf := dot_S640000x128_S128x128_S640000x128_1_0_0_1_n_n_wf
def gather_S50000x128_S640000x1_S640000x128_1_0_n_n_0_1_1128 : GatherDims S50000x128 S640000x1 S640000x128 where
  offsetDims := [1]
  collapsedSliceDims := [0]
  operandBatchingDims := []
  startIndicesBatchingDims := []
  startIndexMap := [0]
  indexVectorDim := 1
  sliceSizes := ![1, 128]
  wf := gather_S50000x128_S640000x1_S640000x128_1_0_n_n_0_1_1128_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S50000x128_S640000x1_S640000x128_1_0_0_1 : ScatterDims S50000x128 S640000x1 S640000x128 where
  updateWindowDims := [1]
  insertedWindowDims := [0]
  scatterDimsToOperandDims := [0]
  indexVectorDim := 1
  wf := scatter_S50000x128_S640000x1_S640000x128_1_0_0_1_wf

class Facts : Prop extends Facts₀ where

variable [Facts]
-- ==== Proof.KRun.lean ====
/-
  The idealized kernel's run with its two results named.

  Every weakly fair execution of the kernel program on the TensorCores terminates without a fault, and in the final
  state the two result buffers hold what the last boundary of the program's fold of buffer contents holds there
  (the contents after the fifth region, built from the launch memory by the five stretches of host operations and
  the five regions' write-backs in turn), while every argument buffer holds what it held at launch. The launch over
  the program's ten segments is the frame's own; the final state is read at two more buffers.
-/
import proofs.«167392_j80126909874572_1_alg».proof.Proof.Patched.KernelIdealFrame

set_option maxRecDepth 16384

noncomputable section

namespace Cert.KernelIdeal.KRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.GenP

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: termination, no fault, the two results at the last boundary's contents, the arguments as launched. -/
theorem run_W10 : θ_run defs (onTc (τ := τ) (main (F := F))) ⟨m, fun _ => 0, ρ⟩ (fun r => ∀ c : Dev nD,
      r.2.mem ((c.tc : Thread nD τ).loc main_v51) = W10 m ρ c (Proc.devRef .tc main_v51)
      ∧ r.2.mem ((c.tc : Thread nD τ).loc main_v40_0) = W10 m ρ c (Proc.devRef .tc main_v40_0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v51 (by decide)),
       h c _ (mem_uc main_v40_0 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c),
       (h c _ (mem_uc main_arg8 (by decide))).trans (W10_main_arg8 m ρ c),
       (h c _ (mem_uc main_arg9 (by decide))).trans (W10_main_arg9 m ρ c),
       (h c _ (mem_uc main_arg10 (by decide))).trans (W10_main_arg10 m ρ c),
       (h c _ (mem_uc main_arg11 (by decide))).trans (W10_main_arg11 m ρ c),
       (h c _ (mem_uc main_arg12 (by decide))).trans (W10_main_arg12 m ρ c),
       (h c _ (mem_uc main_arg13 (by decide))).trans (W10_main_arg13 m ρ c),
       (h c _ (mem_uc main_arg14 (by decide))).trans (W10_main_arg14 m ρ c),
       (h c _ (mem_uc main_arg15 (by decide))).trans (W10_main_arg15 m ρ c),
       (h c _ (mem_uc main_arg16 (by decide))).trans (W10_main_arg16 m ρ c)⟩)

end Cert.KernelIdeal.KRun

end
-- ==== Proof.LibRegionAsOps.lean ====
/-
  A pipelined region seen from outside is a short line of pure operations on whole arrays.

  When a region is left, the buffers hold what they held when it was entered, except the region's own arrays, which
  hold what the write-backs left. If those final arrays are exactly what a line of host operations would leave in
  them, started from the entry contents (the inputs untouched, each output a pure function of the inputs — one
  operation per output array), and the line writes nothing but arrays of the region, then the buffer contents at the
  exit ARE the fold of that line over the entry contents, as whole valuations. This is the several-outputs form of
  the one-operation statement.
-/
import Idealize.ShloMosaic.Lib.Pipeline.FrameSuffix
import Idealize.ShloMosaic.Lib.StableHlo.Run

noncomputable section

namespace Cert.LibRegionAsOps

open Idealize.ShloMosaic Idealize.ShloMosaic.StableHlo Idealize.ShloMosaic.Pipeline

variable {nD : Nat} {τ : Topo} {sig : RefSig} {Val : EltTy → Type}

/-- The exit contents of a region whose arrays end at `A` are the fold of the line `ops` over the entry contents `V`,
    provided every array of the region ends at what the line leaves in it (`hA`) and no operation of the line writes
    anything but an array of the region (`hsub`). -/
theorem withArrays_eq_after {gr W : Nat} (win : Fin W → WinSpec sig gr) (hinj : Function.Injective (arrRef win))
    (c : Dev nD) (V : Valuation τ sig Val) (A : (w : Fin W) → Buf Val ((win w).arr.view.loc (c.tc : Thread nD τ)))
    (ops : List (HloOp τ sig Val))
    (hA : ∀ w, A w = after ops V (Proc.devRef .tc (arrRef win w)))
    (hsub : ∀ op ∈ ops, ∀ b ∈ op.writes, ∃ w, Proc.devRef .tc (arrRef win w) = b) :
    withArrays win c V A = after ops V := by
  funext b
  by_cases h : ∃ w, Proc.devRef .tc (arrRef win w) = b
  · obtain ⟨w, rfl⟩ := h
    rw [withArrays_arr win hinj c V A w, hA w]
  · unfold withArrays
    rw [dif_neg h]
    exact (after_of_forall_not_mem ops V fun op hop hb => h (hsub op hop b hb)).symm

end Cert.LibRegionAsOps

end
-- ==== Proof.LibRunWindows.lean ====
/-
  A long straight line of host operations, taken window by window.

  A printed host program past sixty statements comes as consecutive windows. Each window is a list of operations;
  the whole line is their concatenation. What a fold over the whole line does to the buffers is then read off the
  windows one at a time:

  * folding the operations of `l₁ ++ l₂` over buffer contents is folding `l₁`, then `l₂` (`after_append`);
  * so a buffer that neither window writes is kept by the concatenation (`kept_append`);
  * a property of every operation (its buffers are the TensorCore's; it determines its result) holds of the
    concatenation when it holds of both windows (`forall_mem_append`, `forall_append`).
-/
import Idealize.ShloMosaic.Lib.StableHlo.Run

noncomputable section

namespace Idealize.ShloMosaic.StableHlo

variable {τ : Topo} {sig : RefSig} {Val : EltTy → Type}

/-- Folding over a concatenation: first the first list, then the second. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- A buffer kept by two windows, whatever the contents they start from, is kept by their concatenation. -/
theorem kept_append {l₁ l₂ : List (HloOp τ sig Val)} {b : DevRef τ sig}
    (h₁ : ∀ V : Valuation τ sig Val, after l₁ V b = V b) (h₂ : ∀ V : Valuation τ sig Val, after l₂ V b = V b)
    (V : Valuation τ sig Val) : after (l₁ ++ l₂) V b = V b := by
  rw [after_append, h₂, h₁]

/-- A property of every operation of two windows is one of every operation of their concatenation. -/
theorem forall_mem_append {p : HloOp τ sig Val → Prop} {l₁ l₂ : List (HloOp τ sig Val)}
    (h₁ : ∀ op ∈ l₁, p op) (h₂ : ∀ op ∈ l₂, p op) : ∀ op ∈ l₁ ++ l₂, p op := by
  intro op h
  rcases List.mem_append.mp h with h | h
  · exact h₁ op h
  · exact h₂ op h

/-- The same, for the conjunction over the list that the run's side condition is stated with. -/
theorem forall_append {p : HloOp τ sig Val → Prop} {l₁ l₂ : List (HloOp τ sig Val)}
    (h₁ : l₁.Forall p) (h₂ : l₂.Forall p) : (l₁ ++ l₂).Forall p :=
  List.forall_iff_forall_mem.mpr
    (forall_mem_append (List.forall_iff_forall_mem.mp h₁) (List.forall_iff_forall_mem.mp h₂))

end Idealize.ShloMosaic.StableHlo

end
-- ==== Proof.LibNary6.lean ====
/-
  A host operation of six operands, read at its result.

  `StableHlo.nary` takes its operands as a family of references. Over the LITERAL family of six references
  ![x0, x1, x2, x3, x4, x5] its result is its function of the six operands' contents, each read at its own literal
  reference (rather than under a binder at `![…] k`), so that a fold over a line of operations goes on rewriting the
  operands' contents. With the simp form (the result reference un-indexed) beside it.
-/
import Idealize.ShloMosaic.Lib.StableHlo.Run

noncomputable section

namespace Idealize.ShloMosaic.StableHlo

open TcCoe

variable {τ : Topo} {sig : RefSig} {Val : EltTy → Type}
variable {x0 x1 x2 x3 x4 x5 y : Ref sig .tc}

/-- The result of a six-operand operation, each operand's contents at its own reference. -/
theorem nary6_result
    (f : ((k : Fin 6) → ((![x0, x1, x2, x3, x4, x5] : Fin 6 → Ref sig .tc) k).ty.Contents Val) → y.ty.Contents Val) (hxs hy)
    (F : Valuation τ sig Val) :
    (nary (τ := τ) ![x0, x1, x2, x3, x4, x5] y f hxs hy).result F (Proc.devRef .tc y)
      = f (Fin.cons (F (Proc.devRef .tc x0)) (Fin.cons (F (Proc.devRef .tc x1)) (Fin.cons (F (Proc.devRef .tc x2))
          (Fin.cons (F (Proc.devRef .tc x3)) (Fin.cons (F (Proc.devRef .tc x4)) (Fin.cons (F (Proc.devRef .tc x5))
            (fun i => i.elim0))))))) := by
  rw [nary_result]; congr 1; funext k; fin_cases k <;> rfl

/-- The same, for one simp pass over a long line. -/
theorem nary6_result'
    (f : ((k : Fin 6) → ((![x0, x1, x2, x3, x4, x5] : Fin 6 → Ref sig .tc) k).ty.Contents Val) → y.ty.Contents Val) (hxs hy)
    (F : Valuation τ sig Val) :
    (nary (τ := τ) ![x0, x1, x2, x3, x4, x5] y f hxs hy).result F (no_index (Proc.devRef .tc y))
      = f (Fin.cons (F (Proc.devRef .tc x0)) (Fin.cons (F (Proc.devRef .tc x1)) (Fin.cons (F (Proc.devRef .tc x2))
          (Fin.cons (F (Proc.devRef .tc x3)) (Fin.cons (F (Proc.devRef .tc x4)) (Fin.cons (F (Proc.devRef .tc x5))
            (fun i => i.elim0))))))) :=
  nary6_result f hxs hy F

end Idealize.ShloMosaic.StableHlo

end
-- ==== Proof.LibNary8.lean ====
/-
  A host operation of eight operands, read at its result.

  `StableHlo.nary` takes its operands as a family of references. Over the LITERAL family of eight references
  ![x0, x1, x2, x3, x4, x5, x6, x7] its result is its function of the eight operands' contents, each read at its own
  literal reference (rather than under a binder at `![…] k`), so that a fold over a line of operations goes on rewriting
  the operands' contents. With the simp form (the result reference un-indexed) beside it.
-/
import Idealize.ShloMosaic.Lib.StableHlo.Run

noncomputable section

namespace Idealize.ShloMosaic.StableHlo

open TcCoe

variable {τ : Topo} {sig : RefSig} {Val : EltTy → Type}
variable {x0 x1 x2 x3 x4 x5 x6 x7 y : Ref sig .tc}

/-- The result of a eight-operand operation, each operand's contents at its own reference. -/
theorem nary8_result
    (f : ((k : Fin 8) → ((![x0, x1, x2, x3, x4, x5, x6, x7] : Fin 8 → Ref sig .tc) k).ty.Contents Val) → y.ty.Contents Val) (hxs hy)
    (F : Valuation τ sig Val) :
    (nary (τ := τ) ![x0, x1, x2, x3, x4, x5, x6, x7] y f hxs hy).result F (Proc.devRef .tc y)
      = f (Fin.cons (F (Proc.devRef .tc x0)) (Fin.cons (F (Proc.devRef .tc x1)) (Fin.cons (F (Proc.devRef .tc x2)) (Fin.cons (F (Proc.devRef .tc x3)) (Fin.cons (F (Proc.devRef .tc x4)) (Fin.cons (F (Proc.devRef .tc x5)) (Fin.cons (F (Proc.devRef .tc x6)) (Fin.cons (F (Proc.devRef .tc x7)) (fun i => i.elim0))))))))) := by
  rw [nary_result]; congr 1; funext k; fin_cases k <;> rfl

/-- The same, for one simp pass over a long line. -/
theorem nary8_result'
    (f : ((k : Fin 8) → ((![x0, x1, x2, x3, x4, x5, x6, x7] : Fin 8 → Ref sig .tc) k).ty.Contents Val) → y.ty.Contents Val) (hxs hy)
    (F : Valuation τ sig Val) :
    (nary (τ := τ) ![x0, x1, x2, x3, x4, x5, x6, x7] y f hxs hy).result F (no_index (Proc.devRef .tc y))
      = f (Fin.cons (F (Proc.devRef .tc x0)) (Fin.cons (F (Proc.devRef .tc x1)) (Fin.cons (F (Proc.devRef .tc x2)) (Fin.cons (F (Proc.devRef .tc x3)) (Fin.cons (F (Proc.devRef .tc x4)) (Fin.cons (F (Proc.devRef .tc x5)) (Fin.cons (F (Proc.devRef .tc x6)) (Fin.cons (F (Proc.devRef .tc x7)) (fun i => i.elim0))))))))) :=
  nary8_result f hxs hy F

end Idealize.ShloMosaic.StableHlo

end
-- ==== Proof.LibNary15.lean ====
/-
  A host operation of fifteen operands, read at its result.

  `StableHlo.nary` takes its operands as a family of references. Over the LITERAL family of fifteen references
  ![x0, x1, x2, x3, x4, x5, x6, x7, x8, x9, x10, x11, x12, x13, x14] its result is its function of the fifteen operands' contents, each read at its own
  literal reference (rather than under a binder at `![…] k`), so that a fold over a line of operations goes on rewriting
  the operands' contents. With the simp form (the result reference un-indexed) beside it.
-/
import Idealize.ShloMosaic.Lib.StableHlo.Run

noncomputable section

namespace Idealize.ShloMosaic.StableHlo

open TcCoe

variable {τ : Topo} {sig : RefSig} {Val : EltTy → Type}
variable {x0 x1 x2 x3 x4 x5 x6 x7 x8 x9 x10 x11 x12 x13 x14 y : Ref sig .tc}

/-- The result of a fifteen-operand operation, each operand's contents at its own reference. -/
theorem nary15_result
    (f : ((k : Fin 15) → ((![x0, x1, x2, x3, x4, x5, x6, x7, x8, x9, x10, x11, x12, x13, x14] : Fin 15 → Ref sig .tc) k).ty.Contents Val) → y.ty.Contents Val) (hxs hy)
    (F : Valuation τ sig Val) :
    (nary (τ := τ) ![x0, x1, x2, x3, x4, x5, x6, x7, x8, x9, x10, x11, x12, x13, x14] y f hxs hy).result F (Proc.devRef .tc y)
      = f (Fin.cons (F (Proc.devRef .tc x0)) (Fin.cons (F (Proc.devRef .tc x1)) (Fin.cons (F (Proc.devRef .tc x2)) (Fin.cons (F (Proc.devRef .tc x3)) (Fin.cons (F (Proc.devRef .tc x4)) (Fin.cons (F (Proc.devRef .tc x5)) (Fin.cons (F (Proc.devRef .tc x6)) (Fin.cons (F (Proc.devRef .tc x7)) (Fin.cons (F (Proc.devRef .tc x8)) (Fin.cons (F (Proc.devRef .tc x9)) (Fin.cons (F (Proc.devRef .tc x10)) (Fin.cons (F (Proc.devRef .tc x11)) (Fin.cons (F (Proc.devRef .tc x12)) (Fin.cons (F (Proc.devRef .tc x13)) (Fin.cons (F (Proc.devRef .tc x14)) (fun i => i.elim0)))))))))))))))) := by
  rw [nary_result]; congr 1; funext k; fin_cases k <;> rfl

/-- The same, for one simp pass over a long line. -/
theorem nary15_result'
    (f : ((k : Fin 15) → ((![x0, x1, x2, x3, x4, x5, x6, x7, x8, x9, x10, x11, x12, x13, x14] : Fin 15 → Ref sig .tc) k).ty.Contents Val) → y.ty.Contents Val) (hxs hy)
    (F : Valuation τ sig Val) :
    (nary (τ := τ) ![x0, x1, x2, x3, x4, x5, x6, x7, x8, x9, x10, x11, x12, x13, x14] y f hxs hy).result F (no_index (Proc.devRef .tc y))
      = f (Fin.cons (F (Proc.devRef .tc x0)) (Fin.cons (F (Proc.devRef .tc x1)) (Fin.cons (F (Proc.devRef .tc x2)) (Fin.cons (F (Proc.devRef .tc x3)) (Fin.cons (F (Proc.devRef .tc x4)) (Fin.cons (F (Proc.devRef .tc x5)) (Fin.cons (F (Proc.devRef .tc x6)) (Fin.cons (F (Proc.devRef .tc x7)) (Fin.cons (F (Proc.devRef .tc x8)) (Fin.cons (F (Proc.devRef .tc x9)) (Fin.cons (F (Proc.devRef .tc x10)) (Fin.cons (F (Proc.devRef .tc x11)) (Fin.cons (F (Proc.devRef .tc x12)) (Fin.cons (F (Proc.devRef .tc x13)) (Fin.cons (F (Proc.devRef .tc x14)) (fun i => i.elim0)))))))))))))))) :=
  nary15_result f hxs hy F

end Idealize.ShloMosaic.StableHlo

end
-- ==== Proof.Spec.lean ====
/-
  One gated graph-convolution layer with batch normalisation, as functions of a row and a column on the extended reals.

  For an edge r and a feature c the pre-activation is  y(r,c) = (e·P)(r,c) + (hs·Q)(r,c) + (hd·R)(r,c), a sum of three plain
  matrix products, where hs and hd hold the source and target node rows of every edge. Batch normalisation of a family
  y over its rows uses the column mean  μ(c) = (Σ_r y(r,c)) / n  and a column variance, written here in its two usual
  forms: centred,  (Σ_r (y(r,c) − μ(c))²) / n,  and by moments,  (Σ_r y(r,c)²) / n − μ(c)²;  the normalised value is
  ((y − μ) · rsqrt(var + ε)) · γ + β. The edge update adds to e a two-layer perceptron of the normalised pre-activation,
  (e + max(z·W1 + b1, 0)·W2) + b2; the message of an edge is logistic(y) times the projected target row; a node's
  pre-activation is (h·U)(n,c) plus the sum of the messages that reach it, and the node update is h + α · (its
  normalisation). Every extent is a variable; nothing here mentions a program.
-/
import Idealize.ShloMosaic.PureOps.Ideal
import Idealize.ShloMosaic.Lib.ValueIdx

noncomputable section

namespace Cert.Gnn

open Idealize.ShloMosaic Idealize.ShloMosaic.ValueIdx

/-- A matrix of extended reals with a rows and b columns. -/
abbrev Mat (a b : ℕ) := (⟨2, ![a, b]⟩ : Shape).Idx → EReal
/-- A vector of extended reals with b entries. -/
abbrev Vct (b : ℕ) := (⟨1, ![b]⟩ : Shape).Idx → EReal

/-- A matrix read by row and column. -/
def ofMat {a b : ℕ} (x : Mat a b) (r : Fin a) (c : Fin b) : EReal := x (ix2 r c)
/-- A family over rows and columns as a matrix. -/
def toMat {a b : ℕ} (f : Fin a → Fin b → EReal) : Mat a b := fun j => f (j 0) (j 1)
/-- A vector read by position. -/
def ofVct {b : ℕ} (v : Vct b) (c : Fin b) : EReal := v (ix1 c)
/-- A one-row matrix read by column. -/
def ofRow {b : ℕ} (v : Mat 1 b) (c : Fin b) : EReal := v (ix2 (0 : Fin 1) c)

theorem toMat_ofMat {a b : ℕ} (x : Mat a b) : toMat (ofMat x) = x :=
  funext fun j => congrArg x (eq_ix2 j).symm

theorem ofMat_toMat {a b : ℕ} (f : Fin a → Fin b → EReal) (r : Fin a) (c : Fin b) : ofMat (toMat f) r c = f r c := rfl

/-- The plain product of an a×k and a k×b matrix at (r, c). -/
def dot {a k b : ℕ} (x : Mat a k) (w : Mat k b) (r : Fin a) (c : Fin b) : EReal :=
  ∑ q : Fin k, x (ix2 r q) * w (ix2 q c)

/-- The edge pre-activation: three products added left to right. -/
def ehat {E D : ℕ} (e hs hd : Mat E D) (P Q R : Mat D D) (r : Fin E) (c : Fin D) : EReal :=
  (dot e P r c + dot hs Q r c) + dot hd R r c

/-- The sum of a family down column c. -/
def colSum {a b : ℕ} (y : Fin a → Fin b → EReal) (c : Fin b) : EReal := ∑ r : Fin a, y r c
/-- The sum of the squares of a family down column c. -/
def colSumSq {a b : ℕ} (y : Fin a → Fin b → EReal) (c : Fin b) : EReal := ∑ r : Fin a, y r c * y r c

/-- The column mean, the count given as an extended real n. -/
def mean {a b : ℕ} (n : EReal) (y : Fin a → Fin b → EReal) (c : Fin b) : EReal := Ideal.div (colSum y c) n
/-- The column variance, centred form. -/
def varC {a b : ℕ} (n : EReal) (y : Fin a → Fin b → EReal) (c : Fin b) : EReal :=
  Ideal.div (∑ r : Fin a, (y r c - mean n y c) * (y r c - mean n y c)) n
/-- The column variance, by moments. -/
def varM {a b : ℕ} (n : EReal) (y : Fin a → Fin b → EReal) (c : Fin b) : EReal :=
  Ideal.div (colSumSq y c) n - mean n y c * mean n y c

/-- Normalisation of y with given column statistics, scale and shift. -/
def bn {a b : ℕ} (eps : EReal) (y : Fin a → Fin b → EReal) (mu va ga be : Fin b → EReal) (r : Fin a) (c : Fin b) : EReal :=
  ((y r c - mu c) * Ideal.rsqrt (va c + eps)) * ga c + be c

/-- The hidden layer: max(z·W1 + b1, 0). -/
def hidden {a d : ℕ} (z : Fin a → Fin d → EReal) (W1 : Mat d d) (b1 : Fin d → EReal) (r : Fin a) (q : Fin d) : EReal :=
  max ((∑ p : Fin d, z r p * W1 (ix2 p q)) + b1 q) 0

/-- The edge update, the residual added before the second bias. -/
def enew {a d : ℕ} (e : Mat a d) (hid : Fin a → Fin d → EReal) (W2 : Mat d d) (b2 : Fin d → EReal) (r : Fin a) (c : Fin d) : EReal :=
  (e (ix2 r c) + ∑ q : Fin d, hid r q * W2 (ix2 q c)) + b2 c

/-- The same with the second bias added to the perceptron first. -/
def enew' {a d : ℕ} (e : Mat a d) (hid : Fin a → Fin d → EReal) (W2 : Mat d d) (b2 : Fin d → EReal) (r : Fin a) (c : Fin d) : EReal :=
  e (ix2 r c) + ((∑ q : Fin d, hid r q * W2 (ix2 q c)) + b2 c)

theorem enew'_eq {a d : ℕ} (e : Mat a d) (hid : Fin a → Fin d → EReal) (W2 : Mat d d) (b2 : Fin d → EReal) (r : Fin a) (c : Fin d) :
    enew' e hid W2 b2 r c = enew e hid W2 b2 r c := (add_assoc _ _ _).symm

/-- The message of edge r: the gate of its pre-activation times the projected target row. -/
def msg {a d : ℕ} (y : Fin a → Fin d → EReal) (vhd : Mat a d) (r : Fin a) (c : Fin d) : EReal :=
  Ideal.logistic (y r c) * vhd (ix2 r c)

/-- The node pre-activation: the projection plus the aggregated messages. -/
def pre {n d : ℕ} (h : Mat n d) (U : Mat d d) (agg : Mat n d) (r : Fin n) (c : Fin d) : EReal :=
  dot h U r c + agg (ix2 r c)

/-- The node update. -/
def hnew {n d : ℕ} (h : Mat n d) (alpha : EReal) (z : Fin n → Fin d → EReal) (r : Fin n) (c : Fin d) : EReal :=
  h (ix2 r c) + alpha * z r c

end Cert.Gnn

end
-- ==== Proof.KOps.lean ====
/-
  The five regions of the kernel program, each as one or two pure operations on whole arrays.

  Seen from outside, a region turns the arrays it is given into its output arrays, and each output is a function of the
  inputs alone: the node projection is a plain product; the two statistics regions give, per feature, the sum and the
  sum of squares down the rows of the pre-activation they recompute; the edge region gives the updated edge features and
  the messages; the node region the updated node features. Here each output is written as an operation over the
  program's own buffers whose function is the specification's, so that the whole program is one straight line of
  operations.
-/
import proofs.«167392_j80126909874572_1_alg».proof.KernelIdeal
import proofs.«167392_j80126909874572_1_alg».proof.Proof.Spec

set_option maxRecDepth 16384

noncomputable section

namespace Cert.KernelIdeal.Fold

open Idealize.ShloMosaic Idealize.ShloMosaic.TcCoe Idealize.ShloMosaic.StableHlo Idealize.ShloMosaic.ValueIdx
open Cert.KernelIdeal Cert.Gnn

/-- The batch-normalisation epsilon, the binary32 word nearest 1e-5. -/
abbrev eps : EReal := Ideal.ofBits .f32 0x3727C5AC#32

/-- The node projection: Vh = h · Vw. -/
def projF (h : Mat 50000 128) (w : Mat 128 128) : Mat 50000 128 := toMat (dot h w)

/-- The column sums of the edge pre-activation, as a one-row matrix. -/
def esumF (e hs hd : Mat 640000 128) (P Q R : Mat 128 128) : Mat 1 128 := fun j => colSum (ehat e hs hd P Q R) (j 1)
/-- The column sums of its squares. -/
def esumsqF (e hs hd : Mat 640000 128) (P Q R : Mat 128 128) : Mat 1 128 := fun j => colSumSq (ehat e hs hd P Q R) (j 1)

/-- The updated edge features from the arrays the edge region is given. -/
def enewF (e hs hd : Mat 640000 128) (P Q R : Mat 128 128) (mu va ga be : Mat 1 128) (W1 : Mat 128 128) (b1 : Mat 1 128)
    (W2 : Mat 128 128) (b2 : Mat 1 128) : Mat 640000 128 :=
  toMat (enew' e (hidden (bn eps (ehat e hs hd P Q R) (ofRow mu) (ofRow va) (ofRow ga) (ofRow be)) W1 (ofRow b1)) W2 (ofRow b2))
/-- The messages. -/
def msgF (e hs hd vhd : Mat 640000 128) (P Q R : Mat 128 128) : Mat 640000 128 := toMat (msg (ehat e hs hd P Q R) vhd)

/-- The column sums of the node pre-activation, as a one-row matrix. -/
def nsumF (h agg : Mat 50000 128) (U : Mat 128 128) : Mat 1 128 := fun j => colSum (pre h U agg) (j 1)
/-- The column sums of its squares. -/
def nsumsqF (h agg : Mat 50000 128) (U : Mat 128 128) : Mat 1 128 := fun j => colSumSq (pre h U agg) (j 1)

/-- The updated node features from the arrays the node region is given. -/
def hnewF (h agg : Mat 50000 128) (U : Mat 128 128) (mu va ga be : Mat 1 128) (al : Mat 1 1) : Mat 50000 128 :=
  toMat (hnew h (al (ix2 (0 : Fin 1) (0 : Fin 1))) (bn eps (pre h U agg) (ofRow mu) (ofRow va) (ofRow ga) (ofRow be)))

/-- Region 0 as one operation. -/
def op0 : HloOp τ sig (Elt Ideal) :=
  StableHlo.binary main_arg0 main_arg7 main_v25
    (projF : (⟨S50000x128, .f32⟩ : BufTy).Contents (Elt Ideal) → (⟨S128x128, .f32⟩ : BufTy).Contents (Elt Ideal) → (⟨S50000x128, .f32⟩ : BufTy).Contents (Elt Ideal))

/-- Region 1's first output. -/
def op1a : HloOp τ sig (Elt Ideal) :=
  StableHlo.nary ![main_arg1, main_v10, main_v17, main_arg3, main_arg4, main_arg5] main_v33_0
    (fun x => esumF (x 0) (x 1) (x 2) (x 3) (x 4) (x 5))
/-- Region 1's second output. -/
def op1b : HloOp τ sig (Elt Ideal) :=
  StableHlo.nary ![main_arg1, main_v10, main_v17, main_arg3, main_arg4, main_arg5] main_v33_1
    (fun x => esumsqF (x 0) (x 1) (x 2) (x 3) (x 4) (x 5))

/-- Region 2's first output. -/
def op2a : HloOp τ sig (Elt Ideal) :=
  StableHlo.nary ![main_arg1, main_v10, main_v17, main_v32, main_arg3, main_arg4, main_arg5, main_v35, main_v39, main_v18, main_v19,
      main_arg8, main_v22, main_arg10, main_v23] main_v40_0
    (fun x => enewF (x 0) (x 1) (x 2) (x 4) (x 5) (x 6) (x 7) (x 8) (x 9) (x 10) (x 11) (x 12) (x 13) (x 14))
/-- Region 2's second output. -/
def op2b : HloOp τ sig (Elt Ideal) :=
  StableHlo.nary ![main_arg1, main_v10, main_v17, main_v32, main_arg3, main_arg4, main_arg5, main_v35, main_v39, main_v18, main_v19,
      main_arg8, main_v22, main_arg10, main_v23] main_v40_1
    (fun x => msgF (x 0) (x 1) (x 2) (x 3) (x 4) (x 5) (x 6))

/-- Region 3's first output. -/
def op3a : HloOp τ sig (Elt Ideal) :=
  StableHlo.ternary main_arg0 main_v43 main_arg6 main_v44_0
    ((fun h agg U => nsumF h agg U) : (⟨S50000x128, .f32⟩ : BufTy).Contents (Elt Ideal) → (⟨S50000x128, .f32⟩ : BufTy).Contents (Elt Ideal) → (⟨S128x128, .f32⟩ : BufTy).Contents (Elt Ideal) → (⟨S1x128, .f32⟩ : BufTy).Contents (Elt Ideal))
/-- Region 3's second output. -/
def op3b : HloOp τ sig (Elt Ideal) :=
  StableHlo.ternary main_arg0 main_v43 main_arg6 main_v44_1
    ((fun h agg U => nsumsqF h agg U) : (⟨S50000x128, .f32⟩ : BufTy).Contents (Elt Ideal) → (⟨S50000x128, .f32⟩ : BufTy).Contents (Elt Ideal) → (⟨S128x128, .f32⟩ : BufTy).Contents (Elt Ideal) → (⟨S1x128, .f32⟩ : BufTy).Contents (Elt Ideal))

/-- Region 4 as one operation. -/
def op4 : HloOp τ sig (Elt Ideal) :=
  StableHlo.nary ![main_arg0, main_v43, main_arg6, main_v46, main_v50, main_v20, main_v21, main_v24] main_v51
    (fun x => hnewF (x 0) (x 1) (x 2) (x 3) (x 4) (x 5) (x 6) (x 7))

end Cert.KernelIdeal.Fold

end
-- ==== Proof.KFold.lean ====
/-
  The kernel program's fold of buffer contents as ONE straight line of operations.

  Between two stretches of host operations a region leaves every buffer as it found it except its own arrays, and
  its output arrays at functions of its input arrays (the facts collected in `Regions`). So the contents at a region's
  exit are what a short line of pure operations on whole arrays leaves from the contents at its entry, and the contents
  after the fifth region are what the concatenation of the five stretches and the five short lines leaves from the
  launch contents.
-/
import proofs.«167392_j80126909874572_1_alg».proof.Proof.Patched.KernelIdealFrame
import proofs.«167392_j80126909874572_1_alg».proof.Proof.LibRegionAsOps
import proofs.«167392_j80126909874572_1_alg».proof.Proof.LibRunWindows
import proofs.«167392_j80126909874572_1_alg».proof.Proof.LibNary6
import proofs.«167392_j80126909874572_1_alg».proof.Proof.LibNary8
import proofs.«167392_j80126909874572_1_alg».proof.Proof.LibNary15
import proofs.«167392_j80126909874572_1_alg».proof.Proof.KOps

set_option maxRecDepth 16384

noncomputable section

namespace Cert.KernelIdeal.Fold

open Idealize.ShloMosaic Idealize.ShloMosaic.TcCoe Idealize.ShloMosaic.StableHlo Idealize.ShloMosaic.Pipeline
open Cert.KernelIdeal Cert.KernelIdeal.Gen Cert.KernelIdeal.GenP

set_option maxHeartbeats 1000000 in
/-- What each region's output arrays hold after its whole grid, from ANY contents `V` at its entry: the
    specification's functions of its input arrays. -/
structure Regions : Prop where
  proj0 : ∀ (V : (c : Dev nD) → (b : Ref sig .tc) → Buf (Elt Ideal) ((c : Thread nD τ).loc b)) (c : Dev nD),
    (dat0 (F := Ideal) V c).arrAt 2 cfg0.N = projF (V c main_arg0) (V c main_arg7)
  sum1 : ∀ (V : (c : Dev nD) → (b : Ref sig .tc) → Buf (Elt Ideal) ((c : Thread nD τ).loc b)) (c : Dev nD),
    (dat1 (F := Ideal) V c).arrAt 6 cfg1.N = esumF (V c main_arg1) (V c main_v10) (V c main_v17) (V c main_arg3) (V c main_arg4) (V c main_arg5)
  sumsq1 : ∀ (V : (c : Dev nD) → (b : Ref sig .tc) → Buf (Elt Ideal) ((c : Thread nD τ).loc b)) (c : Dev nD),
    (dat1 (F := Ideal) V c).arrAt 7 cfg1.N = esumsqF (V c main_arg1) (V c main_v10) (V c main_v17) (V c main_arg3) (V c main_arg4) (V c main_arg5)
  enew2 : ∀ (V : (c : Dev nD) → (b : Ref sig .tc) → Buf (Elt Ideal) ((c : Thread nD τ).loc b)) (c : Dev nD),
    (dat2 (F := Ideal) V c).arrAt 15 cfg2.N = enewF (V c main_arg1) (V c main_v10) (V c main_v17) (V c main_arg3) (V c main_arg4) (V c main_arg5) (V c main_v35) (V c main_v39) (V c main_v18) (V c main_v19) (V c main_arg8) (V c main_v22) (V c main_arg10) (V c main_v23)
  msg2 : ∀ (V : (c : Dev nD) → (b : Ref sig .tc) → Buf (Elt Ideal) ((c : Thread nD τ).loc b)) (c : Dev nD),
    (dat2 (F := Ideal) V c).arrAt 16 cfg2.N = msgF (V c main_arg1) (V c main_v10) (V c main_v17) (V c main_v32) (V c main_arg3) (V c main_arg4) (V c main_arg5)
  sum3 : ∀ (V : (c : Dev nD) → (b : Ref sig .tc) → Buf (Elt Ideal) ((c : Thread nD τ).loc b)) (c : Dev nD),
    (dat3 (F := Ideal) V c).arrAt 3 cfg3.N = nsumF (V c main_arg0) (V c main_v43) (V c main_arg6)
  sumsq3 : ∀ (V : (c : Dev nD) → (b : Ref sig .tc) → Buf (Elt Ideal) ((c : Thread nD τ).loc b)) (c : Dev nD),
    (dat3 (F := Ideal) V c).arrAt 4 cfg3.N = nsumsqF (V c main_arg0) (V c main_v43) (V c main_arg6)
  upd4 : ∀ (V : (c : Dev nD) → (b : Ref sig .tc) → Buf (Elt Ideal) ((c : Thread nD τ).loc b)) (c : Dev nD),
    (dat4 (F := Ideal) V c).arrAt 8 cfg4.N = hnewF (V c main_arg0) (V c main_v43) (V c main_arg6) (V c main_v46) (V c main_v50) (V c main_v20) (V c main_v21) (V c main_v24)

variable (m : (ℓ : Loc nD τ sig) → Buf (Elt Ideal) ℓ) (ρ : Dev nD → PrngReg)

/-- Region 0's line keeps every buffer that is not one of its outputs. -/
theorem keep0 (V : Valuation τ sig (Elt Ideal)) (r : Ref sig .tc) (h0 : r ≠ main_v25) :
    after [op0] V (Proc.devRef .tc r) = V (Proc.devRef .tc r) := by
  unfold op0
  simp (disch := assumption) only [after_cons, after_nil, binary_result_ne', ternary_result_ne', nary_result_ne']

/-- What region 0's line leaves in its output 2. -/
theorem res0_2 (V : Valuation τ sig (Elt Ideal)) :
    after [op0] V (Proc.devRef .tc main_v25) = projF (V (Proc.devRef .tc main_arg0)) (V (Proc.devRef .tc main_arg7)) := by
  unfold op0
  simp (disch := decide) only [after_cons, after_nil, binary_result', ternary_result', nary6_result', nary8_result', nary15_result',
    binary_result_ne', ternary_result_ne', nary_result_ne']
  try rfl

set_option maxHeartbeats 1000000 in
/-- From ANY contents at region 0's entry, the contents at its exit are what its line of operations leaves. -/
theorem region0_line (R : Regions) (Wv : Dev nD → Valuation τ sig (Elt Ideal)) (c : Dev nD) :
    withArrays spec0 c (Wv c) (fun w => (dat0 (F := Ideal) (fun c b => Wv c (Proc.devRef .tc b)) c).arrAt w cfg0.N)
      = after [op0] (Wv c) := by
  refine Cert.LibRegionAsOps.withArrays_eq_after spec0 launch0.win.arr_inj c (Wv c) _ [op0] (fun w => ?_) ?_
  · fin_cases w
    · show (dat0 (fun c b => Wv c (Proc.devRef .tc b)) c).arrAt 0 cfg0.N = after [op0] (Wv c) (Proc.devRef .tc main_arg0)
      rw [keep0 (Wv c) main_arg0 (by decide), (dat0 (fun c b => Wv c (Proc.devRef .tc b)) c).arrAt_in 0 rfl, A_eq0]
    · show (dat0 (fun c b => Wv c (Proc.devRef .tc b)) c).arrAt 1 cfg0.N = after [op0] (Wv c) (Proc.devRef .tc main_arg7)
      rw [keep0 (Wv c) main_arg7 (by decide), (dat0 (fun c b => Wv c (Proc.devRef .tc b)) c).arrAt_in 1 rfl, A_eq0]
    · show (dat0 (fun c b => Wv c (Proc.devRef .tc b)) c).arrAt 2 cfg0.N = after [op0] (Wv c) (Proc.devRef .tc main_v25)
      rw [res0_2, R.proj0]
  · intro op hop b hb
    cases List.mem_singleton.mp hop
    exact ⟨2, (Finset.mem_singleton.mp hb).symm⟩

/-- At region 0's exit the buffers hold what its line of operations leaves from the entry contents. -/
theorem W2_eq (R : Regions) (c : Dev nD) : W2 m ρ c = after [op0] (W1 m ρ c) :=
  region0_line R (W1 m ρ) c

/-- Region 1's line keeps every buffer that is not one of its outputs. -/
theorem keep1 (V : Valuation τ sig (Elt Ideal)) (r : Ref sig .tc) (h0 : r ≠ main_v33_0) (h1 : r ≠ main_v33_1) :
    after [op1a, op1b] V (Proc.devRef .tc r) = V (Proc.devRef .tc r) := by
  unfold op1a op1b
  simp (disch := assumption) only [after_cons, after_nil, binary_result_ne', ternary_result_ne', nary_result_ne']

/-- What region 1's line leaves in its output 6. -/
theorem res1_6 (V : Valuation τ sig (Elt Ideal)) :
    after [op1a, op1b] V (Proc.devRef .tc main_v33_0) = esumF (V (Proc.devRef .tc main_arg1)) (V (Proc.devRef .tc main_v10)) (V (Proc.devRef .tc main_v17)) (V (Proc.devRef .tc main_arg3)) (V (Proc.devRef .tc main_arg4)) (V (Proc.devRef .tc main_arg5)) := by
  unfold op1a op1b
  simp (disch := decide) only [after_cons, after_nil, binary_result', ternary_result', nary6_result', nary8_result', nary15_result',
    binary_result_ne', ternary_result_ne', nary_result_ne']
  try rfl

/-- What region 1's line leaves in its output 7. -/
theorem res1_7 (V : Valuation τ sig (Elt Ideal)) :
    after [op1a, op1b] V (Proc.devRef .tc main_v33_1) = esumsqF (V (Proc.devRef .tc main_arg1)) (V (Proc.devRef .tc main_v10)) (V (Proc.devRef .tc main_v17)) (V (Proc.devRef .tc main_arg3)) (V (Proc.devRef .tc main_arg4)) (V (Proc.devRef .tc main_arg5)) := by
  unfold op1a op1b
  simp (disch := decide) only [after_cons, after_nil, binary_result', ternary_result', nary6_result', nary8_result', nary15_result',
    binary_result_ne', ternary_result_ne', nary_result_ne']
  try rfl

set_option maxHeartbeats 1000000 in
/-- From ANY contents at region 1's entry, the contents at its exit are what its line of operations leaves. -/
theorem region1_line (R : Regions) (Wv : Dev nD → Valuation τ sig (Elt Ideal)) (c : Dev nD) :
    withArrays spec1 c (Wv c) (fun w => (dat1 (F := Ideal) (fun c b => Wv c (Proc.devRef .tc b)) c).arrAt w cfg1.N)
      = after [op1a, op1b] (Wv c) := by
  refine Cert.LibRegionAsOps.withArrays_eq_after spec1 launch1.win.arr_inj c (Wv c) _ [op1a, op1b] (fun w => ?_) ?_
  · fin_cases w
    · show (dat1 (fun c b => Wv c (Proc.devRef .tc b)) c).arrAt 0 cfg1.N = after [op1a, op1b] (Wv c) (Proc.devRef .tc main_arg1)
      rw [keep1 (Wv c) main_arg1 (by decide) (by decide), (dat1 (fun c b => Wv c (Proc.devRef .tc b)) c).arrAt_in 0 rfl, A_eq1]
    · show (dat1 (fun c b => Wv c (Proc.devRef .tc b)) c).arrAt 1 cfg1.N = after [op1a, op1b] (Wv c) (Proc.devRef .tc main_v10)
      rw [keep1 (Wv c) main_v10 (by decide) (by decide), (dat1 (fun c b => Wv c (Proc.devRef .tc b)) c).arrAt_in 1 rfl, A_eq1]
    · show (dat1 (fun c b => Wv c (Proc.devRef .tc b)) c).arrAt 2 cfg1.N = after [op1a, op1b] (Wv c) (Proc.devRef .tc main_v17)
      rw [keep1 (Wv c) main_v17 (by decide) (by decide), (dat1 (fun c b => Wv c (Proc.devRef .tc b)) c).arrAt_in 2 rfl, A_eq1]
    · show (dat1 (fun c b => Wv c (Proc.devRef .tc b)) c).arrAt 3 cfg1.N = after [op1a, op1b] (Wv c) (Proc.devRef .tc main_arg3)
      rw [keep1 (Wv c) main_arg3 (by decide) (by decide), (dat1 (fun c b => Wv c (Proc.devRef .tc b)) c).arrAt_in 3 rfl, A_eq1]
    · show (dat1 (fun c b => Wv c (Proc.devRef .tc b)) c).arrAt 4 cfg1.N = after [op1a, op1b] (Wv c) (Proc.devRef .tc main_arg4)
      rw [keep1 (Wv c) main_arg4 (by decide) (by decide), (dat1 (fun c b => Wv c (Proc.devRef .tc b)) c).arrAt_in 4 rfl, A_eq1]
    · show (dat1 (fun c b => Wv c (Proc.devRef .tc b)) c).arrAt 5 cfg1.N = after [op1a, op1b] (Wv c) (Proc.devRef .tc main_arg5)
      rw [keep1 (Wv c) main_arg5 (by decide) (by decide), (dat1 (fun c b => Wv c (Proc.devRef .tc b)) c).arrAt_in 5 rfl, A_eq1]
    · show (dat1 (fun c b => Wv c (Proc.devRef .tc b)) c).arrAt 6 cfg1.N = after [op1a, op1b] (Wv c) (Proc.devRef .tc main_v33_0)
      rw [res1_6, R.sum1]
    · show (dat1 (fun c b => Wv c (Proc.devRef .tc b)) c).arrAt 7 cfg1.N = after [op1a, op1b] (Wv c) (Proc.devRef .tc main_v33_1)
      rw [res1_7, R.sumsq1]
  · intro op hop b hb
    rcases List.mem_cons.mp hop with rfl | hop
    · exact ⟨6, (Finset.mem_singleton.mp hb).symm⟩
    · cases List.mem_singleton.mp hop
      exact ⟨7, (Finset.mem_singleton.mp hb).symm⟩

/-- At region 1's exit the buffers hold what its line of operations leaves from the entry contents. -/
theorem W4_eq (R : Regions) (c : Dev nD) : W4 m ρ c = after [op1a, op1b] (W3 m ρ c) :=
  region1_line R (W3 m ρ) c

/-- Region 2's line keeps every buffer that is not one of its outputs. -/
theorem keep2 (V : Valuation τ sig (Elt Ideal)) (r : Ref sig .tc) (h0 : r ≠ main_v40_0) (h1 : r ≠ main_v40_1) :
    after [op2a, op2b] V (Proc.devRef .tc r) = V (Proc.devRef .tc r) := by
  unfold op2a op2b
  simp (disch := assumption) only [after_cons, after_nil, binary_result_ne', ternary_result_ne', nary_result_ne']

/-- What region 2's line leaves in its output 15. -/
theorem res2_15 (V : Valuation τ sig (Elt Ideal)) :
    after [op2a, op2b] V (Proc.devRef .tc main_v40_0) = enewF (V (Proc.devRef .tc main_arg1)) (V (Proc.devRef .tc main_v10)) (V (Proc.devRef .tc main_v17)) (V (Proc.devRef .tc main_arg3)) (V (Proc.devRef .tc main_arg4)) (V (Proc.devRef .tc main_arg5)) (V (Proc.devRef .tc main_v35)) (V (Proc.devRef .tc main_v39)) (V (Proc.devRef .tc main_v18)) (V (Proc.devRef .tc main_v19)) (V (Proc.devRef .tc main_arg8)) (V (Proc.devRef .tc main_v22)) (V (Proc.devRef .tc main_arg10)) (V (Proc.devRef .tc main_v23)) := by
  unfold op2a op2b
  simp (disch := decide) only [after_cons, after_nil, binary_result', ternary_result', nary6_result', nary8_result', nary15_result',
    binary_result_ne', ternary_result_ne', nary_result_ne']
  try rfl

/-- What region 2's line leaves in its output 16. -/
theorem res2_16 (V : Valuation τ sig (Elt Ideal)) :
    after [op2a, op2b] V (Proc.devRef .tc main_v40_1) = msgF (V (Proc.devRef .tc main_arg1)) (V (Proc.devRef .tc main_v10)) (V (Proc.devRef .tc main_v17)) (V (Proc.devRef .tc main_v32)) (V (Proc.devRef .tc main_arg3)) (V (Proc.devRef .tc main_arg4)) (V (Proc.devRef .tc main_arg5)) := by
  unfold op2a op2b
  simp (disch := decide) only [after_cons, after_nil, binary_result', ternary_result', nary6_result', nary8_result', nary15_result',
    binary_result_ne', ternary_result_ne', nary_result_ne']
  try rfl

set_option maxHeartbeats 1000000 in
/-- From ANY contents at region 2's entry, the contents at its exit are what its line of operations leaves. -/
theorem region2_line (R : Regions) (Wv : Dev nD → Valuation τ sig (Elt Ideal)) (c : Dev nD) :
    withArrays spec2 c (Wv c) (fun w => (dat2 (F := Ideal) (fun c b => Wv c (Proc.devRef .tc b)) c).arrAt w cfg2.N)
      = after [op2a, op2b] (Wv c) := by
  refine Cert.LibRegionAsOps.withArrays_eq_after spec2 launch2.win.arr_inj c (Wv c) _ [op2a, op2b] (fun w => ?_) ?_
  · fin_cases w
    · show (dat2 (fun c b => Wv c (Proc.devRef .tc b)) c).arrAt 0 cfg2.N = after [op2a, op2b] (Wv c) (Proc.devRef .tc main_arg1)
      rw [keep2 (Wv c) main_arg1 (by decide) (by decide), (dat2 (fun c b => Wv c (Proc.devRef .tc b)) c).arrAt_in 0 rfl, A_eq2]
    · show (dat2 (fun c b => Wv c (Proc.devRef .tc b)) c).arrAt 1 cfg2.N = after [op2a, op2b] (Wv c) (Proc.devRef .tc main_v10)
      rw [keep2 (Wv c) main_v10 (by decide) (by decide), (dat2 (fun c b => Wv c (Proc.devRef .tc b)) c).arrAt_in 1 rfl, A_eq2]
    · show (dat2 (fun c b => Wv c (Proc.devRef .tc b)) c).arrAt 2 cfg2.N = after [op2a, op2b] (Wv c) (Proc.devRef .tc main_v17)
      rw [keep2 (Wv c) main_v17 (by decide) (by decide), (dat2 (fun c b => Wv c (Proc.devRef .tc b)) c).arrAt_in 2 rfl, A_eq2]
    · show (dat2 (fun c b => Wv c (Proc.devRef .tc b)) c).arrAt 3 cfg2.N = after [op2a, op2b] (Wv c) (Proc.devRef .tc main_v32)
      rw [keep2 (Wv c) main_v32 (by decide) (by decide), (dat2 (fun c b => Wv c (Proc.devRef .tc b)) c).arrAt_in 3 rfl, A_eq2]
    · show (dat2 (fun c b => Wv c (Proc.devRef .tc b)) c).arrAt 4 cfg2.N = after [op2a, op2b] (Wv c) (Proc.devRef .tc main_arg3)
      rw [keep2 (Wv c) main_arg3 (by decide) (by decide), (dat2 (fun c b => Wv c (Proc.devRef .tc b)) c).arrAt_in 4 rfl, A_eq2]
    · show (dat2 (fun c b => Wv c (Proc.devRef .tc b)) c).arrAt 5 cfg2.N = after [op2a, op2b] (Wv c) (Proc.devRef .tc main_arg4)
      rw [keep2 (Wv c) main_arg4 (by decide) (by decide), (dat2 (fun c b => Wv c (Proc.devRef .tc b)) c).arrAt_in 5 rfl, A_eq2]
    · show (dat2 (fun c b => Wv c (Proc.devRef .tc b)) c).arrAt 6 cfg2.N = after [op2a, op2b] (Wv c) (Proc.devRef .tc main_arg5)
      rw [keep2 (Wv c) main_arg5 (by decide) (by decide), (dat2 (fun c b => Wv c (Proc.devRef .tc b)) c).arrAt_in 6 rfl, A_eq2]
    · show (dat2 (fun c b => Wv c (Proc.devRef .tc b)) c).arrAt 7 cfg2.N = after [op2a, op2b] (Wv c) (Proc.devRef .tc main_v35)
      rw [keep2 (Wv c) main_v35 (by decide) (by decide), (dat2 (fun c b => Wv c (Proc.devRef .tc b)) c).arrAt_in 7 rfl, A_eq2]
    · show (dat2 (fun c b => Wv c (Proc.devRef .tc b)) c).arrAt 8 cfg2.N = after [op2a, op2b] (Wv c) (Proc.devRef .tc main_v39)
      rw [keep2 (Wv c) main_v39 (by decide) (by decide), (dat2 (fun c b => Wv c (Proc.devRef .tc b)) c).arrAt_in 8 rfl, A_eq2]
    · show (dat2 (fun c b => Wv c (Proc.devRef .tc b)) c).arrAt 9 cfg2.N = after [op2a, op2b] (Wv c) (Proc.devRef .tc main_v18)
      rw [keep2 (Wv c) main_v18 (by decide) (by decide), (dat2 (fun c b => Wv c (Proc.devRef .tc b)) c).arrAt_in 9 rfl, A_eq2]
    · show (dat2 (fun c b => Wv c (Proc.devRef .tc b)) c).arrAt 10 cfg2.N = after [op2a, op2b] (Wv c) (Proc.devRef .tc main_v19)
      rw [keep2 (Wv c) main_v19 (by decide) (by decide), (dat2 (fun c b => Wv c (Proc.devRef .tc b)) c).arrAt_in 10 rfl, A_eq2]
    · show (dat2 (fun c b => Wv c (Proc.devRef .tc b)) c).arrAt 11 cfg2.N = after [op2a, op2b] (Wv c) (Proc.devRef .tc main_arg8)
      rw [keep2 (Wv c) main_arg8 (by decide) (by decide), (dat2 (fun c b => Wv c (Proc.devRef .tc b)) c).arrAt_in 11 rfl, A_eq2]
    · show (dat2 (fun c b => Wv c (Proc.devRef .tc b)) c).arrAt 12 cfg2.N = after [op2a, op2b] (Wv c) (Proc.devRef .tc main_v22)
      rw [keep2 (Wv c) main_v22 (by decide) (by decide), (dat2 (fun c b => Wv c (Proc.devRef .tc b)) c).arrAt_in 12 rfl, A_eq2]
    · show (dat2 (fun c b => Wv c (Proc.devRef .tc b)) c).arrAt 13 cfg2.N = after [op2a, op2b] (Wv c) (Proc.devRef .tc main_arg10)
      rw [keep2 (Wv c) main_arg10 (by decide) (by decide), (dat2 (fun c b => Wv c (Proc.devRef .tc b)) c).arrAt_in 13 rfl, A_eq2]
    · show (dat2 (fun c b => Wv c (Proc.devRef .tc b)) c).arrAt 14 cfg2.N = after [op2a, op2b] (Wv c) (Proc.devRef .tc main_v23)
      rw [keep2 (Wv c) main_v23 (by decide) (by decide), (dat2 (fun c b => Wv c (Proc.devRef .tc b)) c).arrAt_in 14 rfl, A_eq2]
    · show (dat2 (fun c b => Wv c (Proc.devRef .tc b)) c).arrAt 15 cfg2.N = after [op2a, op2b] (Wv c) (Proc.devRef .tc main_v40_0)
      rw [res2_15, R.enew2]
    · show (dat2 (fun c b => Wv c (Proc.devRef .tc b)) c).arrAt 16 cfg2.N = after [op2a, op2b] (Wv c) (Proc.devRef .tc main_v40_1)
      rw [res2_16, R.msg2]
  · intro op hop b hb
    rcases List.mem_cons.mp hop with rfl | hop
    · exact ⟨15, (Finset.mem_singleton.mp hb).symm⟩
    · cases List.mem_singleton.mp hop
      exact ⟨16, (Finset.mem_singleton.mp hb).symm⟩

/-- At region 2's exit the buffers hold what its line of operations leaves from the entry contents. -/
theorem W6_eq (R : Regions) (c : Dev nD) : W6 m ρ c = after [op2a, op2b] (W5 m ρ c) :=
  region2_line R (W5 m ρ) c

/-- Region 3's line keeps every buffer that is not one of its outputs. -/
theorem keep3 (V : Valuation τ sig (Elt Ideal)) (r : Ref sig .tc) (h0 : r ≠ main_v44_0) (h1 : r ≠ main_v44_1) :
    after [op3a, op3b] V (Proc.devRef .tc r) = V (Proc.devRef .tc r) := by
  unfold op3a op3b
  simp (disch := assumption) only [after_cons, after_nil, binary_result_ne', ternary_result_ne', nary_result_ne']

/-- What region 3's line leaves in its output 3. -/
theorem res3_3 (V : Valuation τ sig (Elt Ideal)) :
    after [op3a, op3b] V (Proc.devRef .tc main_v44_0) = nsumF (V (Proc.devRef .tc main_arg0)) (V (Proc.devRef .tc main_v43)) (V (Proc.devRef .tc main_arg6)) := by
  unfold op3a op3b
  simp (disch := decide) only [after_cons, after_nil, binary_result', ternary_result', nary6_result', nary8_result', nary15_result',
    binary_result_ne', ternary_result_ne', nary_result_ne']
  try rfl

/-- What region 3's line leaves in its output 4. -/
theorem res3_4 (V : Valuation τ sig (Elt Ideal)) :
    after [op3a, op3b] V (Proc.devRef .tc main_v44_1) = nsumsqF (V (Proc.devRef .tc main_arg0)) (V (Proc.devRef .tc main_v43)) (V (Proc.devRef .tc main_arg6)) := by
  unfold op3a op3b
  simp (disch := decide) only [after_cons, after_nil, binary_result', ternary_result', nary6_result', nary8_result', nary15_result',
    binary_result_ne', ternary_result_ne', nary_result_ne']
  try rfl

set_option maxHeartbeats 1000000 in
/-- From ANY contents at region 3's entry, the contents at its exit are what its line of operations leaves. -/
theorem region3_line (R : Regions) (Wv : Dev nD → Valuation τ sig (Elt Ideal)) (c : Dev nD) :
    withArrays spec3 c (Wv c) (fun w => (dat3 (F := Ideal) (fun c b => Wv c (Proc.devRef .tc b)) c).arrAt w cfg3.N)
      = after [op3a, op3b] (Wv c) := by
  refine Cert.LibRegionAsOps.withArrays_eq_after spec3 launch3.win.arr_inj c (Wv c) _ [op3a, op3b] (fun w => ?_) ?_
  · fin_cases w
    · show (dat3 (fun c b => Wv c (Proc.devRef .tc b)) c).arrAt 0 cfg3.N = after [op3a, op3b] (Wv c) (Proc.devRef .tc main_arg0)
      rw [keep3 (Wv c) main_arg0 (by decide) (by decide), (dat3 (fun c b => Wv c (Proc.devRef .tc b)) c).arrAt_in 0 rfl, A_eq3]
    · show (dat3 (fun c b => Wv c (Proc.devRef .tc b)) c).arrAt 1 cfg3.N = after [op3a, op3b] (Wv c) (Proc.devRef .tc main_v43)
      rw [keep3 (Wv c) main_v43 (by decide) (by decide), (dat3 (fun c b => Wv c (Proc.devRef .tc b)) c).arrAt_in 1 rfl, A_eq3]
    · show (dat3 (fun c b => Wv c (Proc.devRef .tc b)) c).arrAt 2 cfg3.N = after [op3a, op3b] (Wv c) (Proc.devRef .tc main_arg6)
      rw [keep3 (Wv c) main_arg6 (by decide) (by decide), (dat3 (fun c b => Wv c (Proc.devRef .tc b)) c).arrAt_in 2 rfl, A_eq3]
    · show (dat3 (fun c b => Wv c (Proc.devRef .tc b)) c).arrAt 3 cfg3.N = after [op3a, op3b] (Wv c) (Proc.devRef .tc main_v44_0)
      rw [res3_3, R.sum3]
    · show (dat3 (fun c b => Wv c (Proc.devRef .tc b)) c).arrAt 4 cfg3.N = after [op3a, op3b] (Wv c) (Proc.devRef .tc main_v44_1)
      rw [res3_4, R.sumsq3]
  · intro op hop b hb
    rcases List.mem_cons.mp hop with rfl | hop
    · exact ⟨3, (Finset.mem_singleton.mp hb).symm⟩
    · cases List.mem_singleton.mp hop
      exact ⟨4, (Finset.mem_singleton.mp hb).symm⟩

/-- At region 3's exit the buffers hold what its line of operations leaves from the entry contents. -/
theorem W8_eq (R : Regions) (c : Dev nD) : W8 m ρ c = after [op3a, op3b] (W7 m ρ c) :=
  region3_line R (W7 m ρ) c

/-- Region 4's line keeps every buffer that is not one of its outputs. -/
theorem keep4 (V : Valuation τ sig (Elt Ideal)) (r : Ref sig .tc) (h0 : r ≠ main_v51) :
    after [op4] V (Proc.devRef .tc r) = V (Proc.devRef .tc r) := by
  unfold op4
  simp (disch := assumption) only [after_cons, after_nil, binary_result_ne', ternary_result_ne', nary_result_ne']

/-- What region 4's line leaves in its output 8. -/
theorem res4_8 (V : Valuation τ sig (Elt Ideal)) :
    after [op4] V (Proc.devRef .tc main_v51) = hnewF (V (Proc.devRef .tc main_arg0)) (V (Proc.devRef .tc main_v43)) (V (Proc.devRef .tc main_arg6)) (V (Proc.devRef .tc main_v46)) (V (Proc.devRef .tc main_v50)) (V (Proc.devRef .tc main_v20)) (V (Proc.devRef .tc main_v21)) (V (Proc.devRef .tc main_v24)) := by
  unfold op4
  simp (disch := decide) only [after_cons, after_nil, binary_result', ternary_result', nary6_result', nary8_result', nary15_result',
    binary_result_ne', ternary_result_ne', nary_result_ne']
  try rfl

set_option maxHeartbeats 1000000 in
/-- From ANY contents at region 4's entry, the contents at its exit are what its line of operations leaves. -/
theorem region4_line (R : Regions) (Wv : Dev nD → Valuation τ sig (Elt Ideal)) (c : Dev nD) :
    withArrays spec4 c (Wv c) (fun w => (dat4 (F := Ideal) (fun c b => Wv c (Proc.devRef .tc b)) c).arrAt w cfg4.N)
      = after [op4] (Wv c) := by
  refine Cert.LibRegionAsOps.withArrays_eq_after spec4 launch4.win.arr_inj c (Wv c) _ [op4] (fun w => ?_) ?_
  · fin_cases w
    · show (dat4 (fun c b => Wv c (Proc.devRef .tc b)) c).arrAt 0 cfg4.N = after [op4] (Wv c) (Proc.devRef .tc main_arg0)
      rw [keep4 (Wv c) main_arg0 (by decide), (dat4 (fun c b => Wv c (Proc.devRef .tc b)) c).arrAt_in 0 rfl, A_eq4]
    · show (dat4 (fun c b => Wv c (Proc.devRef .tc b)) c).arrAt 1 cfg4.N = after [op4] (Wv c) (Proc.devRef .tc main_v43)
      rw [keep4 (Wv c) main_v43 (by decide), (dat4 (fun c b => Wv c (Proc.devRef .tc b)) c).arrAt_in 1 rfl, A_eq4]
    · show (dat4 (fun c b => Wv c (Proc.devRef .tc b)) c).arrAt 2 cfg4.N = after [op4] (Wv c) (Proc.devRef .tc main_arg6)
      rw [keep4 (Wv c) main_arg6 (by decide), (dat4 (fun c b => Wv c (Proc.devRef .tc b)) c).arrAt_in 2 rfl, A_eq4]
    · show (dat4 (fun c b => Wv c (Proc.devRef .tc b)) c).arrAt 3 cfg4.N = after [op4] (Wv c) (Proc.devRef .tc main_v46)
      rw [keep4 (Wv c) main_v46 (by decide), (dat4 (fun c b => Wv c (Proc.devRef .tc b)) c).arrAt_in 3 rfl, A_eq4]
    · show (dat4 (fun c b => Wv c (Proc.devRef .tc b)) c).arrAt 4 cfg4.N = after [op4] (Wv c) (Proc.devRef .tc main_v50)
      rw [keep4 (Wv c) main_v50 (by decide), (dat4 (fun c b => Wv c (Proc.devRef .tc b)) c).arrAt_in 4 rfl, A_eq4]
    · show (dat4 (fun c b => Wv c (Proc.devRef .tc b)) c).arrAt 5 cfg4.N = after [op4] (Wv c) (Proc.devRef .tc main_v20)
      rw [keep4 (Wv c) main_v20 (by decide), (dat4 (fun c b => Wv c (Proc.devRef .tc b)) c).arrAt_in 5 rfl, A_eq4]
    · show (dat4 (fun c b => Wv c (Proc.devRef .tc b)) c).arrAt 6 cfg4.N = after [op4] (Wv c) (Proc.devRef .tc main_v21)
      rw [keep4 (Wv c) main_v21 (by decide), (dat4 (fun c b => Wv c (Proc.devRef .tc b)) c).arrAt_in 6 rfl, A_eq4]
    · show (dat4 (fun c b => Wv c (Proc.devRef .tc b)) c).arrAt 7 cfg4.N = after [op4] (Wv c) (Proc.devRef .tc main_v24)
      rw [keep4 (Wv c) main_v24 (by decide), (dat4 (fun c b => Wv c (Proc.devRef .tc b)) c).arrAt_in 7 rfl, A_eq4]
    · show (dat4 (fun c b => Wv c (Proc.devRef .tc b)) c).arrAt 8 cfg4.N = after [op4] (Wv c) (Proc.devRef .tc main_v51)
      rw [res4_8, R.upd4]
  · intro op hop b hb
    cases List.mem_singleton.mp hop
    exact ⟨8, (Finset.mem_singleton.mp hb).symm⟩

/-- At region 4's exit the buffers hold what its line of operations leaves from the entry contents. -/
theorem W10_eq (R : Regions) (c : Dev nD) : W10 m ρ c = after [op4] (W9 m ρ c) :=
  region4_line R (W9 m ρ) c

/-- The whole program as one line: the five stretches of host operations with the five regions' lines between them. -/
abbrev line : List (HloOp τ sig (Elt Ideal)) :=
  hostOps0 ++ [op0] ++ hostOps1 ++ [op1a, op1b] ++ hostOps2 ++ [op2a, op2b] ++ hostOps3 ++ [op3a, op3b] ++ hostOps4 ++ [op4]

/-- The contents after the fifth region are what the line leaves from the launch contents. -/
theorem W10_line (R : Regions) (c : Dev nD) : W10 m ρ c = after line (W0 m ρ c) := by
  simp only [line, after_append]
  rw [W10_eq m ρ R c]
  show after [op4] (after hostOps4 (W8 m ρ c)) = _
  rw [W8_eq m ρ R c]
  show after [op4] (after hostOps4 (after [op3a, op3b] (after hostOps3 (W6 m ρ c)))) = _
  rw [W6_eq m ρ R c]
  show after [op4] (after hostOps4 (after [op3a, op3b] (after hostOps3 (after [op2a, op2b] (after hostOps2 (W4 m ρ c)))))) = _
  rw [W4_eq m ρ R c]
  show after [op4] (after hostOps4 (after [op3a, op3b] (after hostOps3 (after [op2a, op2b] (after hostOps2
    (after [op1a, op1b] (after hostOps1 (W2 m ρ c)))))))) = _
  rw [W2_eq m ρ R c]

end Cert.KernelIdeal.Fold

end
-- ==== Proof.KStages.lean ====
/-
  The host operations around the kernel program's regions, stage by stage.

  The edge index gives, per edge, a source and a target node; a negative node number is read from the end (50000 is
  added) before the rows are gathered, and the raw source numbers label the segments of the message sum. A vector of
  128 features is used as a one-row matrix, the scalar as a one-by-one matrix. From a column sum s and a column sum of
  squares q over n rows the batch statistics are  s / n  and  q / n − (s / n)².  The messages are summed per source
  node into an array of zeros.
-/
import proofs.«167392_j80126909874572_1_alg».proof.Proof.Gen.KernelIdeal
import proofs.«167392_j80126909874572_1_alg».proof.Proof.KOps

set_option maxRecDepth 16384

noncomputable section

namespace Cert.KernelIdeal.Fold

open Idealize.ShloMosaic Idealize.ShloMosaic.TcCoe Idealize.ShloMosaic.StableHlo Idealize.ShloMosaic.ValueIdx
open Cert.KernelIdeal Cert.KernelIdeal.Gen Cert.Gnn

/-- The source node of every edge: row 0 of the edge index as a vector. -/
def srcVec (a2 : IVec S2x640000 32) : IVec S640000 32 :=
  fun i => shapeCast main_v1.ty.shape (extractStridedSlice S1x640000 ![0, 0] a2 slices_S2x640000_S1x640000_0_0) shapeCasts_S1x640000_S640000 i
/-- The target node of every edge: row 1. -/
def dstVec (a2 : IVec S2x640000 32) : IVec S640000 32 :=
  fun i => shapeCast main_v3.ty.shape (extractStridedSlice S1x640000 ![1, 0] a2 slices_S2x640000_S1x640000_1_0) shapeCasts_S1x640000_S640000 i
/-- Node numbers as a column of start indices, a negative one counted from the end. -/
def wrapCol (v : IVec S640000 32) : IVec S640000x1 32 :=
  broadcastInDim S640000x1 ![0] bcast_S640000_S640000x1_0
    (select (cmpi .slt v (broadcastInDim S640000 ![] bcast_S_S640000 (constantI S_ 32 0#32)))
      (addi v (broadcastInDim S640000 ![] bcast_S_S640000 (constantI S_ 32 50000#32))) v)
/-- Node numbers as a column, as they are. -/
def rawCol (v : IVec S640000 32) : IVec S640000x1 32 := broadcastInDim S640000x1 ![0] bcast_S640000_S640000x1_0 v
/-- The rows of a node array at a column of node numbers. -/
def gath (x : FVec Ideal S50000x128 .f32) (i : IVec S640000x1 32) : FVec Ideal S640000x128 .f32 :=
  Host.gather gather_S50000x128_S640000x1_S640000x128_1_0_n_n_0_1_1128 x i
/-- A feature vector as a one-row matrix. -/
def row (v : FVec Ideal S128 .f32) : FVec Ideal S1x128 .f32 := fun i => shapeCast main_v18.ty.shape v shapeCasts_S128_S1x128 i
/-- The scalar as a one-by-one matrix. -/
def cell (v : FVec Ideal S_ .f32) : FVec Ideal S1x1 .f32 := fun i => shapeCast main_v24.ty.shape v shapeCasts_S_S1x1 i
/-- A count, given by its binary32 word, on every feature. -/
def cnt (w : BitVec 32) : FVec Ideal S1x128 .f32 := broadcastInDim S1x128 ![] bcast_S_S1x128 (constant (F := Ideal) S_ .f32 w)
/-- The batch mean from the column sums. -/
def meanK (w : BitVec 32) (s : FVec Ideal S1x128 .f32) : FVec Ideal S1x128 .f32 := Host.divf (F := Ideal) s (cnt w)
/-- The batch variance from the column sums and the column sums of squares, by moments. -/
def varK (w : BitVec 32) (s q : FVec Ideal S1x128 .f32) : FVec Ideal S1x128 .f32 :=
  subf (Host.divf (F := Ideal) q (cnt w)) (mulf (meanK w s) (meanK w s))
/-- The node array of zeros the messages are summed into. -/
def zerosN : FVec Ideal S50000x128 .f32 := broadcastInDim S50000x128 ![] bcast_S_S50000x128 (constant (F := Ideal) S_ .f32 0x00000000#32)
/-- The messages summed per segment label. -/
def aggK (u : FVec Ideal S640000x128 .f32) (seg : IVec S640000x1 32) : FVec Ideal S50000x128 .f32 :=
  Host.scatterAdd (F := Ideal) scatter_S50000x128_S640000x1_S640000x128_1_0_0_1 zerosN seg u

/-- The binary32 word of 640000, the number of edges. -/
abbrev wE : BitVec 32 := 0x491C4000#32
/-- The binary32 word of 50000, the number of nodes. -/
abbrev wN : BitVec 32 := 0x47435000#32

end Cert.KernelIdeal.Fold

end
-- ==== Proof.KTerms.lean ====
/-
  What the kernel program computes, from its argument arrays.

  With hs and hd the source and target node rows of the edges, y the edge pre-activation of e, hs, hd and the three
  weights, and its batch statistics taken by moments from its column sums over the 640000 edges, the updated edge
  features are the edge region's function of them; the messages are the gate of y times the target rows of the node
  projection; they are summed per source node; and with s the node pre-activation of h, U and that sum, and its batch
  statistics by moments over the 50000 nodes, the updated node features are the node region's function.
-/
import proofs.«167392_j80126909874572_1_alg».proof.Proof.KStages

set_option maxRecDepth 16384

noncomputable section

namespace Cert.KernelIdeal.Fold

open Idealize.ShloMosaic Idealize.ShloMosaic.TcCoe Idealize.ShloMosaic.StableHlo
open Cert.KernelIdeal Cert.KernelIdeal.Gen

/-- The source rows of the edges. -/
def hsK (a0 : FVec Ideal S50000x128 .f32) (a2 : IVec S2x640000 32) : FVec Ideal S640000x128 .f32 := gath a0 (wrapCol (srcVec a2))
/-- The target rows of the edges. -/
def hdK (a0 : FVec Ideal S50000x128 .f32) (a2 : IVec S2x640000 32) : FVec Ideal S640000x128 .f32 := gath a0 (wrapCol (dstVec a2))

/-- The updated edge features. -/
def KE (a0 : FVec Ideal S50000x128 .f32) (a1 : FVec Ideal S640000x128 .f32) (a2 : IVec S2x640000 32) (a3 : FVec Ideal S128x128 .f32) (a4 : FVec Ideal S128x128 .f32) (a5 : FVec Ideal S128x128 .f32) (a8 : FVec Ideal S128x128 .f32) (a9 : FVec Ideal S128 .f32) (a10 : FVec Ideal S128x128 .f32) (a11 : FVec Ideal S128 .f32) (a12 : FVec Ideal S128 .f32) (a13 : FVec Ideal S128 .f32) : FVec Ideal S640000x128 .f32 :=
  enewF a1 (hsK a0 a2) (hdK a0 a2) a3 a4 a5
    (meanK wE (esumF a1 (hsK a0 a2) (hdK a0 a2) a3 a4 a5))
    (varK wE (esumF a1 (hsK a0 a2) (hdK a0 a2) a3 a4 a5) (esumsqF a1 (hsK a0 a2) (hdK a0 a2) a3 a4 a5))
    (row a12) (row a13) a8 (row a9) a10 (row a11)

/-- The messages. -/
def KMsg (a0 : FVec Ideal S50000x128 .f32) (a1 : FVec Ideal S640000x128 .f32) (a2 : IVec S2x640000 32) (a3 : FVec Ideal S128x128 .f32) (a4 : FVec Ideal S128x128 .f32) (a5 : FVec Ideal S128x128 .f32) (a7 : FVec Ideal S128x128 .f32) : FVec Ideal S640000x128 .f32 :=
  msgF a1 (hsK a0 a2) (hdK a0 a2) (gath (projF a0 a7) (wrapCol (dstVec a2))) a3 a4 a5

/-- The messages summed per source node. -/
def KAgg (a0 : FVec Ideal S50000x128 .f32) (a1 : FVec Ideal S640000x128 .f32) (a2 : IVec S2x640000 32) (a3 : FVec Ideal S128x128 .f32) (a4 : FVec Ideal S128x128 .f32) (a5 : FVec Ideal S128x128 .f32) (a7 : FVec Ideal S128x128 .f32) : FVec Ideal S50000x128 .f32 :=
  aggK (KMsg a0 a1 a2 a3 a4 a5 a7) (rawCol (srcVec a2))

/-- The updated node features. -/
def KH (a0 : FVec Ideal S50000x128 .f32) (a1 : FVec Ideal S640000x128 .f32) (a2 : IVec S2x640000 32) (a3 : FVec Ideal S128x128 .f32) (a4 : FVec Ideal S128x128 .f32) (a5 : FVec Ideal S128x128 .f32) (a6 : FVec Ideal S128x128 .f32) (a7 : FVec Ideal S128x128 .f32) (a14 : FVec Ideal S128 .f32) (a15 : FVec Ideal S128 .f32) (a16 : FVec Ideal S_ .f32) : FVec Ideal S50000x128 .f32 :=
  hnewF a0 (KAgg a0 a1 a2 a3 a4 a5 a7) a6
    (meanK wN (nsumF a0 (KAgg a0 a1 a2 a3 a4 a5 a7) a6))
    (varK wN (nsumF a0 (KAgg a0 a1 a2 a3 a4 a5 a7) a6) (nsumsqF a0 (KAgg a0 a1 a2 a3 a4 a5 a7) a6))
    (row a14) (row a15) (cell a16)

end Cert.KernelIdeal.Fold

end
-- ==== Proof.KValue.lean ====
/-
  The two result buffers after the fifth region hold what the kernel program computes from its argument arrays: read
  off the program's one straight line of operations, stage by stage.
-/
import proofs.«167392_j80126909874572_1_alg».proof.Proof.KFold
import proofs.«167392_j80126909874572_1_alg».proof.Proof.KTerms

set_option maxRecDepth 16384

noncomputable section

namespace Cert.KernelIdeal.Fold

open Idealize.ShloMosaic Idealize.ShloMosaic.TcCoe Idealize.ShloMosaic.StableHlo Idealize.ShloMosaic.Pipeline
open Cert.KernelIdeal Cert.KernelIdeal.Gen Cert.KernelIdeal.GenP

variable (m : (ℓ : Loc nD τ sig) → Buf (Elt Ideal) ℓ) (ρ : Dev nD → PrngReg)

set_option maxHeartbeats 2000000 in
/-- After the fifth region the edge result buffer holds the updated edge features of the launch arguments. -/
theorem W10_v40_0 (R : Regions) (c : Dev nD) :
    W10 m ρ c (Proc.devRef .tc main_v40_0) = KE (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := by
  rw [W10_line m ρ R c]
  simp only [line, hostOps0, hostOps1, hostOps2, hostOps3, hostOps4, op0, op1a, op1b, op2a, op2b, op3a, op3b, op4,
    List.cons_append, List.nil_append, List.append_assoc]
  simp (disch := decide) only [after_cons, after_nil, nullary_result', unary_result', binary_result', ternary_result',
    reshape_result', nary6_result', nary8_result', nary15_result', nullary_result_ne', unary_result_ne', binary_result_ne',
    ternary_result_ne', reshape_result_ne', nary_result_ne']
  rfl

set_option maxHeartbeats 2000000 in
/-- After the fifth region the node result buffer holds the updated node features of the launch arguments. -/
theorem W10_v51 (R : Regions) (c : Dev nD) :
    W10 m ρ c (Proc.devRef .tc main_v51) = KH (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg14)) (m ((c : Thread nD τ).loc main_arg15)) (m ((c : Thread nD τ).loc main_arg16)) := by
  rw [W10_line m ρ R c]
  simp only [line, hostOps0, hostOps1, hostOps2, hostOps3, hostOps4, op0, op1a, op1b, op2a, op2b, op3a, op3b, op4,
    List.cons_append, List.nil_append, List.append_assoc]
  simp (disch := decide) only [after_cons, after_nil, nullary_result', unary_result', binary_result', ternary_result',
    reshape_result', nary6_result', nary8_result', nary15_result', nullary_result_ne', unary_result_ne', binary_result_ne',
    ternary_result_ne', reshape_result_ne', nary_result_ne']
  rfl

end Cert.KernelIdeal.Fold

end
-- ==== Proof.LibPlainDot.lean ====
/-
  A plain matrix product at the ideal values, read at an index.
  For the dimension numbers of an M×K by K×N product (`DotDims.plain M K N`: the left operand contracted on its last axis,
  the right on its first, no batch axis) both the kernel's `tpu.matmul` into a zero accumulator and the host's
  `dot_general` are, at the output index (a, b), the sum over k < K of l(a, k) · r(k, b) on the extended reals.
-/
import Idealize.ShloMosaic.PureOps.Ideal.Laws
import Idealize.ShloMosaic.Lib.ValueIdx

noncomputable section

namespace Cert.LibPlainDot

open Idealize.ShloMosaic Idealize.ShloMosaic.ValueIdx

variable (M K N : Nat)

/-- The left operand's row is the output's row. -/
theorem lhs0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin 2) ∈ (DotDims.plain M K N).lhsBatch by simp [DotDims.plain]),
    dif_pos (show (0 : Fin 2) ∈ (DotDims.plain M K N).lhsNonContracting by simp [DotDims.plain])]
  rfl

/-- The left operand's column is the contraction index. -/
theorem lhs1 (i : (⟨2, ![M, N]⟩ : Shape).Idx) (q : (DotDims.plain M K N).contr.Idx) :
    ((DotDims.plain M K N).lhsIdx i q 1).val = (q ⟨0, by rw [(DotDims.plain M K N).rank_contr]; exact Nat.one_pos⟩).val :=
  (DotDims.plain M K N).lhsIdx_val_of_single rfl i q

/-- The right operand's row is the contraction index. -/
theorem rhs0 (i : (⟨2, ![M, N]⟩ : Shape).Idx) (q : (DotDims.plain M K N).contr.Idx) :
    ((DotDims.plain M K N).rhsIdx i q 0).val = (q ⟨0, by rw [(DotDims.plain M K N).rank_contr]; exact Nat.one_pos⟩).val :=
  (DotDims.plain M K N).rhsIdx_val_of_single rfl i q

/-- The right operand's column is the output's column. -/
theorem rhs1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin 2) ∈ (DotDims.plain M K N).rhsBatch by simp [DotDims.plain]),
    dif_pos (show (1 : Fin 2) ∈ (DotDims.plain M K N).rhsNonContracting by simp [DotDims.plain])]
  rfl

/-- The contraction's sum, re-indexed by k < K. -/
theorem sum_plain {φ₁ φ₂ : FTy} (l : FVec Ideal ⟨2, ![M, K]⟩ φ₁) (r : FVec Ideal ⟨2, ![K, N]⟩ φ₂) (j : (⟨2, ![M, N]⟩ : Shape).Idx) :
    ∑ k : (DotDims.plain M K N).contr.Idx, l ((DotDims.plain M K N).lhsIdx j k) * r ((DotDims.plain M K N).rhsIdx j k)
      = ∑ k : Fin K, l (ix2 (j 0) k) * r (ix2 k (j 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => exact lhs0 M K N _ _
      | ⟨1, _⟩ => exact (lhs1 M K N _ _).trans hk)
  have er : (DotDims.plain M K N).rhsIdx j ((contrEquiv1 (DotDims.plain M K N) K rfl rfl).symm k) = ix2 k (j 1) :=
    funext fun a => Fin.ext (by
      match a with
      | ⟨0, _⟩ => exact (rhs0 M K N _ _).trans hk
      | ⟨1, _⟩ => exact rhs1 M K N _ _)
  exact congr (congrArg HMul.hMul (congrArg l el)) (congrArg r er)

/-- The kernel's product into a zero accumulator, at an index. -/
theorem matmul_plain {φ₁ φ₂ : FTy} (prec : Option ContractPrecision) (l : FVec Ideal ⟨2, ![M, K]⟩ φ₁) (r : FVec Ideal ⟨2, ![K, N]⟩ φ₂)
    (j : (⟨2, ![M, N]⟩ : Shape).Idx) :
    matmul (F := Ideal) (DotDims.plain M K N) prec l r (constant ⟨2, ![M, N]⟩ .f32 0x00000000#32) j
      = ∑ k : Fin K, l (ix2 (j 0) k) * r (ix2 k (j 1)) :=
  (Ideal.matmul_constant_zero_apply (DotDims.plain M K N) prec l r j).trans (sum_plain M K N l r j)

/-- The host's product, at an index. -/
theorem dotGeneral_plain {φ₁ φ₂ : FTy} (prec : Option ContractPrecision) (l : FVec Ideal ⟨2, ![M, K]⟩ φ₁) (r : FVec Ideal ⟨2, ![K, N]⟩ φ₂)
    (j : (⟨2, ![M, N]⟩ : Shape).Idx) :
    Host.dotGeneral (F := Ideal) (DotDims.plain M K N) prec l r j
      = ∑ k : Fin K, l (ix2 (j 0) k) * r (ix2 k (j 1)) :=
  (Ideal.dotGeneral_apply (DotDims.plain M K N) prec .single l r j).trans (sum_plain M K N l r j)

end Cert.LibPlainDot

end
-- ==== Proof.RvPay0.lean ====
/-
  The node projection's block: the product of a block of rows of h with the whole weight matrix, read at a row and a
  column, is the sum over the contracted index of the row's entries times the column's entries. The narrowing of both
  operands to a 16-bit float format is the identity on the extended reals.
-/
import proofs.«167392_j80126909874572_1_alg».proof.Proof.Gen.KernelIdeal.Skeleton
import proofs.«167392_j80126909874572_1_alg».proof.Proof.LibPlainDot

noncomputable section

namespace Cert.KernelIdeal.RowRegion

open Idealize.ShloMosaic Idealize.ShloMosaic.ValueIdx Cert.KernelIdeal Cert.KernelIdeal.Gen

/-- The projection's block at (r, c): row r of the block of h against column c of the weights. -/
theorem pay0_apply (x0 : Vec Ideal S5000x128 .f32) (x1 : Vec Ideal S128x128 .f32) (r : Fin 5000) (c : Fin 128) :
    k0_pay1 (F := Ideal) x0 x1 (ix2 r c) = ∑ k : Fin 128, x0 (ix2 r k) * x1 (ix2 k c) := by
  unfold k0_pay1
  exact Cert.LibPlainDot.matmul_plain 5000 128 128 none _ _ (ix2 r c)

end Cert.KernelIdeal.RowRegion

end
-- ==== Proof.RvArr0.lean ====
/-
  The node projection over its whole grid. Point t of ten stages rows 5000·t … 5000·t + 4999 of h and the whole weight
  matrix, and writes back rows 5000·t … 5000·t + 4999 of the result: the product of those rows with the weights. The ten
  row blocks tile the 50000 rows (row i is in block i / 5000), so the result array ends as the product h·W, read by row
  and column.
-/
import proofs.«167392_j80126909874572_1_alg».proof.Proof.Patched.KernelIdealFrame
import proofs.«167392_j80126909874572_1_alg».proof.Proof.RvPay0
import proofs.«167392_j80126909874572_1_alg».proof.Proof.Spec
import Idealize.ShloMosaic.Lib.Pipeline.Value
import Idealize.ShloMosaic.Lib.Tactic

noncomputable section

open Idealize.ShloMosaic Idealize.ShloMosaic.TcCoe Idealize.ShloMosaic.ValueIdx Idealize.SL.Sem
open Idealize.ShloMosaic.Pipeline (Dat)

namespace Cert.KernelIdeal.RowRegion

open Cert.KernelIdeal Cert.KernelIdeal.Gen Cert.KernelIdeal.GenP

variable (V : (c : Dev nD) → (b : Ref sig .tc) → Buf (Elt Ideal) ((c : Thread nD τ).loc b))

theorem hz : (![0, 0] : Fin 2 → Nat) = fun _ => 0 := funext fun a => by fin_cases a <;> rfl

/-- The printed index maps over the ten points: the row-tiled windows are at block t, the weights at block 0. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Row r of h's block at point t is row 5000·t + r of h. -/
theorem blk0_0 (c : Dev nD) (t : Fin cfg0.N) (x : S5000x128.Idx) (k : S50000x128.Idx)
    (hk0 : (k 0).val = 5000 * t.val + (x 0).val) (hk1 : (k 1).val = (x 1).val) :
    (iblk0 V c 0 t : Vec Ideal S5000x128 .f32) x = (V c (Pipeline.arrRef spec0 0) : S50000x128.Idx → EReal) k := by
  obtain ⟨e0, e1, -⟩ := idx0 t
  unfold iblk0
  rw [View.read_apply]
  refine congrArg (V c (Pipeline.arrRef spec0 0) : S50000x128.Idx → EReal) (funext fun a => Fin.ext ?_)
  match a with
  | ⟨0, _⟩ => show win0_0.index t (0 : Fin 2) * 5000 + 1 * (x 0).val = (k 0).val; rw [e0, hk0]; omega
  | ⟨1, _⟩ => show win0_0.index t (1 : Fin 2) * 128 + 1 * (x 1).val = (k 1).val; rw [e1, hk1]; omega

/-- The weights' block at every point is the whole matrix. -/
theorem blk0_1 (c : Dev nD) (t : Fin cfg0.N) (x : S128x128.Idx) :
    (iblk0 V c 1 t : Vec Ideal S128x128 .f32) x = (V c (Pipeline.arrRef spec0 1) : S128x128.Idx → EReal) x := by
  obtain ⟨-, -, e0, e1, -⟩ := idx0 t
  unfold iblk0
  rw [View.read_apply]
  refine congrArg (V c (Pipeline.arrRef spec0 1) : S128x128.Idx → EReal) (funext fun a => Fin.ext ?_)
  match a with
  | ⟨0, _⟩ => show win0_1.index t (0 : Fin 2) * 128 + 1 * (x 0).val = (x 0).val; rw [e0]; omega
  | ⟨1, _⟩ => show win0_1.index t (1 : Fin 2) * 128 + 1 * (x 1).val = (x 1).val; rw [e1]; omega

/-- h and the weights as the region finds them, as matrices. -/
abbrev A0_0 (c : Dev nD) : Cert.Gnn.Mat 50000 128 := V c (Pipeline.arrRef spec0 0)
abbrev A0_1 (c : Dev nD) : Cert.Gnn.Mat 128 128 := V c (Pipeline.arrRef spec0 1)

/-- The projection as one array. -/
abbrev G0 (c : Dev nD) : Cert.Gnn.Mat 50000 128 := Cert.Gnn.toMat (Cert.Gnn.dot (A0_0 V c) (A0_1 V c))

/-- What point t writes back is block t of the product. -/
theorem flushed0 (c : Dev nD) (t : Fin cfg0.N) :
    (dat0 (F := Ideal) V c).flushed 2 t = ((cfg0.win 2).blk t).view.read (Elt Ideal) (G0 V c) := by
  show (cfg0.win 2).cut (grid0.coords t) ((dat0 (F := Ideal) V c).after 2 t) = _
  rw [after0_2]
  unfold out0_2
  rw [View.canon_unit_zero hz]
  simp only [View.ld_unit_zero (S := S5000x128) hz, View.ld_unit_zero (S := S128x128) hz]
  obtain ⟨-, -, -, -, e0, e1⟩ := idx0 t
  funext j
  obtain ⟨r, q, rfl⟩ : ∃ (r : Fin 5000) (q : Fin 128), j = ix2 r q := ⟨j 0, j 1, eq_ix2 j⟩
  refine (pay0_apply (iblk0 V c 0 t) (iblk0 V c 1 t) r q).trans ?_
  show _ = ∑ k : Fin 128, A0_0 V c (ix2 ((((cfg0.win 2).blk t).view.emb (ix2 r q)) 0) k)
      * A0_1 V c (ix2 k ((((cfg0.win 2).blk t).view.emb (ix2 r q)) 1))
  refine Finset.sum_congr rfl fun k _ => ?_
  refine congr (congrArg HMul.hMul (blk0_0 V c t (ix2 r k) _ ?_ rfl)) ((blk0_1 V c t (ix2 k q)).trans (congrArg _ ?_))
  · show win0_2.index t (0 : Fin 2) * 5000 + 1 * r.val = 5000 * t.val + r.val; rw [e0]; omega
  · funext a; apply Fin.ext
    match a with
    | ⟨0, _⟩ => rfl
    | ⟨1, _⟩ => show q.val = win0_2.index t (1 : Fin 2) * 128 + 1 * q.val; rw [e1]; omega

/-- An index of the array is in point t's block iff each coordinate is in the block's range on its axis. -/
theorem mem_blk0 (t : Fin cfg0.N) (i : S50000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v25).slice (win0_2.rect t)).set ↔ _
  rw [View.set_slice_whole, Rect.mem_set_unit]
  exact Iff.rfl

/-- Row i is in block i / 5000. -/
theorem cover0 (i : S50000x128.Idx) : ∃ t : Fin cfg0.N, (cfg0.win 2).flush t = true ∧ i ∈ ((cfg0.win 2).blk t).view.set := by
  have hN : grid0.N = 10 := N_0
  have hi0 : (i 0).val < 50000 := (i 0).isLt
  have hi1 : (i 1).val < 128 := (i 1).isLt
  let t : Fin cfg0.N := ⟨(i 0).val / 5000, by show (i 0).val / 5000 < grid0.N; rw [hN]; omega⟩
  obtain ⟨-, -, -, -, e0, e1⟩ := idx0 t
  have ht : t.val = (i 0).val / 5000 := rfl
  refine ⟨t, flush0_2 t, ?_⟩
  rw [mem_blk0]
  intro a
  match a with
  | ⟨0, _⟩ => show win0_2.index t (0 : Fin 2) * 5000 ≤ (i 0).val ∧ (i 0).val < win0_2.index t (0 : Fin 2) * 5000 + 5000; rw [e0, ht]; omega
  | ⟨1, _⟩ => show win0_2.index t (1 : Fin 2) * 128 ≤ (i 1).val ∧ (i 1).val < win0_2.index t (1 : Fin 2) * 128 + 128; rw [e1]; omega

/-- The projection's result array after the ten points: h·W. -/
theorem proj0 (c : Dev nD) :
    (dat0 (F := Ideal) V c).arrAt 2 cfg0.N
      = Cert.Gnn.toMat (Cert.Gnn.dot (V c (Pipeline.arrRef spec0 0) : Cert.Gnn.Mat 50000 128) (V c (Pipeline.arrRef spec0 1) : Cert.Gnn.Mat 128 128)) :=
  (dat0 (F := Ideal) V c).arrAt_eq_of_cover 2 (G0 V c) (fun t _ => flushed0 V c t) cover0

end Cert.KernelIdeal.RowRegion

end
-- ==== Proof.LibDenseStage.lean ====
/-
  A dense stage on the extended reals, in the two spellings that lower from "x @ w + b, then relu".
  For an M×K array x, a K×N weight w and a bias given as a one-row array b (shape [1, N]), the stage is
      (a, c) ↦ max (Σ_{k<K} x(a,k)·w(k,c) + b(0,c)) 0 .
  * stage_of_matmul: a matrix unit's product over the plain M×K by K×N dimension numbers into a zero accumulator, both
    operands first narrowed to a 16-bit float format (the identity on the extended reals), plus the bias row (shape-cast to
    its own shape) broadcast over the rows, then a maximum with a splat of the scalar word 0, is the stage.
  * stage_of_dotGeneral: the host's product over the same dimension numbers, plus the bias row broadcast along the axes
    [0, 1], then a maximum with a rank-0 constant 0 broadcast along no axis, is the stage.
  * stage_rows: a stage's value in a row depends on x only through that row, so a block of rows of x gives that block of
    the stage (for kernels that tile the rows over a grid).
  * row_broadcastTo, row_broadcastInDim: a one-row array spread over M rows reads its entry of the same column.
  Over the library and the plain-product lemmas only; every extent is a variable.
-/
import Idealize.ShloMosaic.PureOps.Ideal.Laws
import Idealize.ShloMosaic.Lib.ValueIdx
import Idealize.ShloMosaic.Lib.Pipeline.Value
import proofs.«167392_j80126909874572_1_alg».proof.Proof.LibPlainDot

noncomputable section

namespace Cert.LibDenseStage

open Idealize.ShloMosaic Idealize.ShloMosaic.ValueIdx

variable (M K N : Nat)

/-- x·w plus the bias row, cut off below at 0. -/
def stage (x : FVec Ideal ⟨2, ![M, K]⟩ .f32) (w : FVec Ideal ⟨2, ![K, N]⟩ .f32) (b : FVec Ideal ⟨2, ![1, N]⟩ .f32) :
    FVec Ideal ⟨2, ![M, N]⟩ .f32 :=
  fun i => max (∑ k : Fin K, x (ix2 (i 0) k) * w (ix2 k (i 1)) + b (ix2 (0 : Fin 1) (i 1))) 0

theorem stage_apply (x : FVec Ideal ⟨2, ![M, K]⟩ .f32) (w : FVec Ideal ⟨2, ![K, N]⟩ .f32) (b : FVec Ideal ⟨2, ![1, N]⟩ .f32)
    (a : Fin M) (c : Fin N) :
    stage M K N x w b (ix2 a c) = max (∑ k : Fin K, x (ix2 a k) * w (ix2 k c) + b (ix2 (0 : Fin 1) c)) 0 := rfl

/-- The stage in row a' of a block is the stage in row a of the whole, when the block's row a' is the whole's row a. -/
theorem stage_rows (M' : Nat) (X : FVec Ideal ⟨2, ![M, K]⟩ .f32) (x : FVec Ideal ⟨2, ![M', K]⟩ .f32)
    (w : FVec Ideal ⟨2, ![K, N]⟩ .f32) (b : FVec Ideal ⟨2, ![1, N]⟩ .f32) (a : Fin M) (a' : Fin M')
    (h : ∀ k : Fin K, x (ix2 a' k) = X (ix2 a k)) (c : Fin N) :
    stage M' K N x w b (ix2 a' c) = stage M K N X w b (ix2 a c) := by
  rw [stage_apply, stage_apply]
  exact congrArg (fun s => max (s + b (ix2 (0 : Fin 1) c)) 0) (Finset.sum_congr rfl fun k _ => by rw [h k])

/-- The bias row spread over M rows reads, at (a, c), the row's entry c. -/
theorem row_broadcastTo (b : FVec Ideal ⟨2, ![1, N]⟩ .f32) (hb : (⟨2, ![1, N]⟩ : Shape).Broadcasts ⟨2, ![M, N]⟩) (a : Fin M) (c : Fin N) :
    broadcastTo ⟨2, ![M, N]⟩ b hb (ix2 a c) = b (ix2 (0 : Fin 1) c) :=
  broadcastTo_apply b hb (ix2 a c) (ix2 (0 : Fin 1) c) fun ax => by
    match ax with
    | ⟨0, _⟩ => show (0 : Nat) = if (1 : Nat) = 1 then 0 else a.val; rw [if_pos rfl]
    | ⟨1, _⟩ =>
      show c.val = if N = 1 then 0 else c.val
      split
      · have := c.isLt; omega
      · rfl

/-- The same by a broadcast along the two named axes. -/
theorem row_broadcastInDim (b : FVec Ideal ⟨2, ![1, N]⟩ .f32)
    (hb : (⟨2, ![1, N]⟩ : Shape).BroadcastsInDim ⟨2, ![M, N]⟩ (![0, 1] : Fin 2 → Fin 2)) (a : Fin M) (c : Fin N) :
    broadcastInDim ⟨2, ![M, N]⟩ ![0, 1] hb b (ix2 a c) = b (ix2 (0 : Fin 1) c) :=
  broadcastInDim_apply (![0, 1] : Fin 2 → Fin 2) hb b (ix2 a c) (ix2 (0 : Fin 1) c) fun ax => by
    match ax with
    | ⟨0, _⟩ => show (0 : Nat) = if (1 : Nat) = 1 then 0 else a.val; rw [if_pos rfl]
    | ⟨1, _⟩ =>
      show c.val = if N = 1 then 0 else c.val
      split
      · have := c.isLt; omega
      · rfl

/-- The matrix unit's spelling of a stage. -/
theorem stage_of_matmul (x : FVec Ideal ⟨2, ![M, K]⟩ .f32) (w : FVec Ideal ⟨2, ![K, N]⟩ .f32) (b : FVec Ideal ⟨2, ![1, N]⟩ .f32)
    (h1 : FTy.bf16.bits < FTy.f32.bits) (h2 : FTy.bf16.bits < FTy.f32.bits)
    (hc : (⟨2, ![1, N]⟩ : Shape).ShapeCasts ⟨2, ![1, N]⟩) (hb : (⟨2, ![1, N]⟩ : Shape).Broadcasts ⟨2, ![M, N]⟩) :
    maximumf (addf (matmul (F := Ideal) (DotDims.plain M K N) none (truncf .bf16 x h1) (truncf .bf16 w h2)
          (constant ⟨2, ![M, N]⟩ .f32 0x00000000#32))
        (broadcastTo ⟨2, ![M, N]⟩ (shapeCast ⟨2, ![1, N]⟩ b hc) hb))
      (broadcast ⟨2, ![M, N]⟩ (Scalar.ofBits (F := Ideal) .f32 0x00000000#32))
      = stage M K N x w b := by
  funext i
  obtain ⟨a, c, rfl⟩ : ∃ (a : Fin M) (c : Fin N), i = ix2 a c := ⟨i 0, i 1, eq_ix2 i⟩
  rw [maximumf_apply, addf_apply, broadcast_apply, Cert.LibPlainDot.matmul_plain, shapeCast_self, row_broadcastTo, stage_apply]
  exact congrArg (max _) Ideal.ofBits_zero_f32

/-- The host's spelling of a stage. -/
theorem stage_of_dotGeneral (x : FVec Ideal ⟨2, ![M, K]⟩ .f32) (w : FVec Ideal ⟨2, ![K, N]⟩ .f32) (b : FVec Ideal ⟨2, ![1, N]⟩ .f32)
    (hb : (⟨2, ![1, N]⟩ : Shape).BroadcastsInDim ⟨2, ![M, N]⟩ (![0, 1] : Fin 2 → Fin 2))
    (h0 : (⟨0, ![]⟩ : Shape).BroadcastsInDim ⟨2, ![M, N]⟩ (![] : Fin 0 → Fin 2)) :
    maximumf (addf (Host.dotGeneral (F := Ideal) (DotDims.plain M K N) none x w) (broadcastInDim ⟨2, ![M, N]⟩ ![0, 1] hb b))
      (broadcastInDim ⟨2, ![M, N]⟩ ![] h0 (constant (F := Ideal) ⟨0, ![]⟩ .f32 0x00000000#32))
      = stage M K N x w b := by
  funext i
  obtain ⟨a, c, rfl⟩ : ∃ (a : Fin M) (c : Fin N), i = ix2 a c := ⟨i 0, i 1, eq_ix2 i⟩
  rw [maximumf_apply, addf_apply, Cert.LibPlainDot.dotGeneral_plain, row_broadcastInDim, stage_apply,
    broadcastInDim_apply (![] : Fin 0 → Fin 2) h0 _ (ix2 a c) ix0 (fun ax => ax.elim0), constant_apply]
  exact congrArg (max _) Ideal.ofBits_zero_f32

end Cert.LibDenseStage

end
-- ==== Proof.RvPay2.lean ====
/-
  The edge update's two blocks at a row and a column. With
      y(r,c) = ((Σ_k e(r,k)·P(k,c)) + (Σ_k hs(r,k)·Q(k,c))) + Σ_k hd(r,k)·R(k,c)
  the first block's entry is  e(r,c) + ((Σ_q max((Σ_p z(r,p)·W1(p,q)) + b1(q), 0) · W2(q,c)) + b2(c))  with
  z(r,p) = (((y(r,p) − μ(p)) · rsqrt(var(p) + ε)) · γ(p)) + β(p), and the second block's entry is logistic(y(r,c)) · vhd(r,c).
  Narrowing to a 16-bit float format and a recast of a shape to itself are identities; a one-row array spread over the
  rows reads its entry of the same column; the word 0 is the number 0.
-/
import proofs.«167392_j80126909874572_1_alg».proof.Proof.Gen.KernelIdeal.Skeleton
import proofs.«167392_j80126909874572_1_alg».proof.Proof.LibPlainDot
import proofs.«167392_j80126909874572_1_alg».proof.Proof.LibDenseStage
import Idealize.ShloMosaic.Lib.Pipeline.Value

noncomputable section

namespace Cert.KernelIdeal.RowRegion

open Idealize.ShloMosaic Idealize.ShloMosaic.ValueIdx Cert.KernelIdeal Cert.KernelIdeal.Gen

/-- A one-row array, recast to its own shape and spread over 2000 rows, at (r, c). -/
theorem row2000 (x : Vec Ideal S1x128 .f32) (hc : S1x128.ShapeCasts S1x128) (hb : S1x128.Broadcasts S2000x128) (r : Fin 2000) (c : Fin 128) :
    broadcastTo S2000x128 (shapeCast S1x128 x hc) hb (ix2 r c) = x (ix2 (0 : Fin 1) c) :=
  (Cert.LibDenseStage.row_broadcastTo 2000 128 (shapeCast S1x128 x hc) hb r c).trans (congrFun (shapeCast_self x hc) _)

/-- A product of a block of 2000 rows with a 128×128 matrix, at (r, c). -/
theorem mm2000 (l : FVec Ideal S2000x128 .bf16) (w : FVec Ideal S128x128 .bf16) (r : Fin 2000) (c : Fin 128) :
    matmul (F := Ideal) dot_S2000x128_S128x128_S2000x128_1_0_0_1_n_n none l w (constant S2000x128 .f32 0x00000000#32) (ix2 r c)
      = ∑ k : Fin 128, l (ix2 r k) * w (ix2 k c) :=
  Cert.LibPlainDot.matmul_plain 2000 128 128 none l w (ix2 r c)

/-- The pre-activation's block at (r, c): three products added left to right. -/
theorem pay3_apply (x0 : Vec Ideal S2000x128 .f32) (x2 : Vec Ideal S128x128 .f32) (x5 : Vec Ideal S2000x128 .f32) (x8 : Vec Ideal S128x128 .f32)
    (x12 : Vec Ideal S2000x128 .f32) (x15 : Vec Ideal S128x128 .f32) (r : Fin 2000) (c : Fin 128) :
    k2_pay3 (F := Ideal) x0 x2 x5 x8 x12 x15 (ix2 r c)
      = ((∑ k : Fin 128, x0 (ix2 r k) * x2 (ix2 k c)) + ∑ k : Fin 128, x5 (ix2 r k) * x8 (ix2 k c)) + ∑ k : Fin 128, x12 (ix2 r k) * x15 (ix2 k c) := by
  unfold k2_pay3
  have m1 : _ = ∑ k : Fin 128, x0 (ix2 r k) * x2 (ix2 k c) := mm2000 (truncf .bf16 x0 bitsLt_bf16_f32) (truncf .bf16 x2 bitsLt_bf16_f32) r c
  have m2 : _ = ∑ k : Fin 128, x5 (ix2 r k) * x8 (ix2 k c) :=
    (mm2000 (truncf .bf16 (shapeCast S2000x128 x5 shapeCasts_S2000x128_S2000x128) bitsLt_bf16_f32) (truncf .bf16 x8 bitsLt_bf16_f32) r c).trans
      (Finset.sum_congr rfl fun k _ => congrArg (fun z : EReal => z * x8 (ix2 k c)) (congrFun (shapeCast_self x5 shapeCasts_S2000x128_S2000x128) (ix2 r k)))
  have m3 : _ = ∑ k : Fin 128, x12 (ix2 r k) * x15 (ix2 k c) :=
    (mm2000 (truncf .bf16 (shapeCast S2000x128 x12 shapeCasts_S2000x128_S2000x128) bitsLt_bf16_f32) (truncf .bf16 x15 bitsLt_bf16_f32) r c).trans
      (Finset.sum_congr rfl fun k _ => congrArg (fun z : EReal => z * x15 (ix2 k c)) (congrFun (shapeCast_self x12 shapeCasts_S2000x128_S2000x128) (ix2 r k)))
  exact congrArg₂ (· + ·) (congrArg₂ (· + ·) m1 m2) m3

/-- The scaled, centred pre-activation (before the shift) at (r, c). -/
theorem pay4_2_apply (x0 : Vec Ideal S2000x128 .f32) (x2 : Vec Ideal S128x128 .f32) (x5 : Vec Ideal S2000x128 .f32) (x8 : Vec Ideal S128x128 .f32)
    (x12 : Vec Ideal S2000x128 .f32) (x15 : Vec Ideal S128x128 .f32) (x19 x24 x30 : Vec Ideal S1x128 .f32) (r : Fin 2000) (c : Fin 128) :
    k2_pay4 (F := Ideal) x0 x2 x5 x8 x12 x15 x19 x24 x30 (ix2 r c)
      = ((k2_pay3 (F := Ideal) x0 x2 x5 x8 x12 x15 (ix2 r c) - x24 (ix2 (0 : Fin 1) c))
          * Ideal.rsqrt (x19 (ix2 (0 : Fin 1) c) + Ideal.ofBits .f32 0x3727C5AC#32)) * x30 (ix2 (0 : Fin 1) c) := by
  unfold k2_pay4
  have e24 := row2000 x24 shapeCasts_S1x128_S1x128 broadcasts_S1x128_S2000x128 r c
  have e30 := row2000 x30 shapeCasts_S1x128_S1x128 broadcasts_S1x128_S2000x128 r c
  have e23 : broadcastTo S2000x128 (rsqrt (addf (shapeCast S1x128 x19 shapeCasts_S1x128_S1x128) (broadcast S1x128 (Scalar.ofBits (F := Ideal) .f32 0x3727C5AC#32))))
        broadcasts_S1x128_S2000x128 (ix2 r c) = Ideal.rsqrt (x19 (ix2 (0 : Fin 1) c) + Ideal.ofBits .f32 0x3727C5AC#32) :=
    (Cert.LibDenseStage.row_broadcastTo 2000 128 _ broadcasts_S1x128_S2000x128 r c).trans
      (congrArg (fun z : EReal => Ideal.rsqrt (z + Ideal.ofBits .f32 0x3727C5AC#32)) (congrFun (shapeCast_self x19 shapeCasts_S1x128_S1x128) (ix2 (0 : Fin 1) c)))
  exact congrArg₂ (· * ·) (congrArg₂ (· * ·) (congrArg₂ (· - ·) rfl e24) e23) e30

/-- The updated edge block at (r, c), from the block of e and the scaled pre-activation z0 (the shift β is added here). -/
theorem pay1_apply (x0 : Vec Ideal S2000x128 .f32) (z0 : FVec Ideal S2000x128 .f32) (x34 : Vec Ideal S1x128 .f32) (x39 : Vec Ideal S128x128 .f32)
    (x42 : Vec Ideal S1x128 .f32) (x49 : Vec Ideal S128x128 .f32) (x52 : Vec Ideal S1x128 .f32) (r : Fin 2000) (c : Fin 128) :
    k2_pay1 (F := Ideal) x0 z0 x34 x39 x42 x49 x52 (ix2 r c)
      = x0 (ix2 r c) + ((∑ q : Fin 128, max ((∑ p : Fin 128, (z0 (ix2 r p) + x34 (ix2 (0 : Fin 1) p)) * x39 (ix2 p q)) + x42 (ix2 (0 : Fin 1) q)) 0 * x49 (ix2 q c))
          + x52 (ix2 (0 : Fin 1) c)) := by
  unfold k2_pay1
  have e52 := row2000 x52 shapeCasts_S1x128_S1x128 broadcasts_S1x128_S2000x128 r c
  -- the hidden layer at (r, q)
  have hid : ∀ q : Fin 128,
      maximumf (addf (matmul (F := Ideal) dot_S2000x128_S128x128_S2000x128_1_0_0_1_n_n none
            (truncf .bf16 (addf z0 (broadcastTo S2000x128 (shapeCast S1x128 x34 shapeCasts_S1x128_S1x128) broadcasts_S1x128_S2000x128)) bitsLt_bf16_f32)
            (truncf .bf16 x39 bitsLt_bf16_f32) (constant S2000x128 .f32 0x00000000#32))
          (broadcastTo S2000x128 (shapeCast S1x128 x42 shapeCasts_S1x128_S1x128) broadcasts_S1x128_S2000x128))
        (broadcast S2000x128 (Scalar.ofBits (F := Ideal) .f32 0x00000000#32)) (ix2 r q)
      = max ((∑ p : Fin 128, (z0 (ix2 r p) + x34 (ix2 (0 : Fin 1) p)) * x39 (ix2 p q)) + x42 (ix2 (0 : Fin 1) q)) 0 := fun q =>
    congrArg₂ max
      (congrArg₂ (· + ·)
        ((mm2000 _ _ r q).trans (Finset.sum_congr rfl fun p _ =>
          congrArg (fun z : EReal => (z0 (ix2 r p) + z) * x39 (ix2 p q)) (row2000 x34 shapeCasts_S1x128_S1x128 broadcasts_S1x128_S2000x128 r p)))
        (row2000 x42 shapeCasts_S1x128_S1x128 broadcasts_S1x128_S2000x128 r q))
      Ideal.ofBits_zero_f32
  refine congrArg₂ (· + ·) rfl (congrArg₂ (· + ·) ((mm2000 _ _ r c).trans (Finset.sum_congr rfl fun q _ => ?_)) e52)
  exact congrArg (fun z : EReal => z * x49 (ix2 q c)) (hid q)

/-- The message block at (r, c), from the pre-activation y0 and the block of the projected target rows. -/
theorem pay2_apply (y0 : FVec Ideal S2000x128 .f32) (x59 : Vec Ideal S2000x128 .f32) (r : Fin 2000) (c : Fin 128) :
    k2_pay2 (F := Ideal) y0 x59 (ix2 r c) = Ideal.logistic (y0 (ix2 r c)) * x59 (ix2 r c) := by
  unfold k2_pay2
  exact congrArg (fun z : EReal => Ideal.logistic (y0 (ix2 r c)) * z) (congrFun (shapeCast_self x59 shapeCasts_S2000x128_S2000x128) (ix2 r c))

end Cert.KernelIdeal.RowRegion

end
-- ==== Proof.RvRow2.lean ====
/-
  One row of the edge update against the specification. If row r of the staged blocks of e, hs, hd (and of the projected
  target rows) is row i of the whole arrays, and the staged weights, statistic rows and biases are the whole arrays, then
  the updated edge block at (r, c) is the specification's edge update at (i, c), and the message block at (r, c) is the
  specification's message at (i, c): every entry depends on its own row of the row-tiled arrays only.
-/
import proofs.«167392_j80126909874572_1_alg».proof.Proof.RvPay2
import proofs.«167392_j80126909874572_1_alg».proof.Proof.Spec

noncomputable section

namespace Cert.KernelIdeal.RowRegion

open Idealize.ShloMosaic Idealize.ShloMosaic.ValueIdx Cert.KernelIdeal Cert.KernelIdeal.Gen
open Cert.Gnn (Mat ehat bn hidden enew' msg ofRow)

variable {E : ℕ}

/-- The pre-activation's block row against the whole arrays' row. -/
theorem ehat_row (e hs hd : Mat E 128) (P Q R : Mat 128 128) (x0 x1 x2 : Vec Ideal S2000x128 .f32) (r : Fin 2000) (i : Fin E)
    (h0 : ∀ k : Fin 128, x0 (ix2 r k) = e (ix2 i k)) (h1 : ∀ k : Fin 128, x1 (ix2 r k) = hs (ix2 i k))
    (h2 : ∀ k : Fin 128, x2 (ix2 r k) = hd (ix2 i k)) (p : Fin 128) :
    k2_pay3 (F := Ideal) x0 P x1 Q x2 R (ix2 r p) = ehat e hs hd P Q R i p := by
  refine (pay3_apply x0 P x1 Q x2 R r p).trans ?_
  exact congrArg₂ (· + ·)
    (congrArg₂ (· + ·) (Finset.sum_congr rfl fun k _ => congrArg (fun z : EReal => z * P (ix2 k p)) (h0 k))
      (Finset.sum_congr rfl fun k _ => congrArg (fun z : EReal => z * Q (ix2 k p)) (h1 k)))
    (Finset.sum_congr rfl fun k _ => congrArg (fun z : EReal => z * R (ix2 k p)) (h2 k))

/-- The normalised pre-activation's block row: the scaled, centred value plus the shift. -/
theorem bn_row (e hs hd : Mat E 128) (P Q R : Mat 128 128) (mu va ga be : Mat 1 128) (x0 x1 x2 : Vec Ideal S2000x128 .f32) (r : Fin 2000) (i : Fin E)
    (h0 : ∀ k : Fin 128, x0 (ix2 r k) = e (ix2 i k)) (h1 : ∀ k : Fin 128, x1 (ix2 r k) = hs (ix2 i k))
    (h2 : ∀ k : Fin 128, x2 (ix2 r k) = hd (ix2 i k)) (p : Fin 128) :
    k2_pay4 (F := Ideal) x0 P x1 Q x2 R va mu ga (ix2 r p) + be (ix2 (0 : Fin 1) p)
      = bn (Ideal.ofBits .f32 0x3727C5AC#32) (ehat e hs hd P Q R) (ofRow mu) (ofRow va) (ofRow ga) (ofRow be) i p := by
  refine (congrArg (fun z : EReal => z + be (ix2 (0 : Fin 1) p)) (pay4_2_apply x0 P x1 Q x2 R va mu ga r p)).trans ?_
  exact congrArg (fun y : EReal => ((y - mu (ix2 (0 : Fin 1) p)) * Ideal.rsqrt (va (ix2 (0 : Fin 1) p) + Ideal.ofBits .f32 0x3727C5AC#32)) * ga (ix2 (0 : Fin 1) p)
      + be (ix2 (0 : Fin 1) p)) (ehat_row e hs hd P Q R x0 x1 x2 r i h0 h1 h2 p)

/-- The updated edge block's row. -/
theorem enew_row (e hs hd : Mat E 128) (P Q R W1 W2 : Mat 128 128) (mu va ga be b1 b2 : Mat 1 128)
    (x0 x1 x2 : Vec Ideal S2000x128 .f32) (x4 x5 x6 : Vec Ideal S128x128 .f32) (x7 x8 x9 x10 : Vec Ideal S1x128 .f32)
    (x11 : Vec Ideal S128x128 .f32) (x12 : Vec Ideal S1x128 .f32) (x13 : Vec Ideal S128x128 .f32) (x14 : Vec Ideal S1x128 .f32)
    (r : Fin 2000) (i : Fin E) (c : Fin 128)
    (h0 : ∀ k : Fin 128, x0 (ix2 r k) = e (ix2 i k)) (h1 : ∀ k : Fin 128, x1 (ix2 r k) = hs (ix2 i k))
    (h2 : ∀ k : Fin 128, x2 (ix2 r k) = hd (ix2 i k))
    (h4 : x4 = P) (h5 : x5 = Q) (h6 : x6 = R) (h7 : x7 = mu) (h8 : x8 = va) (h9 : x9 = ga) (h10 : x10 = be)
    (h11 : x11 = W1) (h12 : x12 = b1) (h13 : x13 = W2) (h14 : x14 = b2) :
    k2_pay1 (F := Ideal) x0 (k2_pay4 (F := Ideal) x0 x4 x1 x5 x2 x6 x8 x7 x9) x10 x11 x12 x13 x14 (ix2 r c)
      = enew' e (hidden (bn (Ideal.ofBits .f32 0x3727C5AC#32) (ehat e hs hd P Q R) (ofRow mu) (ofRow va) (ofRow ga) (ofRow be)) W1 (ofRow b1)) W2 (ofRow b2) i c := by
  subst h4 h5 h6 h7 h8 h9 h10 h11 h12 h13 h14
  refine (pay1_apply x0 (k2_pay4 (F := Ideal) x0 x4 x1 x5 x2 x6 x8 x7 x9) x10 x11 x12 x13 x14 r c).trans ?_
  refine congrArg₂ (· + ·) (h0 c) (congrArg (fun s : EReal => s + x14 (ix2 (0 : Fin 1) c)) (Finset.sum_congr rfl fun q _ => ?_))
  refine congrArg (fun hq : EReal => hq * x13 (ix2 q c)) ?_
  refine congrArg (fun s : EReal => max (s + x12 (ix2 (0 : Fin 1) q)) 0) (Finset.sum_congr rfl fun p _ => ?_)
  exact congrArg (fun z : EReal => z * x11 (ix2 p q)) (bn_row e hs hd x4 x5 x6 x7 x8 x9 x10 x0 x1 x2 r i h0 h1 h2 p)

/-- The message block's row. -/
theorem msg_row (e hs hd vhd : Mat E 128) (P Q R : Mat 128 128)
    (x0 x1 x2 x3 : Vec Ideal S2000x128 .f32) (x4 x5 x6 : Vec Ideal S128x128 .f32) (r : Fin 2000) (i : Fin E) (c : Fin 128)
    (h0 : ∀ k : Fin 128, x0 (ix2 r k) = e (ix2 i k)) (h1 : ∀ k : Fin 128, x1 (ix2 r k) = hs (ix2 i k))
    (h2 : ∀ k : Fin 128, x2 (ix2 r k) = hd (ix2 i k)) (h3 : ∀ k : Fin 128, x3 (ix2 r k) = vhd (ix2 i k))
    (h4 : x4 = P) (h5 : x5 = Q) (h6 : x6 = R) :
    k2_pay2 (F := Ideal) (k2_pay3 (F := Ideal) x0 x4 x1 x5 x2 x6) x3 (ix2 r c) = msg (ehat e hs hd P Q R) vhd i c := by
  subst h4 h5 h6
  refine (pay2_apply (k2_pay3 (F := Ideal) x0 x4 x1 x5 x2 x6) x3 r c).trans ?_
  exact congrArg₂ (fun a b : EReal => Ideal.logistic a * b) (ehat_row e hs hd x4 x5 x6 x0 x1 x2 r i h0 h1 h2 c) (h3 c)

end Cert.KernelIdeal.RowRegion

end
-- ==== Proof.RvArr2.lean ====
/-
  The edge update over its whole grid. Point t of 320 stages rows 2000·t … 2000·t + 1999 of e, of the source and target
  node rows and of the projected target rows, and the whole of the five weight matrices, the four statistic rows and the
  two bias rows, and writes back rows 2000·t … 2000·t + 1999 of the updated edges and of the messages; each entry depends
  on its own row of the row-tiled arrays only. The 320 row blocks tile the 640000 rows (row i is in block i / 2000), so
  the two result arrays end as the edge update and the messages of the whole arrays.
-/
import proofs.«167392_j80126909874572_1_alg».proof.Proof.Patched.KernelIdealFrame
import proofs.«167392_j80126909874572_1_alg».proof.Proof.RvRow2
import proofs.«167392_j80126909874572_1_alg».proof.Proof.Spec
import Idealize.ShloMosaic.Lib.Pipeline.Value
import Idealize.ShloMosaic.Lib.Tactic

noncomputable section

open Idealize.ShloMosaic Idealize.ShloMosaic.TcCoe Idealize.ShloMosaic.ValueIdx Idealize.SL.Sem
open Idealize.ShloMosaic.Pipeline (Dat)

namespace Cert.KernelIdeal.RowRegion

open Cert.KernelIdeal Cert.KernelIdeal.Gen Cert.KernelIdeal.GenP

variable (V : (c : Dev nD) → (b : Ref sig .tc) → Buf (Elt Ideal) ((c : Thread nD τ).loc b))

theorem hz2 : (![0, 0] : Fin 2 → Nat) = fun _ => 0 := funext fun a => by fin_cases a <;> rfl

/-- The printed index maps over the grid: a row-tiled window is at block t, a whole one at block 0. -/
theorem idx2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = 0 ∧ win2_7.index t (1 : Fin 2) = 0
    ∧ win2_8.index t (0 : Fin 2) = 0 ∧ win2_8.index t (1 : Fin 2) = 0
    ∧ win2_9.index t (0 : Fin 2) = 0 ∧ win2_9.index t (1 : Fin 2) = 0
    ∧ win2_10.index t (0 : Fin 2) = 0 ∧ win2_10.index t (1 : Fin 2) = 0
    ∧ win2_11.index t (0 : Fin 2) = 0 ∧ win2_11.index t (1 : Fin 2) = 0
    ∧ win2_12.index t (0 : Fin 2) = 0 ∧ win2_12.index t (1 : Fin 2) = 0
    ∧ win2_13.index t (0 : Fin 2) = 0 ∧ win2_13.index t (1 : Fin 2) = 0
    ∧ win2_14.index t (0 : Fin 2) = 0 ∧ win2_14.index t (1 : Fin 2) = 0
    ∧ win2_15.index t (0 : Fin 2) = t.val ∧ win2_15.index t (1 : Fin 2) = 0
    ∧ win2_16.index t (0 : Fin 2) = t.val ∧ win2_16.index t (1 : Fin 2) = 0 :=
  (by decide +kernel : ∀ t : Fin grid2.N, _)

/-- Row r of window 0's block at point t is row 2000·t + r of its array. -/
theorem blk2_0 (c : Dev nD) (t : Fin cfg2.N) (x : S2000x128.Idx) (k : S640000x128.Idx)
    (hk0 : (k 0).val = 2000 * t.val + (x 0).val) (hk1 : (k 1).val = (x 1).val) :
    (iblk2 V c 0 t : Vec Ideal S2000x128 .f32) x = (V c (Pipeline.arrRef spec2 0) : S640000x128.Idx → EReal) k := by
  obtain ⟨e0, e1, -⟩ := idx2 t
  unfold iblk2
  rw [View.read_apply]
  refine congrArg (V c (Pipeline.arrRef spec2 0) : S640000x128.Idx → EReal) (funext fun a => Fin.ext ?_)
  match a with
  | ⟨0, _⟩ => show win2_0.index t (0 : Fin 2) * 2000 + 1 * (x 0).val = (k 0).val; rw [e0, hk0]; omega
  | ⟨1, _⟩ => show win2_0.index t (1 : Fin 2) * 128 + 1 * (x 1).val = (k 1).val; rw [e1, hk1]; omega

/-- Row r of window 1's block at point t is row 2000·t + r of its array. -/
theorem blk2_1 (c : Dev nD) (t : Fin cfg2.N) (x : S2000x128.Idx) (k : S640000x128.Idx)
    (hk0 : (k 0).val = 2000 * t.val + (x 0).val) (hk1 : (k 1).val = (x 1).val) :
    (iblk2 V c 1 t : Vec Ideal S2000x128 .f32) x = (V c (Pipeline.arrRef spec2 1) : S640000x128.Idx → EReal) k := by
  obtain ⟨-, -, e0, e1, -⟩ := idx2 t
  unfold iblk2
  rw [View.read_apply]
  refine congrArg (V c (Pipeline.arrRef spec2 1) : S640000x128.Idx → EReal) (funext fun a => Fin.ext ?_)
  match a with
  | ⟨0, _⟩ => show win2_1.index t (0 : Fin 2) * 2000 + 1 * (x 0).val = (k 0).val; rw [e0, hk0]; omega
  | ⟨1, _⟩ => show win2_1.index t (1 : Fin 2) * 128 + 1 * (x 1).val = (k 1).val; rw [e1, hk1]; omega

/-- Row r of window 2's block at point t is row 2000·t + r of its array. -/
theorem blk2_2 (c : Dev nD) (t : Fin cfg2.N) (x : S2000x128.Idx) (k : S640000x128.Idx)
    (hk0 : (k 0).val = 2000 * t.val + (x 0).val) (hk1 : (k 1).val = (x 1).val) :
    (iblk2 V c 2 t : Vec Ideal S2000x128 .f32) x = (V c (Pipeline.arrRef spec2 2) : S640000x128.Idx → EReal) k := by
  obtain ⟨-, -, -, -, e0, e1, -⟩ := idx2 t
  unfold iblk2
  rw [View.read_apply]
  refine congrArg (V c (Pipeline.arrRef spec2 2) : S640000x128.Idx → EReal) (funext fun a => Fin.ext ?_)
  match a with
  | ⟨0, _⟩ => show win2_2.index t (0 : Fin 2) * 2000 + 1 * (x 0).val = (k 0).val; rw [e0, hk0]; omega
  | ⟨1, _⟩ => show win2_2.index t (1 : Fin 2) * 128 + 1 * (x 1).val = (k 1).val; rw [e1, hk1]; omega

/-- Row r of window 3's block at point t is row 2000·t + r of its array. -/
theorem blk2_3 (c : Dev nD) (t : Fin cfg2.N) (x : S2000x128.Idx) (k : S640000x128.Idx)
    (hk0 : (k 0).val = 2000 * t.val + (x 0).val) (hk1 : (k 1).val = (x 1).val) :
    (iblk2 V c 3 t : Vec Ideal S2000x128 .f32) x = (V c (Pipeline.arrRef spec2 3) : S640000x128.Idx → EReal) k := by
  obtain ⟨-, -, -, -, -, -, e0, e1, -⟩ := idx2 t
  unfold iblk2
  rw [View.read_apply]
  refine congrArg (V c (Pipeline.arrRef spec2 3) : S640000x128.Idx → EReal) (funext fun a => Fin.ext ?_)
  match a with
  | ⟨0, _⟩ => show win2_3.index t (0 : Fin 2) * 2000 + 1 * (x 0).val = (k 0).val; rw [e0, hk0]; omega
  | ⟨1, _⟩ => show win2_3.index t (1 : Fin 2) * 128 + 1 * (x 1).val = (k 1).val; rw [e1, hk1]; omega

/-- Window 4's block at every point is its whole array. -/
theorem blk2_4 (c : Dev nD) (t : Fin cfg2.N) (x : S128x128.Idx) :
    (iblk2 V c 4 t : Vec Ideal S128x128 .f32) x = (V c (Pipeline.arrRef spec2 4) : S128x128.Idx → EReal) x := by
  obtain ⟨-, -, -, -, -, -, -, -, e0, e1, -⟩ := idx2 t
  unfold iblk2
  rw [View.read_apply]
  refine congrArg (V c (Pipeline.arrRef spec2 4) : S128x128.Idx → EReal) (funext fun a => Fin.ext ?_)
  match a with
  | ⟨0, _⟩ => show win2_4.index t (0 : Fin 2) * 128 + 1 * (x 0).val = (x 0).val; rw [e0]; omega
  | ⟨1, _⟩ => show win2_4.index t (1 : Fin 2) * 128 + 1 * (x 1).val = (x 1).val; rw [e1]; omega

/-- Window 5's block at every point is its whole array. -/
theorem blk2_5 (c : Dev nD) (t : Fin cfg2.N) (x : S128x128.Idx) :
    (iblk2 V c 5 t : Vec Ideal S128x128 .f32) x = (V c (Pipeline.arrRef spec2 5) : S128x128.Idx → EReal) x := by
  obtain ⟨-, -, -, -, -, -, -, -, -, -, e0, e1, -⟩ := idx2 t
  unfold iblk2
  rw [View.read_apply]
  refine congrArg (V c (Pipeline.arrRef spec2 5) : S128x128.Idx → EReal) (funext fun a => Fin.ext ?_)
  match a with
  | ⟨0, _⟩ => show win2_5.index t (0 : Fin 2) * 128 + 1 * (x 0).val = (x 0).val; rw [e0]; omega
  | ⟨1, _⟩ => show win2_5.index t (1 : Fin 2) * 128 + 1 * (x 1).val = (x 1).val; rw [e1]; omega

/-- Window 6's block at every point is its whole array. -/
theorem blk2_6 (c : Dev nD) (t : Fin cfg2.N) (x : S128x128.Idx) :
    (iblk2 V c 6 t : Vec Ideal S128x128 .f32) x = (V c (Pipeline.arrRef spec2 6) : S128x128.Idx → EReal) x := by
  obtain ⟨-, -, -, -, -, -, -, -, -, -, -, -, e0, e1, -⟩ := idx2 t
  unfold iblk2
  rw [View.read_apply]
  refine congrArg (V c (Pipeline.arrRef spec2 6) : S128x128.Idx → EReal) (funext fun a => Fin.ext ?_)
  match a with
  | ⟨0, _⟩ => show win2_6.index t (0 : Fin 2) * 128 + 1 * (x 0).val = (x 0).val; rw [e0]; omega
  | ⟨1, _⟩ => show win2_6.index t (1 : Fin 2) * 128 + 1 * (x 1).val = (x 1).val; rw [e1]; omega

/-- Window 7's block at every point is its whole array. -/
theorem blk2_7 (c : Dev nD) (t : Fin cfg2.N) (x : S1x128.Idx) :
    (iblk2 V c 7 t : Vec Ideal S1x128 .f32) x = (V c (Pipeline.arrRef spec2 7) : S1x128.Idx → EReal) x := by
  obtain ⟨-, -, -, -, -, -, -, -, -, -, -, -, -, -, e0, e1, -⟩ := idx2 t
  unfold iblk2
  rw [View.read_apply]
  refine congrArg (V c (Pipeline.arrRef spec2 7) : S1x128.Idx → EReal) (funext fun a => Fin.ext ?_)
  match a with
  | ⟨0, _⟩ => show win2_7.index t (0 : Fin 2) * 1 + 1 * (x 0).val = (x 0).val; rw [e0]; omega
  | ⟨1, _⟩ => show win2_7.index t (1 : Fin 2) * 128 + 1 * (x 1).val = (x 1).val; rw [e1]; omega

/-- Window 8's block at every point is its whole array. -/
theorem blk2_8 (c : Dev nD) (t : Fin cfg2.N) (x : S1x128.Idx) :
    (iblk2 V c 8 t : Vec Ideal S1x128 .f32) x = (V c (Pipeline.arrRef spec2 8) : S1x128.Idx → EReal) x := by
  obtain ⟨-, -, -, -, -, -, -, -, -, -, -, -, -, -, -, -, e0, e1, -⟩ := idx2 t
  unfold iblk2
  rw [View.read_apply]
  refine congrArg (V c (Pipeline.arrRef spec2 8) : S1x128.Idx → EReal) (funext fun a => Fin.ext ?_)
  match a with
  | ⟨0, _⟩ => show win2_8.index t (0 : Fin 2) * 1 + 1 * (x 0).val = (x 0).val; rw [e0]; omega
  | ⟨1, _⟩ => show win2_8.index t (1 : Fin 2) * 128 + 1 * (x 1).val = (x 1).val; rw [e1]; omega

/-- Window 9's block at every point is its whole array. -/
theorem blk2_9 (c : Dev nD) (t : Fin cfg2.N) (x : S1x128.Idx) :
    (iblk2 V c 9 t : Vec Ideal S1x128 .f32) x = (V c (Pipeline.arrRef spec2 9) : S1x128.Idx → EReal) x := by
  obtain ⟨-, -, -, -, -, -, -, -, -, -, -, -, -, -, -, -, -, -, e0, e1, -⟩ := idx2 t
  unfold iblk2
  rw [View.read_apply]
  refine congrArg (V c (Pipeline.arrRef spec2 9) : S1x128.Idx → EReal) (funext fun a => Fin.ext ?_)
  match a with
  | ⟨0, _⟩ => show win2_9.index t (0 : Fin 2) * 1 + 1 * (x 0).val = (x 0).val; rw [e0]; omega
  | ⟨1, _⟩ => show win2_9.index t (1 : Fin 2) * 128 + 1 * (x 1).val = (x 1).val; rw [e1]; omega

/-- Window 10's block at every point is its whole array. -/
theorem blk2_10 (c : Dev nD) (t : Fin cfg2.N) (x : S1x128.Idx) :
    (iblk2 V c 10 t : Vec Ideal S1x128 .f32) x = (V c (Pipeline.arrRef spec2 10) : S1x128.Idx → EReal) x := by
  obtain ⟨-, -, -, -, -, -, -, -, -, -, -, -, -, -, -, -, -, -, -, -, e0, e1, -⟩ := idx2 t
  unfold iblk2
  rw [View.read_apply]
  refine congrArg (V c (Pipeline.arrRef spec2 10) : S1x128.Idx → EReal) (funext fun a => Fin.ext ?_)
  match a with
  | ⟨0, _⟩ => show win2_10.index t (0 : Fin 2) * 1 + 1 * (x 0).val = (x 0).val; rw [e0]; omega
  | ⟨1, _⟩ => show win2_10.index t (1 : Fin 2) * 128 + 1 * (x 1).val = (x 1).val; rw [e1]; omega

/-- Window 11's block at every point is its whole array. -/
theorem blk2_11 (c : Dev nD) (t : Fin cfg2.N) (x : S128x128.Idx) :
    (iblk2 V c 11 t : Vec Ideal S128x128 .f32) x = (V c (Pipeline.arrRef spec2 11) : S128x128.Idx → EReal) x := by
  obtain ⟨-, -, -, -, -, -, -, -, -, -, -, -, -, -, -, -, -, -, -, -, -, -, e0, e1, -⟩ := idx2 t
  unfold iblk2
  rw [View.read_apply]
  refine congrArg (V c (Pipeline.arrRef spec2 11) : S128x128.Idx → EReal) (funext fun a => Fin.ext ?_)
  match a with
  | ⟨0, _⟩ => show win2_11.index t (0 : Fin 2) * 128 + 1 * (x 0).val = (x 0).val; rw [e0]; omega
  | ⟨1, _⟩ => show win2_11.index t (1 : Fin 2) * 128 + 1 * (x 1).val = (x 1).val; rw [e1]; omega

/-- Window 12's block at every point is its whole array. -/
theorem blk2_12 (c : Dev nD) (t : Fin cfg2.N) (x : S1x128.Idx) :
    (iblk2 V c 12 t : Vec Ideal S1x128 .f32) x = (V c (Pipeline.arrRef spec2 12) : S1x128.Idx → EReal) x := by
  obtain ⟨-, -, -, -, -, -, -, -, -, -, -, -, -, -, -, -, -, -, -, -, -, -, -, -, e0, e1, -⟩ := idx2 t
  unfold iblk2
  rw [View.read_apply]
  refine congrArg (V c (Pipeline.arrRef spec2 12) : S1x128.Idx → EReal) (funext fun a => Fin.ext ?_)
  match a with
  | ⟨0, _⟩ => show win2_12.index t (0 : Fin 2) * 1 + 1 * (x 0).val = (x 0).val; rw [e0]; omega
  | ⟨1, _⟩ => show win2_12.index t (1 : Fin 2) * 128 + 1 * (x 1).val = (x 1).val; rw [e1]; omega

/-- Window 13's block at every point is its whole array. -/
theorem blk2_13 (c : Dev nD) (t : Fin cfg2.N) (x : S128x128.Idx) :
    (iblk2 V c 13 t : Vec Ideal S128x128 .f32) x = (V c (Pipeline.arrRef spec2 13) : S128x128.Idx → EReal) x := by
  obtain ⟨-, -, -, -, -, -, -, -, -, -, -, -, -, -, -, -, -, -, -, -, -, -, -, -, -, -, e0, e1, -⟩ := idx2 t
  unfold iblk2
  rw [View.read_apply]
  refine congrArg (V c (Pipeline.arrRef spec2 13) : S128x128.Idx → EReal) (funext fun a => Fin.ext ?_)
  match a with
  | ⟨0, _⟩ => show win2_13.index t (0 : Fin 2) * 128 + 1 * (x 0).val = (x 0).val; rw [e0]; omega
  | ⟨1, _⟩ => show win2_13.index t (1 : Fin 2) * 128 + 1 * (x 1).val = (x 1).val; rw [e1]; omega

/-- Window 14's block at every point is its whole array. -/
theorem blk2_14 (c : Dev nD) (t : Fin cfg2.N) (x : S1x128.Idx) :
    (iblk2 V c 14 t : Vec Ideal S1x128 .f32) x = (V c (Pipeline.arrRef spec2 14) : S1x128.Idx → EReal) x := by
  obtain ⟨-, -, -, -, -, -, -, -, -, -, -, -, -, -, -, -, -, -, -, -, -, -, -, -, -, -, -, -, e0, e1, -⟩ := idx2 t
  unfold iblk2
  rw [View.read_apply]
  refine congrArg (V c (Pipeline.arrRef spec2 14) : S1x128.Idx → EReal) (funext fun a => Fin.ext ?_)
  match a with
  | ⟨0, _⟩ => show win2_14.index t (0 : Fin 2) * 1 + 1 * (x 0).val = (x 0).val; rw [e0]; omega
  | ⟨1, _⟩ => show win2_14.index t (1 : Fin 2) * 128 + 1 * (x 1).val = (x 1).val; rw [e1]; omega

/-- The arrays as the region finds them, as matrices. -/
abbrev A2_0 (c : Dev nD) : Cert.Gnn.Mat 640000 128 := V c (Pipeline.arrRef spec2 0)
abbrev A2_1 (c : Dev nD) : Cert.Gnn.Mat 640000 128 := V c (Pipeline.arrRef spec2 1)
abbrev A2_2 (c : Dev nD) : Cert.Gnn.Mat 640000 128 := V c (Pipeline.arrRef spec2 2)
abbrev A2_3 (c : Dev nD) : Cert.Gnn.Mat 640000 128 := V c (Pipeline.arrRef spec2 3)
abbrev A2_4 (c : Dev nD) : Cert.Gnn.Mat 128 128 := V c (Pipeline.arrRef spec2 4)
abbrev A2_5 (c : Dev nD) : Cert.Gnn.Mat 128 128 := V c (Pipeline.arrRef spec2 5)
abbrev A2_6 (c : Dev nD) : Cert.Gnn.Mat 128 128 := V c (Pipeline.arrRef spec2 6)
abbrev A2_7 (c : Dev nD) : Cert.Gnn.Mat 1 128 := V c (Pipeline.arrRef spec2 7)
abbrev A2_8 (c : Dev nD) : Cert.Gnn.Mat 1 128 := V c (Pipeline.arrRef spec2 8)
abbrev A2_9 (c : Dev nD) : Cert.Gnn.Mat 1 128 := V c (Pipeline.arrRef spec2 9)
abbrev A2_10 (c : Dev nD) : Cert.Gnn.Mat 1 128 := V c (Pipeline.arrRef spec2 10)
abbrev A2_11 (c : Dev nD) : Cert.Gnn.Mat 128 128 := V c (Pipeline.arrRef spec2 11)
abbrev A2_12 (c : Dev nD) : Cert.Gnn.Mat 1 128 := V c (Pipeline.arrRef spec2 12)
abbrev A2_13 (c : Dev nD) : Cert.Gnn.Mat 128 128 := V c (Pipeline.arrRef spec2 13)
abbrev A2_14 (c : Dev nD) : Cert.Gnn.Mat 1 128 := V c (Pipeline.arrRef spec2 14)

/-- The updated edges as one array. -/
abbrev G2_15 (c : Dev nD) : Cert.Gnn.Mat 640000 128 := Cert.Gnn.toMat (Cert.Gnn.enew' (A2_0 V c)
    (Cert.Gnn.hidden (Cert.Gnn.bn (Ideal.ofBits .f32 0x3727C5AC#32) (Cert.Gnn.ehat (A2_0 V c) (A2_1 V c) (A2_2 V c) (A2_4 V c) (A2_5 V c) (A2_6 V c))
      (Cert.Gnn.ofRow (A2_7 V c)) (Cert.Gnn.ofRow (A2_8 V c)) (Cert.Gnn.ofRow (A2_9 V c)) (Cert.Gnn.ofRow (A2_10 V c))) (A2_11 V c) (Cert.Gnn.ofRow (A2_12 V c)))
    (A2_13 V c) (Cert.Gnn.ofRow (A2_14 V c)))

/-- The messages as one array. -/
abbrev G2_16 (c : Dev nD) : Cert.Gnn.Mat 640000 128 := Cert.Gnn.toMat (Cert.Gnn.msg (Cert.Gnn.ehat (A2_0 V c) (A2_1 V c) (A2_2 V c) (A2_4 V c) (A2_5 V c) (A2_6 V c)) (A2_3 V c))

/-- What point t writes back to window 15 is block t of the whole-array function. -/
theorem flushed2_15 (c : Dev nD) (t : Fin cfg2.N) :
    (dat2 (F := Ideal) V c).flushed 15 t = ((cfg2.win 15).blk t).view.read (Elt Ideal) (G2_15 V c) := by
  show (cfg2.win 15).cut (grid2.coords t) ((dat2 (F := Ideal) V c).after 15 t) = _
  rw [after2_15]
  unfold out2_15
  rw [View.canon_unit_zero hz2]
  simp only [View.ld_unit_zero (S := S2000x128) hz2, View.ld_unit_zero (S := S128x128) hz2, View.ld_unit_zero (S := S1x128) hz2]
  obtain ⟨-, -, -, -, -, -, -, -, -, -, -, -, -, -, -, -, -, -, -, -, -, -, -, -, -, -, -, -, -, -, e0, e1, -⟩ := idx2 t
  funext j
  obtain ⟨r, q, rfl⟩ : ∃ (r : Fin 2000) (q : Fin 128), j = ix2 r q := ⟨j 0, j 1, eq_ix2 j⟩
  have hr : ((((cfg2.win 15).blk t).view.emb (ix2 r q)) 0).val = 2000 * t.val + r.val := by
    show win2_15.index t (0 : Fin 2) * 2000 + 1 * r.val = 2000 * t.val + r.val; rw [e0]; omega
  have hq : ((((cfg2.win 15).blk t).view.emb (ix2 r q)) 1) = q := Fin.ext (by
    show win2_15.index t (1 : Fin 2) * 128 + 1 * q.val = q.val; rw [e1]; omega)
  show _ = Cert.Gnn.enew' (A2_0 V c) (Cert.Gnn.hidden (Cert.Gnn.bn (Ideal.ofBits .f32 0x3727C5AC#32) (Cert.Gnn.ehat (A2_0 V c) (A2_1 V c) (A2_2 V c) (A2_4 V c) (A2_5 V c) (A2_6 V c)) (Cert.Gnn.ofRow (A2_7 V c)) (Cert.Gnn.ofRow (A2_8 V c)) (Cert.Gnn.ofRow (A2_9 V c)) (Cert.Gnn.ofRow (A2_10 V c))) (A2_11 V c) (Cert.Gnn.ofRow (A2_12 V c))) (A2_13 V c) (Cert.Gnn.ofRow (A2_14 V c)) ((((cfg2.win 15).blk t).view.emb (ix2 r q)) 0) ((((cfg2.win 15).blk t).view.emb (ix2 r q)) 1)
  rw [hq]
  exact enew_row (A2_0 V c) (A2_1 V c) (A2_2 V c) (A2_4 V c) (A2_5 V c) (A2_6 V c) (A2_11 V c) (A2_13 V c)
    (A2_7 V c) (A2_8 V c) (A2_9 V c) (A2_10 V c) (A2_12 V c) (A2_14 V c)
    (iblk2 V c 0 t) (iblk2 V c 1 t) (iblk2 V c 2 t) (iblk2 V c 4 t) (iblk2 V c 5 t) (iblk2 V c 6 t)
    (iblk2 V c 7 t) (iblk2 V c 8 t) (iblk2 V c 9 t) (iblk2 V c 10 t) (iblk2 V c 11 t) (iblk2 V c 12 t) (iblk2 V c 13 t) (iblk2 V c 14 t)
    r ((((cfg2.win 15).blk t).view.emb (ix2 r q)) 0) q
    (fun k => blk2_0 V c t (ix2 r k) (ix2 ((((cfg2.win 15).blk t).view.emb (ix2 r q)) 0) k) hr rfl) (fun k => blk2_1 V c t (ix2 r k) (ix2 ((((cfg2.win 15).blk t).view.emb (ix2 r q)) 0) k) hr rfl) (fun k => blk2_2 V c t (ix2 r k) (ix2 ((((cfg2.win 15).blk t).view.emb (ix2 r q)) 0) k) hr rfl)
    (funext (blk2_4 V c t)) (funext (blk2_5 V c t)) (funext (blk2_6 V c t)) (funext (blk2_7 V c t)) (funext (blk2_8 V c t)) (funext (blk2_9 V c t)) (funext (blk2_10 V c t)) (funext (blk2_11 V c t)) (funext (blk2_12 V c t)) (funext (blk2_13 V c t)) (funext (blk2_14 V c t))

/-- What point t writes back to window 16 is block t of the whole-array function. -/
theorem flushed2_16 (c : Dev nD) (t : Fin cfg2.N) :
    (dat2 (F := Ideal) V c).flushed 16 t = ((cfg2.win 16).blk t).view.read (Elt Ideal) (G2_16 V c) := by
  show (cfg2.win 16).cut (grid2.coords t) ((dat2 (F := Ideal) V c).after 16 t) = _
  rw [after2_16]
  unfold out2_16
  rw [View.canon_unit_zero hz2]
  simp only [View.ld_unit_zero (S := S2000x128) hz2, View.ld_unit_zero (S := S128x128) hz2, View.ld_unit_zero (S := S1x128) hz2]
  obtain ⟨-, -, -, -, -, -, -, -, -, -, -, -, -, -, -, -, -, -, -, -, -, -, -, -, -, -, -, -, -, -, -, -, e0, e1⟩ := idx2 t
  funext j
  obtain ⟨r, q, rfl⟩ : ∃ (r : Fin 2000) (q : Fin 128), j = ix2 r q := ⟨j 0, j 1, eq_ix2 j⟩
  have hr : ((((cfg2.win 16).blk t).view.emb (ix2 r q)) 0).val = 2000 * t.val + r.val := by
    show win2_16.index t (0 : Fin 2) * 2000 + 1 * r.val = 2000 * t.val + r.val; rw [e0]; omega
  have hq : ((((cfg2.win 16).blk t).view.emb (ix2 r q)) 1) = q := Fin.ext (by
    show win2_16.index t (1 : Fin 2) * 128 + 1 * q.val = q.val; rw [e1]; omega)
  show _ = Cert.Gnn.msg (Cert.Gnn.ehat (A2_0 V c) (A2_1 V c) (A2_2 V c) (A2_4 V c) (A2_5 V c) (A2_6 V c)) (A2_3 V c) ((((cfg2.win 16).blk t).view.emb (ix2 r q)) 0) ((((cfg2.win 16).blk t).view.emb (ix2 r q)) 1)
  rw [hq]
  exact msg_row (A2_0 V c) (A2_1 V c) (A2_2 V c) (A2_3 V c) (A2_4 V c) (A2_5 V c) (A2_6 V c)
    (iblk2 V c 0 t) (iblk2 V c 1 t) (iblk2 V c 2 t) (iblk2 V c 3 t) (iblk2 V c 4 t) (iblk2 V c 5 t) (iblk2 V c 6 t)
    r ((((cfg2.win 16).blk t).view.emb (ix2 r q)) 0) q
    (fun k => blk2_0 V c t (ix2 r k) (ix2 ((((cfg2.win 16).blk t).view.emb (ix2 r q)) 0) k) hr rfl) (fun k => blk2_1 V c t (ix2 r k) (ix2 ((((cfg2.win 16).blk t).view.emb (ix2 r q)) 0) k) hr rfl) (fun k => blk2_2 V c t (ix2 r k) (ix2 ((((cfg2.win 16).blk t).view.emb (ix2 r q)) 0) k) hr rfl) (fun k => blk2_3 V c t (ix2 r k) (ix2 ((((cfg2.win 16).blk t).view.emb (ix2 r q)) 0) k) hr rfl)
    (funext (blk2_4 V c t)) (funext (blk2_5 V c t)) (funext (blk2_6 V c t))

/-- An index of the array is in point t's block of window 15 iff each coordinate is in the block's range on its axis. -/
theorem mem_blk2_15 (t : Fin cfg2.N) (i : S640000x128.Idx) :
    i ∈ ((cfg2.win 15).blk t).view.set ↔ ∀ a : Fin 2, win2_15.index t a * S2000x128.size a ≤ (i a).val ∧ (i a).val < win2_15.index t a * S2000x128.size a + S2000x128.size a := by
  show i ∈ ((View.whole main_v40_0).slice (win2_15.rect t)).set ↔ _
  rw [View.set_slice_whole, Rect.mem_set_unit]
  exact Iff.rfl

/-- Row i is in block i / 2000. -/
theorem cover2_15 (i : S640000x128.Idx) : ∃ t : Fin cfg2.N, (cfg2.win 15).flush t = true ∧ i ∈ ((cfg2.win 15).blk t).view.set := by
  have hN : grid2.N = 320 := N_2
  have hi0 : (i 0).val < 640000 := (i 0).isLt
  have hi1 : (i 1).val < 128 := (i 1).isLt
  let t : Fin cfg2.N := ⟨(i 0).val / 2000, by show (i 0).val / 2000 < grid2.N; rw [hN]; omega⟩
  obtain ⟨-, -, -, -, -, -, -, -, -, -, -, -, -, -, -, -, -, -, -, -, -, -, -, -, -, -, -, -, -, -, e0, e1, -⟩ := idx2 t
  have ht : t.val = (i 0).val / 2000 := rfl
  refine ⟨t, flush2_15 t, ?_⟩
  rw [mem_blk2_15]
  intro a
  match a with
  | ⟨0, _⟩ => show win2_15.index t (0 : Fin 2) * 2000 ≤ (i 0).val ∧ (i 0).val < win2_15.index t (0 : Fin 2) * 2000 + 2000; rw [e0, ht]; omega
  | ⟨1, _⟩ => show win2_15.index t (1 : Fin 2) * 128 ≤ (i 1).val ∧ (i 1).val < win2_15.index t (1 : Fin 2) * 128 + 128; rw [e1]; omega

/-- An index of the array is in point t's block of window 16 iff each coordinate is in the block's range on its axis. -/
theorem mem_blk2_16 (t : Fin cfg2.N) (i : S640000x128.Idx) :
    i ∈ ((cfg2.win 16).blk t).view.set ↔ ∀ a : Fin 2, win2_16.index t a * S2000x128.size a ≤ (i a).val ∧ (i a).val < win2_16.index t a * S2000x128.size a + S2000x128.size a := by
  show i ∈ ((View.whole main_v40_1).slice (win2_16.rect t)).set ↔ _
  rw [View.set_slice_whole, Rect.mem_set_unit]
  exact Iff.rfl

/-- Row i is in block i / 2000. -/
theorem cover2_16 (i : S640000x128.Idx) : ∃ t : Fin cfg2.N, (cfg2.win 16).flush t = true ∧ i ∈ ((cfg2.win 16).blk t).view.set := by
  have hN : grid2.N = 320 := N_2
  have hi0 : (i 0).val < 640000 := (i 0).isLt
  have hi1 : (i 1).val < 128 := (i 1).isLt
  let t : Fin cfg2.N := ⟨(i 0).val / 2000, by show (i 0).val / 2000 < grid2.N; rw [hN]; omega⟩
  obtain ⟨-, -, -, -, -, -, -, -, -, -, -, -, -, -, -, -, -, -, -, -, -, -, -, -, -, -, -, -, -, -, -, -, e0, e1⟩ := idx2 t
  have ht : t.val = (i 0).val / 2000 := rfl
  refine ⟨t, flush2_16 t, ?_⟩
  rw [mem_blk2_16]
  intro a
  match a with
  | ⟨0, _⟩ => show win2_16.index t (0 : Fin 2) * 2000 ≤ (i 0).val ∧ (i 0).val < win2_16.index t (0 : Fin 2) * 2000 + 2000; rw [e0, ht]; omega
  | ⟨1, _⟩ => show win2_16.index t (1 : Fin 2) * 128 ≤ (i 1).val ∧ (i 1).val < win2_16.index t (1 : Fin 2) * 128 + 128; rw [e1]; omega

/-- The updated edges' array after the 320 points. -/
theorem enew2 (c : Dev nD) :
    (dat2 (F := Ideal) V c).arrAt 15 cfg2.N
      = Cert.Gnn.toMat (Cert.Gnn.enew' (V c (Pipeline.arrRef spec2 0) : Cert.Gnn.Mat 640000 128)
          (Cert.Gnn.hidden (Cert.Gnn.bn (Ideal.ofBits .f32 0x3727C5AC#32) (Cert.Gnn.ehat (V c (Pipeline.arrRef spec2 0) : Cert.Gnn.Mat 640000 128) (V c (Pipeline.arrRef spec2 1) : Cert.Gnn.Mat 640000 128) (V c (Pipeline.arrRef spec2 2) : Cert.Gnn.Mat 640000 128) (V c (Pipeline.arrRef spec2 4) : Cert.Gnn.Mat 128 128) (V c (Pipeline.arrRef spec2 5) : Cert.Gnn.Mat 128 128) (V c (Pipeline.arrRef spec2 6) : Cert.Gnn.Mat 128 128))
            (Cert.Gnn.ofRow (V c (Pipeline.arrRef spec2 7) : Cert.Gnn.Mat 1 128)) (Cert.Gnn.ofRow (V c (Pipeline.arrRef spec2 8) : Cert.Gnn.Mat 1 128)) (Cert.Gnn.ofRow (V c (Pipeline.arrRef spec2 9) : Cert.Gnn.Mat 1 128)) (Cert.Gnn.ofRow (V c (Pipeline.arrRef spec2 10) : Cert.Gnn.Mat 1 128)))
            (V c (Pipeline.arrRef spec2 11) : Cert.Gnn.Mat 128 128) (Cert.Gnn.ofRow (V c (Pipeline.arrRef spec2 12) : Cert.Gnn.Mat 1 128)))
          (V c (Pipeline.arrRef spec2 13) : Cert.Gnn.Mat 128 128) (Cert.Gnn.ofRow (V c (Pipeline.arrRef spec2 14) : Cert.Gnn.Mat 1 128))) :=
  (dat2 (F := Ideal) V c).arrAt_eq_of_cover 15 (G2_15 V c) (fun t _ => flushed2_15 V c t) cover2_15

/-- The messages' array after the 320 points. -/
theorem msg2 (c : Dev nD) :
    (dat2 (F := Ideal) V c).arrAt 16 cfg2.N = Cert.Gnn.toMat (Cert.Gnn.msg (Cert.Gnn.ehat (V c (Pipeline.arrRef spec2 0) : Cert.Gnn.Mat 640000 128) (V c (Pipeline.arrRef spec2 1) : Cert.Gnn.Mat 640000 128) (V c (Pipeline.arrRef spec2 2) : Cert.Gnn.Mat 640000 128) (V c (Pipeline.arrRef spec2 4) : Cert.Gnn.Mat 128 128) (V c (Pipeline.arrRef spec2 5) : Cert.Gnn.Mat 128 128) (V c (Pipeline.arrRef spec2 6) : Cert.Gnn.Mat 128 128)) (V c (Pipeline.arrRef spec2 3) : Cert.Gnn.Mat 640000 128)) :=
  (dat2 (F := Ideal) V c).arrAt_eq_of_cover 16 (G2_16 V c) (fun t _ => flushed2_16 V c t) cover2_16

end Cert.KernelIdeal.RowRegion

end
-- ==== Proof.RvPay4.lean ====
/-
  The node update's block at a row and a column. With y(r,c) = (Σ_k h(r,k)·U(k,c)) + agg(r,c) the block's entry is
      h(r,c) + α · ((((y(r,c) − μ(c)) · rsqrt(var(c) + ε)) · γ(c)) + β(c)),
  the statistics, scale and shift given as one-row arrays, α as a 1×1 array. Narrowing to a 16-bit float format and a
  recast of a shape to itself are identities; a one-row array spread over the rows reads its entry of the same column.
-/
import proofs.«167392_j80126909874572_1_alg».proof.Proof.Gen.KernelIdeal.Skeleton
import proofs.«167392_j80126909874572_1_alg».proof.Proof.LibPlainDot
import proofs.«167392_j80126909874572_1_alg».proof.Proof.LibDenseStage
import Idealize.ShloMosaic.Lib.Pipeline.Value

noncomputable section

namespace Cert.KernelIdeal.RowRegion

open Idealize.ShloMosaic Idealize.ShloMosaic.ValueIdx Cert.KernelIdeal Cert.KernelIdeal.Gen

/-- The position (0, 0) of a 1×1 array. -/
theorem extract00 (x : Vec Ideal S1x1 .f32) (h : ∀ a, (![0, 0] : Fin 2 → Nat) a < S1x1.size a) :
    extractAt ![0, 0] x h = x (ix2 (0 : Fin 1) (0 : Fin 1)) :=
  congrArg x (funext fun a => Fin.ext (by
    match a with
    | ⟨0, _⟩ => rfl
    | ⟨1, _⟩ => rfl))

/-- A one-row array, recast to its own shape and spread over 5000 rows, at (r, c). -/
theorem row5000 (x : Vec Ideal S1x128 .f32) (hc : S1x128.ShapeCasts S1x128) (hb : S1x128.Broadcasts S5000x128) (r : Fin 5000) (c : Fin 128) :
    broadcastTo S5000x128 (shapeCast S1x128 x hc) hb (ix2 r c) = x (ix2 (0 : Fin 1) c) :=
  (Cert.LibDenseStage.row_broadcastTo 5000 128 (shapeCast S1x128 x hc) hb r c).trans (congrFun (shapeCast_self x hc) _)

/-- The node update's block at (r, c). -/
theorem pay4_apply (x0 : Vec Ideal S5000x128 .f32) (x2 : Vec Ideal S128x128 .f32) (x5 : Vec Ideal S5000x128 .f32)
    (x8 x13 x19 x23 : Vec Ideal S1x128 .f32) (x27 : Vec Ideal S1x1 .f32) (x29 : Vec Ideal S5000x128 .f32) (r : Fin 5000) (c : Fin 128) :
    k4_pay1 (F := Ideal) x0 x2 x5 x8 x13 x19 x23 x27 x29 (ix2 r c)
      = x29 (ix2 r c) + x27 (ix2 (0 : Fin 1) (0 : Fin 1)) *
          (((((∑ k : Fin 128, x0 (ix2 r k) * x2 (ix2 k c)) + x5 (ix2 r c)) - x13 (ix2 (0 : Fin 1) c))
              * Ideal.rsqrt (x8 (ix2 (0 : Fin 1) c) + Ideal.ofBits .f32 0x3727C5AC#32)) * x19 (ix2 (0 : Fin 1) c)
            + x23 (ix2 (0 : Fin 1) c)) := by
  unfold k4_pay1
  have hm := Cert.LibPlainDot.matmul_plain 5000 128 128 none (truncf .bf16 x0 bitsLt_bf16_f32) (truncf .bf16 x2 bitsLt_bf16_f32) (ix2 r c)
  have e5 : shapeCast S5000x128 x5 shapeCasts_S5000x128_S5000x128 (ix2 r c) = x5 (ix2 r c) := congrFun (shapeCast_self x5 _) _
  have e13 := row5000 x13 shapeCasts_S1x128_S1x128 broadcasts_S1x128_S5000x128 r c
  have e19 := row5000 x19 shapeCasts_S1x128_S1x128 broadcasts_S1x128_S5000x128 r c
  have e23 := row5000 x23 shapeCasts_S1x128_S1x128 broadcasts_S1x128_S5000x128 r c
  have e12 : broadcastTo S5000x128 (rsqrt (addf (shapeCast S1x128 x8 shapeCasts_S1x128_S1x128) (broadcast S1x128 (Scalar.ofBits (F := Ideal) .f32 0x3727C5AC#32))))
        broadcasts_S1x128_S5000x128 (ix2 r c) = Ideal.rsqrt (x8 (ix2 (0 : Fin 1) c) + Ideal.ofBits .f32 0x3727C5AC#32) :=
    (Cert.LibDenseStage.row_broadcastTo 5000 128 _ broadcasts_S1x128_S5000x128 r c).trans
      (congrArg (fun z : EReal => Ideal.rsqrt (z + Ideal.ofBits .f32 0x3727C5AC#32)) (congrFun (shapeCast_self x8 shapeCasts_S1x128_S1x128) (ix2 (0 : Fin 1) c)))
  have e27 := extract00 x27 inpos_S1x1_p0_0
  exact congrArg₂ (· + ·) rfl (congrArg₂ (· * ·) e27 (congrArg₂ (· + ·) (congrArg₂ (· * ·) (congrArg₂ (· * ·) (congrArg₂ (· - ·)
    (congrArg₂ (· + ·) hm e5) e13) e12) e19) e23))

end Cert.KernelIdeal.RowRegion

end
-- ==== Proof.RvArr4.lean ====
/-
  The node update over its whole grid. Point t of ten stages rows 5000·t … 5000·t + 4999 of h and of the aggregated
  messages, and the whole of the weights, the four statistic rows and the 1×1 scale, and writes back rows 5000·t …
  5000·t + 4999 of the result; each entry depends on its own row of h and of the messages only. The ten row blocks tile
  the 50000 rows (row i is in block i / 5000), so the result array ends as the node update of the whole arrays.
-/
import proofs.«167392_j80126909874572_1_alg».proof.Proof.Patched.KernelIdealFrame
import proofs.«167392_j80126909874572_1_alg».proof.Proof.RvPay4
import proofs.«167392_j80126909874572_1_alg».proof.Proof.Spec
import Idealize.ShloMosaic.Lib.Pipeline.Value
import Idealize.ShloMosaic.Lib.Tactic

noncomputable section

open Idealize.ShloMosaic Idealize.ShloMosaic.TcCoe Idealize.ShloMosaic.ValueIdx Idealize.SL.Sem
open Idealize.ShloMosaic.Pipeline (Dat)

namespace Cert.KernelIdeal.RowRegion

open Cert.KernelIdeal Cert.KernelIdeal.Gen Cert.KernelIdeal.GenP

variable (V : (c : Dev nD) → (b : Ref sig .tc) → Buf (Elt Ideal) ((c : Thread nD τ).loc b))

theorem hz4 : (![0, 0] : Fin 2 → Nat) = fun _ => 0 := funext fun a => by fin_cases a <;> rfl

/-- The printed index maps over the grid: a row-tiled window is at block t, a whole one at block 0. -/
theorem idx4 : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0
    ∧ win4_6.index t (0 : Fin 2) = 0 ∧ win4_6.index t (1 : Fin 2) = 0
    ∧ win4_7.index t (0 : Fin 2) = 0 ∧ win4_7.index t (1 : Fin 2) = 0
    ∧ win4_8.index t (0 : Fin 2) = t.val ∧ win4_8.index t (1 : Fin 2) = 0 :=
  (by decide +kernel : ∀ t : Fin grid4.N, _)

/-- Row r of window 0's block at point t is row 5000·t + r of its array. -/
theorem blk4_0 (c : Dev nD) (t : Fin cfg4.N) (x : S5000x128.Idx) (k : S50000x128.Idx)
    (hk0 : (k 0).val = 5000 * t.val + (x 0).val) (hk1 : (k 1).val = (x 1).val) :
    (iblk4 V c 0 t : Vec Ideal S5000x128 .f32) x = (V c (Pipeline.arrRef spec4 0) : S50000x128.Idx → EReal) k := by
  obtain ⟨e0, e1, -⟩ := idx4 t
  unfold iblk4
  rw [View.read_apply]
  refine congrArg (V c (Pipeline.arrRef spec4 0) : S50000x128.Idx → EReal) (funext fun a => Fin.ext ?_)
  match a with
  | ⟨0, _⟩ => show win4_0.index t (0 : Fin 2) * 5000 + 1 * (x 0).val = (k 0).val; rw [e0, hk0]; omega
  | ⟨1, _⟩ => show win4_0.index t (1 : Fin 2) * 128 + 1 * (x 1).val = (k 1).val; rw [e1, hk1]; omega

/-- Row r of window 1's block at point t is row 5000·t + r of its array. -/
theorem blk4_1 (c : Dev nD) (t : Fin cfg4.N) (x : S5000x128.Idx) (k : S50000x128.Idx)
    (hk0 : (k 0).val = 5000 * t.val + (x 0).val) (hk1 : (k 1).val = (x 1).val) :
    (iblk4 V c 1 t : Vec Ideal S5000x128 .f32) x = (V c (Pipeline.arrRef spec4 1) : S50000x128.Idx → EReal) k := by
  obtain ⟨-, -, e0, e1, -⟩ := idx4 t
  unfold iblk4
  rw [View.read_apply]
  refine congrArg (V c (Pipeline.arrRef spec4 1) : S50000x128.Idx → EReal) (funext fun a => Fin.ext ?_)
  match a with
  | ⟨0, _⟩ => show win4_1.index t (0 : Fin 2) * 5000 + 1 * (x 0).val = (k 0).val; rw [e0, hk0]; omega
  | ⟨1, _⟩ => show win4_1.index t (1 : Fin 2) * 128 + 1 * (x 1).val = (k 1).val; rw [e1, hk1]; omega

/-- Window 2's block at every point is its whole array. -/
theorem blk4_2 (c : Dev nD) (t : Fin cfg4.N) (x : S128x128.Idx) :
    (iblk4 V c 2 t : Vec Ideal S128x128 .f32) x = (V c (Pipeline.arrRef spec4 2) : S128x128.Idx → EReal) x := by
  obtain ⟨-, -, -, -, e0, e1, -⟩ := idx4 t
  unfold iblk4
  rw [View.read_apply]
  refine congrArg (V c (Pipeline.arrRef spec4 2) : S128x128.Idx → EReal) (funext fun a => Fin.ext ?_)
  match a with
  | ⟨0, _⟩ => show win4_2.index t (0 : Fin 2) * 128 + 1 * (x 0).val = (x 0).val; rw [e0]; omega
  | ⟨1, _⟩ => show win4_2.index t (1 : Fin 2) * 128 + 1 * (x 1).val = (x 1).val; rw [e1]; omega

/-- Window 3's block at every point is its whole array. -/
theorem blk4_3 (c : Dev nD) (t : Fin cfg4.N) (x : S1x128.Idx) :
    (iblk4 V c 3 t : Vec Ideal S1x128 .f32) x = (V c (Pipeline.arrRef spec4 3) : S1x128.Idx → EReal) x := by
  obtain ⟨-, -, -, -, -, -, e0, e1, -⟩ := idx4 t
  unfold iblk4
  rw [View.read_apply]
  refine congrArg (V c (Pipeline.arrRef spec4 3) : S1x128.Idx → EReal) (funext fun a => Fin.ext ?_)
  match a with
  | ⟨0, _⟩ => show win4_3.index t (0 : Fin 2) * 1 + 1 * (x 0).val = (x 0).val; rw [e0]; omega
  | ⟨1, _⟩ => show win4_3.index t (1 : Fin 2) * 128 + 1 * (x 1).val = (x 1).val; rw [e1]; omega

/-- Window 4's block at every point is its whole array. -/
theorem blk4_4 (c : Dev nD) (t : Fin cfg4.N) (x : S1x128.Idx) :
    (iblk4 V c 4 t : Vec Ideal S1x128 .f32) x = (V c (Pipeline.arrRef spec4 4) : S1x128.Idx → EReal) x := by
  obtain ⟨-, -, -, -, -, -, -, -, e0, e1, -⟩ := idx4 t
  unfold iblk4
  rw [View.read_apply]
  refine congrArg (V c (Pipeline.arrRef spec4 4) : S1x128.Idx → EReal) (funext fun a => Fin.ext ?_)
  match a with
  | ⟨0, _⟩ => show win4_4.index t (0 : Fin 2) * 1 + 1 * (x 0).val = (x 0).val; rw [e0]; omega
  | ⟨1, _⟩ => show win4_4.index t (1 : Fin 2) * 128 + 1 * (x 1).val = (x 1).val; rw [e1]; omega

/-- Window 5's block at every point is its whole array. -/
theorem blk4_5 (c : Dev nD) (t : Fin cfg4.N) (x : S1x128.Idx) :
    (iblk4 V c 5 t : Vec Ideal S1x128 .f32) x = (V c (Pipeline.arrRef spec4 5) : S1x128.Idx → EReal) x := by
  obtain ⟨-, -, -, -, -, -, -, -, -, -, e0, e1, -⟩ := idx4 t
  unfold iblk4
  rw [View.read_apply]
  refine congrArg (V c (Pipeline.arrRef spec4 5) : S1x128.Idx → EReal) (funext fun a => Fin.ext ?_)
  match a with
  | ⟨0, _⟩ => show win4_5.index t (0 : Fin 2) * 1 + 1 * (x 0).val = (x 0).val; rw [e0]; omega
  | ⟨1, _⟩ => show win4_5.index t (1 : Fin 2) * 128 + 1 * (x 1).val = (x 1).val; rw [e1]; omega

/-- Window 6's block at every point is its whole array. -/
theorem blk4_6 (c : Dev nD) (t : Fin cfg4.N) (x : S1x128.Idx) :
    (iblk4 V c 6 t : Vec Ideal S1x128 .f32) x = (V c (Pipeline.arrRef spec4 6) : S1x128.Idx → EReal) x := by
  obtain ⟨-, -, -, -, -, -, -, -, -, -, -, -, e0, e1, -⟩ := idx4 t
  unfold iblk4
  rw [View.read_apply]
  refine congrArg (V c (Pipeline.arrRef spec4 6) : S1x128.Idx → EReal) (funext fun a => Fin.ext ?_)
  match a with
  | ⟨0, _⟩ => show win4_6.index t (0 : Fin 2) * 1 + 1 * (x 0).val = (x 0).val; rw [e0]; omega
  | ⟨1, _⟩ => show win4_6.index t (1 : Fin 2) * 128 + 1 * (x 1).val = (x 1).val; rw [e1]; omega

/-- Window 7's block at every point is its whole array. -/
theorem blk4_7 (c : Dev nD) (t : Fin cfg4.N) (x : S1x1.Idx) :
    (iblk4 V c 7 t : Vec Ideal S1x1 .f32) x = (V c (Pipeline.arrRef spec4 7) : S1x1.Idx → EReal) x := by
  obtain ⟨-, -, -, -, -, -, -, -, -, -, -, -, -, -, e0, e1, -⟩ := idx4 t
  unfold iblk4
  rw [View.read_apply]
  refine congrArg (V c (Pipeline.arrRef spec4 7) : S1x1.Idx → EReal) (funext fun a => Fin.ext ?_)
  match a with
  | ⟨0, _⟩ => show win4_7.index t (0 : Fin 2) * 1 + 1 * (x 0).val = (x 0).val; rw [e0]; omega
  | ⟨1, _⟩ => show win4_7.index t (1 : Fin 2) * 1 + 1 * (x 1).val = (x 1).val; rw [e1]; omega

/-- The arrays as the region finds them, as matrices. -/
abbrev A4_0 (c : Dev nD) : Cert.Gnn.Mat 50000 128 := V c (Pipeline.arrRef spec4 0)
abbrev A4_1 (c : Dev nD) : Cert.Gnn.Mat 50000 128 := V c (Pipeline.arrRef spec4 1)
abbrev A4_2 (c : Dev nD) : Cert.Gnn.Mat 128 128 := V c (Pipeline.arrRef spec4 2)
abbrev A4_3 (c : Dev nD) : Cert.Gnn.Mat 1 128 := V c (Pipeline.arrRef spec4 3)
abbrev A4_4 (c : Dev nD) : Cert.Gnn.Mat 1 128 := V c (Pipeline.arrRef spec4 4)
abbrev A4_5 (c : Dev nD) : Cert.Gnn.Mat 1 128 := V c (Pipeline.arrRef spec4 5)
abbrev A4_6 (c : Dev nD) : Cert.Gnn.Mat 1 128 := V c (Pipeline.arrRef spec4 6)
abbrev A4_7 (c : Dev nD) : Cert.Gnn.Mat 1 1 := V c (Pipeline.arrRef spec4 7)

/-- The node update as one array. -/
abbrev G4 (c : Dev nD) : Cert.Gnn.Mat 50000 128 :=
  Cert.Gnn.toMat (Cert.Gnn.hnew (A4_0 V c) (A4_7 V c (ix2 (0 : Fin 1) (0 : Fin 1)))
    (Cert.Gnn.bn (Ideal.ofBits .f32 0x3727C5AC#32) (Cert.Gnn.pre (A4_0 V c) (A4_2 V c) (A4_1 V c))
      (Cert.Gnn.ofRow (A4_3 V c)) (Cert.Gnn.ofRow (A4_4 V c)) (Cert.Gnn.ofRow (A4_5 V c)) (Cert.Gnn.ofRow (A4_6 V c))))

/-- What point t writes back is block t of the node update. -/
theorem flushed4 (c : Dev nD) (t : Fin cfg4.N) :
    (dat4 (F := Ideal) V c).flushed 8 t = ((cfg4.win 8).blk t).view.read (Elt Ideal) (G4 V c) := by
  show (cfg4.win 8).cut (grid4.coords t) ((dat4 (F := Ideal) V c).after 8 t) = _
  rw [after4_8]
  unfold out4_8
  rw [View.canon_unit_zero hz4]
  simp only [View.ld_unit_zero (S := S5000x128) hz4, View.ld_unit_zero (S := S128x128) hz4, View.ld_unit_zero (S := S1x128) hz4, View.ld_unit_zero (S := S1x1) hz4]
  obtain ⟨-, -, -, -, -, -, -, -, -, -, -, -, -, -, -, -, e0, e1⟩ := idx4 t
  funext j
  obtain ⟨r, q, rfl⟩ : ∃ (r : Fin 5000) (q : Fin 128), j = ix2 r q := ⟨j 0, j 1, eq_ix2 j⟩
  refine (pay4_apply (iblk4 V c 0 t) (iblk4 V c 2 t) (iblk4 V c 1 t) (iblk4 V c 4 t) (iblk4 V c 3 t) (iblk4 V c 5 t) (iblk4 V c 6 t) (iblk4 V c 7 t) (iblk4 V c 0 t) r q).trans ?_
  have hr : ((((cfg4.win 8).blk t).view.emb (ix2 r q)) 0).val = 5000 * t.val + r.val := by
    show win4_8.index t (0 : Fin 2) * 5000 + 1 * r.val = 5000 * t.val + r.val; rw [e0]; omega
  have hq : ((((cfg4.win 8).blk t).view.emb (ix2 r q)) 1) = q := Fin.ext (by
    show win4_8.index t (1 : Fin 2) * 128 + 1 * q.val = q.val; rw [e1]; omega)
  show _ = A4_0 V c (ix2 ((((cfg4.win 8).blk t).view.emb (ix2 r q)) 0) ((((cfg4.win 8).blk t).view.emb (ix2 r q)) 1))
      + A4_7 V c (ix2 (0 : Fin 1) (0 : Fin 1)) *
        (((((∑ k : Fin 128, A4_0 V c (ix2 ((((cfg4.win 8).blk t).view.emb (ix2 r q)) 0) k) * A4_2 V c (ix2 k ((((cfg4.win 8).blk t).view.emb (ix2 r q)) 1)))
              + A4_1 V c (ix2 ((((cfg4.win 8).blk t).view.emb (ix2 r q)) 0) ((((cfg4.win 8).blk t).view.emb (ix2 r q)) 1)))
            - A4_3 V c (ix2 (0 : Fin 1) ((((cfg4.win 8).blk t).view.emb (ix2 r q)) 1)))
          * Ideal.rsqrt (A4_4 V c (ix2 (0 : Fin 1) ((((cfg4.win 8).blk t).view.emb (ix2 r q)) 1)) + Ideal.ofBits .f32 0x3727C5AC#32))
          * A4_5 V c (ix2 (0 : Fin 1) ((((cfg4.win 8).blk t).view.emb (ix2 r q)) 1))
        + A4_6 V c (ix2 (0 : Fin 1) ((((cfg4.win 8).blk t).view.emb (ix2 r q)) 1)))
  rw [hq]
  have h0 : iblk4 V c 0 t (ix2 r q) = A4_0 V c (ix2 ((((cfg4.win 8).blk t).view.emb (ix2 r q)) 0) q) := blk4_0 V c t (ix2 r q) _ hr rfl
  have h1 : iblk4 V c 1 t (ix2 r q) = A4_1 V c (ix2 ((((cfg4.win 8).blk t).view.emb (ix2 r q)) 0) q) := blk4_1 V c t (ix2 r q) _ hr rfl
  refine congrArg₂ (· + ·) h0 (congrArg₂ (· * ·) (blk4_7 V c t _) (congrArg₂ (· + ·) (congrArg₂ (· * ·) (congrArg₂ (· * ·) (congrArg₂ (· - ·)
    (congrArg₂ (· + ·) (Finset.sum_congr rfl fun k _ => ?_) h1) (blk4_3 V c t _)) (congrArg (fun z : EReal => Ideal.rsqrt (z + Ideal.ofBits .f32 0x3727C5AC#32)) (blk4_4 V c t _))) (blk4_5 V c t _)) (blk4_6 V c t _)))
  exact congr (congrArg HMul.hMul (blk4_0 V c t (ix2 r k) _ hr rfl)) (blk4_2 V c t (ix2 k q))

/-- An index of the array is in point t's block of window 8 iff each coordinate is in the block's range on its axis. -/
theorem mem_blk4_8 (t : Fin cfg4.N) (i : S50000x128.Idx) :
    i ∈ ((cfg4.win 8).blk t).view.set ↔ ∀ a : Fin 2, win4_8.index t a * S5000x128.size a ≤ (i a).val ∧ (i a).val < win4_8.index t a * S5000x128.size a + S5000x128.size a := by
  show i ∈ ((View.whole main_v51).slice (win4_8.rect t)).set ↔ _
  rw [View.set_slice_whole, Rect.mem_set_unit]
  exact Iff.rfl

/-- Row i is in block i / 5000. -/
theorem cover4_8 (i : S50000x128.Idx) : ∃ t : Fin cfg4.N, (cfg4.win 8).flush t = true ∧ i ∈ ((cfg4.win 8).blk t).view.set := by
  have hN : grid4.N = 10 := N_4
  have hi0 : (i 0).val < 50000 := (i 0).isLt
  have hi1 : (i 1).val < 128 := (i 1).isLt
  let t : Fin cfg4.N := ⟨(i 0).val / 5000, by show (i 0).val / 5000 < grid4.N; rw [hN]; omega⟩
  obtain ⟨-, -, -, -, -, -, -, -, -, -, -, -, -, -, -, -, e0, e1⟩ := idx4 t
  have ht : t.val = (i 0).val / 5000 := rfl
  refine ⟨t, flush4_8 t, ?_⟩
  rw [mem_blk4_8]
  intro a
  match a with
  | ⟨0, _⟩ => show win4_8.index t (0 : Fin 2) * 5000 ≤ (i 0).val ∧ (i 0).val < win4_8.index t (0 : Fin 2) * 5000 + 5000; rw [e0, ht]; omega
  | ⟨1, _⟩ => show win4_8.index t (1 : Fin 2) * 128 ≤ (i 1).val ∧ (i 1).val < win4_8.index t (1 : Fin 2) * 128 + 128; rw [e1]; omega

/-- The node update's result array after the ten points. -/
theorem upd4 (c : Dev nD) :
    (dat4 (F := Ideal) V c).arrAt 8 cfg4.N
      = Cert.Gnn.toMat (Cert.Gnn.hnew (V c (Pipeline.arrRef spec4 0) : Cert.Gnn.Mat 50000 128)
          ((V c (Pipeline.arrRef spec4 7) : Cert.Gnn.Mat 1 1) (ix2 (0 : Fin 1) (0 : Fin 1)))
          (Cert.Gnn.bn (Ideal.ofBits .f32 0x3727C5AC#32)
            (Cert.Gnn.pre (V c (Pipeline.arrRef spec4 0) : Cert.Gnn.Mat 50000 128) (V c (Pipeline.arrRef spec4 2) : Cert.Gnn.Mat 128 128) (V c (Pipeline.arrRef spec4 1) : Cert.Gnn.Mat 50000 128))
            (Cert.Gnn.ofRow (V c (Pipeline.arrRef spec4 3) : Cert.Gnn.Mat 1 128)) (Cert.Gnn.ofRow (V c (Pipeline.arrRef spec4 4) : Cert.Gnn.Mat 1 128))
            (Cert.Gnn.ofRow (V c (Pipeline.arrRef spec4 5) : Cert.Gnn.Mat 1 128)) (Cert.Gnn.ofRow (V c (Pipeline.arrRef spec4 6) : Cert.Gnn.Mat 1 128)))) :=
  (dat4 (F := Ideal) V c).arrAt_eq_of_cover 8 (G4 V c) (fun t _ => flushed4 V c t) cover4_8

end Cert.KernelIdeal.RowRegion

end
-- ==== Proof.LibColSum.lean ====
/-
  Over the library only, at the ideal instance: a sum down the columns of an [a, b] matrix. A multi_reduction <add>
  along axis 0 into [b] reads, at column c, the sum over k < a of the entries (k, c) (the accumulator being the zero
  word); the lifted index over c with k inserted on axis 0 is (k, c).
-/
import Idealize.ShloMosaic.PureOps.Ideal.Laws
import Idealize.ShloMosaic.Lib.ValueIdx
import Idealize.ShloMosaic.Lib.Pipeline.Value

noncomputable section

open scoped BigOperators

namespace Cert.LibColSum

open Idealize.ShloMosaic Idealize.ShloMosaic.ValueIdx

/-- Over position `c` of the reduced vector, with `k` on the reduced (first) axis, lies the matrix index `(k, c)`. -/
theorem lift_col {a b : ℕ} (h : (⟨2, ![a, b]⟩ : Shape).Reduces [0] ⟨1, ![b]⟩) (c : Fin b) (k : Fin a) :
    h.lift (ix1 c) k = ix2 k c :=
  funext fun d => Fin.ext (by match d with | ⟨0, _⟩ => rfl | ⟨1, _⟩ => rfl)

/-- The sum down a column: at `c`, the sum over the column's entries. -/
theorem colSum_apply {a b : ℕ} {φ : FTy} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ) (c : Fin b) :
    multiReduction .add [0] ⟨1, ![b]⟩ src acc h hφ hacc (ix1 c) = ∑ k : Fin a, src (ix2 k c) :=
  (Ideal.multiReduction_add_single src acc h hφ hacc (ix1 c)).trans
    (Finset.sum_congr rfl fun k _ => congrArg src (lift_col h c k))

/-- A [b] vector shape-cast to a [1, b] row reads, at (0, c), the vector's entry c. -/
theorem row_of_vec {b : ℕ} {α : Type} (v : (⟨1, ![b]⟩ : Shape).Idx → α) (h : (⟨1, ![b]⟩ : Shape).ShapeCasts ⟨2, ![1, b]⟩) (c : Fin b) :
    shapeCast ⟨2, ![1, b]⟩ v h (ix2 (0 : Fin 1) c) = v (ix1 c) :=
  (shapeCast_addUnit_apply ![b] v h (ix2 (0 : Fin 1) c)).trans
    (congrArg v (funext fun d => by match d with | ⟨0, _⟩ => rfl))

end Cert.LibColSum

end
-- ==== Proof.Region1Pay.lean ====
/-
  The arithmetic of the edge-statistics body, read at an index on the extended reals.

  On a tile of 2000 rows the body forms, at row r and column c, the sum of three plain products
  (x0·x3)(r,c) + (x1·x4)(r,c) + (x2·x5)(r,c) (the narrowing of the operands to a shorter format is the identity on the
  extended reals); one accumulator row receives, at column c, its old entry plus the sum of that value down the tile's
  rows, the other its old entry plus the sum of the value's squares. The zero rows stored at the first point read 0.
-/
import proofs.«167392_j80126909874572_1_alg».proof.Proof.Gen.KernelIdeal.Skeleton
import proofs.«167392_j80126909874572_1_alg».proof.Proof.LibPlainDot
import proofs.«167392_j80126909874572_1_alg».proof.Proof.LibColSum
import Idealize.ShloMosaic.Lib.Pipeline.Value

noncomputable section

namespace Cert.KernelIdeal.RegionValue

open Cert.KernelIdeal Cert.KernelIdeal.Gen Idealize.ShloMosaic Idealize.ShloMosaic.ValueIdx

/-- One product of the body at row r and column c. -/
theorem mm2000 (l : Vec Ideal S2000x128 .f32) (w : Vec Ideal S128x128 .f32) (r : Fin 2000) (c : Fin 128) :
    matmul (F := Ideal) dot_S2000x128_S128x128_S2000x128_1_0_0_1_n_n none (truncf .bf16 l bitsLt_bf16_f32)
        (truncf .bf16 w bitsLt_bf16_f32) (constant S2000x128 .f32 0x00000000#32) (ix2 r c)
      = ∑ k : Fin 128, l (ix2 r k) * w (ix2 k c) :=
  Cert.LibPlainDot.matmul_plain 2000 128 128 none (truncf .bf16 l bitsLt_bf16_f32) (truncf .bf16 w bitsLt_bf16_f32) (ix2 r c)

/-- The tile's pre-activation at row r and column c: three products added left to right. -/
theorem pay4_apply (x0 : Vec Ideal S2000x128 .f32) (x3 : Vec Ideal S128x128 .f32) (x1 : Vec Ideal S2000x128 .f32)
    (x4 : Vec Ideal S128x128 .f32) (x2 : Vec Ideal S2000x128 .f32) (x5 : Vec Ideal S128x128 .f32) (r : Fin 2000) (c : Fin 128) :
    k1_pay4 (F := Ideal) x0 x3 x1 x4 x2 x5 (ix2 r c)
      = ((∑ k : Fin 128, x0 (ix2 r k) * x3 (ix2 k c)) + ∑ k : Fin 128, x1 (ix2 r k) * x4 (ix2 k c))
          + ∑ k : Fin 128, x2 (ix2 r k) * x5 (ix2 k c) := by
  unfold k1_pay4
  refine congr (congrArg HAdd.hAdd (congr (congrArg HAdd.hAdd (mm2000 x0 x3 r c)) ?_)) ?_
  · exact (congrArg (fun z : Vec Ideal S2000x128 .f32 => matmul (F := Ideal) dot_S2000x128_S128x128_S2000x128_1_0_0_1_n_n none (truncf .bf16 z bitsLt_bf16_f32)
        (truncf .bf16 x4 bitsLt_bf16_f32) (constant S2000x128 .f32 0x00000000#32) (ix2 r c)) (shapeCast_self x1 shapeCasts_S2000x128_S2000x128)).trans (mm2000 x1 x4 r c)
  · exact (congrArg (fun z : Vec Ideal S2000x128 .f32 => matmul (F := Ideal) dot_S2000x128_S128x128_S2000x128_1_0_0_1_n_n none (truncf .bf16 z bitsLt_bf16_f32)
        (truncf .bf16 x5 bitsLt_bf16_f32) (constant S2000x128 .f32 0x00000000#32) (ix2 r c)) (shapeCast_self x2 shapeCasts_S2000x128_S2000x128)).trans (mm2000 x2 x5 r c)

/-- The column-sum accumulator after a point: the old entry plus the sum of the tile's pre-activation down column c. -/
theorem pay5_apply (x0 : Vec Ideal S2000x128 .f32) (x3 : Vec Ideal S128x128 .f32) (x1 : Vec Ideal S2000x128 .f32)
    (x4 : Vec Ideal S128x128 .f32) (x2 : Vec Ideal S2000x128 .f32) (x5 : Vec Ideal S128x128 .f32) (v : Vec Ideal S1x128 .f32) (c : Fin 128) :
    k1_pay5 (F := Ideal) x0 x3 x1 x4 x2 x5 v (ix2 (0 : Fin 1) c)
      = v (ix2 (0 : Fin 1) c) + ∑ r : Fin 2000, k1_pay4 (F := Ideal) x0 x3 x1 x4 x2 x5 (ix2 r c) := by
  unfold k1_pay5
  refine congr (congrArg HAdd.hAdd (congrFun (shapeCast_self v shapeCasts_S1x128_S1x128) (ix2 (0 : Fin 1) c))) ?_
  exact (Cert.LibColSum.row_of_vec _ shapeCasts_S128_S1x128 c).trans
    (Cert.LibColSum.colSum_apply (k1_pay4 (F := Ideal) x0 x3 x1 x4 x2 x5) 0x00000000#32 reduces_S2000x128_S128 (.inl rfl) rfl c)

/-- The tile's column sums of squares, at column c. -/
theorem pay7_apply (x0 : Vec Ideal S2000x128 .f32) (x3 : Vec Ideal S128x128 .f32) (x1 : Vec Ideal S2000x128 .f32)
    (x4 : Vec Ideal S128x128 .f32) (x2 : Vec Ideal S2000x128 .f32) (x5 : Vec Ideal S128x128 .f32) (c : Fin 128) :
    k1_pay7 (F := Ideal) x0 x3 x1 x4 x2 x5 (ix1 c)
      = ∑ r : Fin 2000, k1_pay4 (F := Ideal) x0 x3 x1 x4 x2 x5 (ix2 r c) * k1_pay4 (F := Ideal) x0 x3 x1 x4 x2 x5 (ix2 r c) := by
  unfold k1_pay7
  exact Cert.LibColSum.colSum_apply (mulf (k1_pay4 (F := Ideal) x0 x3 x1 x4 x2 x5) (k1_pay4 (F := Ideal) x0 x3 x1 x4 x2 x5))
    0x00000000#32 reduces_S2000x128_S128 (.inl rfl) rfl c

/-- The accumulator of squares after a point: the old entry plus the tile's column sum of squares. -/
theorem pay1_apply (v : Vec Ideal S1x128 .f32) (s : FVec Ideal S128 .f32) (c : Fin 128) :
    k1_pay1 (F := Ideal) (k1_pay6 (F := Ideal) v) s (ix2 (0 : Fin 1) c) = v (ix2 (0 : Fin 1) c) + s (ix1 c) := by
  unfold k1_pay1 k1_pay6
  exact congr (congrArg HAdd.hAdd (congrFun (shapeCast_self v shapeCasts_S1x128_S1x128) (ix2 (0 : Fin 1) c)))
    (Cert.LibColSum.row_of_vec s shapeCasts_S128_S1x128 c)

/-- The first zero row reads 0. -/
theorem pay2_apply (j : S1x128.Idx) : k1_pay2 (F := Ideal) j = 0 := Ideal.ofBits_zero_f32

/-- The second zero row reads 0. -/
theorem pay3_apply (j : S1x128.Idx) : k1_pay3 (F := Ideal) j = 0 := Ideal.ofBits_zero_f32

end Cert.KernelIdeal.RegionValue

end
-- ==== Proof.LibTileSums.lean ====
/-
  Finite sums regrouped by blocks, in any commutative additive monoid (no finiteness of the summands is needed, so the
  lemmas apply to extended reals).

    * `sum_blocks`: a sum over a * b consecutive positions is the sum over a blocks of the sum over the b positions inside
      each block (position b * I + r is position r of block I).
    * `sum_tiles`: the same on both axes of a double sum, with the two middle sums exchanged: a sum over all pairs (i, j) is
      the sum over tile pairs (I, J) of the sum over the pairs inside tile (I, J). This is how a sum accumulated tile by
      tile over a grid meets one whole-array sum.
    * `sum_idx1`: a sum over the index set of a rank-1 array is the sum over its one coordinate.
  The summand is a function of natural-number positions, so that tile arithmetic on positions is plain arithmetic.
-/
import Idealize.ShloMosaic.Lib.ValueIdx

noncomputable section

namespace Cert.LibTileSums

open Idealize.ShloMosaic Idealize.ShloMosaic.ValueIdx

/-- A sum over a * b consecutive positions, block by block. -/
theorem sum_blocks {M : Type*} [AddCommMonoid M] (a b : ℕ) (g : ℕ → M) :
    ∑ i : Fin (a * b), g i.val = ∑ I : Fin a, ∑ r : Fin b, g (b * I.val + r.val) := by
  rw [← finProdFinEquiv.sum_comp, Fintype.sum_prod_type]
  refine Finset.sum_congr rfl fun I _ => Finset.sum_congr rfl fun r _ => ?_
  show g (r.val + b * I.val) = _
  rw [Nat.add_comm]

/-- A double sum over [a * b] x [a' * b'], tile pair by tile pair. -/
theorem sum_tiles {M : Type*} [AddCommMonoid M] (a b a' b' : ℕ) (g : ℕ → ℕ → M) :
    ∑ i : Fin (a * b), ∑ j : Fin (a' * b'), g i.val j.val
      = ∑ I : Fin a, ∑ J : Fin a', ∑ r : Fin b, ∑ r' : Fin b', g (b * I.val + r.val) (b' * J.val + r'.val) := by
  rw [sum_blocks a b (fun i => ∑ j : Fin (a' * b'), g i j.val)]
  refine Finset.sum_congr rfl fun I _ => ?_
  rw [Finset.sum_comm]
  have : ∀ r : Fin b, ∑ j : Fin (a' * b'), g (b * I.val + r.val) j.val
      = ∑ J : Fin a', ∑ r' : Fin b', g (b * I.val + r.val) (b' * J.val + r'.val) :=
    fun r => sum_blocks a' b' (fun j => g (b * I.val + r.val) j)
  rw [Finset.sum_comm]
  simp only [this]
  rw [Finset.sum_comm]

/-- A rank-1 index set is its one coordinate range. -/
def idxEquiv1 {n : ℕ} : (⟨1, ![n]⟩ : Shape).Idx ≃ Fin n where
  toFun i := i 0
  invFun a := ix1 a
  left_inv i := (eq_ix1 i).symm
  right_inv _ := rfl

/-- A sum over a rank-1 index set is the sum over its coordinate. -/
theorem sum_idx1 {M : Type*} [AddCommMonoid M] {n : ℕ} (f : (⟨1, ![n]⟩ : Shape).Idx → M) :
    ∑ i, f i = ∑ a : Fin n, f (ix1 a) := by
  rw [← Equiv.sum_comp (idxEquiv1 (n := n)).symm f]
  rfl

end Cert.LibTileSums

end
-- ==== Proof.RegionAccum.lean ====
/-
  A sum accumulated tile by tile is the sum over all positions.

  A running value that starts at zero plus the first tile's contribution and then adds each next tile's contribution
  is, after tile n, the sum of the contributions of tiles 0, …, n. When the contribution of tile I is the sum over the b
  positions b·I + r of the tile, the running value after the last of a tiles is the sum over all a·b positions. Only
  associativity and commutativity of addition are used, so the statements hold on the extended reals.
-/
import proofs.«167392_j80126909874572_1_alg».proof.Proof.LibTileSums

noncomputable section

namespace Cert.KernelIdeal.RegionValue

/-- The running value after tile n is the sum of the first n + 1 contributions. -/
theorem running_eq_sum_range {M : Type*} [AddCommMonoid M] (acc tile : ℕ → M) (N : ℕ)
    (h0 : acc 0 = 0 + tile 0) (hs : ∀ n, n + 1 < N → acc (n + 1) = acc n + tile (n + 1)) :
    ∀ n, n < N → acc n = ∑ i ∈ Finset.range (n + 1), tile i
  | 0, _ => by rw [h0, zero_add, Finset.sum_range_one]
  | n + 1, h => by
    rw [hs n h, running_eq_sum_range acc tile N h0 hs n (Nat.lt_of_succ_lt h), Finset.sum_range_succ _ (n + 1)]

/-- With tiles of b consecutive positions, the running value after the last of a tiles is the sum over all positions. -/
theorem running_last_eq_sum {M : Type*} [AddCommMonoid M] (a b : ℕ) (acc : ℕ → M) (g : ℕ → M)
    (h0 : acc 0 = 0 + ∑ r : Fin b, g (b * 0 + r.val))
    (hs : ∀ n, n + 1 < a + 1 → acc (n + 1) = acc n + ∑ r : Fin b, g (b * (n + 1) + r.val)) :
    acc a = ∑ i : Fin ((a + 1) * b), g i.val := by
  rw [running_eq_sum_range acc (fun I => ∑ r : Fin b, g (b * I + r.val)) (a + 1) h0 hs a (Nat.lt_succ_self a),
    Cert.LibTileSums.sum_blocks (a + 1) b g, Finset.sum_range]

end Cert.KernelIdeal.RegionValue

end
-- ==== Proof.Region1Tile.lean ====
/-
  Tiles of the edge-statistics region read off the arrays the region finds.

  The three [640000,128] arrays are cut into 320 tiles of 2000 rows, tile t holding rows 2000·t … 2000·t + 1999; the
  three [128,128] weights are whole at every point. So at row r of tile t the body's pre-activation is the
  specification's edge pre-activation at row 2000·t + r.
-/
import proofs.«167392_j80126909874572_1_alg».proof.Proof.Patched.KernelIdealFrame
import proofs.«167392_j80126909874572_1_alg».proof.Proof.Region1Pay
import proofs.«167392_j80126909874572_1_alg».proof.Proof.RegionAccum
import proofs.«167392_j80126909874572_1_alg».proof.Proof.Spec
import Idealize.ShloMosaic.Lib.Pipeline.Value
import Idealize.ShloMosaic.Lib.Tactic

noncomputable section

namespace Cert.KernelIdeal.RegionValue

open Cert.KernelIdeal Cert.KernelIdeal.Gen Cert.KernelIdeal.GenP
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The printed index maps over the grid: a row tile's block index is the point, every other block index is 0. -/
theorem idx1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0 :=
  (by decide +kernel : ∀ t : Fin grid1.N, _)

/-- Row r of tile t of array 0 is row 2000·t + r of the array. -/
theorem blk1_row0 (c : Dev nD) (t : Fin cfg1.N) (r : Fin 2000) (k : Fin 128) (h : 2000 * t.val + r.val < 640000) :
    (iblk1 V c 0 t : Vec Ideal S2000x128 .f32) (ix2 r k)
      = (V c (Pipeline.arrRef spec1 0) : Cert.Gnn.Mat 640000 128) (ix2 ⟨2000 * t.val + r.val, h⟩ k) := by
  have e := idx1 t
  unfold iblk1
  rw [View.read_apply]
  refine congrArg (V c (Pipeline.arrRef spec1 0)) (funext fun a => Fin.ext ?_)
  match a with
  | ⟨0, _⟩ => show win1_0.index t (0 : Fin 2) * 2000 + 1 * r.val = 2000 * t.val + r.val; omega
  | ⟨1, _⟩ => show win1_0.index t (1 : Fin 2) * 128 + 1 * k.val = k.val; omega

/-- Row r of tile t of array 1 is row 2000·t + r of the array. -/
theorem blk1_row1 (c : Dev nD) (t : Fin cfg1.N) (r : Fin 2000) (k : Fin 128) (h : 2000 * t.val + r.val < 640000) :
    (iblk1 V c 1 t : Vec Ideal S2000x128 .f32) (ix2 r k)
      = (V c (Pipeline.arrRef spec1 1) : Cert.Gnn.Mat 640000 128) (ix2 ⟨2000 * t.val + r.val, h⟩ k) := by
  have e := idx1 t
  unfold iblk1
  rw [View.read_apply]
  refine congrArg (V c (Pipeline.arrRef spec1 1)) (funext fun a => Fin.ext ?_)
  match a with
  | ⟨0, _⟩ => show win1_1.index t (0 : Fin 2) * 2000 + 1 * r.val = 2000 * t.val + r.val; omega
  | ⟨1, _⟩ => show win1_1.index t (1 : Fin 2) * 128 + 1 * k.val = k.val; omega

/-- Row r of tile t of array 2 is row 2000·t + r of the array. -/
theorem blk1_row2 (c : Dev nD) (t : Fin cfg1.N) (r : Fin 2000) (k : Fin 128) (h : 2000 * t.val + r.val < 640000) :
    (iblk1 V c 2 t : Vec Ideal S2000x128 .f32) (ix2 r k)
      = (V c (Pipeline.arrRef spec1 2) : Cert.Gnn.Mat 640000 128) (ix2 ⟨2000 * t.val + r.val, h⟩ k) := by
  have e := idx1 t
  unfold iblk1
  rw [View.read_apply]
  refine congrArg (V c (Pipeline.arrRef spec1 2)) (funext fun a => Fin.ext ?_)
  match a with
  | ⟨0, _⟩ => show win1_2.index t (0 : Fin 2) * 2000 + 1 * r.val = 2000 * t.val + r.val; omega
  | ⟨1, _⟩ => show win1_2.index t (1 : Fin 2) * 128 + 1 * k.val = k.val; omega

/-- The weight window 3 is the whole array at every point. -/
theorem blk1_w3 (c : Dev nD) (t : Fin cfg1.N) (k : Fin 128) (col : Fin 128) :
    (iblk1 V c 3 t : Vec Ideal S128x128 .f32) (ix2 k col)
      = (V c (Pipeline.arrRef spec1 3) : Cert.Gnn.Mat 128 128) (ix2 k col) := by
  have e := idx1 t
  unfold iblk1
  rw [View.read_apply]
  refine congrArg (V c (Pipeline.arrRef spec1 3)) (funext fun a => Fin.ext ?_)
  match a with
  | ⟨0, _⟩ => show win1_3.index t (0 : Fin 2) * 128 + 1 * k.val = k.val; omega
  | ⟨1, _⟩ => show win1_3.index t (1 : Fin 2) * 128 + 1 * col.val = col.val; omega

/-- The weight window 4 is the whole array at every point. -/
theorem blk1_w4 (c : Dev nD) (t : Fin cfg1.N) (k : Fin 128) (col : Fin 128) :
    (iblk1 V c 4 t : Vec Ideal S128x128 .f32) (ix2 k col)
      = (V c (Pipeline.arrRef spec1 4) : Cert.Gnn.Mat 128 128) (ix2 k col) := by
  have e := idx1 t
  unfold iblk1
  rw [View.read_apply]
  refine congrArg (V c (Pipeline.arrRef spec1 4)) (funext fun a => Fin.ext ?_)
  match a with
  | ⟨0, _⟩ => show win1_4.index t (0 : Fin 2) * 128 + 1 * k.val = k.val; omega
  | ⟨1, _⟩ => show win1_4.index t (1 : Fin 2) * 128 + 1 * col.val = col.val; omega

/-- The weight window 5 is the whole array at every point. -/
theorem blk1_w5 (c : Dev nD) (t : Fin cfg1.N) (k : Fin 128) (col : Fin 128) :
    (iblk1 V c 5 t : Vec Ideal S128x128 .f32) (ix2 k col)
      = (V c (Pipeline.arrRef spec1 5) : Cert.Gnn.Mat 128 128) (ix2 k col) := by
  have e := idx1 t
  unfold iblk1
  rw [View.read_apply]
  refine congrArg (V c (Pipeline.arrRef spec1 5)) (funext fun a => Fin.ext ?_)
  match a with
  | ⟨0, _⟩ => show win1_5.index t (0 : Fin 2) * 128 + 1 * k.val = k.val; omega
  | ⟨1, _⟩ => show win1_5.index t (1 : Fin 2) * 128 + 1 * col.val = col.val; omega

/-- The edge pre-activation of the specification over the arrays the region finds. -/
abbrev y1 (c : Dev nD) : Fin 640000 → Fin 128 → EReal :=
  Cert.Gnn.ehat (V c (Pipeline.arrRef spec1 0) : Cert.Gnn.Mat 640000 128) (V c (Pipeline.arrRef spec1 1) : Cert.Gnn.Mat 640000 128)
    (V c (Pipeline.arrRef spec1 2) : Cert.Gnn.Mat 640000 128) (V c (Pipeline.arrRef spec1 3) : Cert.Gnn.Mat 128 128)
    (V c (Pipeline.arrRef spec1 4) : Cert.Gnn.Mat 128 128) (V c (Pipeline.arrRef spec1 5) : Cert.Gnn.Mat 128 128)

/-- The body's pre-activation at row r of tile t is the specification's at row 2000·t + r. -/
theorem tile1_pre (c : Dev nD) (t : Fin cfg1.N) (r : Fin 2000) (col : Fin 128) (h : 2000 * t.val + r.val < 640000) :
    k1_pay4 (F := Ideal) (iblk1 V c 0 t) (iblk1 V c 3 t) (iblk1 V c 1 t) (iblk1 V c 4 t) (iblk1 V c 2 t) (iblk1 V c 5 t) (ix2 r col)
      = y1 V c ⟨2000 * t.val + r.val, h⟩ col :=
  (pay4_apply (iblk1 V c 0 t) (iblk1 V c 3 t) (iblk1 V c 1 t) (iblk1 V c 4 t) (iblk1 V c 2 t) (iblk1 V c 5 t) r col).trans
    (congr (congrArg HAdd.hAdd (congr (congrArg HAdd.hAdd
      (Finset.sum_congr rfl fun k _ => congr (congrArg HMul.hMul (blk1_row0 V c t r k h)) (blk1_w3 V c t k col)))
      (Finset.sum_congr rfl fun k _ => congr (congrArg HMul.hMul (blk1_row1 V c t r k h)) (blk1_w4 V c t k col))))
      (Finset.sum_congr rfl fun k _ => congr (congrArg HMul.hMul (blk1_row2 V c t r k h)) (blk1_w5 V c t k col)))

end Cert.KernelIdeal.RegionValue

end
-- ==== Proof.Region1Cases.lean ====
/-
  What each case of the edge-statistics body leaves in its two accumulator rows, as the body's pure terms.

  At the first grid point the body stores a zero row in each accumulator, reads it back and adds the tile's column
  sums (of the pre-activation, and of its squares); at every later point it adds them to what the row held. Each case's
  contents are the last covering store's payload, with every load reading a whole buffer.
-/
import proofs.«167392_j80126909874572_1_alg».proof.Proof.Patched.KernelIdealFrame
import Idealize.ShloMosaic.Lib.Pipeline.Value
import Idealize.ShloMosaic.Lib.Tactic

noncomputable section

namespace Cert.KernelIdeal.RegionValue

open Cert.KernelIdeal Cert.KernelIdeal.Gen Cert.KernelIdeal.GenP
open Idealize.ShloMosaic Idealize.ShloMosaic.TcCoe Idealize.SL.Sem
open Idealize.ShloMosaic.Pipeline (Dat)

variable {F : FTy → Type} [FloatOps F]

theorem hz2 : (![0, 0] : Fin 2 → Nat) = fun _ => 0 := funext fun a => by fin_cases a <;> rfl

/-- Case B, the column-sum accumulator: the tile's column sums added to what the buffer held. -/
theorem out_B_6 (c : Dev nD) (i : grid1.Coords) (a1 : Memref sig .tc .vmem S2000x128 .f32) (h1 : a1.IsWhole) (a2 : Memref sig .tc .vmem S2000x128 .f32) (h2 : a2.IsWhole) (a3 : Memref sig .tc .vmem S2000x128 .f32) (h3 : a3.IsWhole) (a4 : Memref sig .tc .vmem S128x128 .f32) (h4 : a4.IsWhole) (a5 : Memref sig .tc .vmem S128x128 .f32) (h5 : a5.IsWhole) (a6 : Memref sig .tc .vmem S128x128 .f32) (h6 : a6.IsWhole) (a7 : Memref sig .tc .vmem S1x128 .f32) (h7 : a7.IsWhole) (a8 : Memref sig .tc .vmem S1x128 .f32) (h8 : a8.IsWhole) (hc : ¬cond1_0 i) (x0 x1 x2 : Vec F S2000x128 .f32) (x3 x4 x5 : Vec F S128x128 .f32) (xo6 xo7 : Vec F S1x128 .f32) :
    out1_B_6 c i a1 h1 a2 h2 a3 h3 a4 h4 a5 h5 a6 h6 a7 h7 a8 h8 hc x0 x1 x2 x3 x4 x5 xo6 xo7 = k1_pay5 x0 x3 x1 x4 x2 x5 xo6 := by
  unfold out1_B_6
  rw [View.read_writes_eq_canon _ _ _ (cover1_B_6 c i a1 h1 a2 h2 a3 h3 a4 h4 a5 h5 a6 h6 a7 h7 a8 h8 hc x0 x1 x2 x3 x4 x5 xo6 xo7)]
  unfold kernelRun1_B
  dsimp only
  rw [View.canon_unit_zero hz2]
  simp only [View.readAt_eq_ld, h1.read_unread, h2.read_unread, h3.read_unread, h4.read_unread, h5.read_unread, h6.read_unread, h7.read_unread, h8.read_unread, View.ld_unit_zero (S := S2000x128) hz2, View.ld_unit_zero (S := S128x128) hz2, View.ld_unit_zero (S := S1x128) hz2]

/-- Case B, the accumulator of squares: the tile's column sums of squares added to what the buffer held. -/
theorem out_B_7 (c : Dev nD) (i : grid1.Coords) (a1 : Memref sig .tc .vmem S2000x128 .f32) (h1 : a1.IsWhole) (a2 : Memref sig .tc .vmem S2000x128 .f32) (h2 : a2.IsWhole) (a3 : Memref sig .tc .vmem S2000x128 .f32) (h3 : a3.IsWhole) (a4 : Memref sig .tc .vmem S128x128 .f32) (h4 : a4.IsWhole) (a5 : Memref sig .tc .vmem S128x128 .f32) (h5 : a5.IsWhole) (a6 : Memref sig .tc .vmem S128x128 .f32) (h6 : a6.IsWhole) (a7 : Memref sig .tc .vmem S1x128 .f32) (h7 : a7.IsWhole) (a8 : Memref sig .tc .vmem S1x128 .f32) (h8 : a8.IsWhole) (hc : ¬cond1_0 i) (x0 x1 x2 : Vec F S2000x128 .f32) (x3 x4 x5 : Vec F S128x128 .f32) (xo6 xo7 : Vec F S1x128 .f32) :
    out1_B_7 c i a1 h1 a2 h2 a3 h3 a4 h4 a5 h5 a6 h6 a7 h7 a8 h8 hc x0 x1 x2 x3 x4 x5 xo6 xo7 = k1_pay1 (k1_pay6 xo7) (k1_pay7 x0 x3 x1 x4 x2 x5) := by
  unfold out1_B_7
  rw [View.read_writes_eq_canon _ _ _ (cover1_B_7 c i a1 h1 a2 h2 a3 h3 a4 h4 a5 h5 a6 h6 a7 h7 a8 h8 hc x0 x1 x2 x3 x4 x5 xo6 xo7)]
  unfold kernelRun1_B
  dsimp only
  sl_unfold_words
  rw [View.canon_unit_zero hz2]
  simp only [View.readAt_eq_ld, h1.read_unread, h2.read_unread, h3.read_unread, h4.read_unread, h5.read_unread, h6.read_unread, h7.read_unread, h8.read_unread, View.ld_unit_zero (S := S2000x128) hz2, View.ld_unit_zero (S := S128x128) hz2, View.ld_unit_zero (S := S1x128) hz2]

/-- Case A, the column-sum accumulator: the tile's column sums added to the zero row just stored. -/
theorem out_A_6 (c : Dev nD) (i : grid1.Coords) (a1 : Memref sig .tc .vmem S2000x128 .f32) (h1 : a1.IsWhole) (a2 : Memref sig .tc .vmem S2000x128 .f32) (h2 : a2.IsWhole) (a3 : Memref sig .tc .vmem S2000x128 .f32) (h3 : a3.IsWhole) (a4 : Memref sig .tc .vmem S128x128 .f32) (h4 : a4.IsWhole) (a5 : Memref sig .tc .vmem S128x128 .f32) (h5 : a5.IsWhole) (a6 : Memref sig .tc .vmem S128x128 .f32) (h6 : a6.IsWhole) (a7 : Memref sig .tc .vmem S1x128 .f32) (h7 : a7.IsWhole) (a8 : Memref sig .tc .vmem S1x128 .f32) (h8 : a8.IsWhole) (hc : cond1_0 i) (x0 x1 x2 : Vec F S2000x128 .f32) (x3 x4 x5 : Vec F S128x128 .f32) :
    out1_A_6 c i a1 h1 a2 h2 a3 h3 a4 h4 a5 h5 a6 h6 a7 h7 a8 h8 hc x0 x1 x2 x3 x4 x5 = k1_pay5 x0 x3 x1 x4 x2 x5 (k1_pay2 (F := F)) := by
  unfold out1_A_6
  rw [View.read_writes_eq_canon _ _ _ (cover1_A_6 c i a1 h1 a2 h2 a3 h3 a4 h4 a5 h5 a6 h6 a7 h7 a8 h8 hc x0 x1 x2 x3 x4 x5)]
  unfold kernelRun1_A
  dsimp only
  sl_unfold_words
  rw [View.canon_cons_unit_zero (S := S1x128) hz2, View.readCov_unit_zero (S := S1x128) _ hz2]
  simp only [View.readAt_eq_ld, h1.read_unread, h2.read_unread, h3.read_unread, h4.read_unread, h5.read_unread, h6.read_unread, h7.read_unread, h8.read_unread, View.ld_unit_zero (S := S2000x128) hz2, View.ld_unit_zero (S := S128x128) hz2, View.ld_unit_zero (S := S1x128) hz2]

/-- Case A, the accumulator of squares: the tile's column sums of squares added to the zero row just stored. -/
theorem out_A_7 (c : Dev nD) (i : grid1.Coords) (a1 : Memref sig .tc .vmem S2000x128 .f32) (h1 : a1.IsWhole) (a2 : Memref sig .tc .vmem S2000x128 .f32) (h2 : a2.IsWhole) (a3 : Memref sig .tc .vmem S2000x128 .f32) (h3 : a3.IsWhole) (a4 : Memref sig .tc .vmem S128x128 .f32) (h4 : a4.IsWhole) (a5 : Memref sig .tc .vmem S128x128 .f32) (h5 : a5.IsWhole) (a6 : Memref sig .tc .vmem S128x128 .f32) (h6 : a6.IsWhole) (a7 : Memref sig .tc .vmem S1x128 .f32) (h7 : a7.IsWhole) (a8 : Memref sig .tc .vmem S1x128 .f32) (h8 : a8.IsWhole) (hc : cond1_0 i) (x0 x1 x2 : Vec F S2000x128 .f32) (x3 x4 x5 : Vec F S128x128 .f32) :
    out1_A_7 c i a1 h1 a2 h2 a3 h3 a4 h4 a5 h5 a6 h6 a7 h7 a8 h8 hc x0 x1 x2 x3 x4 x5 = k1_pay1 (k1_pay6 (k1_pay3 (F := F))) (k1_pay7 x0 x3 x1 x4 x2 x5) := by
  unfold out1_A_7
  rw [View.read_writes_eq_canon _ _ _ (cover1_A_7 c i a1 h1 a2 h2 a3 h3 a4 h4 a5 h5 a6 h6 a7 h7 a8 h8 hc x0 x1 x2 x3 x4 x5)]
  unfold kernelRun1_A
  dsimp only
  sl_unfold_words
  rw [View.canon_cons_unit_zero (S := S1x128) hz2, View.readCov_unit_zero (S := S1x128) _ hz2]
  simp only [View.readAt_eq_ld, h1.read_unread, h2.read_unread, h3.read_unread, h4.read_unread, h5.read_unread, h6.read_unread, h7.read_unread, h8.read_unread, View.ld_unit_zero (S := S2000x128) hz2, View.ld_unit_zero (S := S128x128) hz2, View.ld_unit_zero (S := S1x128) hz2]

end Cert.KernelIdeal.RegionValue

end
-- ==== Proof.Region1Point.lean ====
/-
  One grid point of the edge-statistics region, read on the extended reals.

  With the specification's edge pre-activation laid out down each column as a function of a row position, the first
  point leaves in each accumulator row zero plus its tile's column sums (of the value, and of its square), and every
  later point leaves what the row held plus its tile's column sums.
-/
import proofs.«167392_j80126909874572_1_alg».proof.Proof.Patched.KernelIdealFrame
import proofs.«167392_j80126909874572_1_alg».proof.Proof.Region1Tile
import proofs.«167392_j80126909874572_1_alg».proof.Proof.Region1Cases
import proofs.«167392_j80126909874572_1_alg».proof.Proof.RegionAccum
import proofs.«167392_j80126909874572_1_alg».proof.Proof.Spec
import Idealize.ShloMosaic.Lib.Pipeline.Value
import Idealize.ShloMosaic.Lib.Tactic

noncomputable section

namespace Cert.KernelIdeal.RegionValue

open Cert.KernelIdeal Cert.KernelIdeal.Gen Cert.KernelIdeal.GenP
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The pre-activation down column col as a function of a natural-number row position (0 past the last row). -/
def g1 (c : Dev nD) (col : Fin 128) (i : ℕ) : EReal := if h : i < 640000 then y1 V c ⟨i, h⟩ col else 0
/-- Its square, likewise. -/
def q1 (c : Dev nD) (col : Fin 128) (i : ℕ) : EReal := if h : i < 640000 then y1 V c ⟨i, h⟩ col * y1 V c ⟨i, h⟩ col else 0

theorem g1_of_lt (c : Dev nD) (col : Fin 128) (i : ℕ) (h : i < 640000) : g1 V c col i = y1 V c ⟨i, h⟩ col := dif_pos h
theorem q1_of_lt (c : Dev nD) (col : Fin 128) (i : ℕ) (h : i < 640000) :
    q1 V c col i = y1 V c ⟨i, h⟩ col * y1 V c ⟨i, h⟩ col := dif_pos h

/-- Row r of tile t sits at position 2000·t + r. -/
theorem tile1_g (c : Dev nD) (t : Fin cfg1.N) (r : Fin 2000) (col : Fin 128) :
    k1_pay4 (F := Ideal) (iblk1 V c 0 t) (iblk1 V c 3 t) (iblk1 V c 1 t) (iblk1 V c 4 t) (iblk1 V c 2 t) (iblk1 V c 5 t) (ix2 r col) = g1 V c col (2000 * t.val + r.val) := by
  have hN : t.val < 320 := lt_of_lt_of_eq t.isLt (show cfg1.N = 320 from N_1)
  have h : 2000 * t.val + r.val < 640000 := by have := r.isLt; omega
  exact (tile1_pre V c t r col h).trans (g1_of_lt V c col _ h).symm

theorem tile1_q (c : Dev nD) (t : Fin cfg1.N) (r : Fin 2000) (col : Fin 128) :
    k1_pay4 (F := Ideal) (iblk1 V c 0 t) (iblk1 V c 3 t) (iblk1 V c 1 t) (iblk1 V c 4 t) (iblk1 V c 2 t) (iblk1 V c 5 t) (ix2 r col) * k1_pay4 (F := Ideal) (iblk1 V c 0 t) (iblk1 V c 3 t) (iblk1 V c 1 t) (iblk1 V c 4 t) (iblk1 V c 2 t) (iblk1 V c 5 t) (ix2 r col)
      = q1 V c col (2000 * t.val + r.val) := by
  have hN : t.val < 320 := lt_of_lt_of_eq t.isLt (show cfg1.N = 320 from N_1)
  have h : 2000 * t.val + r.val < 640000 := by have := r.isLt; omega
  exact (congr (congrArg HMul.hMul (tile1_pre V c t r col h)) (tile1_pre V c t r col h)).trans (q1_of_lt V c col _ h).symm

/-- At the first point both accumulators hold zero plus the tile's column sums. -/
theorem point1_A (c : Dev nD) (t : Fin cfg1.N) (h0 : t.val % 320 = 0) (col : Fin 128) :
    (outsAt1 V c t.val t.isLt).1 (ix2 (0 : Fin 1) col) = 0 + ∑ r : Fin 2000, g1 V c col (2000 * t.val + r.val)
    ∧ (outsAt1 V c t.val t.isLt).2 (ix2 (0 : Fin 1) col) = 0 + ∑ r : Fin 2000, q1 V c col (2000 * t.val + r.val) := by
  rw [outsAt1_A V c t h0]
  constructor
  · refine (congrFun (out_A_6 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) ((hcond1_0 t).mpr h0) (iblk1 V c 0 t) (iblk1 V c 1 t) (iblk1 V c 2 t) (iblk1 V c 3 t) (iblk1 V c 4 t) (iblk1 V c 5 t)) (ix2 (0 : Fin 1) col)).trans ?_
    refine (pay5_apply (iblk1 V c 0 t) (iblk1 V c 3 t) (iblk1 V c 1 t) (iblk1 V c 4 t) (iblk1 V c 2 t) (iblk1 V c 5 t) (k1_pay2 (F := Ideal)) col).trans ?_
    exact congr (congrArg HAdd.hAdd (pay2_apply _)) (Finset.sum_congr rfl fun r _ => tile1_g V c t r col)
  · refine (congrFun (out_A_7 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) ((hcond1_0 t).mpr h0) (iblk1 V c 0 t) (iblk1 V c 1 t) (iblk1 V c 2 t) (iblk1 V c 3 t) (iblk1 V c 4 t) (iblk1 V c 5 t)) (ix2 (0 : Fin 1) col)).trans ?_
    refine (pay1_apply (k1_pay3 (F := Ideal)) (k1_pay7 (F := Ideal) (iblk1 V c 0 t) (iblk1 V c 3 t) (iblk1 V c 1 t) (iblk1 V c 4 t) (iblk1 V c 2 t) (iblk1 V c 5 t)) col).trans ?_
    refine congr (congrArg HAdd.hAdd (pay3_apply _)) ?_
    exact (pay7_apply (iblk1 V c 0 t) (iblk1 V c 3 t) (iblk1 V c 1 t) (iblk1 V c 4 t) (iblk1 V c 2 t) (iblk1 V c 5 t) col).trans (Finset.sum_congr rfl fun r _ => tile1_q V c t r col)

/-- At every later point each accumulator holds what it held plus the tile's column sums. -/
theorem point1_B (c : Dev nD) (t : Fin cfg1.N) (h0 : ¬t.val % 320 = 0) (col : Fin 128) :
    (outsAt1 V c t.val t.isLt).1 (ix2 (0 : Fin 1) col)
        = (outsAt1 V c (t.val - 1) (Nat.lt_of_le_of_lt (Nat.sub_le _ _) t.isLt)).1 (ix2 (0 : Fin 1) col) + ∑ r : Fin 2000, g1 V c col (2000 * t.val + r.val)
    ∧ (outsAt1 V c t.val t.isLt).2 (ix2 (0 : Fin 1) col)
        = (outsAt1 V c (t.val - 1) (Nat.lt_of_le_of_lt (Nat.sub_le _ _) t.isLt)).2 (ix2 (0 : Fin 1) col) + ∑ r : Fin 2000, q1 V c col (2000 * t.val + r.val) := by
  rw [outsAt1_B V c t h0]
  constructor
  · refine (congrFun (out_B_6 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (fun h => h0 ((hcond1_0 t).mp h)) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).1 (outsAt1 V c (t.val - 1) (Nat.lt_of_le_of_lt (Nat.sub_le _ _) t.isLt)).2) (ix2 (0 : Fin 1) col)).trans ?_
    refine (pay5_apply (iblk1 V c 0 t) (iblk1 V c 3 t) (iblk1 V c 1 t) (iblk1 V c 4 t) (iblk1 V c 2 t) (iblk1 V c 5 t) (outsAt1 V c (t.val - 1) (Nat.lt_of_le_of_lt (Nat.sub_le _ _) t.isLt)).1 col).trans ?_
    exact congrArg ((outsAt1 V c (t.val - 1) (Nat.lt_of_le_of_lt (Nat.sub_le _ _) t.isLt)).1 (ix2 (0 : Fin 1) col) + ·) (Finset.sum_congr rfl fun r _ => tile1_g V c t r col)
  · refine (congrFun (out_B_7 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (fun h => h0 ((hcond1_0 t).mp h)) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).1 (outsAt1 V c (t.val - 1) (Nat.lt_of_le_of_lt (Nat.sub_le _ _) t.isLt)).2) (ix2 (0 : Fin 1) col)).trans ?_
    refine (pay1_apply (outsAt1 V c (t.val - 1) (Nat.lt_of_le_of_lt (Nat.sub_le _ _) t.isLt)).2 (k1_pay7 (F := Ideal) (iblk1 V c 0 t) (iblk1 V c 3 t) (iblk1 V c 1 t) (iblk1 V c 4 t) (iblk1 V c 2 t) (iblk1 V c 5 t)) col).trans ?_
    exact congrArg ((outsAt1 V c (t.val - 1) (Nat.lt_of_le_of_lt (Nat.sub_le _ _) t.isLt)).2 (ix2 (0 : Fin 1) col) + ·) ((pay7_apply (iblk1 V c 0 t) (iblk1 V c 3 t) (iblk1 V c 1 t) (iblk1 V c 4 t) (iblk1 V c 2 t) (iblk1 V c 5 t) col).trans (Finset.sum_congr rfl fun r _ => tile1_q V c t r col))

end Cert.KernelIdeal.RegionValue

end
-- ==== Proof.Region1Acc.lean ====
/-
  The two accumulator rows of the edge-statistics region after each grid point, and the arrays they leave.

  After point n each row holds, at column c, zero plus the sum over the first 2000·(n + 1) rows of the specification's
  edge pre-activation (respectively of its square): the first point stores a zero row and adds the first tile's column
  sums, every later point adds its tile's. The rows are written back once, after the last of the 320 points, and the one
  block is the whole [1,128] array, so the arrays end holding the column sums over all 640000 rows.
-/
import proofs.«167392_j80126909874572_1_alg».proof.Proof.Patched.KernelIdealFrame
import proofs.«167392_j80126909874572_1_alg».proof.Proof.Region1Point
import proofs.«167392_j80126909874572_1_alg».proof.Proof.RegionAccum
import proofs.«167392_j80126909874572_1_alg».proof.Proof.Spec
import Idealize.ShloMosaic.Lib.Pipeline.Value
import Idealize.ShloMosaic.Lib.Tactic

noncomputable section

namespace Cert.KernelIdeal.RegionValue

open Cert.KernelIdeal Cert.KernelIdeal.Gen Cert.KernelIdeal.GenP
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The column-sum accumulator at column col after point n (0 past the grid). -/
def acc1 (c : Dev nD) (col : Fin 128) (n : ℕ) : EReal :=
  if hn : n < cfg1.N then (outsAt1 V c n hn).1 (ix2 (0 : Fin 1) col) else 0
/-- The accumulator of squares, likewise. -/
def accq1 (c : Dev nD) (col : Fin 128) (n : ℕ) : EReal :=
  if hn : n < cfg1.N then (outsAt1 V c n hn).2 (ix2 (0 : Fin 1) col) else 0

/-- After the last point the column-sum accumulator holds the sum over all row positions. -/
theorem acc1_last (c : Dev nD) (col : Fin 128) : acc1 V c col 319 = ∑ i : Fin ((319 + 1) * 2000), g1 V c col i.val := by
  have hN : cfg1.N = 320 := N_1
  refine running_last_eq_sum 319 2000 (acc1 V c col) (g1 V c col) ?_ fun n hn => ?_
  · have h0 : 0 < cfg1.N := by omega
    unfold acc1
    rw [dif_pos h0]
    exact (point1_A V c ⟨0, h0⟩ rfl col).1
  · have h1 : n + 1 < cfg1.N := by omega
    have h2 : n < cfg1.N := by omega
    unfold acc1
    rw [dif_pos h1, dif_pos h2]
    exact (point1_B V c ⟨n + 1, h1⟩ (by dsimp only; omega) col).1

/-- After the last point the accumulator of squares holds the sum of squares over all row positions. -/
theorem accq1_last (c : Dev nD) (col : Fin 128) : accq1 V c col 319 = ∑ i : Fin ((319 + 1) * 2000), q1 V c col i.val := by
  have hN : cfg1.N = 320 := N_1
  refine running_last_eq_sum 319 2000 (accq1 V c col) (q1 V c col) ?_ fun n hn => ?_
  · have h0 : 0 < cfg1.N := by omega
    unfold accq1
    rw [dif_pos h0]
    exact (point1_A V c ⟨0, h0⟩ rfl col).2
  · have h1 : n + 1 < cfg1.N := by omega
    have h2 : n < cfg1.N := by omega
    unfold accq1
    rw [dif_pos h1, dif_pos h2]
    exact (point1_B V c ⟨n + 1, h1⟩ (by dsimp only; omega) col).2

/-- What the last point leaves: the column sums of the pre-activation and of its squares over all rows. -/
theorem outs1_last (c : Dev nD) (t : Fin cfg1.N) (ht : t.val = 319) (col : Fin 128) :
    (outsAt1 V c t.val t.isLt).1 (ix2 (0 : Fin 1) col) = Cert.Gnn.colSum (y1 V c) col
    ∧ (outsAt1 V c t.val t.isLt).2 (ix2 (0 : Fin 1) col) = Cert.Gnn.colSumSq (y1 V c) col := by
  constructor
  · have e : acc1 V c col t.val = ∑ i : Fin 640000, g1 V c col i.val := by rw [ht]; exact acc1_last V c col
    unfold acc1 at e
    rw [dif_pos t.isLt] at e
    rw [e]
    exact Finset.sum_congr rfl fun i _ => g1_of_lt V c col i.val i.isLt
  · have e : accq1 V c col t.val = ∑ i : Fin 640000, q1 V c col i.val := by rw [ht]; exact accq1_last V c col
    unfold accq1 at e
    rw [dif_pos t.isLt] at e
    rw [e]
    exact Finset.sum_congr rfl fun i _ => q1_of_lt V c col i.val i.isLt

/-- An index of a [1,128] row is (0, its column). -/
theorem row_idx (j : S1x128.Idx) : j = ix2 (0 : Fin 1) (j 1) := by
  have h0 : (j 0 : Nat) < 1 := (j 0).isLt
  have e0 : j 0 = (0 : Fin 1) := Fin.ext (by show (j 0 : Nat) = 0; omega)
  exact (eq_ix2 j).trans (congrArg (fun z => ix2 z (j 1)) e0)

end Cert.KernelIdeal.RegionValue

end
-- ==== Proof.Region1Value.lean ====
/-
  The two output arrays of the edge-statistics region after its whole grid.

  Each accumulator row is written back once, after the last of the 320 points, and its one block is the whole [1,128]
  array; what the row holds then is the column sum over all 640000 rows of the specification's edge pre-activation
  (respectively of its square), as functions of the arrays the region finds.
-/
import proofs.«167392_j80126909874572_1_alg».proof.Proof.Patched.KernelIdealFrame
import proofs.«167392_j80126909874572_1_alg».proof.Proof.Region1Acc
import proofs.«167392_j80126909874572_1_alg».proof.Proof.RegionAccum
import proofs.«167392_j80126909874572_1_alg».proof.Proof.Spec
import Idealize.ShloMosaic.Lib.Pipeline.Value
import Idealize.ShloMosaic.Lib.Tactic

noncomputable section

namespace Cert.KernelIdeal.RegionValue

open Cert.KernelIdeal Cert.KernelIdeal.Gen Cert.KernelIdeal.GenP
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The one write-back of window 6, after the last point, writes the whole row. -/
theorem flushed1_6 (c : Dev nD) (t : Fin cfg1.N) (hf : (cfg1.win 6).flush t = true) :
    (dat1 V c).flushed 6 t = ((cfg1.win 6).blk t).view.read (Elt Ideal) (fun j : S1x128.Idx => Cert.Gnn.colSum (y1 V c) (j 1)) := by
  have hN : cfg1.N = 320 := N_1
  have hlast : t.val = 319 := by have := (flush1_6 t).mp hf; have := t.isLt; omega
  have hX : (outsAt1 V c t.val t.isLt).1 = fun j : S1x128.Idx => Cert.Gnn.colSum (y1 V c) (j 1) :=
    funext fun j => (congrArg (outsAt1 V c t.val t.isLt).1 (row_idx j)).trans (outs1_last V c t hlast (j 1)).1
  show (cfg1.win 6).cut (grid1.coords t) ((dat1 V c).after 6 t) = _
  rw [after1_6, hX]
  clear hX hf
  obtain ⟨n, hn⟩ := t
  obtain rfl : n = 319 := hlast
  have e := idx1 ⟨319, hn⟩
  have hz' : (fun a => win1_6.index ⟨319, hn⟩ a * main_v33_0.ty.shape.size a) = fun _ => 0 := funext fun a => by
    match a with
    | ⟨0, _⟩ => show win1_6.index ⟨319, hn⟩ (0 : Fin 2) * 1 = 0; omega
    | ⟨1, _⟩ => show win1_6.index ⟨319, hn⟩ (1 : Fin 2) * 128 = 0; omega
  exact (Memref.read_access_unit_zero (Elt Ideal) main_v33_0 hz' (fun a => by rw [congrFun hz' a]; simp)
    (fun j : S1x128.Idx => Cert.Gnn.colSum (y1 V c) (j 1))).symm

/-- The last point's block of window 6 is the whole row. -/
theorem cover1_6 (i : S1x128.Idx) : ∃ t : Fin cfg1.N, (cfg1.win 6).flush t = true ∧ i ∈ ((cfg1.win 6).blk t).view.set := by
  have hN : cfg1.N = 320 := N_1
  have hl : 319 < cfg1.N := by omega
  have e := idx1 ⟨319, hl⟩
  refine ⟨⟨319, hl⟩, (flush1_6 ⟨319, hl⟩).mpr rfl, ?_⟩
  show i ∈ ((View.whole main_v33_0).slice (win1_6.rect ⟨319, hl⟩)).set
  rw [View.set_slice_whole, Rect.mem_set_unit]
  intro a
  have h0 : (i 0 : Nat) < 1 := (i 0).isLt
  have h1 : (i 1 : Nat) < 128 := (i 1).isLt
  match a with
  | ⟨0, _⟩ => show win1_6.index ⟨319, hl⟩ (0 : Fin 2) * 1 ≤ (i 0 : Nat) ∧ (i 0 : Nat) < win1_6.index ⟨319, hl⟩ (0 : Fin 2) * 1 + 1; omega
  | ⟨1, _⟩ => show win1_6.index ⟨319, hl⟩ (1 : Fin 2) * 128 ≤ (i 1 : Nat) ∧ (i 1 : Nat) < win1_6.index ⟨319, hl⟩ (1 : Fin 2) * 128 + 128; omega

/-- The one write-back of window 7, after the last point, writes the whole row. -/
theorem flushed1_7 (c : Dev nD) (t : Fin cfg1.N) (hf : (cfg1.win 7).flush t = true) :
    (dat1 V c).flushed 7 t = ((cfg1.win 7).blk t).view.read (Elt Ideal) (fun j : S1x128.Idx => Cert.Gnn.colSumSq (y1 V c) (j 1)) := by
  have hN : cfg1.N = 320 := N_1
  have hlast : t.val = 319 := by have := (flush1_7 t).mp hf; have := t.isLt; omega
  have hX : (outsAt1 V c t.val t.isLt).2 = fun j : S1x128.Idx => Cert.Gnn.colSumSq (y1 V c) (j 1) :=
    funext fun j => (congrArg (outsAt1 V c t.val t.isLt).2 (row_idx j)).trans (outs1_last V c t hlast (j 1)).2
  show (cfg1.win 7).cut (grid1.coords t) ((dat1 V c).after 7 t) = _
  rw [after1_7, hX]
  clear hX hf
  obtain ⟨n, hn⟩ := t
  obtain rfl : n = 319 := hlast
  have e := idx1 ⟨319, hn⟩
  have hz' : (fun a => win1_7.index ⟨319, hn⟩ a * main_v33_1.ty.shape.size a) = fun _ => 0 := funext fun a => by
    match a with
    | ⟨0, _⟩ => show win1_7.index ⟨319, hn⟩ (0 : Fin 2) * 1 = 0; omega
    | ⟨1, _⟩ => show win1_7.index ⟨319, hn⟩ (1 : Fin 2) * 128 = 0; omega
  exact (Memref.read_access_unit_zero (Elt Ideal) main_v33_1 hz' (fun a => by rw [congrFun hz' a]; simp)
    (fun j : S1x128.Idx => Cert.Gnn.colSumSq (y1 V c) (j 1))).symm

/-- The last point's block of window 7 is the whole row. -/
theorem cover1_7 (i : S1x128.Idx) : ∃ t : Fin cfg1.N, (cfg1.win 7).flush t = true ∧ i ∈ ((cfg1.win 7).blk t).view.set := by
  have hN : cfg1.N = 320 := N_1
  have hl : 319 < cfg1.N := by omega
  have e := idx1 ⟨319, hl⟩
  refine ⟨⟨319, hl⟩, (flush1_7 ⟨319, hl⟩).mpr rfl, ?_⟩
  show i ∈ ((View.whole main_v33_1).slice (win1_7.rect ⟨319, hl⟩)).set
  rw [View.set_slice_whole, Rect.mem_set_unit]
  intro a
  have h0 : (i 0 : Nat) < 1 := (i 0).isLt
  have h1 : (i 1 : Nat) < 128 := (i 1).isLt
  match a with
  | ⟨0, _⟩ => show win1_7.index ⟨319, hl⟩ (0 : Fin 2) * 1 ≤ (i 0 : Nat) ∧ (i 0 : Nat) < win1_7.index ⟨319, hl⟩ (0 : Fin 2) * 1 + 1; omega
  | ⟨1, _⟩ => show win1_7.index ⟨319, hl⟩ (1 : Fin 2) * 128 ≤ (i 1 : Nat) ∧ (i 1 : Nat) < win1_7.index ⟨319, hl⟩ (1 : Fin 2) * 128 + 128; omega

/-- The region's first output: the column sums of the pre-activation over all rows. -/
theorem sum1 (c : Dev nD) :
    (GenP.dat1 (F := Ideal) V c).arrAt 6 cfg1.N = fun j => Cert.Gnn.colSum (y1 V c) (j 1) :=
  (dat1 V c).arrAt_eq_of_cover 6 (fun j : S1x128.Idx => Cert.Gnn.colSum (y1 V c) (j 1)) (flushed1_6 V c) cover1_6

/-- The region's second output: the column sums of its squares over all rows. -/
theorem sumsq1 (c : Dev nD) :
    (GenP.dat1 (F := Ideal) V c).arrAt 7 cfg1.N = fun j => Cert.Gnn.colSumSq (y1 V c) (j 1) :=
  (dat1 V c).arrAt_eq_of_cover 7 (fun j : S1x128.Idx => Cert.Gnn.colSumSq (y1 V c) (j 1)) (flushed1_7 V c) cover1_7

end Cert.KernelIdeal.RegionValue

end
-- ==== Proof.Region3Pay.lean ====
/-
  The arithmetic of the node-statistics body, read at an index on the extended reals.

  On a tile of 5000 rows the body forms, at row r and column c, the plain product (x0·x2)(r,c) plus x1(r,c); one
  accumulator row receives, at column c, its old entry plus the sum of that value down the tile's rows, the other its
  old entry plus the sum of the value's squares. The zero rows stored at the first point read 0.
-/
import proofs.«167392_j80126909874572_1_alg».proof.Proof.Gen.KernelIdeal.Skeleton
import proofs.«167392_j80126909874572_1_alg».proof.Proof.LibPlainDot
import proofs.«167392_j80126909874572_1_alg».proof.Proof.LibColSum
import Idealize.ShloMosaic.Lib.Pipeline.Value

noncomputable section

namespace Cert.KernelIdeal.RegionValue

open Cert.KernelIdeal Cert.KernelIdeal.Gen Idealize.ShloMosaic Idealize.ShloMosaic.ValueIdx

/-- The body's product at row r and column c. -/
theorem mm5000 (l : Vec Ideal S5000x128 .f32) (w : Vec Ideal S128x128 .f32) (r : Fin 5000) (c : Fin 128) :
    matmul (F := Ideal) dot_S5000x128_S128x128_S5000x128_1_0_0_1_n_n none (truncf .bf16 l bitsLt_bf16_f32)
        (truncf .bf16 w bitsLt_bf16_f32) (constant S5000x128 .f32 0x00000000#32) (ix2 r c)
      = ∑ k : Fin 128, l (ix2 r k) * w (ix2 k c) :=
  Cert.LibPlainDot.matmul_plain 5000 128 128 none (truncf .bf16 l bitsLt_bf16_f32) (truncf .bf16 w bitsLt_bf16_f32) (ix2 r c)

/-- The tile's node pre-activation at row r and column c. -/
theorem pay3_3_apply (x0 : Vec Ideal S5000x128 .f32) (x2 : Vec Ideal S128x128 .f32) (x1 : Vec Ideal S5000x128 .f32) (r : Fin 5000) (c : Fin 128) :
    k3_pay3 (F := Ideal) x0 x2 x1 (ix2 r c) = (∑ k : Fin 128, x0 (ix2 r k) * x2 (ix2 k c)) + x1 (ix2 r c) := by
  unfold k3_pay3
  exact congr (congrArg HAdd.hAdd (mm5000 x0 x2 r c)) (congrFun (shapeCast_self x1 shapeCasts_S5000x128_S5000x128) (ix2 r c))

/-- The column-sum accumulator after a point. -/
theorem pay3_4_apply (x0 : Vec Ideal S5000x128 .f32) (x2 : Vec Ideal S128x128 .f32) (x1 : Vec Ideal S5000x128 .f32) (v : Vec Ideal S1x128 .f32) (c : Fin 128) :
    k3_pay4 (F := Ideal) x0 x2 x1 v (ix2 (0 : Fin 1) c)
      = v (ix2 (0 : Fin 1) c) + ∑ r : Fin 5000, k3_pay3 (F := Ideal) x0 x2 x1 (ix2 r c) := by
  unfold k3_pay4
  refine congr (congrArg HAdd.hAdd (congrFun (shapeCast_self v shapeCasts_S1x128_S1x128) (ix2 (0 : Fin 1) c))) ?_
  exact (Cert.LibColSum.row_of_vec _ shapeCasts_S128_S1x128 c).trans
    (Cert.LibColSum.colSum_apply (k3_pay3 (F := Ideal) x0 x2 x1) 0x00000000#32 reduces_S5000x128_S128 (.inl rfl) rfl c)

/-- The accumulator of squares after a point. -/
theorem pay3_5_apply (x0 : Vec Ideal S5000x128 .f32) (x2 : Vec Ideal S128x128 .f32) (x1 : Vec Ideal S5000x128 .f32) (v : Vec Ideal S1x128 .f32) (c : Fin 128) :
    k3_pay5 (F := Ideal) x0 x2 x1 v (ix2 (0 : Fin 1) c)
      = v (ix2 (0 : Fin 1) c) + ∑ r : Fin 5000, k3_pay3 (F := Ideal) x0 x2 x1 (ix2 r c) * k3_pay3 (F := Ideal) x0 x2 x1 (ix2 r c) := by
  unfold k3_pay5
  refine congr (congrArg HAdd.hAdd (congrFun (shapeCast_self v shapeCasts_S1x128_S1x128) (ix2 (0 : Fin 1) c))) ?_
  exact (Cert.LibColSum.row_of_vec _ shapeCasts_S128_S1x128 c).trans
    (Cert.LibColSum.colSum_apply (mulf (k3_pay3 (F := Ideal) x0 x2 x1) (k3_pay3 (F := Ideal) x0 x2 x1)) 0x00000000#32 reduces_S5000x128_S128 (.inl rfl) rfl c)

/-- The first zero row reads 0. -/
theorem pay3_1_apply (j : S1x128.Idx) : k3_pay1 (F := Ideal) j = 0 := Ideal.ofBits_zero_f32

/-- The second zero row reads 0. -/
theorem pay3_2_apply (j : S1x128.Idx) : k3_pay2 (F := Ideal) j = 0 := Ideal.ofBits_zero_f32

end Cert.KernelIdeal.RegionValue

end
-- ==== Proof.Region3Tile.lean ====
/-
  Tiles of the node-statistics region read off the arrays the region finds.

  The two [50000,128] arrays are cut into 10 tiles of 5000 rows, tile t holding rows 5000·t … 5000·t + 4999; the
  [128,128] weight is whole at every point. So at row r of tile t the body's value is the specification's node
  pre-activation at row 5000·t + r.
-/
import proofs.«167392_j80126909874572_1_alg».proof.Proof.Patched.KernelIdealFrame
import proofs.«167392_j80126909874572_1_alg».proof.Proof.Region3Pay
import proofs.«167392_j80126909874572_1_alg».proof.Proof.RegionAccum
import proofs.«167392_j80126909874572_1_alg».proof.Proof.Spec
import Idealize.ShloMosaic.Lib.Pipeline.Value
import Idealize.ShloMosaic.Lib.Tactic

noncomputable section

namespace Cert.KernelIdeal.RegionValue

open Cert.KernelIdeal Cert.KernelIdeal.Gen Cert.KernelIdeal.GenP
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The printed index maps over the grid: a row tile's block index is the point, every other block index is 0. -/
theorem idx3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0 :=
  (by decide +kernel : ∀ t : Fin grid3.N, _)

/-- Row r of tile t of array 0 is row 5000·t + r of the array. -/
theorem blk3_row0 (c : Dev nD) (t : Fin cfg3.N) (r : Fin 5000) (k : Fin 128) (h : 5000 * t.val + r.val < 50000) :
    (iblk3 V c 0 t : Vec Ideal S5000x128 .f32) (ix2 r k)
      = (V c (Pipeline.arrRef spec3 0) : Cert.Gnn.Mat 50000 128) (ix2 ⟨5000 * t.val + r.val, h⟩ k) := by
  have e := idx3 t
  unfold iblk3
  rw [View.read_apply]
  refine congrArg (V c (Pipeline.arrRef spec3 0)) (funext fun a => Fin.ext ?_)
  match a with
  | ⟨0, _⟩ => show win3_0.index t (0 : Fin 2) * 5000 + 1 * r.val = 5000 * t.val + r.val; omega
  | ⟨1, _⟩ => show win3_0.index t (1 : Fin 2) * 128 + 1 * k.val = k.val; omega

/-- Row r of tile t of array 1 is row 5000·t + r of the array. -/
theorem blk3_row1 (c : Dev nD) (t : Fin cfg3.N) (r : Fin 5000) (k : Fin 128) (h : 5000 * t.val + r.val < 50000) :
    (iblk3 V c 1 t : Vec Ideal S5000x128 .f32) (ix2 r k)
      = (V c (Pipeline.arrRef spec3 1) : Cert.Gnn.Mat 50000 128) (ix2 ⟨5000 * t.val + r.val, h⟩ k) := by
  have e := idx3 t
  unfold iblk3
  rw [View.read_apply]
  refine congrArg (V c (Pipeline.arrRef spec3 1)) (funext fun a => Fin.ext ?_)
  match a with
  | ⟨0, _⟩ => show win3_1.index t (0 : Fin 2) * 5000 + 1 * r.val = 5000 * t.val + r.val; omega
  | ⟨1, _⟩ => show win3_1.index t (1 : Fin 2) * 128 + 1 * k.val = k.val; omega

/-- The weight window is the whole array at every point. -/
theorem blk3_w2 (c : Dev nD) (t : Fin cfg3.N) (k : Fin 128) (col : Fin 128) :
    (iblk3 V c 2 t : Vec Ideal S128x128 .f32) (ix2 k col)
      = (V c (Pipeline.arrRef spec3 2) : Cert.Gnn.Mat 128 128) (ix2 k col) := by
  have e := idx3 t
  unfold iblk3
  rw [View.read_apply]
  refine congrArg (V c (Pipeline.arrRef spec3 2)) (funext fun a => Fin.ext ?_)
  match a with
  | ⟨0, _⟩ => show win3_2.index t (0 : Fin 2) * 128 + 1 * k.val = k.val; omega
  | ⟨1, _⟩ => show win3_2.index t (1 : Fin 2) * 128 + 1 * col.val = col.val; omega

/-- The node pre-activation of the specification over the arrays the region finds. -/
abbrev y3 (c : Dev nD) : Fin 50000 → Fin 128 → EReal :=
  Cert.Gnn.pre (V c (Pipeline.arrRef spec3 0) : Cert.Gnn.Mat 50000 128) (V c (Pipeline.arrRef spec3 2) : Cert.Gnn.Mat 128 128)
    (V c (Pipeline.arrRef spec3 1) : Cert.Gnn.Mat 50000 128)

/-- The body's value at row r of tile t is the specification's at row 5000·t + r. -/
theorem tile3_pre (c : Dev nD) (t : Fin cfg3.N) (r : Fin 5000) (col : Fin 128) (h : 5000 * t.val + r.val < 50000) :
    k3_pay3 (F := Ideal) (iblk3 V c 0 t) (iblk3 V c 2 t) (iblk3 V c 1 t) (ix2 r col) = y3 V c ⟨5000 * t.val + r.val, h⟩ col :=
  (pay3_3_apply (iblk3 V c 0 t) (iblk3 V c 2 t) (iblk3 V c 1 t) r col).trans
    (congr (congrArg HAdd.hAdd
      (Finset.sum_congr rfl fun k _ => congr (congrArg HMul.hMul (blk3_row0 V c t r k h)) (blk3_w2 V c t k col)))
      (blk3_row1 V c t r col h))

end Cert.KernelIdeal.RegionValue

end
-- ==== Proof.Region3Cases.lean ====
/-
  What each case of the node-statistics body leaves in its two accumulator rows, as the body's pure terms.

  At the first grid point the body stores a zero row in each accumulator, reads it back and adds the tile's column
  sums (of the node pre-activation, and of its squares); at every later point it adds them to what the row held.
-/
import proofs.«167392_j80126909874572_1_alg».proof.Proof.Patched.KernelIdealFrame
import proofs.«167392_j80126909874572_1_alg».proof.Proof.Region1Cases
import Idealize.ShloMosaic.Lib.Pipeline.Value
import Idealize.ShloMosaic.Lib.Tactic

noncomputable section

namespace Cert.KernelIdeal.RegionValue

open Cert.KernelIdeal Cert.KernelIdeal.Gen Cert.KernelIdeal.GenP
open Idealize.ShloMosaic Idealize.ShloMosaic.TcCoe Idealize.SL.Sem
open Idealize.ShloMosaic.Pipeline (Dat)

variable {F : FTy → Type} [FloatOps F]

/-- Case B, the column-sum accumulator. -/
theorem out3_B_3_eq (c : Dev nD) (i : grid3.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S1x128 .f32) (h4 : a4.IsWhole) (a5 : Memref sig .tc .vmem S1x128 .f32) (h5 : a5.IsWhole) (hc : ¬cond3_0 i) (x0 x1 : Vec F S5000x128 .f32) (x2 : Vec F S128x128 .f32) (xo3 xo4 : Vec F S1x128 .f32) :
    out3_B_3 c i a1 h1 a2 h2 a3 h3 a4 h4 a5 h5 hc x0 x1 x2 xo3 xo4 = k3_pay4 x0 x2 x1 xo3 := by
  unfold out3_B_3
  rw [View.read_writes_eq_canon _ _ _ (cover3_B_3 c i a1 h1 a2 h2 a3 h3 a4 h4 a5 h5 hc x0 x1 x2 xo3 xo4)]
  unfold kernelRun3_B
  dsimp only
  sl_unfold_words
  rw [View.canon_unit_zero hz2]
  simp only [View.readAt_eq_ld, h1.read_unread, h2.read_unread, h3.read_unread, h4.read_unread, h5.read_unread, View.ld_unit_zero (S := S5000x128) hz2, View.ld_unit_zero (S := S128x128) hz2, View.ld_unit_zero (S := S1x128) hz2]

/-- Case B, the accumulator of squares. -/
theorem out3_B_4_eq (c : Dev nD) (i : grid3.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S1x128 .f32) (h4 : a4.IsWhole) (a5 : Memref sig .tc .vmem S1x128 .f32) (h5 : a5.IsWhole) (hc : ¬cond3_0 i) (x0 x1 : Vec F S5000x128 .f32) (x2 : Vec F S128x128 .f32) (xo3 xo4 : Vec F S1x128 .f32) :
    out3_B_4 c i a1 h1 a2 h2 a3 h3 a4 h4 a5 h5 hc x0 x1 x2 xo3 xo4 = k3_pay5 x0 x2 x1 xo4 := by
  unfold out3_B_4
  rw [View.read_writes_eq_canon _ _ _ (cover3_B_4 c i a1 h1 a2 h2 a3 h3 a4 h4 a5 h5 hc x0 x1 x2 xo3 xo4)]
  unfold kernelRun3_B
  dsimp only
  sl_unfold_words
  rw [View.canon_unit_zero hz2]
  simp only [View.readAt_eq_ld, h1.read_unread, h2.read_unread, h3.read_unread, h4.read_unread, h5.read_unread, View.ld_unit_zero (S := S5000x128) hz2, View.ld_unit_zero (S := S128x128) hz2, View.ld_unit_zero (S := S1x128) hz2]

/-- Case A, the column-sum accumulator, over the zero row just stored. -/
theorem out3_A_3_eq (c : Dev nD) (i : grid3.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S1x128 .f32) (h4 : a4.IsWhole) (a5 : Memref sig .tc .vmem S1x128 .f32) (h5 : a5.IsWhole) (hc : cond3_0 i) (x0 x1 : Vec F S5000x128 .f32) (x2 : Vec F S128x128 .f32) :
    out3_A_3 c i a1 h1 a2 h2 a3 h3 a4 h4 a5 h5 hc x0 x1 x2 = k3_pay4 x0 x2 x1 (k3_pay1 (F := F)) := by
  unfold out3_A_3
  rw [View.read_writes_eq_canon _ _ _ (cover3_A_3 c i a1 h1 a2 h2 a3 h3 a4 h4 a5 h5 hc x0 x1 x2)]
  unfold kernelRun3_A
  dsimp only
  sl_unfold_words
  rw [View.canon_cons_unit_zero (S := S1x128) hz2, View.readCov_unit_zero (S := S1x128) _ hz2]
  simp only [View.readAt_eq_ld, h1.read_unread, h2.read_unread, h3.read_unread, h4.read_unread, h5.read_unread, View.ld_unit_zero (S := S5000x128) hz2, View.ld_unit_zero (S := S128x128) hz2, View.ld_unit_zero (S := S1x128) hz2]

/-- Case A, the accumulator of squares, over the zero row just stored. -/
theorem out3_A_4_eq (c : Dev nD) (i : grid3.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S1x128 .f32) (h4 : a4.IsWhole) (a5 : Memref sig .tc .vmem S1x128 .f32) (h5 : a5.IsWhole) (hc : cond3_0 i) (x0 x1 : Vec F S5000x128 .f32) (x2 : Vec F S128x128 .f32) :
    out3_A_4 c i a1 h1 a2 h2 a3 h3 a4 h4 a5 h5 hc x0 x1 x2 = k3_pay5 x0 x2 x1 (k3_pay2 (F := F)) := by
  unfold out3_A_4
  rw [View.read_writes_eq_canon _ _ _ (cover3_A_4 c i a1 h1 a2 h2 a3 h3 a4 h4 a5 h5 hc x0 x1 x2)]
  unfold kernelRun3_A
  dsimp only
  sl_unfold_words
  rw [View.canon_cons_unit_zero (S := S1x128) hz2, View.readCov_unit_zero (S := S1x128) _ hz2]
  simp only [View.readAt_eq_ld, h1.read_unread, h2.read_unread, h3.read_unread, h4.read_unread, h5.read_unread, View.ld_unit_zero (S := S5000x128) hz2, View.ld_unit_zero (S := S128x128) hz2, View.ld_unit_zero (S := S1x128) hz2]

end Cert.KernelIdeal.RegionValue

end
-- ==== Proof.Region3Point.lean ====
/-
  One grid point of the node-statistics region, read on the extended reals.

  With the specification's node pre-activation laid out down each column as a function of a row position, the first
  point leaves in each accumulator row zero plus its tile's column sums (of the value, and of its square), and every
  later point leaves what the row held plus its tile's column sums.
-/
import proofs.«167392_j80126909874572_1_alg».proof.Proof.Patched.KernelIdealFrame
import proofs.«167392_j80126909874572_1_alg».proof.Proof.Region3Tile
import proofs.«167392_j80126909874572_1_alg».proof.Proof.Region3Cases
import proofs.«167392_j80126909874572_1_alg».proof.Proof.RegionAccum
import proofs.«167392_j80126909874572_1_alg».proof.Proof.Spec
import Idealize.ShloMosaic.Lib.Pipeline.Value
import Idealize.ShloMosaic.Lib.Tactic

noncomputable section

namespace Cert.KernelIdeal.RegionValue

open Cert.KernelIdeal Cert.KernelIdeal.Gen Cert.KernelIdeal.GenP
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The pre-activation down column col as a function of a natural-number row position (0 past the last row). -/
def g3 (c : Dev nD) (col : Fin 128) (i : ℕ) : EReal := if h : i < 50000 then y3 V c ⟨i, h⟩ col else 0
/-- Its square, likewise. -/
def q3 (c : Dev nD) (col : Fin 128) (i : ℕ) : EReal := if h : i < 50000 then y3 V c ⟨i, h⟩ col * y3 V c ⟨i, h⟩ col else 0

theorem g3_of_lt (c : Dev nD) (col : Fin 128) (i : ℕ) (h : i < 50000) : g3 V c col i = y3 V c ⟨i, h⟩ col := dif_pos h
theorem q3_of_lt (c : Dev nD) (col : Fin 128) (i : ℕ) (h : i < 50000) :
    q3 V c col i = y3 V c ⟨i, h⟩ col * y3 V c ⟨i, h⟩ col := dif_pos h

/-- Row r of tile t sits at position 5000·t + r. -/
theorem tile3_g (c : Dev nD) (t : Fin cfg3.N) (r : Fin 5000) (col : Fin 128) :
    k3_pay3 (F := Ideal) (iblk3 V c 0 t) (iblk3 V c 2 t) (iblk3 V c 1 t) (ix2 r col) = g3 V c col (5000 * t.val + r.val) := by
  have hN : t.val < 10 := lt_of_lt_of_eq t.isLt (show cfg3.N = 10 from N_3)
  have h : 5000 * t.val + r.val < 50000 := by have := r.isLt; omega
  exact (tile3_pre V c t r col h).trans (g3_of_lt V c col _ h).symm

theorem tile3_q (c : Dev nD) (t : Fin cfg3.N) (r : Fin 5000) (col : Fin 128) :
    k3_pay3 (F := Ideal) (iblk3 V c 0 t) (iblk3 V c 2 t) (iblk3 V c 1 t) (ix2 r col) * k3_pay3 (F := Ideal) (iblk3 V c 0 t) (iblk3 V c 2 t) (iblk3 V c 1 t) (ix2 r col)
      = q3 V c col (5000 * t.val + r.val) := by
  have hN : t.val < 10 := lt_of_lt_of_eq t.isLt (show cfg3.N = 10 from N_3)
  have h : 5000 * t.val + r.val < 50000 := by have := r.isLt; omega
  exact (congr (congrArg HMul.hMul (tile3_pre V c t r col h)) (tile3_pre V c t r col h)).trans (q3_of_lt V c col _ h).symm

/-- At the first point both accumulators hold zero plus the tile's column sums. -/
theorem point3_A (c : Dev nD) (t : Fin cfg3.N) (h0 : t.val % 10 = 0) (col : Fin 128) :
    (outsAt3 V c t.val t.isLt).1 (ix2 (0 : Fin 1) col) = 0 + ∑ r : Fin 5000, g3 V c col (5000 * t.val + r.val)
    ∧ (outsAt3 V c t.val t.isLt).2 (ix2 (0 : Fin 1) col) = 0 + ∑ r : Fin 5000, q3 V c col (5000 * t.val + r.val) := by
  rw [outsAt3_A V c t h0]
  constructor
  · refine (congrFun (out3_A_3_eq (F := Ideal) c (grid3.coords t) (ms3_0 t) (hs3_0 t) (ms3_1 t) (hs3_1 t) (ms3_2 t) (hs3_2 t) (ms3_3 t) (hs3_3 t) (ms3_4 t) (hs3_4 t) ((hcond3_0 t).mpr h0) (iblk3 V c 0 t) (iblk3 V c 1 t) (iblk3 V c 2 t)) (ix2 (0 : Fin 1) col)).trans ?_
    refine (pay3_4_apply (iblk3 V c 0 t) (iblk3 V c 2 t) (iblk3 V c 1 t) (k3_pay1 (F := Ideal)) col).trans ?_
    exact congr (congrArg HAdd.hAdd (pay3_1_apply _)) (Finset.sum_congr rfl fun r _ => tile3_g V c t r col)
  · refine (congrFun (out3_A_4_eq (F := Ideal) c (grid3.coords t) (ms3_0 t) (hs3_0 t) (ms3_1 t) (hs3_1 t) (ms3_2 t) (hs3_2 t) (ms3_3 t) (hs3_3 t) (ms3_4 t) (hs3_4 t) ((hcond3_0 t).mpr h0) (iblk3 V c 0 t) (iblk3 V c 1 t) (iblk3 V c 2 t)) (ix2 (0 : Fin 1) col)).trans ?_
    refine (pay3_5_apply (iblk3 V c 0 t) (iblk3 V c 2 t) (iblk3 V c 1 t) (k3_pay2 (F := Ideal)) col).trans ?_
    exact congr (congrArg HAdd.hAdd (pay3_2_apply _)) (Finset.sum_congr rfl fun r _ => tile3_q V c t r col)

/-- At every later point each accumulator holds what it held plus the tile's column sums. -/
theorem point3_B (c : Dev nD) (t : Fin cfg3.N) (h0 : ¬t.val % 10 = 0) (col : Fin 128) :
    (outsAt3 V c t.val t.isLt).1 (ix2 (0 : Fin 1) col)
        = (outsAt3 V c (t.val - 1) (Nat.lt_of_le_of_lt (Nat.sub_le _ _) t.isLt)).1 (ix2 (0 : Fin 1) col) + ∑ r : Fin 5000, g3 V c col (5000 * t.val + r.val)
    ∧ (outsAt3 V c t.val t.isLt).2 (ix2 (0 : Fin 1) col)
        = (outsAt3 V c (t.val - 1) (Nat.lt_of_le_of_lt (Nat.sub_le _ _) t.isLt)).2 (ix2 (0 : Fin 1) col) + ∑ r : Fin 5000, q3 V c col (5000 * t.val + r.val) := by
  rw [outsAt3_B V c t h0]
  constructor
  · refine (congrFun (out3_B_3_eq (F := Ideal) c (grid3.coords t) (ms3_0 t) (hs3_0 t) (ms3_1 t) (hs3_1 t) (ms3_2 t) (hs3_2 t) (ms3_3 t) (hs3_3 t) (ms3_4 t) (hs3_4 t) (fun h => h0 ((hcond3_0 t).mp h)) (iblk3 V c 0 t) (iblk3 V c 1 t) (iblk3 V c 2 t) (outsAt3 V c (t.val - 1) (Nat.lt_of_le_of_lt (Nat.sub_le _ _) t.isLt)).1 (outsAt3 V c (t.val - 1) (Nat.lt_of_le_of_lt (Nat.sub_le _ _) t.isLt)).2) (ix2 (0 : Fin 1) col)).trans ?_
    refine (pay3_4_apply (iblk3 V c 0 t) (iblk3 V c 2 t) (iblk3 V c 1 t) (outsAt3 V c (t.val - 1) (Nat.lt_of_le_of_lt (Nat.sub_le _ _) t.isLt)).1 col).trans ?_
    exact congrArg ((outsAt3 V c (t.val - 1) (Nat.lt_of_le_of_lt (Nat.sub_le _ _) t.isLt)).1 (ix2 (0 : Fin 1) col) + ·) (Finset.sum_congr rfl fun r _ => tile3_g V c t r col)
  · refine (congrFun (out3_B_4_eq (F := Ideal) c (grid3.coords t) (ms3_0 t) (hs3_0 t) (ms3_1 t) (hs3_1 t) (ms3_2 t) (hs3_2 t) (ms3_3 t) (hs3_3 t) (ms3_4 t) (hs3_4 t) (fun h => h0 ((hcond3_0 t).mp h)) (iblk3 V c 0 t) (iblk3 V c 1 t) (iblk3 V c 2 t) (outsAt3 V c (t.val - 1) (Nat.lt_of_le_of_lt (Nat.sub_le _ _) t.isLt)).1 (outsAt3 V c (t.val - 1) (Nat.lt_of_le_of_lt (Nat.sub_le _ _) t.isLt)).2) (ix2 (0 : Fin 1) col)).trans ?_
    refine (pay3_5_apply (iblk3 V c 0 t) (iblk3 V c 2 t) (iblk3 V c 1 t) (outsAt3 V c (t.val - 1) (Nat.lt_of_le_of_lt (Nat.sub_le _ _) t.isLt)).2 col).trans ?_
    exact congrArg ((outsAt3 V c (t.val - 1) (Nat.lt_of_le_of_lt (Nat.sub_le _ _) t.isLt)).2 (ix2 (0 : Fin 1) col) + ·) (Finset.sum_congr rfl fun r _ => tile3_q V c t r col)

end Cert.KernelIdeal.RegionValue

end
-- ==== Proof.Region3Acc.lean ====
/-
  The two accumulator rows of the node-statistics region after each grid point.

  After point n each row holds, at column c, zero plus the sum over the first 5000·(n + 1) rows of the specification's
  node pre-activation (respectively of its square); after the last of the 10 points that is the sum over all 50000 rows.
-/
import proofs.«167392_j80126909874572_1_alg».proof.Proof.Patched.KernelIdealFrame
import proofs.«167392_j80126909874572_1_alg».proof.Proof.Region3Point
import proofs.«167392_j80126909874572_1_alg».proof.Proof.RegionAccum
import proofs.«167392_j80126909874572_1_alg».proof.Proof.Spec
import Idealize.ShloMosaic.Lib.Pipeline.Value
import Idealize.ShloMosaic.Lib.Tactic

noncomputable section

namespace Cert.KernelIdeal.RegionValue

open Cert.KernelIdeal Cert.KernelIdeal.Gen Cert.KernelIdeal.GenP
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The column-sum accumulator at column col after point n (0 past the grid). -/
def acc3 (c : Dev nD) (col : Fin 128) (n : ℕ) : EReal :=
  if hn : n < cfg3.N then (outsAt3 V c n hn).1 (ix2 (0 : Fin 1) col) else 0
/-- The accumulator of squares, likewise. -/
def accq3 (c : Dev nD) (col : Fin 128) (n : ℕ) : EReal :=
  if hn : n < cfg3.N then (outsAt3 V c n hn).2 (ix2 (0 : Fin 1) col) else 0

/-- After the last point the column-sum accumulator holds the sum over all row positions. -/
theorem acc3_last (c : Dev nD) (col : Fin 128) : acc3 V c col 9 = ∑ i : Fin ((9 + 1) * 5000), g3 V c col i.val := by
  have hN : cfg3.N = 10 := N_3
  refine running_last_eq_sum 9 5000 (acc3 V c col) (g3 V c col) ?_ fun n hn => ?_
  · have h0 : 0 < cfg3.N := by omega
    unfold acc3
    rw [dif_pos h0]
    exact (point3_A V c ⟨0, h0⟩ rfl col).1
  · have h1 : n + 1 < cfg3.N := by omega
    have h2 : n < cfg3.N := by omega
    unfold acc3
    rw [dif_pos h1, dif_pos h2]
    exact (point3_B V c ⟨n + 1, h1⟩ (by dsimp only; omega) col).1

/-- After the last point the accumulator of squares holds the sum of squares over all row positions. -/
theorem accq3_last (c : Dev nD) (col : Fin 128) : accq3 V c col 9 = ∑ i : Fin ((9 + 1) * 5000), q3 V c col i.val := by
  have hN : cfg3.N = 10 := N_3
  refine running_last_eq_sum 9 5000 (accq3 V c col) (q3 V c col) ?_ fun n hn => ?_
  · have h0 : 0 < cfg3.N := by omega
    unfold accq3
    rw [dif_pos h0]
    exact (point3_A V c ⟨0, h0⟩ rfl col).2
  · have h1 : n + 1 < cfg3.N := by omega
    have h2 : n < cfg3.N := by omega
    unfold accq3
    rw [dif_pos h1, dif_pos h2]
    exact (point3_B V c ⟨n + 1, h1⟩ (by dsimp only; omega) col).2

/-- What the last point leaves: the column sums of the pre-activation and of its squares over all rows. -/
theorem outs3_last (c : Dev nD) (t : Fin cfg3.N) (ht : t.val = 9) (col : Fin 128) :
    (outsAt3 V c t.val t.isLt).1 (ix2 (0 : Fin 1) col) = Cert.Gnn.colSum (y3 V c) col
    ∧ (outsAt3 V c t.val t.isLt).2 (ix2 (0 : Fin 1) col) = Cert.Gnn.colSumSq (y3 V c) col := by
  constructor
  · have e : acc3 V c col t.val = ∑ i : Fin 50000, g3 V c col i.val := by rw [ht]; exact acc3_last V c col
    unfold acc3 at e
    rw [dif_pos t.isLt] at e
    rw [e]
    exact Finset.sum_congr rfl fun i _ => g3_of_lt V c col i.val i.isLt
  · have e : accq3 V c col t.val = ∑ i : Fin 50000, q3 V c col i.val := by rw [ht]; exact accq3_last V c col
    unfold accq3 at e
    rw [dif_pos t.isLt] at e
    rw [e]
    exact Finset.sum_congr rfl fun i _ => q3_of_lt V c col i.val i.isLt

end Cert.KernelIdeal.RegionValue

end
-- ==== Proof.Region3Value.lean ====
/-
  The two output arrays of the node-statistics region after its whole grid.

  Each accumulator row is written back once, after the last of the 10 points, and its one block is the whole [1,128]
  array; what the row holds then is the column sum over all 50000 rows of the specification's node pre-activation
  (respectively of its square), as functions of the arrays the region finds.
-/
import proofs.«167392_j80126909874572_1_alg».proof.Proof.Patched.KernelIdealFrame
import proofs.«167392_j80126909874572_1_alg».proof.Proof.Region3Acc
import proofs.«167392_j80126909874572_1_alg».proof.Proof.Region1Acc
import proofs.«167392_j80126909874572_1_alg».proof.Proof.RegionAccum
import proofs.«167392_j80126909874572_1_alg».proof.Proof.Spec
import Idealize.ShloMosaic.Lib.Pipeline.Value
import Idealize.ShloMosaic.Lib.Tactic

noncomputable section

namespace Cert.KernelIdeal.RegionValue

open Cert.KernelIdeal Cert.KernelIdeal.Gen Cert.KernelIdeal.GenP
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The one write-back of window 3, after the last point, writes the whole row. -/
theorem flushed3_3 (c : Dev nD) (t : Fin cfg3.N) (hf : (cfg3.win 3).flush t = true) :
    (dat3 V c).flushed 3 t = ((cfg3.win 3).blk t).view.read (Elt Ideal) (fun j : S1x128.Idx => Cert.Gnn.colSum (y3 V c) (j 1)) := by
  have hN : cfg3.N = 10 := N_3
  have hlast : t.val = 9 := by have := (flush3_3 t).mp hf; have := t.isLt; omega
  have hX : (outsAt3 V c t.val t.isLt).1 = fun j : S1x128.Idx => Cert.Gnn.colSum (y3 V c) (j 1) :=
    funext fun j => (congrArg (outsAt3 V c t.val t.isLt).1 (row_idx j)).trans (outs3_last V c t hlast (j 1)).1
  show (cfg3.win 3).cut (grid3.coords t) ((dat3 V c).after 3 t) = _
  rw [after3_3, hX]
  clear hX hf
  obtain ⟨n, hn⟩ := t
  obtain rfl : n = 9 := hlast
  have e := idx3 ⟨9, hn⟩
  have hz' : (fun a => win3_3.index ⟨9, hn⟩ a * main_v44_0.ty.shape.size a) = fun _ => 0 := funext fun a => by
    match a with
    | ⟨0, _⟩ => show win3_3.index ⟨9, hn⟩ (0 : Fin 2) * 1 = 0; omega
    | ⟨1, _⟩ => show win3_3.index ⟨9, hn⟩ (1 : Fin 2) * 128 = 0; omega
  exact (Memref.read_access_unit_zero (Elt Ideal) main_v44_0 hz' (fun a => by rw [congrFun hz' a]; simp)
    (fun j : S1x128.Idx => Cert.Gnn.colSum (y3 V c) (j 1))).symm

/-- The last point's block of window 3 is the whole row. -/
theorem cover3_3 (i : S1x128.Idx) : ∃ t : Fin cfg3.N, (cfg3.win 3).flush t = true ∧ i ∈ ((cfg3.win 3).blk t).view.set := by
  have hN : cfg3.N = 10 := N_3
  have hl : 9 < cfg3.N := by omega
  have e := idx3 ⟨9, hl⟩
  refine ⟨⟨9, hl⟩, (flush3_3 ⟨9, hl⟩).mpr rfl, ?_⟩
  show i ∈ ((View.whole main_v44_0).slice (win3_3.rect ⟨9, hl⟩)).set
  rw [View.set_slice_whole, Rect.mem_set_unit]
  intro a
  have h0 : (i 0 : Nat) < 1 := (i 0).isLt
  have h1 : (i 1 : Nat) < 128 := (i 1).isLt
  match a with
  | ⟨0, _⟩ => show win3_3.index ⟨9, hl⟩ (0 : Fin 2) * 1 ≤ (i 0 : Nat) ∧ (i 0 : Nat) < win3_3.index ⟨9, hl⟩ (0 : Fin 2) * 1 + 1; omega
  | ⟨1, _⟩ => show win3_3.index ⟨9, hl⟩ (1 : Fin 2) * 128 ≤ (i 1 : Nat) ∧ (i 1 : Nat) < win3_3.index ⟨9, hl⟩ (1 : Fin 2) * 128 + 128; omega

/-- The one write-back of window 4, after the last point, writes the whole row. -/
theorem flushed3_4 (c : Dev nD) (t : Fin cfg3.N) (hf : (cfg3.win 4).flush t = true) :
    (dat3 V c).flushed 4 t = ((cfg3.win 4).blk t).view.read (Elt Ideal) (fun j : S1x128.Idx => Cert.Gnn.colSumSq (y3 V c) (j 1)) := by
  have hN : cfg3.N = 10 := N_3
  have hlast : t.val = 9 := by have := (flush3_4 t).mp hf; have := t.isLt; omega
  have hX : (outsAt3 V c t.val t.isLt).2 = fun j : S1x128.Idx => Cert.Gnn.colSumSq (y3 V c) (j 1) :=
    funext fun j => (congrArg (outsAt3 V c t.val t.isLt).2 (row_idx j)).trans (outs3_last V c t hlast (j 1)).2
  show (cfg3.win 4).cut (grid3.coords t) ((dat3 V c).after 4 t) = _
  rw [after3_4, hX]
  clear hX hf
  obtain ⟨n, hn⟩ := t
  obtain rfl : n = 9 := hlast
  have e := idx3 ⟨9, hn⟩
  have hz' : (fun a => win3_4.index ⟨9, hn⟩ a * main_v44_1.ty.shape.size a) = fun _ => 0 := funext fun a => by
    match a with
    | ⟨0, _⟩ => show win3_4.index ⟨9, hn⟩ (0 : Fin 2) * 1 = 0; omega
    | ⟨1, _⟩ => show win3_4.index ⟨9, hn⟩ (1 : Fin 2) * 128 = 0; omega
  exact (Memref.read_access_unit_zero (Elt Ideal) main_v44_1 hz' (fun a => by rw [congrFun hz' a]; simp)
    (fun j : S1x128.Idx => Cert.Gnn.colSumSq (y3 V c) (j 1))).symm

/-- The last point's block of window 4 is the whole row. -/
theorem cover3_4 (i : S1x128.Idx) : ∃ t : Fin cfg3.N, (cfg3.win 4).flush t = true ∧ i ∈ ((cfg3.win 4).blk t).view.set := by
  have hN : cfg3.N = 10 := N_3
  have hl : 9 < cfg3.N := by omega
  have e := idx3 ⟨9, hl⟩
  refine ⟨⟨9, hl⟩, (flush3_4 ⟨9, hl⟩).mpr rfl, ?_⟩
  show i ∈ ((View.whole main_v44_1).slice (win3_4.rect ⟨9, hl⟩)).set
  rw [View.set_slice_whole, Rect.mem_set_unit]
  intro a
  have h0 : (i 0 : Nat) < 1 := (i 0).isLt
  have h1 : (i 1 : Nat) < 128 := (i 1).isLt
  match a with
  | ⟨0, _⟩ => show win3_4.index ⟨9, hl⟩ (0 : Fin 2) * 1 ≤ (i 0 : Nat) ∧ (i 0 : Nat) < win3_4.index ⟨9, hl⟩ (0 : Fin 2) * 1 + 1; omega
  | ⟨1, _⟩ => show win3_4.index ⟨9, hl⟩ (1 : Fin 2) * 128 ≤ (i 1 : Nat) ∧ (i 1 : Nat) < win3_4.index ⟨9, hl⟩ (1 : Fin 2) * 128 + 128; omega

/-- The region's first output: the column sums of the pre-activation over all rows. -/
theorem sum3 (c : Dev nD) :
    (GenP.dat3 (F := Ideal) V c).arrAt 3 cfg3.N = fun j => Cert.Gnn.colSum (y3 V c) (j 1) :=
  (dat3 V c).arrAt_eq_of_cover 3 (fun j : S1x128.Idx => Cert.Gnn.colSum (y3 V c) (j 1)) (flushed3_3 V c) cover3_3

/-- The region's second output: the column sums of its squares over all rows. -/
theorem sumsq3 (c : Dev nD) :
    (GenP.dat3 (F := Ideal) V c).arrAt 4 cfg3.N = fun j => Cert.Gnn.colSumSq (y3 V c) (j 1) :=
  (dat3 V c).arrAt_eq_of_cover 4 (fun j : S1x128.Idx => Cert.Gnn.colSumSq (y3 V c) (j 1)) (flushed3_4 V c) cover3_4

end Cert.KernelIdeal.RegionValue

end
-- ==== Proof.KRegions.lean ====
/-
  The five regions' values, collected.

  The node projection region leaves the plain product of the node rows and the weight; the two statistics regions leave,
  per feature, the sum and the sum of squares of the pre-activation they recompute from their inputs, accumulated tile
  by tile over the whole grid; the edge region leaves the updated edge features and the messages, and the node region
  the updated node features, each row a function of the same rows of its inputs. Each fact holds from any contents at
  the region's entry.
-/
import proofs.«167392_j80126909874572_1_alg».proof.Proof.KFold
import proofs.«167392_j80126909874572_1_alg».proof.Proof.RvArr0
import proofs.«167392_j80126909874572_1_alg».proof.Proof.RvArr2
import proofs.«167392_j80126909874572_1_alg».proof.Proof.RvArr4
import proofs.«167392_j80126909874572_1_alg».proof.Proof.Region1Value
import proofs.«167392_j80126909874572_1_alg».proof.Proof.Region3Value

set_option maxRecDepth 16384

noncomputable section

namespace Cert.KernelIdeal.Fold

open Idealize.ShloMosaic
open Cert.KernelIdeal Cert.KernelIdeal.Gen Cert.KernelIdeal.GenP

set_option maxHeartbeats 1000000 in
/-- Every region's output arrays are the specification's functions of its input arrays. -/
theorem regions : Regions where
  proj0 := fun V c => Cert.KernelIdeal.RowRegion.proj0 V c
  sum1 := fun V c => Cert.KernelIdeal.RegionValue.sum1 V c
  sumsq1 := fun V c => Cert.KernelIdeal.RegionValue.sumsq1 V c
  enew2 := fun V c => Cert.KernelIdeal.RowRegion.enew2 V c
  msg2 := fun V c => Cert.KernelIdeal.RowRegion.msg2 V c
  sum3 := fun V c => Cert.KernelIdeal.RegionValue.sum3 V c
  sumsq3 := fun V c => Cert.KernelIdeal.RegionValue.sumsq3 V c
  upd4 := fun V c => Cert.KernelIdeal.RowRegion.upd4 V c

end Cert.KernelIdeal.Fold

end
-- ==== Proof.RefRunOps.lean ====
/-
  The reference program's @main as a line of host operations, cut into twelve consecutive windows.

  Each window is one stage of the computation: the two index rows; the edge pre-activation (three products summed);
  its column mean; its column variance (the outlined variance with its inner selection, each operation over the
  call's own buffers); its normalization; the new edge features; the gated messages; their accumulation at the
  destination nodes added to the node product; that sum's mean, variance, normalization; and the new node features.
  The program is the concatenation of the windows, every operation touches TensorCore buffers only and determines
  its result, and each window's written buffers are listed, so that a buffer outside the list is kept by it.
-/
import proofs.«167392_j80126909874572_1_alg».proof.Proof.Gen.ReferenceIdeal
import proofs.«167392_j80126909874572_1_alg».proof.Proof.LibRunWindows
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Operations of window wA: the two rows of the index table, each as a vector. -/
def wA : List (HloOp τ sig (Elt F)) :=
  [ StableHlo.unary main_arg2 main_v0 ((extractStridedSlice S1x640000 ![0, 0] · slices_S2x640000_S1x640000_0_0) : (⟨S2x640000, .i32⟩ : BufTy).Contents (Elt F) → (⟨S1x640000, .i32⟩ : BufTy).Contents (Elt F)),
    StableHlo.reshape main_v0 main_v1 rfl shapeCasts_S1x640000_S640000,
    StableHlo.unary main_arg2 main_v2 ((extractStridedSlice S1x640000 ![1, 0] · slices_S2x640000_S1x640000_1_0) : (⟨S2x640000, .i32⟩ : BufTy).Contents (Elt F) → (⟨S1x640000, .i32⟩ : BufTy).Contents (Elt F)),
    StableHlo.reshape main_v2 main_v3 rfl shapeCasts_S1x640000_S640000 ]

/-- Operations of window wB: the edge pre-activation: the edge product plus the two gathered node products. -/
def wB : List (HloOp τ sig (Elt F)) :=
  [ StableHlo.binary main_arg1 main_arg3 main_v4 ((fun l r => Host.dotGeneral dot_S640000x128_S128x128_S640000x128_1_0_0_1_n_n none l r) : (⟨S640000x128, .f32⟩ : BufTy).Contents (Elt F) → (⟨S128x128, .f32⟩ : BufTy).Contents (Elt F) → (⟨S640000x128, .f32⟩ : BufTy).Contents (Elt F)),
    StableHlo.nullary main_c (constantI S_ 32 0#32),
    StableHlo.unary main_c main_v5 (broadcastInDim S640000 ![] bcast_S_S640000 : (⟨S_, .i32⟩ : BufTy).Contents (Elt F) → (⟨S640000, .i32⟩ : BufTy).Contents (Elt F)),
    StableHlo.binary main_v1 main_v5 main_v6 (cmpi .slt : (⟨S640000, .i32⟩ : BufTy).Contents (Elt F) → (⟨S640000, .i32⟩ : BufTy).Contents (Elt F) → (⟨S640000, .i1⟩ : BufTy).Contents (Elt F)),
    StableHlo.nullary main_c_0 (constantI S_ 32 50000#32),
    StableHlo.unary main_c_0 main_v7 (broadcastInDim S640000 ![] bcast_S_S640000 : (⟨S_, .i32⟩ : BufTy).Contents (Elt F) → (⟨S640000, .i32⟩ : BufTy).Contents (Elt F)),
    StableHlo.binary main_v1 main_v7 main_v8 (addi : (⟨S640000, .i32⟩ : BufTy).Contents (Elt F) → (⟨S640000, .i32⟩ : BufTy).Contents (Elt F) → (⟨S640000, .i32⟩ : BufTy).Contents (Elt F)),
    StableHlo.ternary main_v6 main_v8 main_v1 main_v9 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    StableHlo.unary main_v9 main_v10 (broadcastInDim S640000x1 ![0] bcast_S640000_S640000x1_0 : (⟨S640000, .i32⟩ : BufTy).Contents (Elt F) → (⟨S640000x1, .i32⟩ : BufTy).Contents (Elt F)),
    StableHlo.binary main_arg0 main_v10 main_v11 ((fun x i => Host.gather gather_S50000x128_S640000x1_S640000x128_1_0_n_n_0_1_1128 x i) : (⟨S50000x128, .f32⟩ : BufTy).Contents (Elt F) → (⟨S640000x1, .i32⟩ : BufTy).Contents (Elt F) → (⟨S640000x128, .f32⟩ : BufTy).Contents (Elt F)),
    StableHlo.binary main_v11 main_arg4 main_v12 ((fun l r => Host.dotGeneral dot_S640000x128_S128x128_S640000x128_1_0_0_1_n_n none l r) : (⟨S640000x128, .f32⟩ : BufTy).Contents (Elt F) → (⟨S128x128, .f32⟩ : BufTy).Contents (Elt F) → (⟨S640000x128, .f32⟩ : BufTy).Contents (Elt F)),
    StableHlo.binary main_v4 main_v12 main_v13 (addf : (⟨S640000x128, .f32⟩ : BufTy).Contents (Elt F) → (⟨S640000x128, .f32⟩ : BufTy).Contents (Elt F) → (⟨S640000x128, .f32⟩ : BufTy).Contents (Elt F)),
    StableHlo.nullary main_c_1 (constantI S_ 32 0#32),
    StableHlo.unary main_c_1 main_v14 (broadcastInDim S640000 ![] bcast_S_S640000 : (⟨S_, .i32⟩ : BufTy).Contents (Elt F) → (⟨S640000, .i32⟩ : BufTy).Contents (Elt F)),
    StableHlo.binary main_v3 main_v14 main_v15 (cmpi .slt : (⟨S640000, .i32⟩ : BufTy).Contents (Elt F) → (⟨S640000, .i32⟩ : BufTy).Contents (Elt F) → (⟨S640000, .i1⟩ : BufTy).Contents (Elt F)),
    StableHlo.nullary main_c_2 (constantI S_ 32 50000#32),
    StableHlo.unary main_c_2 main_v16 (broadcastInDim S640000 ![] bcast_S_S640000 : (⟨S_, .i32⟩ : BufTy).Contents (Elt F) → (⟨S640000, .i32⟩ : BufTy).Contents (Elt F)),
    StableHlo.binary main_v3 main_v16 main_v17 (addi : (⟨S640000, .i32⟩ : BufTy).Contents (Elt F) → (⟨S640000, .i32⟩ : BufTy).Contents (Elt F) → (⟨S640000, .i32⟩ : BufTy).Contents (Elt F)),
    StableHlo.ternary main_v15 main_v17 main_v3 main_v18 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    StableHlo.unary main_v18 main_v19 (broadcastInDim S640000x1 ![0] bcast_S640000_S640000x1_0 : (⟨S640000, .i32⟩ : BufTy).Contents (Elt F) → (⟨S640000x1, .i32⟩ : BufTy).Contents (Elt F)),
    StableHlo.binary main_arg0 main_v19 main_v20 ((fun x i => Host.gather gather_S50000x128_S640000x1_S640000x128_1_0_n_n_0_1_1128 x i) : (⟨S50000x128, .f32⟩ : BufTy).Contents (Elt F) → (⟨S640000x1, .i32⟩ : BufTy).Contents (Elt F) → (⟨S640000x128, .f32⟩ : BufTy).Contents (Elt F)),
    StableHlo.binary main_v20 main_arg5 main_v21 ((fun l r => Host.dotGeneral dot_S640000x128_S128x128_S640000x128_1_0_0_1_n_n none l r) : (⟨S640000x128, .f32⟩ : BufTy).Contents (Elt F) → (⟨S128x128, .f32⟩ : BufTy).Contents (Elt F) → (⟨S640000x128, .f32⟩ : BufTy).Contents (Elt F)),
    StableHlo.binary main_v13 main_v21 main_v22 (addf : (⟨S640000x128, .f32⟩ : BufTy).Contents (Elt F) → (⟨S640000x128, .f32⟩ : BufTy).Contents (Elt F) → (⟨S640000x128, .f32⟩ : BufTy).Contents (Elt F)) ]

/-- Operations of window wC: the pre-activation's column mean. -/
def wC : List (HloOp τ sig (Elt F)) :=
  [ StableHlo.nullary main_cst (constant S_ .f32 0x00000000#32),
    StableHlo.binary main_v22 main_cst main_v23 ((fun x v => Host.reduceAdd x v reducesTo_S640000x128_S128_d0 h_S_) : (⟨S640000x128, .f32⟩ : BufTy).Contents (Elt F) → (⟨S_, .f32⟩ : BufTy).Contents (Elt F) → (⟨S128, .f32⟩ : BufTy).Contents (Elt F)),
    StableHlo.nullary main_cst_3 (constant S_ .f32 0x491C4000#32),
    StableHlo.unary main_cst_3 main_v24 (broadcastInDim S128 ![] bcast_S_S128 : (⟨S_, .f32⟩ : BufTy).Contents (Elt F) → (⟨S128, .f32⟩ : BufTy).Contents (Elt F)),
    StableHlo.binary main_v23 main_v24 main_v25 (Host.divf : (⟨S128, .f32⟩ : BufTy).Contents (Elt F) → (⟨S128, .f32⟩ : BufTy).Contents (Elt F) → (⟨S128, .f32⟩ : BufTy).Contents (Elt F)) ]

/-- Operations of window wD: the pre-activation's column variance. -/
def wD : List (HloOp τ sig (Elt F)) :=
  [ StableHlo.nullary main_c_4 (constantI S_ 32 0#32),
    StableHlo.TRef.nullary main_call0.cst (constant S_ .f32 0x00000000#32),
    StableHlo.TRef.binary (.of main_v22 : StableHlo.TRef sig ⟨S640000x128, .f32⟩) main_call0.cst main_call0.v0 (fun x v => Host.reduceAdd x v reducesTo_S640000x128_S128_d0 h_S_),
    StableHlo.TRef.unary main_call0.v0 main_call0.v1 (broadcastInDim S1x128 ![1] bcast_S128_S1x128_1),
    StableHlo.TRef.nullary main_call0.cst_0 (constant S_ .f32 0x491C4000#32),
    StableHlo.TRef.unary main_call0.cst_0 main_call0.v2 (broadcastInDim S1x128 ![] bcast_S_S1x128),
    StableHlo.TRef.binary main_call0.v1 main_call0.v2 main_call0.v3 Host.divf,
    StableHlo.TRef.unary main_call0.v3 main_call0.v4 (broadcastInDim S640000x128 ![0, 1] bcast_S1x128_S640000x128_0_1),
    StableHlo.TRef.binary (.of main_v22 : StableHlo.TRef sig ⟨S640000x128, .f32⟩) main_call0.v4 main_call0.v5 subf,
    StableHlo.TRef.binary main_call0.v5 main_call0.v5 main_call0.v6 mulf,
    StableHlo.TRef.unary (.of main_c_4 : StableHlo.TRef sig ⟨S_, .i32⟩) main_call0.v7 (sitofp .f32),
    StableHlo.TRef.nullary main_call0.cst_1 (constant S_ .f32 0x491C4000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S640000x128_S128_d0 h_S_),
    StableHlo.TRef.unary main_call0.v8 main_call0.v10 (broadcastInDim S128 ![] bcast_S_S128),
    StableHlo.TRef.binary main_call0.v9 main_call0.v10 main_call0.v11 Host.divf,
    StableHlo.TRef.nullary main_call0.cst_3 (constant S_ .f32 0x00000000#32),
    StableHlo.TRef.binary main_call0.v8 main_call0.cst_3 main_call0.v12 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S128 ![] bcast_S_S128),
    StableHlo.TRef.ternary main_call0.v12 main_call0.v11 main_call0.call0.v1 main_call0.call0.v2 (fun p a b => select (broadcastInDim S128 ![] bcast_S_S128 p) a b) ]

/-- Operations of window wE: the pre-activation normalized, scaled and shifted. -/
def wE : List (HloOp τ sig (Elt F)) :=
  [ StableHlo.unary main_v25 main_v27 (broadcastInDim S1x128 ![1] bcast_S128_S1x128_1 : (⟨S128, .f32⟩ : BufTy).Contents (Elt F) → (⟨S1x128, .f32⟩ : BufTy).Contents (Elt F)),
    StableHlo.unary main_v27 main_v28 (broadcastInDim S640000x128 ![0, 1] bcast_S1x128_S640000x128_0_1 : (⟨S1x128, .f32⟩ : BufTy).Contents (Elt F) → (⟨S640000x128, .f32⟩ : BufTy).Contents (Elt F)),
    StableHlo.binary main_v22 main_v28 main_v29 (subf : (⟨S640000x128, .f32⟩ : BufTy).Contents (Elt F) → (⟨S640000x128, .f32⟩ : BufTy).Contents (Elt F) → (⟨S640000x128, .f32⟩ : BufTy).Contents (Elt F)),
    StableHlo.nullary main_cst_5 (constant S_ .f32 0x3727C5AC#32),
    StableHlo.unary main_cst_5 main_v30 (broadcastInDim S128 ![] bcast_S_S128 : (⟨S_, .f32⟩ : BufTy).Contents (Elt F) → (⟨S128, .f32⟩ : BufTy).Contents (Elt F)),
    StableHlo.binary main_v26 main_v30 main_v31 (addf : (⟨S128, .f32⟩ : BufTy).Contents (Elt F) → (⟨S128, .f32⟩ : BufTy).Contents (Elt F) → (⟨S128, .f32⟩ : BufTy).Contents (Elt F)),
    StableHlo.unary main_v31 main_v32 (Host.rsqrt : (⟨S128, .f32⟩ : BufTy).Contents (Elt F) → (⟨S128, .f32⟩ : BufTy).Contents (Elt F)),
    StableHlo.unary main_v32 main_v33 (broadcastInDim S1x128 ![1] bcast_S128_S1x128_1 : (⟨S128, .f32⟩ : BufTy).Contents (Elt F) → (⟨S1x128, .f32⟩ : BufTy).Contents (Elt F)),
    StableHlo.unary main_v33 main_v34 (broadcastInDim S640000x128 ![0, 1] bcast_S1x128_S640000x128_0_1 : (⟨S1x128, .f32⟩ : BufTy).Contents (Elt F) → (⟨S640000x128, .f32⟩ : BufTy).Contents (Elt F)),
    StableHlo.binary main_v29 main_v34 main_v35 (mulf : (⟨S640000x128, .f32⟩ : BufTy).Contents (Elt F) → (⟨S640000x128, .f32⟩ : BufTy).Contents (Elt F) → (⟨S640000x128, .f32⟩ : BufTy).Contents (Elt F)),
    StableHlo.unary main_arg12 main_v36 (broadcastInDim S1x128 ![1] bcast_S128_S1x128_1 : (⟨S128, .f32⟩ : BufTy).Contents (Elt F) → (⟨S1x128, .f32⟩ : BufTy).Contents (Elt F)),
    StableHlo.unary main_v36 main_v37 (broadcastInDim S640000x128 ![0, 1] bcast_S1x128_S640000x128_0_1 : (⟨S1x128, .f32⟩ : BufTy).Contents (Elt F) → (⟨S640000x128, .f32⟩ : BufTy).Contents (Elt F)),
    StableHlo.binary main_v35 main_v37 main_v38 (mulf : (⟨S640000x128, .f32⟩ : BufTy).Contents (Elt F) → (⟨S640000x128, .f32⟩ : BufTy).Contents (Elt F) → (⟨S640000x128, .f32⟩ : BufTy).Contents (Elt F)),
    StableHlo.unary main_arg13 main_v39 (broadcastInDim S1x128 ![1] bcast_S128_S1x128_1 : (⟨S128, .f32⟩ : BufTy).Contents (Elt F) → (⟨S1x128, .f32⟩ : BufTy).Contents (Elt F)),
    StableHlo.unary main_v39 main_v40 (broadcastInDim S640000x128 ![0, 1] bcast_S1x128_S640000x128_0_1 : (⟨S1x128, .f32⟩ : BufTy).Contents (Elt F) → (⟨S640000x128, .f32⟩ : BufTy).Contents (Elt F)),
    StableHlo.binary main_v38 main_v40 main_v41 (addf : (⟨S640000x128, .f32⟩ : BufTy).Contents (Elt F) → (⟨S640000x128, .f32⟩ : BufTy).Contents (Elt F) → (⟨S640000x128, .f32⟩ : BufTy).Contents (Elt F)) ]

/-- Operations of window wF: the new edge features. -/
def wF : List (HloOp τ sig (Elt F)) :=
  [ StableHlo.binary main_v41 main_arg8 main_v42 ((fun l r => Host.dotGeneral dot_S640000x128_S128x128_S640000x128_1_0_0_1_n_n none l r) : (⟨S640000x128, .f32⟩ : BufTy).Contents (Elt F) → (⟨S128x128, .f32⟩ : BufTy).Contents (Elt F) → (⟨S640000x128, .f32⟩ : BufTy).Contents (Elt F)),
    StableHlo.unary main_arg9 main_v43 (broadcastInDim S1x128 ![1] bcast_S128_S1x128_1 : (⟨S128, .f32⟩ : BufTy).Contents (Elt F) → (⟨S1x128, .f32⟩ : BufTy).Contents (Elt F)),
    StableHlo.unary main_v43 main_v44 (broadcastInDim S640000x128 ![0, 1] bcast_S1x128_S640000x128_0_1 : (⟨S1x128, .f32⟩ : BufTy).Contents (Elt F) → (⟨S640000x128, .f32⟩ : BufTy).Contents (Elt F)),
    StableHlo.binary main_v42 main_v44 main_v45 (addf : (⟨S640000x128, .f32⟩ : BufTy).Contents (Elt F) → (⟨S640000x128, .f32⟩ : BufTy).Contents (Elt F) → (⟨S640000x128, .f32⟩ : BufTy).Contents (Elt F)),
    StableHlo.TRef.nullary main_call1.cst (constant S_ .f32 0x00000000#32),
    StableHlo.TRef.unary main_call1.cst main_call1.v0 (broadcastInDim S640000x128 ![] bcast_S_S640000x128),
    StableHlo.TRef.binary (.of main_v45 : StableHlo.TRef sig ⟨S640000x128, .f32⟩) main_call1.v0 main_call1.v1 maximumf,
    StableHlo.binary main_v46 main_arg10 main_v47 ((fun l r => Host.dotGeneral dot_S640000x128_S128x128_S640000x128_1_0_0_1_n_n none l r) : (⟨S640000x128, .f32⟩ : BufTy).Contents (Elt F) → (⟨S128x128, .f32⟩ : BufTy).Contents (Elt F) → (⟨S640000x128, .f32⟩ : BufTy).Contents (Elt F)),
    StableHlo.binary main_arg1 main_v47 main_v48 (addf : (⟨S640000x128, .f32⟩ : BufTy).Contents (Elt F) → (⟨S640000x128, .f32⟩ : BufTy).Contents (Elt F) → (⟨S640000x128, .f32⟩ : BufTy).Contents (Elt F)),
    StableHlo.unary main_arg11 main_v49 (broadcastInDim S1x128 ![1] bcast_S128_S1x128_1 : (⟨S128, .f32⟩ : BufTy).Contents (Elt F) → (⟨S1x128, .f32⟩ : BufTy).Contents (Elt F)),
    StableHlo.unary main_v49 main_v50 (broadcastInDim S640000x128 ![0, 1] bcast_S1x128_S640000x128_0_1 : (⟨S1x128, .f32⟩ : BufTy).Contents (Elt F) → (⟨S640000x128, .f32⟩ : BufTy).Contents (Elt F)),
    StableHlo.binary main_v48 main_v50 main_v51 (addf : (⟨S640000x128, .f32⟩ : BufTy).Contents (Elt F) → (⟨S640000x128, .f32⟩ : BufTy).Contents (Elt F) → (⟨S640000x128, .f32⟩ : BufTy).Contents (Elt F)) ]

/-- Operations of window wG: the gated messages. -/
def wG : List (HloOp τ sig (Elt F)) :=
  [ StableHlo.unary main_v22 main_v52 (Host.negf : (⟨S640000x128, .f32⟩ : BufTy).Contents (Elt F) → (⟨S640000x128, .f32⟩ : BufTy).Contents (Elt F)),
    StableHlo.unary main_v52 main_v53 (Host.exp : (⟨S640000x128, .f32⟩ : BufTy).Contents (Elt F) → (⟨S640000x128, .f32⟩ : BufTy).Contents (Elt F)),
    StableHlo.nullary main_cst_6 (constant S_ .f32 0x3F800000#32),
    StableHlo.unary main_cst_6 main_v54 (broadcastInDim S640000x128 ![] bcast_S_S640000x128 : (⟨S_, .f32⟩ : BufTy).Contents (Elt F) → (⟨S640000x128, .f32⟩ : BufTy).Contents (Elt F)),
    StableHlo.binary main_v54 main_v53 main_v55 (addf : (⟨S640000x128, .f32⟩ : BufTy).Contents (Elt F) → (⟨S640000x128, .f32⟩ : BufTy).Contents (Elt F) → (⟨S640000x128, .f32⟩ : BufTy).Contents (Elt F)),
    StableHlo.nullary main_cst_7 (constant S_ .f32 0x3F800000#32),
    StableHlo.unary main_cst_7 main_v56 (broadcastInDim S640000x128 ![] bcast_S_S640000x128 : (⟨S_, .f32⟩ : BufTy).Contents (Elt F) → (⟨S640000x128, .f32⟩ : BufTy).Contents (Elt F)),
    StableHlo.binary main_v56 main_v55 main_v57 (Host.divf : (⟨S640000x128, .f32⟩ : BufTy).Contents (Elt F) → (⟨S640000x128, .f32⟩ : BufTy).Contents (Elt F) → (⟨S640000x128, .f32⟩ : BufTy).Contents (Elt F)),
    StableHlo.binary main_arg0 main_arg7 main_v58 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.nullary main_c_8 (constantI S_ 32 0#32),
    StableHlo.unary main_c_8 main_v59 (broadcastInDim S640000 ![] bcast_S_S640000 : (⟨S_, .i32⟩ : BufTy).Contents (Elt F) → (⟨S640000, .i32⟩ : BufTy).Contents (Elt F)),
    StableHlo.binary main_v3 main_v59 main_v60 (cmpi .slt : (⟨S640000, .i32⟩ : BufTy).Contents (Elt F) → (⟨S640000, .i32⟩ : BufTy).Contents (Elt F) → (⟨S640000, .i1⟩ : BufTy).Contents (Elt F)),
    StableHlo.nullary main_c_9 (constantI S_ 32 50000#32),
    StableHlo.unary main_c_9 main_v61 (broadcastInDim S640000 ![] bcast_S_S640000 : (⟨S_, .i32⟩ : BufTy).Contents (Elt F) → (⟨S640000, .i32⟩ : BufTy).Contents (Elt F)),
    StableHlo.binary main_v3 main_v61 main_v62 (addi : (⟨S640000, .i32⟩ : BufTy).Contents (Elt F) → (⟨S640000, .i32⟩ : BufTy).Contents (Elt F) → (⟨S640000, .i32⟩ : BufTy).Contents (Elt F)),
    StableHlo.ternary main_v60 main_v62 main_v3 main_v63 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    StableHlo.unary main_v63 main_v64 (broadcastInDim S640000x1 ![0] bcast_S640000_S640000x1_0 : (⟨S640000, .i32⟩ : BufTy).Contents (Elt F) → (⟨S640000x1, .i32⟩ : BufTy).Contents (Elt F)),
    StableHlo.binary main_v58 main_v64 main_v65 ((fun x i => Host.gather gather_S50000x128_S640000x1_S640000x128_1_0_n_n_0_1_1128 x i) : (⟨S50000x128, .f32⟩ : BufTy).Contents (Elt F) → (⟨S640000x1, .i32⟩ : BufTy).Contents (Elt F) → (⟨S640000x128, .f32⟩ : BufTy).Contents (Elt F)),
    StableHlo.binary main_v57 main_v65 main_v66 (mulf : (⟨S640000x128, .f32⟩ : BufTy).Contents (Elt F) → (⟨S640000x128, .f32⟩ : BufTy).Contents (Elt F) → (⟨S640000x128, .f32⟩ : BufTy).Contents (Elt F)) ]

/-- Operations of window wH: the messages accumulated at their nodes, added to the node product. -/
def wH : List (HloOp τ sig (Elt F)) :=
  [ StableHlo.nullary main_cst_10 (constant S_ .f32 0x00000000#32),
    StableHlo.unary main_cst_10 main_v67 (broadcastInDim S50000x128 ![] bcast_S_S50000x128 : (⟨S_, .f32⟩ : BufTy).Contents (Elt F) → (⟨S50000x128, .f32⟩ : BufTy).Contents (Elt F)),
    StableHlo.unary main_v1 main_v68 (broadcastInDim S640000x1 ![0] bcast_S640000_S640000x1_0 : (⟨S640000, .i32⟩ : BufTy).Contents (Elt F) → (⟨S640000x1, .i32⟩ : BufTy).Contents (Elt F)),
    StableHlo.ternary main_v67 main_v68 main_v66 main_v69 ((fun x i u => Host.scatterAdd scatter_S50000x128_S640000x1_S640000x128_1_0_0_1 x i u) : (⟨S50000x128, .f32⟩ : BufTy).Contents (Elt F) → (⟨S640000x1, .i32⟩ : BufTy).Contents (Elt F) → (⟨S640000x128, .f32⟩ : BufTy).Contents (Elt F) → (⟨S50000x128, .f32⟩ : BufTy).Contents (Elt F)),
    StableHlo.binary main_arg0 main_arg6 main_v70 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.binary main_v70 main_v69 main_v71 (addf : (⟨S50000x128, .f32⟩ : BufTy).Contents (Elt F) → (⟨S50000x128, .f32⟩ : BufTy).Contents (Elt F) → (⟨S50000x128, .f32⟩ : BufTy).Contents (Elt F)) ]

/-- Operations of window wI: the node sum's column mean. -/
def wI : List (HloOp τ sig (Elt F)) :=
  [ StableHlo.nullary main_cst_11 (constant S_ .f32 0x00000000#32),
    StableHlo.binary main_v71 main_cst_11 main_v72 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_12 (constant S_ .f32 0x47435000#32),
    StableHlo.unary main_cst_12 main_v73 (broadcastInDim S128 ![] bcast_S_S128 : (⟨S_, .f32⟩ : BufTy).Contents (Elt F) → (⟨S128, .f32⟩ : BufTy).Contents (Elt F)),
    StableHlo.binary main_v72 main_v73 main_v74 (Host.divf : (⟨S128, .f32⟩ : BufTy).Contents (Elt F) → (⟨S128, .f32⟩ : BufTy).Contents (Elt F) → (⟨S128, .f32⟩ : BufTy).Contents (Elt F)) ]

/-- Operations of window wJ: the node sum's column variance. -/
def wJ : List (HloOp τ sig (Elt F)) :=
  [ StableHlo.nullary main_c_13 (constantI S_ 32 0#32),
    StableHlo.TRef.nullary main_call2.cst (constant S_ .f32 0x00000000#32),
    StableHlo.TRef.binary (.of main_v71 : StableHlo.TRef sig ⟨S50000x128, .f32⟩) main_call2.cst main_call2.v0 (fun x v => Host.reduceAdd x v reducesTo_S50000x128_S128_d0 h_S_),
    StableHlo.TRef.unary main_call2.v0 main_call2.v1 (broadcastInDim S1x128 ![1] bcast_S128_S1x128_1),
    StableHlo.TRef.nullary main_call2.cst_0 (constant S_ .f32 0x47435000#32),
    StableHlo.TRef.unary main_call2.cst_0 main_call2.v2 (broadcastInDim S1x128 ![] bcast_S_S1x128),
    StableHlo.TRef.binary main_call2.v1 main_call2.v2 main_call2.v3 Host.divf,
    StableHlo.TRef.unary main_call2.v3 main_call2.v4 (broadcastInDim S50000x128 ![0, 1] bcast_S1x128_S50000x128_0_1),
    StableHlo.TRef.binary (.of main_v71 : StableHlo.TRef sig ⟨S50000x128, .f32⟩) main_call2.v4 main_call2.v5 subf,
    StableHlo.TRef.binary main_call2.v5 main_call2.v5 main_call2.v6 mulf,
    StableHlo.TRef.unary (.of main_c_13 : StableHlo.TRef sig ⟨S_, .i32⟩) main_call2.v7 (sitofp .f32),
    StableHlo.TRef.nullary main_call2.cst_1 (constant S_ .f32 0x47435000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S50000x128_S128_d0 h_S_),
    StableHlo.TRef.unary main_call2.v8 main_call2.v10 (broadcastInDim S128 ![] bcast_S_S128),
    StableHlo.TRef.binary main_call2.v9 main_call2.v10 main_call2.v11 Host.divf,
    StableHlo.TRef.nullary main_call2.cst_3 (constant S_ .f32 0x00000000#32),
    StableHlo.TRef.binary main_call2.v8 main_call2.cst_3 main_call2.v12 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S128 ![] bcast_S_S128),
    StableHlo.TRef.ternary main_call2.v12 main_call2.v11 main_call2.call0.v1 main_call2.call0.v2 (fun p a b => select (broadcastInDim S128 ![] bcast_S_S128 p) a b) ]

/-- Operations of window wK: the node sum normalized, scaled and shifted. -/
def wK : List (HloOp τ sig (Elt F)) :=
  [ StableHlo.unary main_v74 main_v76 (broadcastInDim S1x128 ![1] bcast_S128_S1x128_1 : (⟨S128, .f32⟩ : BufTy).Contents (Elt F) → (⟨S1x128, .f32⟩ : BufTy).Contents (Elt F)),
    StableHlo.unary main_v76 main_v77 (broadcastInDim S50000x128 ![0, 1] bcast_S1x128_S50000x128_0_1 : (⟨S1x128, .f32⟩ : BufTy).Contents (Elt F) → (⟨S50000x128, .f32⟩ : BufTy).Contents (Elt F)),
    StableHlo.binary main_v71 main_v77 main_v78 (subf : (⟨S50000x128, .f32⟩ : BufTy).Contents (Elt F) → (⟨S50000x128, .f32⟩ : BufTy).Contents (Elt F) → (⟨S50000x128, .f32⟩ : BufTy).Contents (Elt F)),
    StableHlo.nullary main_cst_14 (constant S_ .f32 0x3727C5AC#32),
    StableHlo.unary main_cst_14 main_v79 (broadcastInDim S128 ![] bcast_S_S128 : (⟨S_, .f32⟩ : BufTy).Contents (Elt F) → (⟨S128, .f32⟩ : BufTy).Contents (Elt F)),
    StableHlo.binary main_v75 main_v79 main_v80 (addf : (⟨S128, .f32⟩ : BufTy).Contents (Elt F) → (⟨S128, .f32⟩ : BufTy).Contents (Elt F) → (⟨S128, .f32⟩ : BufTy).Contents (Elt F)),
    StableHlo.unary main_v80 main_v81 (Host.rsqrt : (⟨S128, .f32⟩ : BufTy).Contents (Elt F) → (⟨S128, .f32⟩ : BufTy).Contents (Elt F)),
    StableHlo.unary main_v81 main_v82 (broadcastInDim S1x128 ![1] bcast_S128_S1x128_1 : (⟨S128, .f32⟩ : BufTy).Contents (Elt F) → (⟨S1x128, .f32⟩ : BufTy).Contents (Elt F)),
    StableHlo.unary main_v82 main_v83 (broadcastInDim S50000x128 ![0, 1] bcast_S1x128_S50000x128_0_1 : (⟨S1x128, .f32⟩ : BufTy).Contents (Elt F) → (⟨S50000x128, .f32⟩ : BufTy).Contents (Elt F)),
    StableHlo.binary main_v78 main_v83 main_v84 (mulf : (⟨S50000x128, .f32⟩ : BufTy).Contents (Elt F) → (⟨S50000x128, .f32⟩ : BufTy).Contents (Elt F) → (⟨S50000x128, .f32⟩ : BufTy).Contents (Elt F)),
    StableHlo.unary main_arg14 main_v85 (broadcastInDim S1x128 ![1] bcast_S128_S1x128_1 : (⟨S128, .f32⟩ : BufTy).Contents (Elt F) → (⟨S1x128, .f32⟩ : BufTy).Contents (Elt F)),
    StableHlo.unary main_v85 main_v86 (broadcastInDim S50000x128 ![0, 1] bcast_S1x128_S50000x128_0_1 : (⟨S1x128, .f32⟩ : BufTy).Contents (Elt F) → (⟨S50000x128, .f32⟩ : BufTy).Contents (Elt F)),
    StableHlo.binary main_v84 main_v86 main_v87 (mulf : (⟨S50000x128, .f32⟩ : BufTy).Contents (Elt F) → (⟨S50000x128, .f32⟩ : BufTy).Contents (Elt F) → (⟨S50000x128, .f32⟩ : BufTy).Contents (Elt F)),
    StableHlo.unary main_arg15 main_v88 (broadcastInDim S1x128 ![1] bcast_S128_S1x128_1 : (⟨S128, .f32⟩ : BufTy).Contents (Elt F) → (⟨S1x128, .f32⟩ : BufTy).Contents (Elt F)),
    StableHlo.unary main_v88 main_v89 (broadcastInDim S50000x128 ![0, 1] bcast_S1x128_S50000x128_0_1 : (⟨S1x128, .f32⟩ : BufTy).Contents (Elt F) → (⟨S50000x128, .f32⟩ : BufTy).Contents (Elt F)),
    StableHlo.binary main_v87 main_v89 main_v90 (addf : (⟨S50000x128, .f32⟩ : BufTy).Contents (Elt F) → (⟨S50000x128, .f32⟩ : BufTy).Contents (Elt F) → (⟨S50000x128, .f32⟩ : BufTy).Contents (Elt F)) ]

/-- Operations of window wL: the new node features. -/
def wL : List (HloOp τ sig (Elt F)) :=
  [ StableHlo.unary main_arg16 main_v91 (broadcastInDim S50000x128 ![] bcast_S_S50000x128 : (⟨S_, .f32⟩ : BufTy).Contents (Elt F) → (⟨S50000x128, .f32⟩ : BufTy).Contents (Elt F)),
    StableHlo.binary main_v91 main_v90 main_v92 (mulf : (⟨S50000x128, .f32⟩ : BufTy).Contents (Elt F) → (⟨S50000x128, .f32⟩ : BufTy).Contents (Elt F) → (⟨S50000x128, .f32⟩ : BufTy).Contents (Elt F)),
    StableHlo.binary main_arg0 main_v92 main_v93 (addf : (⟨S50000x128, .f32⟩ : BufTy).Contents (Elt F) → (⟨S50000x128, .f32⟩ : BufTy).Contents (Elt F) → (⟨S50000x128, .f32⟩ : BufTy).Contents (Elt F)) ]

/-- The first sixty statements' operations. -/
abbrev ops0 : List (HloOp τ sig (Elt F)) := wA ++ (wB ++ (wC ++ (wD ++ (wE ++ wF))))
/-- The remaining statements' operations. -/
abbrev ops1 : List (HloOp τ sig (Elt F)) := wG ++ (wH ++ (wI ++ (wJ ++ (wK ++ wL))))
/-- @main's operations, in order. -/
abbrev ops : List (HloOp τ sig (Elt F)) := ops0 ++ ops1

set_option maxRecDepth 8192 in
set_option maxHeartbeats 4000000 in
/-- The first part is its windows in order: the outlined functions unfolded at their calls, sequencing reassociated. -/
theorem main_part0_eq (c : Dev nD) : main_part0 (F := F) c = seq ops0 := by
  simp only [main_part0, fn_var.body, fn_relu.body, fn_where.body, bind_assoc, pure_bind]
  rfl

set_option maxRecDepth 8192 in
set_option maxHeartbeats 4000000 in
/-- The second part is its windows in order. -/
theorem main_part1_eq (c : Dev nD) : main_part1 (F := F) c = seq ops1 := by
  simp only [main_part1, fn_var_0.body, fn_where.body, bind_assoc, pure_bind]
  rfl

/-- @main is the whole line. -/
theorem main_eq (c : Dev nD) : main (F := F) c = seq ops := by
  simp only [ops, seq_append, ← main_part0_eq c, ← main_part1_eq c]
  rfl

theorem scopedRefs_eq : (Finset.univ.filter fun b : Ref sig .tc => b.isScoped) = ∅ := by decide
theorem scopedSems_eq : (Finset.univ.filter fun sm : SemLoc sig => sm.isScoped .tc) = ∅ := by decide

theorem wA_sub : (wA : List (HloOp τ sig (Elt F))).Forall fun op => op.bufs ⊆ tcRefs τ sig := by
  unfold wA
  exact ⟨unary_bufs_sub .., reshape_bufs_sub .., unary_bufs_sub .., reshape_bufs_sub ..⟩
theorem wA_fresh : ∀ op ∈ (wA : List (HloOp τ sig (Elt F))), op.fresh = ∅ := by
  unfold wA
  intro _ h
  (repeat (cases h with | head => rfl | tail _ h => ?_))
  exact nomatch h
/-- The buffers window wA writes. -/
abbrev wA_W : List (Ref sig .tc) := [main_v0, main_v1, main_v2, main_v3]
theorem wA_writes : (wA : List (HloOp τ sig (Elt F))).Forall fun op => op.writes ⊆ (wA_W.map (Proc.devRef (τ := τ) .tc)).toFinset := by
  unfold wA
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer window wA does not write keeps its contents through it. -/
theorem wA_keep (V : Valuation τ sig (Elt F)) (r : Ref sig .tc) (h : r ∉ wA_W) :
    after wA V (no_index (Proc.devRef .tc r)) = V (Proc.devRef .tc r) :=
  after_of_writes_sub wA V wA_writes h

theorem wB_sub : (wB : List (HloOp τ sig (Elt F))).Forall fun op => op.bufs ⊆ tcRefs τ sig := by
  unfold wB
  exact ⟨binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub ..⟩
theorem wB_fresh : ∀ op ∈ (wB : List (HloOp τ sig (Elt F))), op.fresh = ∅ := by
  unfold wB
  intro _ h
  (repeat (cases h with | head => rfl | tail _ h => ?_))
  exact nomatch h
/-- The buffers window wB writes. -/
abbrev wB_W : List (Ref sig .tc) := [main_v4, main_c, main_v5, main_v6, main_c_0, main_v7, main_v8, main_v9, main_v10, main_v11, main_v12, main_v13, main_c_1, main_v14, main_v15, main_c_2, main_v16, main_v17, main_v18, main_v19, main_v20, main_v21, main_v22]
theorem wB_writes : (wB : List (HloOp τ sig (Elt F))).Forall fun op => op.writes ⊆ (wB_W.map (Proc.devRef (τ := τ) .tc)).toFinset := by
  unfold wB
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer window wB does not write keeps its contents through it. -/
theorem wB_keep (V : Valuation τ sig (Elt F)) (r : Ref sig .tc) (h : r ∉ wB_W) :
    after wB V (no_index (Proc.devRef .tc r)) = V (Proc.devRef .tc r) :=
  after_of_writes_sub wB V wB_writes h

theorem wC_sub : (wC : List (HloOp τ sig (Elt F))).Forall fun op => op.bufs ⊆ tcRefs τ sig := by
  unfold wC
  exact ⟨nullary_bufs_sub .., binary_bufs_sub .., nullary_bufs_sub .., unary_bufs_sub .., binary_bufs_sub ..⟩
theorem wC_fresh : ∀ op ∈ (wC : List (HloOp τ sig (Elt F))), op.fresh = ∅ := by
  unfold wC
  intro _ h
  (repeat (cases h with | head => rfl | tail _ h => ?_))
  exact nomatch h
/-- The buffers window wC writes. -/
abbrev wC_W : List (Ref sig .tc) := [main_cst, main_v23, main_cst_3, main_v24, main_v25]
theorem wC_writes : (wC : List (HloOp τ sig (Elt F))).Forall fun op => op.writes ⊆ (wC_W.map (Proc.devRef (τ := τ) .tc)).toFinset := by
  unfold wC
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer window wC does not write keeps its contents through it. -/
theorem wC_keep (V : Valuation τ sig (Elt F)) (r : Ref sig .tc) (h : r ∉ wC_W) :
    after wC V (no_index (Proc.devRef .tc r)) = V (Proc.devRef .tc r) :=
  after_of_writes_sub wC V wC_writes h

theorem wD_sub : (wD : List (HloOp τ sig (Elt F))).Forall fun op => op.bufs ⊆ tcRefs τ sig := by
  unfold wD
  exact ⟨nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub ..⟩
theorem wD_fresh : ∀ op ∈ (wD : List (HloOp τ sig (Elt F))), op.fresh = ∅ := by
  unfold wD
  intro _ h
  (repeat (cases h with | head => rfl | tail _ h => ?_))
  exact nomatch h
/-- The buffers window wD writes. -/
abbrev wD_W : List (Ref sig .tc) := [main_c_4, main_call0.cst.ref, main_call0.v0.ref, main_call0.v1.ref, main_call0.cst_0.ref, main_call0.v2.ref, main_call0.v3.ref, main_call0.v4.ref, main_call0.v5.ref, main_call0.v6.ref, main_call0.v7.ref, main_call0.cst_1.ref, main_call0.v8.ref, main_call0.cst_2.ref, main_call0.v9.ref, main_call0.v10.ref, main_call0.v11.ref, main_call0.cst_3.ref, main_call0.v12.ref, main_call0.cst_4.ref, main_call0.call0.v0.ref, main_call0.call0.v1.ref, main_call0.call0.v2.ref]
theorem wD_writes : (wD : List (HloOp τ sig (Elt F))).Forall fun op => op.writes ⊆ (wD_W.map (Proc.devRef (τ := τ) .tc)).toFinset := by
  unfold wD
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer window wD does not write keeps its contents through it. -/
theorem wD_keep (V : Valuation τ sig (Elt F)) (r : Ref sig .tc) (h : r ∉ wD_W) :
    after wD V (no_index (Proc.devRef .tc r)) = V (Proc.devRef .tc r) :=
  after_of_writes_sub wD V wD_writes h

theorem wE_sub : (wE : List (HloOp τ sig (Elt F))).Forall fun op => op.bufs ⊆ tcRefs τ sig := by
  unfold wE
  exact ⟨unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub ..⟩
theorem wE_fresh : ∀ op ∈ (wE : List (HloOp τ sig (Elt F))), op.fresh = ∅ := by
  unfold wE
  intro _ h
  (repeat (cases h with | head => rfl | tail _ h => ?_))
  exact nomatch h
/-- The buffers window wE writes. -/
abbrev wE_W : List (Ref sig .tc) := [main_v27, main_v28, main_v29, main_cst_5, main_v30, main_v31, main_v32, main_v33, main_v34, main_v35, main_v36, main_v37, main_v38, main_v39, main_v40, main_v41]
theorem wE_writes : (wE : List (HloOp τ sig (Elt F))).Forall fun op => op.writes ⊆ (wE_W.map (Proc.devRef (τ := τ) .tc)).toFinset := by
  unfold wE
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer window wE does not write keeps its contents through it. -/
theorem wE_keep (V : Valuation τ sig (Elt F)) (r : Ref sig .tc) (h : r ∉ wE_W) :
    after wE V (no_index (Proc.devRef .tc r)) = V (Proc.devRef .tc r) :=
  after_of_writes_sub wE V wE_writes h

theorem wF_sub : (wF : List (HloOp τ sig (Elt F))).Forall fun op => op.bufs ⊆ tcRefs τ sig := by
  unfold wF
  exact ⟨binary_bufs_sub .., unary_bufs_sub .., unary_bufs_sub .., binary_bufs_sub .., nullary_bufs_sub .., unary_bufs_sub .., binary_bufs_sub .., binary_bufs_sub .., binary_bufs_sub .., unary_bufs_sub .., unary_bufs_sub .., binary_bufs_sub ..⟩
theorem wF_fresh : ∀ op ∈ (wF : List (HloOp τ sig (Elt F))), op.fresh = ∅ := by
  unfold wF
  intro _ h
  (repeat (cases h with | head => rfl | tail _ h => ?_))
  exact nomatch h
/-- The buffers window wF writes. -/
abbrev wF_W : List (Ref sig .tc) := [main_v42, main_v43, main_v44, main_v45, main_call1.cst.ref, main_call1.v0.ref, main_call1.v1.ref, main_v47, main_v48, main_v49, main_v50, main_v51]
theorem wF_writes : (wF : List (HloOp τ sig (Elt F))).Forall fun op => op.writes ⊆ (wF_W.map (Proc.devRef (τ := τ) .tc)).toFinset := by
  unfold wF
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer window wF does not write keeps its contents through it. -/
theorem wF_keep (V : Valuation τ sig (Elt F)) (r : Ref sig .tc) (h : r ∉ wF_W) :
    after wF V (no_index (Proc.devRef .tc r)) = V (Proc.devRef .tc r) :=
  after_of_writes_sub wF V wF_writes h

theorem wG_sub : (wG : List (HloOp τ sig (Elt F))).Forall fun op => op.bufs ⊆ tcRefs τ sig := by
  unfold wG
  exact ⟨unary_bufs_sub .., unary_bufs_sub .., nullary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub ..⟩
theorem wG_fresh : ∀ op ∈ (wG : List (HloOp τ sig (Elt F))), op.fresh = ∅ := by
  unfold wG
  intro _ h
  (repeat (cases h with | head => rfl | tail _ h => ?_))
  exact nomatch h
/-- The buffers window wG writes. -/
abbrev wG_W : List (Ref sig .tc) := [main_v52, main_v53, main_cst_6, main_v54, main_v55, main_cst_7, main_v56, main_v57, main_v58, main_c_8, main_v59, main_v60, main_c_9, main_v61, main_v62, main_v63, main_v64, main_v65, main_v66]
theorem wG_writes : (wG : List (HloOp τ sig (Elt F))).Forall fun op => op.writes ⊆ (wG_W.map (Proc.devRef (τ := τ) .tc)).toFinset := by
  unfold wG
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer window wG does not write keeps its contents through it. -/
theorem wG_keep (V : Valuation τ sig (Elt F)) (r : Ref sig .tc) (h : r ∉ wG_W) :
    after wG V (no_index (Proc.devRef .tc r)) = V (Proc.devRef .tc r) :=
  after_of_writes_sub wG V wG_writes h

theorem wH_sub : (wH : List (HloOp τ sig (Elt F))).Forall fun op => op.bufs ⊆ tcRefs τ sig := by
  unfold wH
  exact ⟨nullary_bufs_sub .., unary_bufs_sub .., unary_bufs_sub .., ternary_bufs_sub .., binary_bufs_sub .., binary_bufs_sub ..⟩
theorem wH_fresh : ∀ op ∈ (wH : List (HloOp τ sig (Elt F))), op.fresh = ∅ := by
  unfold wH
  intro _ h
  (repeat (cases h with | head => rfl | tail _ h => ?_))
  exact nomatch h
/-- The buffers window wH writes. -/
abbrev wH_W : List (Ref sig .tc) := [main_cst_10, main_v67, main_v68, main_v69, main_v70, main_v71]
theorem wH_writes : (wH : List (HloOp τ sig (Elt F))).Forall fun op => op.writes ⊆ (wH_W.map (Proc.devRef (τ := τ) .tc)).toFinset := by
  unfold wH
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer window wH does not write keeps its contents through it. -/
theorem wH_keep (V : Valuation τ sig (Elt F)) (r : Ref sig .tc) (h : r ∉ wH_W) :
    after wH V (no_index (Proc.devRef .tc r)) = V (Proc.devRef .tc r) :=
  after_of_writes_sub wH V wH_writes h

theorem wI_sub : (wI : List (HloOp τ sig (Elt F))).Forall fun op => op.bufs ⊆ tcRefs τ sig := by
  unfold wI
  exact ⟨nullary_bufs_sub .., binary_bufs_sub .., nullary_bufs_sub .., unary_bufs_sub .., binary_bufs_sub ..⟩
theorem wI_fresh : ∀ op ∈ (wI : List (HloOp τ sig (Elt F))), op.fresh = ∅ := by
  unfold wI
  intro _ h
  (repeat (cases h with | head => rfl | tail _ h => ?_))
  exact nomatch h
/-- The buffers window wI writes. -/
abbrev wI_W : List (Ref sig .tc) := [main_cst_11, main_v72, main_cst_12, main_v73, main_v74]
theorem wI_writes : (wI : List (HloOp τ sig (Elt F))).Forall fun op => op.writes ⊆ (wI_W.map (Proc.devRef (τ := τ) .tc)).toFinset := by
  unfold wI
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer window wI does not write keeps its contents through it. -/
theorem wI_keep (V : Valuation τ sig (Elt F)) (r : Ref sig .tc) (h : r ∉ wI_W) :
    after wI V (no_index (Proc.devRef .tc r)) = V (Proc.devRef .tc r) :=
  after_of_writes_sub wI V wI_writes h

theorem wJ_sub : (wJ : List (HloOp τ sig (Elt F))).Forall fun op => op.bufs ⊆ tcRefs τ sig := by
  unfold wJ
  exact ⟨nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub ..⟩
theorem wJ_fresh : ∀ op ∈ (wJ : List (HloOp τ sig (Elt F))), op.fresh = ∅ := by
  unfold wJ
  intro _ h
  (repeat (cases h with | head => rfl | tail _ h => ?_))
  exact nomatch h
/-- The buffers window wJ writes. -/
abbrev wJ_W : List (Ref sig .tc) := [main_c_13, main_call2.cst.ref, main_call2.v0.ref, main_call2.v1.ref, main_call2.cst_0.ref, main_call2.v2.ref, main_call2.v3.ref, main_call2.v4.ref, main_call2.v5.ref, main_call2.v6.ref, main_call2.v7.ref, main_call2.cst_1.ref, main_call2.v8.ref, main_call2.cst_2.ref, main_call2.v9.ref, main_call2.v10.ref, main_call2.v11.ref, main_call2.cst_3.ref, main_call2.v12.ref, main_call2.cst_4.ref, main_call2.call0.v0.ref, main_call2.call0.v1.ref, main_call2.call0.v2.ref]
theorem wJ_writes : (wJ : List (HloOp τ sig (Elt F))).Forall fun op => op.writes ⊆ (wJ_W.map (Proc.devRef (τ := τ) .tc)).toFinset := by
  unfold wJ
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer window wJ does not write keeps its contents through it. -/
theorem wJ_keep (V : Valuation τ sig (Elt F)) (r : Ref sig .tc) (h : r ∉ wJ_W) :
    after wJ V (no_index (Proc.devRef .tc r)) = V (Proc.devRef .tc r) :=
  after_of_writes_sub wJ V wJ_writes h

theorem wK_sub : (wK : List (HloOp τ sig (Elt F))).Forall fun op => op.bufs ⊆ tcRefs τ sig := by
  unfold wK
  exact ⟨unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub ..⟩
theorem wK_fresh : ∀ op ∈ (wK : List (HloOp τ sig (Elt F))), op.fresh = ∅ := by
  unfold wK
  intro _ h
  (repeat (cases h with | head => rfl | tail _ h => ?_))
  exact nomatch h
/-- The buffers window wK writes. -/
abbrev wK_W : List (Ref sig .tc) := [main_v76, main_v77, main_v78, main_cst_14, main_v79, main_v80, main_v81, main_v82, main_v83, main_v84, main_v85, main_v86, main_v87, main_v88, main_v89, main_v90]
theorem wK_writes : (wK : List (HloOp τ sig (Elt F))).Forall fun op => op.writes ⊆ (wK_W.map (Proc.devRef (τ := τ) .tc)).toFinset := by
  unfold wK
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer window wK does not write keeps its contents through it. -/
theorem wK_keep (V : Valuation τ sig (Elt F)) (r : Ref sig .tc) (h : r ∉ wK_W) :
    after wK V (no_index (Proc.devRef .tc r)) = V (Proc.devRef .tc r) :=
  after_of_writes_sub wK V wK_writes h

theorem wL_sub : (wL : List (HloOp τ sig (Elt F))).Forall fun op => op.bufs ⊆ tcRefs τ sig := by
  unfold wL
  exact ⟨unary_bufs_sub .., binary_bufs_sub .., binary_bufs_sub ..⟩
theorem wL_fresh : ∀ op ∈ (wL : List (HloOp τ sig (Elt F))), op.fresh = ∅ := by
  unfold wL
  intro _ h
  (repeat (cases h with | head => rfl | tail _ h => ?_))
  exact nomatch h
/-- The buffers window wL writes. -/
abbrev wL_W : List (Ref sig .tc) := [main_v91, main_v92, main_v93]
theorem wL_writes : (wL : List (HloOp τ sig (Elt F))).Forall fun op => op.writes ⊆ (wL_W.map (Proc.devRef (τ := τ) .tc)).toFinset := by
  unfold wL
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer window wL does not write keeps its contents through it. -/
theorem wL_keep (V : Valuation τ sig (Elt F)) (r : Ref sig .tc) (h : r ∉ wL_W) :
    after wL V (no_index (Proc.devRef .tc r)) = V (Proc.devRef .tc r) :=
  after_of_writes_sub wL V wL_writes h

theorem ops_sub : (ops : List (HloOp τ sig (Elt F))).Forall fun op => op.bufs ⊆ tcRefs τ sig :=
  forall_append (forall_append wA_sub (forall_append wB_sub (forall_append wC_sub (forall_append wD_sub (forall_append wE_sub (wF_sub)))))) (forall_append wG_sub (forall_append wH_sub (forall_append wI_sub (forall_append wJ_sub (forall_append wK_sub (wL_sub))))))

theorem ops_fresh : ∀ op ∈ (ops : List (HloOp τ sig (Elt F))), op.fresh = ∅ :=
  forall_mem_append (forall_mem_append wA_fresh (forall_mem_append wB_fresh (forall_mem_append wC_fresh (forall_mem_append wD_fresh (forall_mem_append wE_fresh (wF_fresh)))))) (forall_mem_append wG_fresh (forall_mem_append wH_fresh (forall_mem_append wI_fresh (forall_mem_append wJ_fresh (forall_mem_append wK_fresh (wL_fresh))))))

end Cert.ReferenceIdeal.RefRun

end
-- ==== Proof.RefRunTerms.lean ====
/-
  The reference program's two results as terms of its seventeen arguments, named stage by stage.

  Every definition is the program's own composition of whole-array operations, at exact arithmetic:
  * the index table's two rows; a row with negative entries wrapped by the node count, as a column (the start
    indices of a gather); the first row as a column (the scatter's indices);
  * the edge pre-activation: the edge features' product plus the products of the node features gathered at the
    two ends of each edge;
  * a column mean and a column variance (the mean of the squared deviations; the divisor is the row count less a
    correction of zero, and where that divisor is not positive the variance is the not-a-number constant), for
    an array with one row per edge and for one with one row per node;
  * normalization by the mean and the reciprocal square root of the variance plus a small constant, then a
    scale and a shift by row vectors;
  * the new edge features: the old ones plus a second product of the rectified first product, each with its shift;
  * the gated messages: the logistic of the pre-activation times the gathered node product; their accumulation at
    each edge's node, from zero; the node product plus that; and the new node features: the old ones plus a
    scalar times the normalized sum.
-/
import proofs.«167392_j80126909874572_1_alg».proof.Proof.Gen.ReferenceIdeal
import Idealize.ShloMosaic.PureOps.Ideal

noncomputable section

namespace Cert.ReferenceIdeal.RefRun

open Cert.ReferenceIdeal Cert.ReferenceIdeal.Gen Idealize.ShloMosaic Idealize.SL.Sem Idealize.ShloMosaic.StableHlo

/-- One row per node. -/
abbrev CN : Type := (⟨S50000x128, .f32⟩ : BufTy).Contents (Elt Ideal)
/-- One row per edge. -/
abbrev CE : Type := (⟨S640000x128, .f32⟩ : BufTy).Contents (Elt Ideal)
/-- A square weight matrix. -/
abbrev CW : Type := (⟨S128x128, .f32⟩ : BufTy).Contents (Elt Ideal)
/-- A row vector. -/
abbrev CV : Type := (⟨S128, .f32⟩ : BufTy).Contents (Elt Ideal)
/-- A scalar. -/
abbrev CS : Type := (⟨S_, .f32⟩ : BufTy).Contents (Elt Ideal)
/-- The index table: two rows, one entry per edge. -/
abbrev CT : Type := (⟨S2x640000, .i32⟩ : BufTy).Contents (Elt Ideal)
/-- One index per edge. -/
abbrev CI : Type := (⟨S640000, .i32⟩ : BufTy).Contents (Elt Ideal)
/-- One index per edge, as a column. -/
abbrev CJ : Type := (⟨S640000x1, .i32⟩ : BufTy).Contents (Elt Ideal)

/-- The index table's first row, as a vector. -/
def row0 (a2 : CT) : CI :=
  shapeCast S640000 (extractStridedSlice S1x640000 ![0, 0] a2 slices_S2x640000_S1x640000_0_0) shapeCasts_S1x640000_S640000
/-- The index table's second row, as a vector. -/
def row1 (a2 : CT) : CI :=
  shapeCast S640000 (extractStridedSlice S1x640000 ![1, 0] a2 slices_S2x640000_S1x640000_1_0) shapeCasts_S1x640000_S640000

/-- Indices with the negative ones raised by the node count, as a column. -/
def wrapIdx (x : CI) : CJ :=
  broadcastInDim S640000x1 ![0] bcast_S640000_S640000x1_0
    (select (cmpi .slt x (broadcastInDim S640000 ![] bcast_S_S640000 (constantI S_ 32 0#32)))
      (addi x (broadcastInDim S640000 ![] bcast_S_S640000 (constantI S_ 32 50000#32))) x)

/-- The start indices of the gather at each edge's first end. -/
def srcIdx (a2 : CT) : CJ := wrapIdx (row0 a2)
/-- The start indices of the gather at each edge's second end. -/
def dstIdx (a2 : CT) : CJ := wrapIdx (row1 a2)
/-- The scatter's indices: the first row as it stands, as a column. -/
def segIdx (a2 : CT) : CJ := broadcastInDim S640000x1 ![0] bcast_S640000_S640000x1_0 (row0 a2)

/-- A row vector repeated over the edges. -/
def rowsE (v : CV) : CE :=
  broadcastInDim S640000x128 ![0, 1] bcast_S1x128_S640000x128_0_1 (broadcastInDim S1x128 ![1] bcast_S128_S1x128_1 v)
/-- A row vector repeated over the nodes. -/
def rowsN (v : CV) : CN :=
  broadcastInDim S50000x128 ![0, 1] bcast_S1x128_S50000x128_0_1 (broadcastInDim S1x128 ![1] bcast_S128_S1x128_1 v)

/-- The edge pre-activation: three products summed. -/
def ehatR (e hs hd : CE) (P Q R : CW) : CE :=
  addf (F := Ideal) (φ := .f32) (addf (F := Ideal) (φ := .f32) (Host.dotGeneral (F := Ideal) (φ₁ := .f32) (φ₂ := .f32) dot_S640000x128_S128x128_S640000x128_1_0_0_1_n_n none e P) (Host.dotGeneral (F := Ideal) (φ₁ := .f32) (φ₂ := .f32) dot_S640000x128_S128x128_S640000x128_1_0_0_1_n_n none hs Q))
    (Host.dotGeneral (F := Ideal) (φ₁ := .f32) (φ₂ := .f32) dot_S640000x128_S128x128_S640000x128_1_0_0_1_n_n none hd R)

/-- The column mean over the edges. -/
def meanR (x : CE) : CV :=
  Host.divf (F := Ideal) (φ := .f32) (Host.reduceAdd (F := Ideal) (φ := .f32) x (constant (F := Ideal) S_ .f32 0x00000000#32) reducesTo_S640000x128_S128_d0 h_S_)
    (broadcastInDim S128 ![] bcast_S_S128 (constant (F := Ideal) S_ .f32 0x491C4000#32))

/-- The deviations from the column mean, over the edges. -/
def ctrR (x : CE) : CE :=
  subf (F := Ideal) (φ := .f32) x (broadcastInDim S640000x128 ![0, 1] bcast_S1x128_S640000x128_0_1
    (Host.divf (F := Ideal) (φ := .f32) (broadcastInDim S1x128 ![1] bcast_S128_S1x128_1 (Host.reduceAdd (F := Ideal) (φ := .f32) x (constant (F := Ideal) S_ .f32 0x00000000#32) reducesTo_S640000x128_S128_d0 h_S_))
      (broadcastInDim S1x128 ![] bcast_S_S1x128 (constant (F := Ideal) S_ .f32 0x491C4000#32))))
/-- The variance's divisor over the edges: the row count less the correction. -/
def dofR : CS := subf (F := Ideal) (φ := .f32) (constant (F := Ideal) S_ .f32 0x491C4000#32) (sitofp (F := Ideal) .f32 (constantI S_ 32 0#32))
/-- The column variance over the edges. -/
def varR (x : CE) : CV :=
  select (broadcastInDim S128 ![] bcast_S_S128 (cmpf (F := Ideal) (φ := .f32) .ogt dofR (constant (F := Ideal) S_ .f32 0x00000000#32)))
    (Host.divf (F := Ideal) (φ := .f32) (Host.reduceAdd (F := Ideal) (φ := .f32) (mulf (F := Ideal) (φ := .f32) (ctrR x) (ctrR x)) (constant (F := Ideal) S_ .f32 0x00000000#32) reducesTo_S640000x128_S128_d0 h_S_)
      (broadcastInDim S128 ![] bcast_S_S128 dofR))
    (broadcastInDim S128 ![] bcast_S_S128 (constant (F := Ideal) S_ .f32 0x7FC00000#32))

/-- The column mean over the nodes. -/
def meanRn (x : CN) : CV :=
  Host.divf (F := Ideal) (φ := .f32) (Host.reduceAdd (F := Ideal) (φ := .f32) x (constant (F := Ideal) S_ .f32 0x00000000#32) reducesTo_S50000x128_S128_d0 h_S_)
    (broadcastInDim S128 ![] bcast_S_S128 (constant (F := Ideal) S_ .f32 0x47435000#32))
/-- The deviations from the column mean, over the nodes. -/
def ctrRn (x : CN) : CN :=
  subf (F := Ideal) (φ := .f32) x (broadcastInDim S50000x128 ![0, 1] bcast_S1x128_S50000x128_0_1
    (Host.divf (F := Ideal) (φ := .f32) (broadcastInDim S1x128 ![1] bcast_S128_S1x128_1 (Host.reduceAdd (F := Ideal) (φ := .f32) x (constant (F := Ideal) S_ .f32 0x00000000#32) reducesTo_S50000x128_S128_d0 h_S_))
      (broadcastInDim S1x128 ![] bcast_S_S1x128 (constant (F := Ideal) S_ .f32 0x47435000#32))))
/-- The variance's divisor over the nodes. -/
def dofRn : CS := subf (F := Ideal) (φ := .f32) (constant (F := Ideal) S_ .f32 0x47435000#32) (sitofp (F := Ideal) .f32 (constantI S_ 32 0#32))
/-- The column variance over the nodes. -/
def varRn (x : CN) : CV :=
  select (broadcastInDim S128 ![] bcast_S_S128 (cmpf (F := Ideal) (φ := .f32) .ogt dofRn (constant (F := Ideal) S_ .f32 0x00000000#32)))
    (Host.divf (F := Ideal) (φ := .f32) (Host.reduceAdd (F := Ideal) (φ := .f32) (mulf (F := Ideal) (φ := .f32) (ctrRn x) (ctrRn x)) (constant (F := Ideal) S_ .f32 0x00000000#32) reducesTo_S50000x128_S128_d0 h_S_)
      (broadcastInDim S128 ![] bcast_S_S128 dofRn))
    (broadcastInDim S128 ![] bcast_S_S128 (constant (F := Ideal) S_ .f32 0x7FC00000#32))

/-- Normalized by mean and variance, scaled and shifted, over the edges. -/
def bnR (x : CE) (mean var gamma beta : CV) : CE :=
  addf (F := Ideal) (φ := .f32) (mulf (F := Ideal) (φ := .f32) (mulf (F := Ideal) (φ := .f32) (subf (F := Ideal) (φ := .f32) x (rowsE mean))
      (rowsE (Host.rsqrt (F := Ideal) (φ := .f32) (addf (F := Ideal) (φ := .f32) var (broadcastInDim S128 ![] bcast_S_S128 (constant (F := Ideal) S_ .f32 0x3727C5AC#32))))))
    (rowsE gamma)) (rowsE beta)
/-- Normalized by mean and variance, scaled and shifted, over the nodes. -/
def bnRn (x : CN) (mean var gamma beta : CV) : CN :=
  addf (F := Ideal) (φ := .f32) (mulf (F := Ideal) (φ := .f32) (mulf (F := Ideal) (φ := .f32) (subf (F := Ideal) (φ := .f32) x (rowsN mean))
      (rowsN (Host.rsqrt (F := Ideal) (φ := .f32) (addf (F := Ideal) (φ := .f32) var (broadcastInDim S128 ![] bcast_S_S128 (constant (F := Ideal) S_ .f32 0x3727C5AC#32))))))
    (rowsN gamma)) (rowsN beta)

/-- The new edge features. -/
def enewR (e z : CE) (W1 : CW) (b1 : CV) (W2 : CW) (b2 : CV) : CE :=
  addf (F := Ideal) (φ := .f32) (addf (F := Ideal) (φ := .f32) e (Host.dotGeneral (F := Ideal) (φ₁ := .f32) (φ₂ := .f32) dot_S640000x128_S128x128_S640000x128_1_0_0_1_n_n none
      (maximumf (F := Ideal) (φ := .f32) (addf (F := Ideal) (φ := .f32) (Host.dotGeneral (F := Ideal) (φ₁ := .f32) (φ₂ := .f32) dot_S640000x128_S128x128_S640000x128_1_0_0_1_n_n none z W1) (rowsE b1))
        (broadcastInDim S640000x128 ![] bcast_S_S640000x128 (constant (F := Ideal) S_ .f32 0x00000000#32))) W2))
    (rowsE b2)

/-- The gated messages: the logistic of the pre-activation times the gathered node product. -/
def msgR (x vhd : CE) : CE :=
  mulf (F := Ideal) (φ := .f32) (Host.divf (F := Ideal) (φ := .f32) (broadcastInDim S640000x128 ![] bcast_S_S640000x128 (constant (F := Ideal) S_ .f32 0x3F800000#32))
      (addf (F := Ideal) (φ := .f32) (broadcastInDim S640000x128 ![] bcast_S_S640000x128 (constant (F := Ideal) S_ .f32 0x3F800000#32)) (Host.exp (F := Ideal) (φ := .f32) (Host.negf (F := Ideal) (φ := .f32) x))))
    vhd

/-- The messages accumulated at their nodes, from zero. -/
def aggR (msg : CE) (seg : CJ) : CN :=
  Host.scatterAdd (F := Ideal) (φ := .f32) scatter_S50000x128_S640000x1_S640000x128_1_0_0_1 (broadcastInDim S50000x128 ![] bcast_S_S50000x128 (constant (F := Ideal) S_ .f32 0x00000000#32)) seg msg

/-- The node product plus the accumulated messages. -/
def sR (h : CN) (Uw : CW) (agg : CN) : CN :=
  addf (F := Ideal) (φ := .f32) (Host.dotGeneral (F := Ideal) (φ₁ := .f32) (φ₂ := .f32) dot_S50000x128_S128x128_S50000x128_1_0_0_1_n_n none h Uw) agg

/-- The new node features. -/
def hnewR (h : CN) (alpha : CS) (z : CN) : CN :=
  addf (F := Ideal) (φ := .f32) h (mulf (F := Ideal) (φ := .f32) (broadcastInDim S50000x128 ![] bcast_S_S50000x128 alpha) z)

/-- The edge pre-activation as a term of the arguments. -/
def ehatOf (a0 : CN) (a1 : CE) (a2 : CT) (a3 a4 a5 : CW) : CE :=
  ehatR a1 (Host.gather gather_S50000x128_S640000x1_S640000x128_1_0_n_n_0_1_1128 a0 (srcIdx a2)) (Host.gather gather_S50000x128_S640000x1_S640000x128_1_0_n_n_0_1_1128 a0 (dstIdx a2)) a3 a4 a5

/-- The node sum as a term of the arguments. -/
def sOf (a0 : CN) (a1 : CE) (a2 : CT) (a3 a4 a5 a6 a7 : CW) : CN :=
  sR a0 a6 (aggR (msgR (ehatOf a0 a1 a2 a3 a4 a5) (Host.gather gather_S50000x128_S640000x1_S640000x128_1_0_n_n_0_1_1128 (Host.dotGeneral (F := Ideal) (φ₁ := .f32) (φ₂ := .f32) dot_S50000x128_S128x128_S50000x128_1_0_0_1_n_n none a0 a7) (dstIdx a2))) (segIdx a2))

/-- The edge result as a term of the seventeen arguments. -/
def RefE (a0 : CN) (a1 : CE) (a2 : CT) (a3 a4 a5 a6 a7 a8 : CW) (a9 : CV) (a10 : CW) (a11 a12 a13 a14 a15 : CV) (a16 : CS) : CE :=
  enewR a1 (bnR (ehatOf a0 a1 a2 a3 a4 a5) (meanR (ehatOf a0 a1 a2 a3 a4 a5)) (varR (ehatOf a0 a1 a2 a3 a4 a5)) a12 a13) a8 a9 a10 a11

/-- The node result as a term of the seventeen arguments. -/
def RefH (a0 : CN) (a1 : CE) (a2 : CT) (a3 a4 a5 a6 a7 a8 : CW) (a9 : CV) (a10 : CW) (a11 a12 a13 a14 a15 : CV) (a16 : CS) : CN :=
  hnewR a0 a16 (bnRn (sOf a0 a1 a2 a3 a4 a5 a6 a7) (meanRn (sOf a0 a1 a2 a3 a4 a5 a6 a7)) (varRn (sOf a0 a1 a2 a3 a4 a5 a6 a7)) a14 a15)

end Cert.ReferenceIdeal.RefRun

end
-- ==== Proof.LibTypedRefs.lean ====
/-
  Typed references of a host program: carrying contents to a buffer's own type and back.

  An outlined function's body names its values by typed references; an operation built over them carries each
  operand from its buffer's type to the value's type and the result back, by a transport along the equation "the
  buffer's type is the value's type". Composed term after composed term these transports come in pairs, back and
  forth along one equation:
  * ofBuf_toBuf: contents carried to the buffer's type and back are the contents;
  * toBuf_ofBuf: and the other way round.
  Both hold for every reference, whatever its equation's proof: no type is computed. Rewriting with them leaves a
  composed term with transports only at its leaves and at its top.
-/
import Idealize.ShloMosaic.Lib.StableHlo

noncomputable section

namespace Cert.LibTypedRefs

open Idealize.ShloMosaic Idealize.ShloMosaic.StableHlo

variable {sig : RefSig} {Val : EltTy → Type} {T : BufTy}

/-- Contents carried to a buffer's type and back are the contents. -/
theorem ofBuf_toBuf (x : TRef sig T) (v : T.Contents Val) : x.ofBuf (x.toBuf v) = v := by
  show cast _ (cast _ v) = v
  rw [cast_cast, cast_eq]

/-- A buffer's contents carried to the value's type and back are the buffer's contents. -/
theorem toBuf_ofBuf (x : TRef sig T) (v : x.ref.ty.Contents Val) : x.toBuf (x.ofBuf v) = v := by
  show cast _ (cast _ v) = v
  rw [cast_cast, cast_eq]

end Cert.LibTypedRefs

end
-- ==== Proof.RefRun.lean ====
/-
  The reference program's run, read back stage by stage.

  For each window of the operation line, the buffer the stage produces holds the stage's term of the buffers the
  window reads, whatever the contents it starts from: the fold over the window's operations, each rewriting its own
  result buffer and no other. A buffer a window does not write is kept by it. Folding the whole line is folding the
  windows in order, so the two result buffers hold the composition of the stages of the seventeen arguments, and the
  arguments, which no window writes, are unchanged. Every weakly fair execution of @main terminates in such a state.
-/
import proofs.«167392_j80126909874572_1_alg».proof.Proof.RefRunOps
import proofs.«167392_j80126909874572_1_alg».proof.Proof.RefRunTerms
import proofs.«167392_j80126909874572_1_alg».proof.Proof.LibTypedRefs

noncomputable section

namespace Cert.ReferenceIdeal.RefRun

open Cert.ReferenceIdeal Cert.ReferenceIdeal.Gen Idealize.ShloMosaic Idealize.ShloMosaic.TcCoe Idealize.SL.Sem Idealize.ShloMosaic.StableHlo

set_option maxRecDepth 8192 in
set_option maxHeartbeats 2000000 in
/-- What window wA leaves in its stage's buffer. -/
theorem wA_v1 (V : Valuation τ sig (Elt Ideal)) :
    after (wA (F := Ideal)) V (no_index (Proc.devRef .tc main_v1)) = row0 (V (Proc.devRef .tc main_arg2)) := by
  unfold wA
  after_results_simp
  rfl

set_option maxRecDepth 8192 in
set_option maxHeartbeats 2000000 in
/-- What window wA leaves in its stage's buffer. -/
theorem wA_v3 (V : Valuation τ sig (Elt Ideal)) :
    after (wA (F := Ideal)) V (no_index (Proc.devRef .tc main_v3)) = row1 (V (Proc.devRef .tc main_arg2)) := by
  unfold wA
  after_results_simp
  rfl

set_option maxRecDepth 8192 in
set_option maxHeartbeats 2000000 in
/-- What window wB leaves in its stage's buffer. -/
theorem wB_v22 (V : Valuation τ sig (Elt Ideal)) :
    after (wB (F := Ideal)) V (no_index (Proc.devRef .tc main_v22)) = ehatR (V (Proc.devRef .tc main_arg1)) (Host.gather gather_S50000x128_S640000x1_S640000x128_1_0_n_n_0_1_1128 (V (Proc.devRef .tc main_arg0)) (wrapIdx (V (Proc.devRef .tc main_v1)))) (Host.gather gather_S50000x128_S640000x1_S640000x128_1_0_n_n_0_1_1128 (V (Proc.devRef .tc main_arg0)) (wrapIdx (V (Proc.devRef .tc main_v3)))) (V (Proc.devRef .tc main_arg3)) (V (Proc.devRef .tc main_arg4)) (V (Proc.devRef .tc main_arg5)) := by
  unfold wB
  after_results_simp
  rfl

set_option maxRecDepth 8192 in
set_option maxHeartbeats 2000000 in
/-- What window wC leaves in its stage's buffer. -/
theorem wC_v25 (V : Valuation τ sig (Elt Ideal)) :
    after (wC (F := Ideal)) V (no_index (Proc.devRef .tc main_v25)) = meanR (V (Proc.devRef .tc main_v22)) := by
  unfold wC
  after_results_simp
  rfl

set_option maxRecDepth 8192 in
set_option maxHeartbeats 2000000 in
/-- What window wD leaves in its stage's buffer. -/
theorem wD_v26 (V : Valuation τ sig (Elt Ideal)) :
    after (wD (F := Ideal)) V (no_index (Proc.devRef .tc main_v26)) = varR (V (Proc.devRef .tc main_v22)) := by
  unfold wD
  after_results_simp
  try simp only [Cert.LibTypedRefs.ofBuf_toBuf]
  rfl

set_option maxRecDepth 8192 in
set_option maxHeartbeats 2000000 in
/-- What window wE leaves in its stage's buffer. -/
theorem wE_v41 (V : Valuation τ sig (Elt Ideal)) :
    after (wE (F := Ideal)) V (no_index (Proc.devRef .tc main_v41)) = bnR (V (Proc.devRef .tc main_v22)) (V (Proc.devRef .tc main_v25)) (V (Proc.devRef .tc main_v26)) (V (Proc.devRef .tc main_arg12)) (V (Proc.devRef .tc main_arg13)) := by
  unfold wE
  after_results_simp
  rfl

set_option maxRecDepth 8192 in
set_option maxHeartbeats 2000000 in
/-- What window wF leaves in its stage's buffer. -/
theorem wF_v51 (V : Valuation τ sig (Elt Ideal)) :
    after (wF (F := Ideal)) V (no_index (Proc.devRef .tc main_v51)) = enewR (V (Proc.devRef .tc main_arg1)) (V (Proc.devRef .tc main_v41)) (V (Proc.devRef .tc main_arg8)) (V (Proc.devRef .tc main_arg9)) (V (Proc.devRef .tc main_arg10)) (V (Proc.devRef .tc main_arg11)) := by
  unfold wF
  after_results_simp
  try simp only [Cert.LibTypedRefs.ofBuf_toBuf]
  rfl

set_option maxRecDepth 8192 in
set_option maxHeartbeats 2000000 in
/-- What window wG leaves in its stage's buffer. -/
theorem wG_v66 (V : Valuation τ sig (Elt Ideal)) :
    after (wG (F := Ideal)) V (no_index (Proc.devRef .tc main_v66)) = msgR (V (Proc.devRef .tc main_v22)) (Host.gather gather_S50000x128_S640000x1_S640000x128_1_0_n_n_0_1_1128 (Host.dotGeneral (F := Ideal) (φ₁ := .f32) (φ₂ := .f32) dot_S50000x128_S128x128_S50000x128_1_0_0_1_n_n none (V (Proc.devRef .tc main_arg0)) (V (Proc.devRef .tc main_arg7))) (wrapIdx (V (Proc.devRef .tc main_v3)))) := by
  unfold wG
  after_results_simp
  rfl

set_option maxRecDepth 8192 in
set_option maxHeartbeats 2000000 in
/-- What window wH leaves in its stage's buffer. -/
theorem wH_v71 (V : Valuation τ sig (Elt Ideal)) :
    after (wH (F := Ideal)) V (no_index (Proc.devRef .tc main_v71)) = sR (V (Proc.devRef .tc main_arg0)) (V (Proc.devRef .tc main_arg6)) (aggR (V (Proc.devRef .tc main_v66)) (broadcastInDim S640000x1 ![0] bcast_S640000_S640000x1_0 (V (Proc.devRef .tc main_v1)))) := by
  unfold wH
  after_results_simp
  rfl

set_option maxRecDepth 8192 in
set_option maxHeartbeats 2000000 in
/-- What window wI leaves in its stage's buffer. -/
theorem wI_v74 (V : Valuation τ sig (Elt Ideal)) :
    after (wI (F := Ideal)) V (no_index (Proc.devRef .tc main_v74)) = meanRn (V (Proc.devRef .tc main_v71)) := by
  unfold wI
  after_results_simp
  rfl

set_option maxRecDepth 8192 in
set_option maxHeartbeats 2000000 in
/-- What window wJ leaves in its stage's buffer. -/
theorem wJ_v75 (V : Valuation τ sig (Elt Ideal)) :
    after (wJ (F := Ideal)) V (no_index (Proc.devRef .tc main_v75)) = varRn (V (Proc.devRef .tc main_v71)) := by
  unfold wJ
  after_results_simp
  try simp only [Cert.LibTypedRefs.ofBuf_toBuf]
  rfl

set_option maxRecDepth 8192 in
set_option maxHeartbeats 2000000 in
/-- What window wK leaves in its stage's buffer. -/
theorem wK_v90 (V : Valuation τ sig (Elt Ideal)) :
    after (wK (F := Ideal)) V (no_index (Proc.devRef .tc main_v90)) = bnRn (V (Proc.devRef .tc main_v71)) (V (Proc.devRef .tc main_v74)) (V (Proc.devRef .tc main_v75)) (V (Proc.devRef .tc main_arg14)) (V (Proc.devRef .tc main_arg15)) := by
  unfold wK
  after_results_simp
  rfl

set_option maxRecDepth 8192 in
set_option maxHeartbeats 2000000 in
/-- What window wL leaves in its stage's buffer. -/
theorem wL_v93 (V : Valuation τ sig (Elt Ideal)) :
    after (wL (F := Ideal)) V (no_index (Proc.devRef .tc main_v93)) = hnewR (V (Proc.devRef .tc main_arg0)) (V (Proc.devRef .tc main_arg16)) (V (Proc.devRef .tc main_v90)) := by
  unfold wL
  after_results_simp
  rfl

set_option maxRecDepth 8192 in
set_option maxHeartbeats 2000000 in
/-- The edge result buffer after the whole line. -/
theorem after_v51 (V : Valuation τ sig (Elt Ideal)) :
    after (ops (F := Ideal)) V (Proc.devRef .tc main_v51) = RefE (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) := by
  simp (disch := decide) only [ops, ops0, ops1, after_append, wA_v1, wA_v3, wB_v22, wC_v25, wD_v26, wE_v41, wF_v51, wG_v66, wH_v71, wI_v74, wJ_v75, wK_v90, wL_v93, wA_keep, wB_keep, wC_keep, wD_keep, wE_keep, wF_keep, wG_keep, wH_keep, wI_keep, wJ_keep, wK_keep, wL_keep]
  rfl

set_option maxRecDepth 8192 in
set_option maxHeartbeats 2000000 in
/-- The node result buffer after the whole line. -/
theorem after_v93 (V : Valuation τ sig (Elt Ideal)) :
    after (ops (F := Ideal)) V (Proc.devRef .tc main_v93) = RefH (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) := by
  simp (disch := decide) only [ops, ops0, ops1, after_append, wA_v1, wA_v3, wB_v22, wC_v25, wD_v26, wE_v41, wF_v51, wG_v66, wH_v71, wI_v74, wJ_v75, wK_v90, wL_v93, wA_keep, wB_keep, wC_keep, wD_keep, wE_keep, wF_keep, wG_keep, wH_keep, wI_keep, wJ_keep, wK_keep, wL_keep]
  rfl

/-- No window writes argument 0. -/
theorem after_arg0 (V : Valuation τ sig (Elt Ideal)) :
    after (ops (F := Ideal)) V (Proc.devRef .tc main_arg0) = V (Proc.devRef .tc main_arg0) := by
  simp (disch := decide) only [ops, ops0, ops1, after_append, wA_keep, wB_keep, wC_keep, wD_keep, wE_keep, wF_keep, wG_keep, wH_keep, wI_keep, wJ_keep, wK_keep, wL_keep]

/-- No window writes argument 1. -/
theorem after_arg1 (V : Valuation τ sig (Elt Ideal)) :
    after (ops (F := Ideal)) V (Proc.devRef .tc main_arg1) = V (Proc.devRef .tc main_arg1) := by
  simp (disch := decide) only [ops, ops0, ops1, after_append, wA_keep, wB_keep, wC_keep, wD_keep, wE_keep, wF_keep, wG_keep, wH_keep, wI_keep, wJ_keep, wK_keep, wL_keep]

/-- No window writes argument 2. -/
theorem after_arg2 (V : Valuation τ sig (Elt Ideal)) :
    after (ops (F := Ideal)) V (Proc.devRef .tc main_arg2) = V (Proc.devRef .tc main_arg2) := by
  simp (disch := decide) only [ops, ops0, ops1, after_append, wA_keep, wB_keep, wC_keep, wD_keep, wE_keep, wF_keep, wG_keep, wH_keep, wI_keep, wJ_keep, wK_keep, wL_keep]

/-- No window writes argument 3. -/
theorem after_arg3 (V : Valuation τ sig (Elt Ideal)) :
    after (ops (F := Ideal)) V (Proc.devRef .tc main_arg3) = V (Proc.devRef .tc main_arg3) := by
  simp (disch := decide) only [ops, ops0, ops1, after_append, wA_keep, wB_keep, wC_keep, wD_keep, wE_keep, wF_keep, wG_keep, wH_keep, wI_keep, wJ_keep, wK_keep, wL_keep]

/-- No window writes argument 4. -/
theorem after_arg4 (V : Valuation τ sig (Elt Ideal)) :
    after (ops (F := Ideal)) V (Proc.devRef .tc main_arg4) = V (Proc.devRef .tc main_arg4) := by
  simp (disch := decide) only [ops, ops0, ops1, after_append, wA_keep, wB_keep, wC_keep, wD_keep, wE_keep, wF_keep, wG_keep, wH_keep, wI_keep, wJ_keep, wK_keep, wL_keep]

/-- No window writes argument 5. -/
theorem after_arg5 (V : Valuation τ sig (Elt Ideal)) :
    after (ops (F := Ideal)) V (Proc.devRef .tc main_arg5) = V (Proc.devRef .tc main_arg5) := by
  simp (disch := decide) only [ops, ops0, ops1, after_append, wA_keep, wB_keep, wC_keep, wD_keep, wE_keep, wF_keep, wG_keep, wH_keep, wI_keep, wJ_keep, wK_keep, wL_keep]

/-- No window writes argument 6. -/
theorem after_arg6 (V : Valuation τ sig (Elt Ideal)) :
    after (ops (F := Ideal)) V (Proc.devRef .tc main_arg6) = V (Proc.devRef .tc main_arg6) := by
  simp (disch := decide) only [ops, ops0, ops1, after_append, wA_keep, wB_keep, wC_keep, wD_keep, wE_keep, wF_keep, wG_keep, wH_keep, wI_keep, wJ_keep, wK_keep, wL_keep]

/-- No window writes argument 7. -/
theorem after_arg7 (V : Valuation τ sig (Elt Ideal)) :
    after (ops (F := Ideal)) V (Proc.devRef .tc main_arg7) = V (Proc.devRef .tc main_arg7) := by
  simp (disch := decide) only [ops, ops0, ops1, after_append, wA_keep, wB_keep, wC_keep, wD_keep, wE_keep, wF_keep, wG_keep, wH_keep, wI_keep, wJ_keep, wK_keep, wL_keep]

/-- No window writes argument 8. -/
theorem after_arg8 (V : Valuation τ sig (Elt Ideal)) :
    after (ops (F := Ideal)) V (Proc.devRef .tc main_arg8) = V (Proc.devRef .tc main_arg8) := by
  simp (disch := decide) only [ops, ops0, ops1, after_append, wA_keep, wB_keep, wC_keep, wD_keep, wE_keep, wF_keep, wG_keep, wH_keep, wI_keep, wJ_keep, wK_keep, wL_keep]

/-- No window writes argument 9. -/
theorem after_arg9 (V : Valuation τ sig (Elt Ideal)) :
    after (ops (F := Ideal)) V (Proc.devRef .tc main_arg9) = V (Proc.devRef .tc main_arg9) := by
  simp (disch := decide) only [ops, ops0, ops1, after_append, wA_keep, wB_keep, wC_keep, wD_keep, wE_keep, wF_keep, wG_keep, wH_keep, wI_keep, wJ_keep, wK_keep, wL_keep]

/-- No window writes argument 10. -/
theorem after_arg10 (V : Valuation τ sig (Elt Ideal)) :
    after (ops (F := Ideal)) V (Proc.devRef .tc main_arg10) = V (Proc.devRef .tc main_arg10) := by
  simp (disch := decide) only [ops, ops0, ops1, after_append, wA_keep, wB_keep, wC_keep, wD_keep, wE_keep, wF_keep, wG_keep, wH_keep, wI_keep, wJ_keep, wK_keep, wL_keep]

/-- No window writes argument 11. -/
theorem after_arg11 (V : Valuation τ sig (Elt Ideal)) :
    after (ops (F := Ideal)) V (Proc.devRef .tc main_arg11) = V (Proc.devRef .tc main_arg11) := by
  simp (disch := decide) only [ops, ops0, ops1, after_append, wA_keep, wB_keep, wC_keep, wD_keep, wE_keep, wF_keep, wG_keep, wH_keep, wI_keep, wJ_keep, wK_keep, wL_keep]

/-- No window writes argument 12. -/
theorem after_arg12 (V : Valuation τ sig (Elt Ideal)) :
    after (ops (F := Ideal)) V (Proc.devRef .tc main_arg12) = V (Proc.devRef .tc main_arg12) := by
  simp (disch := decide) only [ops, ops0, ops1, after_append, wA_keep, wB_keep, wC_keep, wD_keep, wE_keep, wF_keep, wG_keep, wH_keep, wI_keep, wJ_keep, wK_keep, wL_keep]

/-- No window writes argument 13. -/
theorem after_arg13 (V : Valuation τ sig (Elt Ideal)) :
    after (ops (F := Ideal)) V (Proc.devRef .tc main_arg13) = V (Proc.devRef .tc main_arg13) := by
  simp (disch := decide) only [ops, ops0, ops1, after_append, wA_keep, wB_keep, wC_keep, wD_keep, wE_keep, wF_keep, wG_keep, wH_keep, wI_keep, wJ_keep, wK_keep, wL_keep]

/-- No window writes argument 14. -/
theorem after_arg14 (V : Valuation τ sig (Elt Ideal)) :
    after (ops (F := Ideal)) V (Proc.devRef .tc main_arg14) = V (Proc.devRef .tc main_arg14) := by
  simp (disch := decide) only [ops, ops0, ops1, after_append, wA_keep, wB_keep, wC_keep, wD_keep, wE_keep, wF_keep, wG_keep, wH_keep, wI_keep, wJ_keep, wK_keep, wL_keep]

/-- No window writes argument 15. -/
theorem after_arg15 (V : Valuation τ sig (Elt Ideal)) :
    after (ops (F := Ideal)) V (Proc.devRef .tc main_arg15) = V (Proc.devRef .tc main_arg15) := by
  simp (disch := decide) only [ops, ops0, ops1, after_append, wA_keep, wB_keep, wC_keep, wD_keep, wE_keep, wF_keep, wG_keep, wH_keep, wI_keep, wJ_keep, wK_keep, wL_keep]

/-- No window writes argument 16. -/
theorem after_arg16 (V : Valuation τ sig (Elt Ideal)) :
    after (ops (F := Ideal)) V (Proc.devRef .tc main_arg16) = V (Proc.devRef .tc main_arg16) := by
  simp (disch := decide) only [ops, ops0, ops1, after_append, wA_keep, wB_keep, wC_keep, wD_keep, wE_keep, wF_keep, wG_keep, wH_keep, wI_keep, wJ_keep, wK_keep, wL_keep]

/-- On every device, at exact arithmetic, from any memory with zero counters: every weakly fair execution of @main
    terminates with the two results at their terms of the arguments' launch contents and the arguments unchanged. -/
theorem run (m : (ℓ : Loc nD τ sig) → Buf (Elt Ideal) ℓ) (ρ : Dev nD → PrngReg) :
    θ_run (Cert.ReferenceIdeal.defs (F := Ideal)) (onTc (τ := Cert.ReferenceIdeal.τ) (Cert.ReferenceIdeal.main (F := Ideal))) ⟨m, fun _ => 0, ρ⟩ (fun r => ∀ c : Dev Cert.ReferenceIdeal.nD,
      r.2.mem ((c.tc : Thread Cert.ReferenceIdeal.nD Cert.ReferenceIdeal.τ).loc Cert.ReferenceIdeal.main_v93) = RefH (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))
      ∧ r.2.mem ((c.tc : Thread Cert.ReferenceIdeal.nD Cert.ReferenceIdeal.τ).loc Cert.ReferenceIdeal.main_v51) = RefE (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)) :=
  (θ_run defs _ _).mono (fun _ h c => ⟨(h c main_v93).trans (after_v93 (launchContents m c)),
      (h c main_v51).trans (after_v51 (launchContents m c)),
      (h c main_arg0).trans (after_arg0 (launchContents m c)),
      (h c main_arg1).trans (after_arg1 (launchContents m c)),
      (h c main_arg2).trans (after_arg2 (launchContents m c)),
      (h c main_arg3).trans (after_arg3 (launchContents m c)),
      (h c main_arg4).trans (after_arg4 (launchContents m c)),
      (h c main_arg5).trans (after_arg5 (launchContents m c)),
      (h c main_arg6).trans (after_arg6 (launchContents m c)),
      (h c main_arg7).trans (after_arg7 (launchContents m c)),
      (h c main_arg8).trans (after_arg8 (launchContents m c)),
      (h c main_arg9).trans (after_arg9 (launchContents m c)),
      (h c main_arg10).trans (after_arg10 (launchContents m c)),
      (h c main_arg11).trans (after_arg11 (launchContents m c)),
      (h c main_arg12).trans (after_arg12 (launchContents m c)),
      (h c main_arg13).trans (after_arg13 (launchContents m c)),
      (h c main_arg14).trans (after_arg14 (launchContents m c)),
      (h c main_arg15).trans (after_arg15 (launchContents m c)),
      (h c main_arg16).trans (after_arg16 (launchContents m c))⟩)
    (run_seq scopedRefs_eq scopedSems_eq defs main (fun _ => ops) main_eq (fun _ => ops_sub) m ρ (fun _ => ops_fresh))

end Cert.ReferenceIdeal.RefRun

end
-- ==== Proof.RefValueEhat.lean ====
/-
  The edge pre-activation of the reference read against the specification, on the extended reals.

  A plain product of an array with one row per edge and a square weight matrix is, at a row and a column, the sum
  over the inner index of the entries' products; the pre-activation adds three such products left to right, entry by
  entry, which is the specification's expression.
-/
import proofs.«167392_j80126909874572_1_alg».proof.Proof.RefRunTerms
import proofs.«167392_j80126909874572_1_alg».proof.Proof.Spec
import proofs.«167392_j80126909874572_1_alg».proof.Proof.LibPlainDot
import Idealize.ShloMosaic.Lib.StableHlo.Run

noncomputable section

namespace Cert.ReferenceIdeal.RefRun

open Cert.ReferenceIdeal Cert.ReferenceIdeal.Gen Idealize.ShloMosaic Idealize.ShloMosaic.ValueIdx Cert.Gnn

/-- The product of an edge array with a weight matrix, read at an entry. -/
theorem dotE_apply (l : CE) (w : CW) (r : Fin 640000) (c : Fin 128) :
    Host.dotGeneral (F := Ideal) (φ₁ := .f32) (φ₂ := .f32) dot_S640000x128_S128x128_S640000x128_1_0_0_1_n_n none l w (ix2 r c) = ∑ k : Fin 128, l (ix2 r k) * w (ix2 k c) :=
  Cert.LibPlainDot.dotGeneral_plain 640000 128 128 none l w (ix2 r c)

/-- The edge pre-activation is the specification's. -/
theorem ehatR_eq (e hs hd : CE) (P Q R : CW) : ehatR e hs hd P Q R = toMat (ehat e hs hd P Q R) := by
  funext j
  obtain ⟨r, c, rfl⟩ : ∃ (r : Fin 640000) (c : Fin 128), j = ix2 r c := ⟨j 0, j 1, eq_ix2 j⟩
  unfold ehatR
  simp only [addf_apply, dotE_apply]
  rfl

end Cert.ReferenceIdeal.RefRun

end
-- ==== Proof.VarLaw.lean ====
/-
  The two usual forms of a column variance agree on real entries, and two binary32 words read as whole numbers.

  For a family y of extended reals over a rows, with mean mu = (sum_r y r) / a, the variance by moments is
  (sum_r (y r)^2) / a - mu^2 and the centred one is (sum_r (y r - mu)^2) / a. On the reals they are one number:
  sum_r (t r - mu)^2 = sum_r (t r)^2 - 2 mu sum_r t r + a mu^2, and a mu = sum_r t r. At an infinite entry they differ
  (the moments form meets infinity minus infinity), so the statement asks every entry to be a real.
-/
import proofs.«167392_j80126909874572_1_alg».proof.Proof.Spec

noncomputable section

namespace Cert.Gnn

open Idealize.ShloMosaic Idealize.ShloMosaic.ValueIdx

/-- x is a real number. -/
def IsReal (x : EReal) : Prop := ∃ t : ℝ, x = (t : EReal)

/-- The inclusion of the reals in the extended reals carries a finite sum to the sum of the inclusions. -/
theorem coe_sum {ι : Type*} (s : Finset ι) (f : ι → ℝ) :
    ((∑ i ∈ s, f i : ℝ) : EReal) = ∑ i ∈ s, (f i : EReal) := by
  classical
  refine Finset.induction_on s (by simp) ?_
  intro k u hk ih
  rw [Finset.sum_insert hk, Finset.sum_insert hk, EReal.coe_add, ih]

/-- On the reals: the sum of the squared deviations from any number m is the sum of the squares, minus 2 m times the
    sum, plus the number of terms times m squared. -/
theorem sum_sq_dev {a : ℕ} (t : Fin a → ℝ) (m : ℝ) :
    ∑ r : Fin a, (t r - m) * (t r - m) = (∑ r : Fin a, t r * t r) - 2 * m * (∑ r : Fin a, t r) + (a : ℝ) * (m * m) := by
  have h : ∀ r : Fin a, (t r - m) * (t r - m) = t r * t r - 2 * m * t r + m * m := fun r => by ring
  simp only [h, Finset.sum_add_distrib, Finset.sum_sub_distrib, ← Finset.mul_sum, Finset.sum_const, Finset.card_univ,
    Fintype.card_fin, nsmul_eq_mul]
  ring

/-- On the reals: with mu = (sum t) / a the variance by moments equals the centred variance. -/
theorem real_varM_eq_varC {a : ℕ} (ha : (a : ℝ) ≠ 0) (t : Fin a → ℝ) :
    (∑ r : Fin a, t r * t r) * (1 / (a : ℝ)) - (∑ r : Fin a, t r) * (1 / (a : ℝ)) * ((∑ r : Fin a, t r) * (1 / (a : ℝ)))
      = (∑ r : Fin a, (t r - (∑ r : Fin a, t r) * (1 / (a : ℝ))) * (t r - (∑ r : Fin a, t r) * (1 / (a : ℝ)))) * (1 / (a : ℝ)) := by
  rw [sum_sq_dev]
  field_simp
  ring

/-- With a > 0 rows, all entries real, the variance by moments (sum y^2)/a - mu^2 equals the centred variance
    (sum (y - mu)^2)/a: both are the inclusion of one real number. -/
theorem varM_eq_varC {a b : ℕ} (ha : 0 < a) (n : EReal) (hn : n = ((a : ℝ) : EReal)) (y : Fin a → Fin b → EReal)
    (hy : ∀ r c, IsReal (y r c)) (c : Fin b) : varM n y c = varC n y c := by
  choose t ht using hy
  have ha' : (a : ℝ) ≠ 0 := by exact_mod_cast ha.ne'
  have hmean : mean n y c = (((∑ r : Fin a, t r c) * (1 / (a : ℝ)) : ℝ) : EReal) := by
    unfold mean colSum
    simp only [ht]
    rw [hn, Ideal.div_coe ha', ← coe_sum, ← EReal.coe_mul]
  have hM : varM n y c
      = (((∑ r : Fin a, t r c * t r c) * (1 / (a : ℝ))
          - (∑ r : Fin a, t r c) * (1 / (a : ℝ)) * ((∑ r : Fin a, t r c) * (1 / (a : ℝ))) : ℝ) : EReal) := by
    unfold varM colSumSq
    rw [hmean]
    simp only [ht]
    rw [hn, Ideal.div_coe ha']
    simp only [← EReal.coe_mul, ← coe_sum, ← EReal.coe_sub]
  have hC : varC n y c
      = (((∑ r : Fin a, (t r c - (∑ r : Fin a, t r c) * (1 / (a : ℝ))) * (t r c - (∑ r : Fin a, t r c) * (1 / (a : ℝ))))
          * (1 / (a : ℝ)) : ℝ) : EReal) := by
    unfold varC
    rw [hmean]
    simp only [ht]
    rw [hn, Ideal.div_coe ha']
    simp only [← EReal.coe_sub, ← EReal.coe_mul, ← coe_sum]
  rw [hM, hC, real_varM_eq_varC ha' (fun r => t r c)]

/-- The binary32 word 0x491C4000 is the whole number 640000 = 1.220703125 * 2^19. -/
theorem ofBits_640000 : Ideal.ofBits .f32 0x491C4000#32 = (((640000 : ℕ) : ℝ) : EReal) := by
  simp [Ideal.ofBits, Ideal.ieee, -EReal.coe_mul]; norm_num

/-- The binary32 word 0x47435000 is the whole number 50000 = 1.52587890625 * 2^15. -/
theorem ofBits_50000 : Ideal.ofBits .f32 0x47435000#32 = (((50000 : ℕ) : ℝ) : EReal) := by
  simp [Ideal.ofBits, Ideal.ieee, -EReal.coe_mul]; norm_num

end Cert.Gnn

end
-- ==== Proof.LibXnorHost.lean ====
/-
  The host's preparation of a binary layer's operands, read at an index, on the extended reals.
  * maskP: a one-bit mask M of shape [a, b], converted to numbers, doubled and lowered by one (each literal a rank-0
    constant spread over the shape), then narrowed: the entry (k, o) is 2·M(k, o) − 1.
  * thrP: the thresholds T of shape [b], converted as signed integers, lowered by a literal, plus the column sums of
    the mask's numbers (a sum along axis 0 from the zero word), recast as one row [1, b]: the entry (0, o) is
    (T(o) − literal) + (0 + Σ_k M(k, o)).
  * colsum_host: the host's sum along axis 0 of an [a, b] array reads, at o, the initial value plus Σ_k x(k, o).
  * row_of_vec: a [b] vector recast to a [1, b] row reads the vector's entry.
  * flat_of_cube / cube_of_flat: a [3, n·n'] array recast from or to [3, n, n'] moves entry (c, h, w) to (c, n'·h + w).
  Over the library only; every extent is a variable.
-/
import Idealize.ShloMosaic.PureOps.Ideal.Laws
import Idealize.ShloMosaic.Lib.ValueIdx
import Idealize.ShloMosaic.Lib.Pipeline.Value

noncomputable section

namespace Cert.LibXnorHost

open Idealize.ShloMosaic Idealize.ShloMosaic.ValueIdx

/-- A rank-0 float constant spread over any shape reads the literal everywhere. -/
theorem bcast_const {t : Shape} (h : (⟨0, ![]⟩ : Shape).BroadcastsInDim t (![] : Fin 0 → Fin t.rank)) (w : BitVec 32)
    (i : t.Idx) :
    broadcastInDim t ![] h (constant (F := Ideal) ⟨0, ![]⟩ .f32 w) i = Ideal.ofBits .f32 w :=
  broadcastInDim_apply (![] : Fin 0 → Fin t.rank) h _ i ix0 fun ax => ax.elim0

/-- The folded mask 2·M − 1. -/
def maskP (a b : ℕ) (h0 : (⟨0, ![]⟩ : Shape).BroadcastsInDim ⟨2, ![a, b]⟩ (![] : Fin 0 → Fin 2))
    (hbf : FTy.bf16.bits < FTy.f32.bits) (M : IVec ⟨2, ![a, b]⟩ 1) : FVec Ideal ⟨2, ![a, b]⟩ .bf16 :=
  truncf .bf16 (subf (mulf (broadcastInDim ⟨2, ![a, b]⟩ ![] h0 (constant (F := Ideal) ⟨0, ![]⟩ .f32 0x40000000#32))
      (uitofp .f32 M)) (broadcastInDim ⟨2, ![a, b]⟩ ![] h0 (constant (F := Ideal) ⟨0, ![]⟩ .f32 0x3F800000#32))) hbf

theorem maskP_apply (a b : ℕ) (h0 : (⟨0, ![]⟩ : Shape).BroadcastsInDim ⟨2, ![a, b]⟩ (![] : Fin 0 → Fin 2))
    (hbf : FTy.bf16.bits < FTy.f32.bits) (M : IVec ⟨2, ![a, b]⟩ 1) (i : (⟨2, ![a, b]⟩ : Shape).Idx) :
    maskP a b h0 hbf M i
      = Ideal.ofBits .f32 0x40000000#32 * (((M i).toNat : ℝ) : EReal) - Ideal.ofBits .f32 0x3F800000#32 := by
  show broadcastInDim ⟨2, ![a, b]⟩ ![] h0 (constant (F := Ideal) ⟨0, ![]⟩ .f32 0x40000000#32) i * (((M i).toNat : ℝ) : EReal)
      - broadcastInDim ⟨2, ![a, b]⟩ ![] h0 (constant (F := Ideal) ⟨0, ![]⟩ .f32 0x3F800000#32) i = _
  rw [bcast_const, bcast_const]

/-- The host's sum along axis 0, at column o. -/
theorem colsum_host {a b : ℕ} (x : FVec Ideal ⟨2, ![a, b]⟩ .f32) (init : (⟨0, ![]⟩ : Shape).Idx → EReal)
    (h' : (⟨2, ![a, b]⟩ : Shape).ReducesTo [0] ⟨1, ![b]⟩) (hu : 0 < (⟨0, ![]⟩ : Shape).numel)
    (hR : (⟨2, ![a, b]⟩ : Shape).Reduces [0] ⟨1, ![b]⟩) (o : Fin b) :
    Host.reduceAdd (F := Ideal) x init h' hu (ix1 o) = init (Shape.Idx.first hu) + ∑ k : Fin a, x (ix2 k o) :=
  (Ideal.hostReduceAdd_single h' hR x _ (ix1 o)).trans
    (congrArg (init (Shape.Idx.first hu) + ·) (Finset.sum_congr rfl fun k _ =>
      congrArg x (funext fun d => Fin.ext (by match d with | ⟨0, _⟩ => rfl | ⟨1, _⟩ => rfl))))

/-- A [b] vector recast to a [1, b] row reads, at (0, o), the vector's entry o. -/
theorem row_of_vec {b : ℕ} {α : Type} (v : (⟨1, ![b]⟩ : Shape).Idx → α) (h : (⟨1, ![b]⟩ : Shape).ShapeCasts ⟨2, ![1, b]⟩)
    (o : Fin b) : shapeCast ⟨2, ![1, b]⟩ v h (ix2 (0 : Fin 1) o) = v (ix1 o) :=
  (shapeCast_addUnit_apply ![b] v h (ix2 (0 : Fin 1) o)).trans
    (congrArg v (funext fun d => by match d with | ⟨0, _⟩ => rfl))

/-- The folded thresholds (T − literal) + column sums, as one row. -/
def thrP (a b : ℕ) (dw : BitVec 32) (h0 : (⟨0, ![]⟩ : Shape).BroadcastsInDim ⟨1, ![b]⟩ (![] : Fin 0 → Fin 1))
    (h' : (⟨2, ![a, b]⟩ : Shape).ReducesTo [0] ⟨1, ![b]⟩) (hu : 0 < (⟨0, ![]⟩ : Shape).numel)
    (hc : (⟨1, ![b]⟩ : Shape).ShapeCasts ⟨2, ![1, b]⟩) (M : IVec ⟨2, ![a, b]⟩ 1) (T : IVec ⟨1, ![b]⟩ 32) :
    FVec Ideal ⟨2, ![1, b]⟩ .f32 :=
  shapeCast ⟨2, ![1, b]⟩
    (addf (subf (sitofp .f32 T) (broadcastInDim ⟨1, ![b]⟩ ![] h0 (constant (F := Ideal) ⟨0, ![]⟩ .f32 dw)))
      (Host.reduceAdd (F := Ideal) (uitofp .f32 M) (constant (F := Ideal) ⟨0, ![]⟩ .f32 0x00000000#32) h' hu)) hc

theorem thrP_apply (a b : ℕ) (dw : BitVec 32) (h0 : (⟨0, ![]⟩ : Shape).BroadcastsInDim ⟨1, ![b]⟩ (![] : Fin 0 → Fin 1))
    (h' : (⟨2, ![a, b]⟩ : Shape).ReducesTo [0] ⟨1, ![b]⟩) (hu : 0 < (⟨0, ![]⟩ : Shape).numel)
    (hc : (⟨1, ![b]⟩ : Shape).ShapeCasts ⟨2, ![1, b]⟩) (hR : (⟨2, ![a, b]⟩ : Shape).Reduces [0] ⟨1, ![b]⟩)
    (M : IVec ⟨2, ![a, b]⟩ 1) (T : IVec ⟨1, ![b]⟩ 32) (o : Fin b) :
    thrP a b dw h0 h' hu hc M T (ix2 (0 : Fin 1) o)
      = ((((T (ix1 o)).toInt : ℝ) : EReal) - Ideal.ofBits .f32 dw)
        + (Ideal.ofBits .f32 0x00000000#32 + ∑ k : Fin a, (((M (ix2 k o)).toNat : ℝ) : EReal)) := by
  unfold thrP
  rw [row_of_vec]
  show ((((T (ix1 o)).toInt : ℝ) : EReal) - broadcastInDim ⟨1, ![b]⟩ ![] h0 (constant (F := Ideal) ⟨0, ![]⟩ .f32 dw) (ix1 o))
      + Host.reduceAdd (F := Ideal) (uitofp .f32 M) (constant (F := Ideal) ⟨0, ![]⟩ .f32 0x00000000#32) h' hu (ix1 o) = _
  rw [bcast_const, colsum_host _ _ h' hu hR o]
  rfl

/-- A [3, n, n'] array recast to [3, n·n'] reads, at (c, n'·h + w), the entry (c, h, w). -/
theorem flat_of_cube {α : Type} (n n' : ℕ) (x : (⟨3, ![3, n, n']⟩ : Shape).Idx → α)
    (h : (⟨3, ![3, n, n']⟩ : Shape).ShapeCasts ⟨2, ![3, n * n']⟩) (c : Fin 3) (hh : Fin n) (w : Fin n')
    (q : Fin (n * n')) (hq : q.val = n' * hh.val + w.val) :
    shapeCast ⟨2, ![3, n * n']⟩ x h (ix2 c q) = x (ix3 c hh w) :=
  shapeCast_apply x h _ _ (by
    rw [Shape.rowMajor_val_three, Shape.rowMajor_val_two]
    show (c.val * n + hh.val) * n' + w.val = c.val * (n * n') + q.val
    rw [hq]; ring)

/-- A [3, n·n'] array recast to [3, n, n'] reads, at (c, h, w), the entry (c, n'·h + w). -/
theorem cube_of_flat {α : Type} (n n' : ℕ) (x : (⟨2, ![3, n * n']⟩ : Shape).Idx → α)
    (h : (⟨2, ![3, n * n']⟩ : Shape).ShapeCasts ⟨3, ![3, n, n']⟩) (c : Fin 3) (hh : Fin n) (w : Fin n')
    (q : Fin (n * n')) (hq : q.val = n' * hh.val + w.val) :
    shapeCast ⟨3, ![3, n, n']⟩ x h (ix3 c hh w) = x (ix2 c q) :=
  shapeCast_apply x h _ _ (by
    rw [Shape.rowMajor_val_three, Shape.rowMajor_val_two]
    show c.val * (n * n') + q.val = (c.val * n + hh.val) * n' + w.val
    rw [hq]; ring)

end Cert.LibXnorHost

end
-- ==== Proof.LibHostBroadcast.lean ====
/-
  The host's broadcasts of small shapes, read at one position.

  jnp spreads a vector along a new axis in two steps, each a `broadcast_in_dim`:
  * a column: `v[:, None]` makes an `[a]` vector an `[a, 1]` array (axis 0 kept), and multiplying it with an `[a, b]` array spreads
    it along the `b` columns (axes 0 and 1 kept): entry `(p, c)` is `v p`;
  * a row: adding a `[b]` vector to an `[a, b]` array makes it a `[1, b]` array (axis 1 kept) and spreads it along the `a` rows:
    entry `(p, c)` is `v c`;
  * a scalar spread over any shape (no axis kept) reads the scalar everywhere.
  Each step is read by the library's `broadcastInDim_apply`; an axis of extent one contributes the coordinate 0, and a
  coordinate below an extent that happens to be one is 0 anyway.
-/
import Idealize.ShloMosaic.Lib.Pipeline.Value
import Idealize.ShloMosaic.Lib.ValueIdx

noncomputable section

namespace Cert.LibHostBroadcast

open Idealize.ShloMosaic Idealize.ShloMosaic.ValueIdx

variable {α : Type}

/-- An `[a]` vector made an `[a, 1]` column reads, at `(p, u)`, the vector at `p`. -/
theorem vec_to_col {a : ℕ} (v : (⟨1, ![a]⟩ : Shape).Idx → α)
    (h : (⟨1, ![a]⟩ : Shape).BroadcastsInDim ⟨2, ![a, 1]⟩ (![0] : Fin 1 → Fin 2)) (p : Fin a) (u : Fin 1) :
    broadcastInDim ⟨2, ![a, 1]⟩ ![0] h v (ix2 p u) = v (ix1 p) :=
  broadcastInDim_apply (![0] : Fin 1 → Fin 2) h v (ix2 p u) (ix1 p) fun ax => by
    match ax with
    | ⟨0, _⟩ =>
      show p.val = if a = 1 then 0 else p.val
      split
      · have := p.isLt; omega
      · rfl

/-- An `[a, 1]` column spread along `b` columns reads, at `(p, c)`, the column at `(p, 0)`. -/
theorem col_to_mat {a b : ℕ} (v : (⟨2, ![a, 1]⟩ : Shape).Idx → α)
    (h : (⟨2, ![a, 1]⟩ : Shape).BroadcastsInDim ⟨2, ![a, b]⟩ (![0, 1] : Fin 2 → Fin 2)) (p : Fin a) (c : Fin b) :
    broadcastInDim ⟨2, ![a, b]⟩ ![0, 1] h v (ix2 p c) = v (ix2 p (0 : Fin 1)) :=
  broadcastInDim_apply (![0, 1] : Fin 2 → Fin 2) h v (ix2 p c) (ix2 p (0 : Fin 1)) fun ax => by
    match ax with
    | ⟨0, _⟩ =>
      show p.val = if a = 1 then 0 else p.val
      split
      · have := p.isLt; omega
      · rfl
    | ⟨1, _⟩ => show (0 : Nat) = if (1 : Nat) = 1 then 0 else c.val; rw [if_pos rfl]

/-- The two steps together: an `[a]` vector spread over the columns of an `[a, b]` array reads, at `(p, c)`, the vector at `p`. -/
theorem vec_along_rows {a b : ℕ} (v : (⟨1, ![a]⟩ : Shape).Idx → α)
    (h1 : (⟨1, ![a]⟩ : Shape).BroadcastsInDim ⟨2, ![a, 1]⟩ (![0] : Fin 1 → Fin 2))
    (h2 : (⟨2, ![a, 1]⟩ : Shape).BroadcastsInDim ⟨2, ![a, b]⟩ (![0, 1] : Fin 2 → Fin 2)) (p : Fin a) (c : Fin b) :
    broadcastInDim ⟨2, ![a, b]⟩ ![0, 1] h2 (broadcastInDim ⟨2, ![a, 1]⟩ ![0] h1 v) (ix2 p c) = v (ix1 p) :=
  (col_to_mat _ h2 p c).trans (vec_to_col v h1 p 0)

/-- A `[b]` vector made a `[1, b]` row reads, at `(u, c)`, the vector at `c`. -/
theorem vec_to_row {b : ℕ} (v : (⟨1, ![b]⟩ : Shape).Idx → α)
    (h : (⟨1, ![b]⟩ : Shape).BroadcastsInDim ⟨2, ![1, b]⟩ (![1] : Fin 1 → Fin 2)) (u : Fin 1) (c : Fin b) :
    broadcastInDim ⟨2, ![1, b]⟩ ![1] h v (ix2 u c) = v (ix1 c) :=
  broadcastInDim_apply (![1] : Fin 1 → Fin 2) h v (ix2 u c) (ix1 c) fun ax => by
    match ax with
    | ⟨0, _⟩ =>
      show c.val = if b = 1 then 0 else c.val
      split
      · have := c.isLt; omega
      · rfl

/-- A `[1, b]` row spread along `a` rows reads, at `(p, c)`, the row at `(0, c)`. -/
theorem row_to_mat {a b : ℕ} (v : (⟨2, ![1, b]⟩ : Shape).Idx → α)
    (h : (⟨2, ![1, b]⟩ : Shape).BroadcastsInDim ⟨2, ![a, b]⟩ (![0, 1] : Fin 2 → Fin 2)) (p : Fin a) (c : Fin b) :
    broadcastInDim ⟨2, ![a, b]⟩ ![0, 1] h v (ix2 p c) = v (ix2 (0 : Fin 1) c) :=
  broadcastInDim_apply (![0, 1] : Fin 2 → Fin 2) h v (ix2 p c) (ix2 (0 : Fin 1) c) fun ax => by
    match ax with
    | ⟨0, _⟩ => show (0 : Nat) = if (1 : Nat) = 1 then 0 else p.val; rw [if_pos rfl]
    | ⟨1, _⟩ =>
      show c.val = if b = 1 then 0 else c.val
      split
      · have := c.isLt; omega
      · rfl

/-- The two steps together: a `[b]` vector spread over the rows of an `[a, b]` array reads, at `(p, c)`, the vector at `c`. -/
theorem vec_along_cols {a b : ℕ} (v : (⟨1, ![b]⟩ : Shape).Idx → α)
    (h1 : (⟨1, ![b]⟩ : Shape).BroadcastsInDim ⟨2, ![1, b]⟩ (![1] : Fin 1 → Fin 2))
    (h2 : (⟨2, ![1, b]⟩ : Shape).BroadcastsInDim ⟨2, ![a, b]⟩ (![0, 1] : Fin 2 → Fin 2)) (p : Fin a) (c : Fin b) :
    broadcastInDim ⟨2, ![a, b]⟩ ![0, 1] h2 (broadcastInDim ⟨2, ![1, b]⟩ ![1] h1 v) (ix2 p c) = v (ix1 c) :=
  (row_to_mat _ h2 p c).trans (vec_to_row v h1 0 c)

/-- A scalar spread over a shape reads the scalar at every position. -/
theorem scalar_to_any {t : Shape} (v : (⟨0, ![]⟩ : Shape).Idx → α)
    (h : (⟨0, ![]⟩ : Shape).BroadcastsInDim t (![] : Fin 0 → Fin t.rank)) (i : t.Idx) :
    broadcastInDim t ![] h v i = v ix0 :=
  broadcastInDim_apply (![] : Fin 0 → Fin t.rank) h v i ix0 fun ax => ax.elim0

end Cert.LibHostBroadcast

end
-- ==== Proof.LibSpellings.lean ====
/-
  Four places where a host program and a kernel spell one value differently, or where a recast only renames an
  index — each stated once, over the library alone, at the extended reals where floats are involved.

    * `ofBits_one_f32`: the 32-bit word 0x3F800000 is the number 1.
    * `hostQuotient_eq_logistic`: the host's expansion of the sigmoid, 1 / (1 + exp (-y)) with its ones written as
      that word, is the one-operation sigmoid: both are `Ideal.div 1 (1 + exp (-y))`, on every extended real.
    * `sitofp_setWidth_bit`: a one-bit word widened to 32 bits and read as a signed integer is the bit read as an
      unsigned integer (the widening puts zeros in front, so the sign bit is 0): the kernel's convert of a widened
      comparison bit is the host's convert of the bit.
    * `shapeCast_ab_11ab_apply`: an `[a, b]` matrix recast to `[1, 1, a, b]` reads, at (u, v, i, j), the matrix at
      (i, j): two unit axes in front add nothing to the row-major position.
  None needs a finiteness hypothesis.
-/
import Idealize.ShloMosaic.PureOps.Ideal
import Idealize.ShloMosaic.Lib.ValueIdx
import Idealize.ShloMosaic.Lib.ValueLayout
import Idealize.ShloMosaic.Lib.KernelVsHost

noncomputable section

namespace Cert.LibSpellings

open Idealize.ShloMosaic Idealize.ShloMosaic.ValueIdx

/-- The word 0x3F800000 is the number one. -/
theorem ofBits_one_f32 : Ideal.ofBits .f32 0x3F800000#32 = 1 := by
  simp [Ideal.ofBits, Ideal.ieee, -EReal.coe_mul]; norm_num

/-- The quotient 1 / (1 + exp (-y)), its ones written as words, is sigma(y): both are `Ideal.div 1 (1 + exp (-y))`. -/
theorem hostQuotient_eq_logistic (y : Ideal .f32) :
    FloatOps.hostDivf (FloatOps.ofBits (F := Ideal) .f32 0x3F800000#32)
      (FloatOps.addf (FloatOps.ofBits (F := Ideal) .f32 0x3F800000#32) (FloatOps.hostUnary .exp (FloatOps.hostNegf y)))
    = FloatOps.logistic y := by
  rw [Ideal.ofBits_def, ofBits_one_f32]; rfl

/-- A bit widened to 32 bits and read signed is the bit read unsigned: zero or one either way. -/
theorem sitofp_setWidth_bit (φ : FTy) (b : BitVec 1) :
    FloatOps.sitofp (F := Ideal) φ (b.setWidth 32) = FloatOps.uitofp (F := Ideal) φ b := by
  show (((b.setWidth 32).toInt : ℝ) : EReal) = ((b.toNat : ℝ) : EReal)
  rw [toInt_setWidth_bit]; norm_cast

/-- An `[a, b]` matrix recast to `[1, 1, a, b]` reads, at `(u, v, i, j)`, the matrix at `(i, j)`: the two unit axes
    contribute nothing to the row-major position. -/
theorem shapeCast_ab_11ab_apply {α : Type} {a b : ℕ} (x : (⟨2, ![a, b]⟩ : Shape).Idx → α)
    (h : (⟨2, ![a, b]⟩ : Shape).ShapeCasts ⟨4, ![1, 1, a, b]⟩) (u v : Fin 1) (i : Fin a) (j : Fin b) :
    shapeCast ⟨4, ![1, 1, a, b]⟩ x h (ix4 u v i j) = x (ix2 i j) :=
  shapeCast_apply x h _ _ (by
    rw [Shape.rowMajor_val_four, Shape.rowMajor_val_two]
    show i.val * b + j.val = ((u.val * 1 + v.val) * a + i.val) * b + j.val
    have hu : u.val = 0 := Nat.lt_one_iff.mp u.isLt
    have hv : v.val = 0 := Nat.lt_one_iff.mp v.isLt
    simp only [hu, hv, Nat.zero_mul, Nat.zero_add])

end Cert.LibSpellings

end
-- ==== Proof.RefValueH.lean ====
/-
  The reference program's node result, read against the specification.

  Stage by stage, at one position: a plain product of two matrices is the specification's product; the logistic
  written as 1 / (1 + exp (-x)), its ones given as binary32 words, is the logistic function; a column sum from the zero
  word is the sum down the column; the column mean is that sum over the count 50000; the deviations subtract the mean
  spread back over the rows; the variance's divisor 50000 - 0 is 50000 and is positive, so the variance is the sum of
  the squared deviations over 50000, the centred form; the normalisation spreads four row vectors over the rows; and
  the node update spreads the scalar. No entry needs to be finite for any of this.
-/
import proofs.«167392_j80126909874572_1_alg».proof.Proof.RefRunTerms
import proofs.«167392_j80126909874572_1_alg».proof.Proof.Spec
import proofs.«167392_j80126909874572_1_alg».proof.Proof.VarLaw
import proofs.«167392_j80126909874572_1_alg».proof.Proof.LibPlainDot
import proofs.«167392_j80126909874572_1_alg».proof.Proof.LibXnorHost
import proofs.«167392_j80126909874572_1_alg».proof.Proof.LibHostBroadcast
import proofs.«167392_j80126909874572_1_alg».proof.Proof.LibSpellings

noncomputable section

namespace Cert.ReferenceIdeal.RefRun

open Cert.ReferenceIdeal Cert.ReferenceIdeal.Gen Idealize.ShloMosaic Idealize.SL.Sem Idealize.ShloMosaic.StableHlo
open Idealize.ShloMosaic.ValueIdx Cert.Gnn

/-- The printed dimension numbers of the node product are those of a plain 50000x128 by 128x128 product. -/
theorem dotN_eq : dot_S50000x128_S128x128_S50000x128_1_0_0_1_n_n = DotDims.plain 50000 128 128 := rfl

/-- The host's node product is the specification's plain product. -/
theorem projR_eq (a0 : CN) (a7 : CW) :
    Host.dotGeneral (F := Ideal) (φ₁ := .f32) (φ₂ := .f32) dot_S50000x128_S128x128_S50000x128_1_0_0_1_n_n none a0 a7
      = toMat (dot a0 a7) := by
  funext j
  rw [dotN_eq]
  exact Cert.LibPlainDot.dotGeneral_plain 50000 128 128 none a0 a7 j

/-- The gated messages are the specification's: 1 / (1 + exp (-x)) with its ones given as words is the logistic. -/
theorem msgR_eq (x vhd : CE) : msgR x vhd = toMat (msg (ofMat x) vhd) := by
  funext j
  obtain ⟨r, c, rfl⟩ : ∃ (r : Fin 640000) (c : Fin 128), j = ix2 r c := ⟨_, _, eq_ix2 j⟩
  show Ideal.div (Ideal.ofBits .f32 0x3F800000#32) (Ideal.ofBits .f32 0x3F800000#32 + Ideal.exp (-(x (ix2 r c))))
      * vhd (ix2 r c) = Ideal.logistic (x (ix2 r c)) * vhd (ix2 r c)
  rw [Cert.LibSpellings.ofBits_one_f32]
  rfl

/-- The node product plus the accumulated messages is the specification's node pre-activation. -/
theorem sR_eq (h : CN) (Uw : CW) (agg : CN) : sR h Uw agg = toMat (pre h Uw agg) := by
  funext j
  obtain ⟨r, c, rfl⟩ : ∃ (r : Fin 50000) (c : Fin 128), j = ix2 r c := ⟨_, _, eq_ix2 j⟩
  show Host.dotGeneral (F := Ideal) (φ₁ := .f32) (φ₂ := .f32) dot_S50000x128_S128x128_S50000x128_1_0_0_1_n_n none h Uw
      (ix2 r c) + agg (ix2 r c) = dot h Uw r c + agg (ix2 r c)
  rw [projR_eq]
  rfl

/-- The host's column sum from the zero word is the sum down the column. -/
theorem colsumN (x : CN) (c : Fin 128) :
    Host.reduceAdd (F := Ideal) (φ := .f32) x (constant (F := Ideal) S_ .f32 0x00000000#32) reducesTo_S50000x128_S128_d0 h_S_
      (ix1 c) = ∑ k : Fin 50000, x (ix2 k c) := by
  rw [Cert.LibXnorHost.colsum_host x _ reducesTo_S50000x128_S128_d0 h_S_ (by decide) c]
  show Ideal.ofBits .f32 0x00000000#32 + _ = _
  rw [Ideal.ofBits_zero_f32, zero_add]

/-- A row vector repeated over the nodes reads, at (r, c), its entry c. -/
theorem rowsN_apply (v : CV) (r : Fin 50000) (c : Fin 128) : rowsN v (ix2 r c) = v (ix1 c) :=
  Cert.LibHostBroadcast.vec_along_cols v bcast_S128_S1x128_1 bcast_S1x128_S50000x128_0_1 r c

/-- The column mean over the nodes is the specification's, the count 50000 given by its word. -/
theorem ofVct_meanRn (x : CN) : ofVct (meanRn x) = mean (Ideal.ofBits .f32 0x47435000#32) (ofMat x) := by
  funext c
  show Ideal.div (Host.reduceAdd (F := Ideal) (φ := .f32) x (constant (F := Ideal) S_ .f32 0x00000000#32)
      reducesTo_S50000x128_S128_d0 h_S_ (ix1 c)) (Ideal.ofBits .f32 0x47435000#32) = _
  rw [colsumN]
  rfl

/-- The deviations from the column mean, at (r, c). -/
theorem ctrRn_apply (x : CN) (r : Fin 50000) (c : Fin 128) :
    ctrRn x (ix2 r c) = ofMat x r c - mean (Ideal.ofBits .f32 0x47435000#32) (ofMat x) c := by
  show x (ix2 r c) - broadcastInDim S50000x128 ![0, 1] bcast_S1x128_S50000x128_0_1
      (Host.divf (F := Ideal) (φ := .f32) (broadcastInDim S1x128 ![1] bcast_S128_S1x128_1 (Host.reduceAdd (F := Ideal) (φ := .f32) x (constant (F := Ideal) S_ .f32 0x00000000#32) reducesTo_S50000x128_S128_d0 h_S_))
        (broadcastInDim S1x128 ![] bcast_S_S1x128 (constant (F := Ideal) S_ .f32 0x47435000#32))) (ix2 r c) = _
  rw [Cert.LibHostBroadcast.row_to_mat]
  show x (ix2 r c) - Ideal.div (broadcastInDim S1x128 ![1] bcast_S128_S1x128_1 (Host.reduceAdd (F := Ideal) (φ := .f32) x (constant (F := Ideal) S_ .f32 0x00000000#32) reducesTo_S50000x128_S128_d0 h_S_) (ix2 (0 : Fin 1) c))
      (Ideal.ofBits .f32 0x47435000#32) = _
  rw [Cert.LibHostBroadcast.vec_to_row, colsumN]
  rfl

/-- The variance's divisor: 50000 less the correction zero is 50000. -/
theorem dofRn_apply (i : S_.Idx) : dofRn i = Ideal.ofBits .f32 0x47435000#32 := by
  show Ideal.ofBits .f32 0x47435000#32 - (((0#32 : BitVec 32).toInt : ℝ) : EReal) = _
  rw [BitVec.toInt_zero, Int.cast_zero, EReal.coe_zero, sub_zero]

/-- The divisor is positive, so the test that guards the variance answers 1. -/
theorem dofRn_pos : cmpf (F := Ideal) (φ := .f32) .ogt dofRn (constant (F := Ideal) S_ .f32 0x00000000#32) ix0 = 1#1 := by
  show Ideal.cmp .ogt (dofRn ix0) (Ideal.ofBits .f32 0x00000000#32) = 1#1
  rw [dofRn_apply, Ideal.ofBits_zero_f32, ofBits_50000]
  have h : (0 : EReal) < (((50000 : ℕ) : ℝ) : EReal) := by exact_mod_cast (by norm_num : (0 : ℝ) < ((50000 : ℕ) : ℝ))
  simp [Ideal.cmp, h]

/-- The column variance over the nodes is the specification's centred variance, the count 50000 given by its word. -/
theorem ofVct_varRn (x : CN) : ofVct (varRn x) = varC (Ideal.ofBits .f32 0x47435000#32) (ofMat x) := by
  funext c
  show Scalar.select (broadcastInDim S128 ![] bcast_S_S128 (cmpf (F := Ideal) (φ := .f32) .ogt dofRn (constant (F := Ideal) S_ .f32 0x00000000#32)) (ix1 c))
      (Ideal.div (Host.reduceAdd (F := Ideal) (φ := .f32) (mulf (F := Ideal) (φ := .f32) (ctrRn x) (ctrRn x)) (constant (F := Ideal) S_ .f32 0x00000000#32) reducesTo_S50000x128_S128_d0 h_S_ (ix1 c))
        (broadcastInDim S128 ![] bcast_S_S128 dofRn (ix1 c)))
      (broadcastInDim S128 ![] bcast_S_S128 (constant (F := Ideal) S_ .f32 0x7FC00000#32) (ix1 c)) = _
  rw [Cert.LibHostBroadcast.scalar_to_any, dofRn_pos, Cert.LibHostBroadcast.scalar_to_any, dofRn_apply, colsumN]
  show Ideal.div (∑ k : Fin 50000, ctrRn x (ix2 k c) * ctrRn x (ix2 k c)) (Ideal.ofBits .f32 0x47435000#32) = _
  simp only [ctrRn_apply]
  rfl

/-- The normalisation over the nodes is the specification's, the small constant given by its word. -/
theorem ofMat_bnRn (x : CN) (m v g b : CV) :
    ofMat (bnRn x m v g b) = bn (Ideal.ofBits .f32 0x3727C5AC#32) (ofMat x) (ofVct m) (ofVct v) (ofVct g) (ofVct b) := by
  funext r c
  show ((x (ix2 r c) - rowsN m (ix2 r c))
        * rowsN (Host.rsqrt (F := Ideal) (φ := .f32) (addf (F := Ideal) (φ := .f32) v (broadcastInDim S128 ![] bcast_S_S128 (constant (F := Ideal) S_ .f32 0x3727C5AC#32)))) (ix2 r c))
      * rowsN g (ix2 r c) + rowsN b (ix2 r c) = _
  rw [rowsN_apply, rowsN_apply, rowsN_apply, rowsN_apply]
  rfl

/-- The node update is the specification's, the scalar read at its one position. -/
theorem hnewR_eq (h : CN) (alpha : CS) (z : CN) : hnewR h alpha z = toMat (hnew h (alpha ix0) (ofMat z)) := by
  funext j
  obtain ⟨r, c, rfl⟩ : ∃ (r : Fin 50000) (c : Fin 128), j = ix2 r c := ⟨_, _, eq_ix2 j⟩
  show h (ix2 r c) + broadcastInDim S50000x128 ![] bcast_S_S50000x128 alpha (ix2 r c) * z (ix2 r c)
    = h (ix2 r c) + alpha ix0 * z (ix2 r c)
  rw [Cert.LibHostBroadcast.scalar_to_any]

/-- The reference program's node result is the specification's node update of the normalised node sum, its statistics
    the column mean and the centred column variance over the 50000 nodes. -/
theorem RefH_spec (a0 : CN) (a1 : CE) (a2 : CT) (a3 a4 a5 a6 a7 a8 : CW) (a9 : CV) (a10 : CW) (a11 a12 a13 a14 a15 : CV)
    (a16 : CS) :
    RefH a0 a1 a2 a3 a4 a5 a6 a7 a8 a9 a10 a11 a12 a13 a14 a15 a16
      = toMat (hnew a0 (a16 ValueIdx.ix0)
          (bn (Ideal.ofBits .f32 0x3727C5AC#32) (ofMat (sOf a0 a1 a2 a3 a4 a5 a6 a7))
            (mean (Ideal.ofBits .f32 0x47435000#32) (ofMat (sOf a0 a1 a2 a3 a4 a5 a6 a7)))
            (varC (Ideal.ofBits .f32 0x47435000#32) (ofMat (sOf a0 a1 a2 a3 a4 a5 a6 a7)))
            (ofVct a14) (ofVct a15))) := by
  unfold RefH
  rw [hnewR_eq, ofMat_bnRn, ofVct_meanRn, ofVct_varRn]

end Cert.ReferenceIdeal.RefRun

end
-- ==== Proof.RealEntries.lean ====
/-
  Every value of the layer is a real number when its inputs are.

  The reals sit inside the extended reals closed under sum, product, difference and negation, and under a finite sum;
  the logistic function 1 / (1 + exp (-x)) of a real is the real (1 + exp (-t))^(-1). Hence a plain matrix product of
  real matrices has real entries, and so do the edge pre-activation (three products added), the message of an edge
  (the gate times a real entry) and a node's pre-activation (a product plus a real entry).
-/
import proofs.«167392_j80126909874572_1_alg».proof.Proof.VarLaw

noncomputable section

namespace Cert.Gnn

open Idealize.ShloMosaic Idealize.ShloMosaic.ValueIdx

/-- The sum of two reals is a real. -/
theorem IsReal.add {x y : EReal} : IsReal x → IsReal y → IsReal (x + y) := by
  rintro ⟨s, rfl⟩ ⟨t, rfl⟩
  exact ⟨s + t, (EReal.coe_add s t).symm⟩

/-- The product of two reals is a real. -/
theorem IsReal.mul {x y : EReal} : IsReal x → IsReal y → IsReal (x * y) := by
  rintro ⟨s, rfl⟩ ⟨t, rfl⟩
  exact ⟨s * t, (EReal.coe_mul s t).symm⟩

/-- The difference of two reals is a real. -/
theorem IsReal.sub {x y : EReal} : IsReal x → IsReal y → IsReal (x - y) := by
  rintro ⟨s, rfl⟩ ⟨t, rfl⟩
  exact ⟨s - t, (EReal.coe_sub s t).symm⟩

/-- The negative of a real is a real. -/
theorem IsReal.neg {x : EReal} : IsReal x → IsReal (-x) := by
  rintro ⟨s, rfl⟩
  exact ⟨-s, (EReal.coe_neg s).symm⟩

/-- A finite sum of reals is a real: the inclusion of the sum of the reals. -/
theorem isReal_sum {ι : Type*} (s : Finset ι) (f : ι → EReal) (hf : ∀ i, IsReal (f i)) : IsReal (∑ i ∈ s, f i) := by
  choose t ht using hf
  exact ⟨∑ i ∈ s, t i, by rw [coe_sum]; exact Finset.sum_congr rfl fun i _ => ht i⟩

/-- The logistic function of a real t is the real (1 + exp (-t))^(-1). -/
theorem isReal_logistic {x : EReal} (hx : IsReal x) : IsReal (Ideal.logistic x) := by
  obtain ⟨t, rfl⟩ := hx
  exact ⟨(1 + Real.exp (-t))⁻¹, Ideal.logistic_coe t⟩

/-- An entry of the plain product of two real matrices is a real: a finite sum of products of reals. -/
theorem isReal_dot {a k b : ℕ} (x : Mat a k) (w : Mat k b) (hx : ∀ j, IsReal (x j)) (hw : ∀ j, IsReal (w j))
    (r : Fin a) (c : Fin b) : IsReal (dot x w r c) :=
  isReal_sum _ _ fun q => (hx (ix2 r q)).mul (hw (ix2 q c))

/-- The edge pre-activation of real matrices is a real: three real products added. -/
theorem isReal_ehat {E D : ℕ} (e hs hd : Mat E D) (P Q R : Mat D D) (he : ∀ j, IsReal (e j))
    (hhs : ∀ j, IsReal (hs j)) (hhd : ∀ j, IsReal (hd j)) (hP : ∀ j, IsReal (P j)) (hQ : ∀ j, IsReal (Q j))
    (hR : ∀ j, IsReal (R j)) (r : Fin E) (c : Fin D) : IsReal (ehat e hs hd P Q R r c) :=
  ((isReal_dot e P he hP r c).add (isReal_dot hs Q hhs hQ r c)).add (isReal_dot hd R hhd hR r c)

/-- The message of an edge is a real when the pre-activation and the projected target row are: the logistic of a real
    times a real. -/
theorem isReal_msg {a d : ℕ} (y : Fin a → Fin d → EReal) (vhd : Mat a d) (hy : ∀ r c, IsReal (y r c))
    (hv : ∀ j, IsReal (vhd j)) (r : Fin a) (c : Fin d) : IsReal (msg y vhd r c) :=
  (isReal_logistic (hy r c)).mul (hv (ix2 r c))

/-- A node's pre-activation is a real when the node rows, the projection and the aggregated messages are: a real
    product plus a real entry. -/
theorem isReal_pre {n d : ℕ} (h : Mat n d) (U : Mat d d) (agg : Mat n d) (hh : ∀ j, IsReal (h j))
    (hU : ∀ j, IsReal (U j)) (hagg : ∀ j, IsReal (agg j)) (r : Fin n) (c : Fin d) : IsReal (pre h U agg r c) :=
  (isReal_dot h U hh hU r c).add (hagg (ix2 r c))

end Cert.Gnn

end
-- ==== Proof.LibGatherRows.lean ====
/-
  Looking whole rows of a matrix up at a column of indices, read at one position.

  `x[idx]` for a matrix `x : [N, D]` and an integer vector `idx : [R]` is lowered to a gather whose start indices are the
  vector written as a column `[R, 1]` (the index vector lies along axis 1), with the operand's row axis collapsed, its
  column axis the result's offset axis, and a slice of one whole row. Result entry `(t, j)` is `x` at the row
  `idx[t, 0]` — read as a signed integer and clamped into `[0, N - 1]`, as the gather clamps every start index — and at
  the column `j`. This is the rank-2 companion of the library's reading of a gather of a flat array
  (`ValueIdx.gather_take_apply`), proved the same way, one operand axis at a time.
-/
import Idealize.ShloMosaic.Lib.ValueIdx

noncomputable section

namespace Cert.LibGatherRows

open Idealize.ShloMosaic Idealize.ShloMosaic.ValueIdx

variable {α : Type}

/-- The dimension numbers of that gather for an operand `[N, D]`, start indices `[R, 1]` and a result `[R, D]`. -/
abbrev rowDims (N D R : Nat) (wf : GatherDims.WF ⟨2, ![N, D]⟩ ⟨2, ![R, 1]⟩ ⟨2, ![R, D]⟩ [1] [0] [] [0] [] 1 ![1, D]) :
    GatherDims ⟨2, ![N, D]⟩ ⟨2, ![R, 1]⟩ ⟨2, ![R, D]⟩ where
  offsetDims := [1]
  collapsedSliceDims := [0]
  operandBatchingDims := []
  startIndicesBatchingDims := []
  startIndexMap := [0]
  indexVectorDim := 1
  sliceSizes := ![1, D]
  wf := wf

/-- The start-indices position `[t, 0]` of result position `(t, j)`. -/
abbrev rowIdx {R D : Nat} (y : (⟨2, ![R, D]⟩ : Shape).Idx) : (⟨2, ![R, 1]⟩ : Shape).Idx :=
  fun a => match a with | ⟨0, _⟩ => ⟨(y 0).val, idx2_lt0 y⟩ | ⟨1, _⟩ => ⟨0, Nat.one_pos⟩

/-- The gather read at `(t, j)`: the operand at the row `idx[t, 0]`, read signed and clamped into `[0, N - 1]`, and at
    the column `j`. -/
theorem gather_rows_apply {N D R w : Nat} (hN : 0 < N)
    (wf : GatherDims.WF ⟨2, ![N, D]⟩ ⟨2, ![R, 1]⟩ ⟨2, ![R, D]⟩ [1] [0] [] [0] [] 1 ![1, D])
    (x : (⟨2, ![N, D]⟩ : Shape).Idx → α) (idx : IVec ⟨2, ![R, 1]⟩ w) (y : (⟨2, ![R, D]⟩ : Shape).Idx) :
    Host.gather (rowDims N D R wf) x idx y
      = x (ix2 ⟨min (idx (rowIdx y)).toInt.toNat (N - 1), by omega⟩ ⟨(y 1).val, idx2_lt1 y⟩) := by
  unfold Host.gather
  congr 1
  funext a
  refine Fin.ext ?_
  match a with
  | ⟨0, _⟩ =>
    show (rowDims N D R wf).start y idx 0 + (rowDims N D R wf).batchCoord y 0 + (rowDims N D R wf).offCoord y 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N D R wf).startIndexMap from List.mem_singleton.mpr rfl)]
    have hsi : (rowDims N D R wf).siIdx y ⟨List.idxOf (0 : Fin 2) (rowDims N D R wf).startIndexMap,
        List.idxOf_lt_length_iff.2 (List.mem_singleton.mpr rfl)⟩ = rowIdx y := by
      funext b; refine Fin.ext ?_
      match b with
      | ⟨0, _⟩ => rfl
      | ⟨1, _⟩ => rfl
    rw [hsi]
    rfl
  | ⟨1, _⟩ =>
    show (rowDims N D R wf).start y idx 1 + (rowDims N D R wf).batchCoord y 1 + (rowDims N D R wf).offCoord y 1 = (y 1).val
    have h1 : (1 : Fin 2) ∉ (rowDims N D R wf).startIndexMap := show (1 : Fin 2) ∉ [(0 : Fin 2)] from by decide
    have hk : (1 : Fin 2) ∈ (rowDims N D R wf).sKept :=
      (GatherDims.mem_sKept _ _).mpr ⟨show (1 : Fin 2) ∉ [(0 : Fin 2)] from by decide, List.not_mem_nil⟩
    rw [GatherDims.batchCoord_eq_zero _ _ _ List.not_mem_nil]
    unfold GatherDims.start GatherDims.offCoord
    rw [dif_neg h1, dif_pos hk]
    simp only [Nat.add_zero, Nat.zero_add]
    rfl

end Cert.LibGatherRows

end
-- ==== Proof.LibScatterRows.lean ====
/-
  The accumulating scatter at the extended reals, read at one index, for the two dimension-number patterns of a
  segment sum, every extent a variable.

  ROWS: operand `[N, H]`, scatter indices `[E, 1]`, updates `[E, H]`, the updates' window axis `1`, the operand's
  inserted axis `0`, the scatter index naming operand axis `0`, the index vector on axis `1`. Update `(e, c)` lands
  at row `idx[e, 0]` (read signed), column `c`, and is dropped when that row is outside `[0, N)`
  (`rows_resultIdx?_iff`); so the result at `(n, c)` is the operand's element plus the sum of `upd (e, c)` over the
  `e` whose index is `n` (`scatterRows_apply`).

  VECTOR: operand `[N]`, scatter indices `[E, 1]`, updates `[E]`, no window axis. Update `e` lands at `idx[e, 0]`
  (`vec_resultIdx?_iff`); the result at `n` is the operand's element plus the sum of `upd e` over the same set of
  `e` (`scatterVec_apply`).

  Both rest on one general fact: an update lands at `i` exactly when start plus window coordinate is `i`'s
  coordinate on every operand axis (`resultIdx?_eq_some_iff`).
-/
import Idealize.ShloMosaic.PureOps.Ideal
import Idealize.ShloMosaic.Lib.ValueIdx

open scoped BigOperators
open Idealize.ShloMosaic Idealize.ShloMosaic.ValueIdx

noncomputable section

namespace Cert.LibScatterRows

/-- An update lands at operand index `i` exactly when, on every operand axis, its window's start plus its window
    coordinate is `i`'s coordinate. -/
theorem resultIdx?_eq_some_iff {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  split
  · rename_i h
    rw [Option.some.injEq]
    constructor
    · intro hi a
      have h1 := h a
      rw [← hi]
      simp only
      omega
    · intro hi
      funext a
      apply Fin.ext
      have h1 := h a
      have h2 := hi a
      simp only
      omega
  · rename_i h
    constructor
    · intro hn; exact absurd hn (by simp)
    · intro hi
      exfalso
      apply h
      intro a
      have h2 := hi a
      have h3 := (i a).isLt
      omega

variable (N E H : Nat)

/-- The row scatter's dimension numbers. -/
abbrev rowDims (hwf : ScatterDims.WF ⟨2, ![N, H]⟩ ⟨2, ![E, 1]⟩ ⟨2, ![E, H]⟩ [1] [0] [0] 1) :
    ScatterDims ⟨2, ![N, H]⟩ ⟨2, ![E, 1]⟩ ⟨2, ![E, H]⟩ := ⟨[1], [0], [0], 1, hwf⟩

/-- A dependent index read at an axis equal to `a` has the value read at `a`. -/
theorem idx_val_congr {s : Shape} (j : s.Idx) {a b : Fin s.rank} (h : a = b) : (j a).val = (j b).val := by
  subst h; rfl

/-- A row update reads its scatter index at its own row, component `0`. -/
theorem rows_siIdx (hwf) (e : Fin E) (c' : Fin H) (c) :
    (rowDims N E H hwf).siIdx (ix2 e c') c = ix2 e (0 : Fin 1) := by
  funext b
  match b with
  | ⟨0, _⟩ =>
    apply Fin.ext
    simp only [ScatterDims.siIdx]
    rw [dif_neg (by decide)]
    simp only [ScatterDims.siCoord, Fin.coe_cast]
    exact idx_val_congr (ix2 e c') rfl
  | ⟨1, _⟩ =>
    apply Fin.ext
    simp only [ScatterDims.siIdx]
    rw [dif_pos trivial]
    have := c.isLt
    simp only [List.length_singleton] at this
    show c.val = 0
    omega

/-- On the row axis a row update's window starts at its scatter index, read signed. -/
theorem rows_start0 {w : Nat} (hwf) (e : Fin E) (c' : Fin H) (idx : IVec ⟨2, ![E, 1]⟩ w) :
    (rowDims N E H hwf).start (ix2 e c') idx (0 : Fin 2) = (idx (ix2 e (0 : Fin 1))).toInt := by
  unfold ScatterDims.start
  rw [dif_pos (show (0 : Fin 2) ∈ [(0 : Fin 2)] by decide)]
  rw [rows_siIdx]

/-- On the column axis a row update's window starts at `0`. -/
theorem rows_start1 {w : Nat} (hwf) (e : Fin E) (c' : Fin H) (idx : IVec ⟨2, ![E, 1]⟩ w) :
    (rowDims N E H hwf).start (ix2 e c') idx (1 : Fin 2) = 0 := by
  unfold ScatterDims.start
  rw [dif_neg (show (1 : Fin 2) ∉ [(0 : Fin 2)] by decide)]

/-- A row update has no window coordinate on the (inserted) row axis. -/
theorem rows_window0 (hwf) (e : Fin E) (c' : Fin H) :
    (rowDims N E H hwf).window (ix2 e c') (0 : Fin 2) = 0 := by
  unfold ScatterDims.window
  have h : (0 : Fin 2) ∉ (rowDims N E H hwf).sKept := (show (0 : Fin 2) ∉ [(1 : Fin 2)] by decide)
  rw [dif_neg h]

/-- A row update's window coordinate on the column axis is its own column. -/
theorem rows_window1 (hwf) (e : Fin E) (c' : Fin H) :
    (rowDims N E H hwf).window (ix2 e c') (1 : Fin 2) = c'.val := by
  unfold ScatterDims.window
  have h : (1 : Fin 2) ∈ (rowDims N E H hwf).sKept := (show (1 : Fin 2) ∈ [(1 : Fin 2)] by decide)
  rw [dif_pos h]
  exact idx_val_congr (ix2 e c') rfl

/-- A row update lands at row `n`, column `c` exactly when its scatter index, read signed, is `n` and its own
    column is `c`. -/
theorem rows_resultIdx?_iff {w : Nat} (hwf) (idx : IVec ⟨2, ![E, 1]⟩ w) (e : Fin E) (c' c : Fin H) (n : Fin N) :
    (rowDims N E H hwf).resultIdx? (ix2 e c') idx = some (ix2 n c)
      ↔ (idx (ix2 e (0 : Fin 1))).toInt = (n.val : Int) ∧ c' = c := by
  rw [resultIdx?_eq_some_iff]
  constructor
  · intro h
    have h0 := h (0 : Fin 2)
    have h1 := h (1 : Fin 2)
    rw [rows_start0, rows_window0] at h0
    rw [rows_start1, rows_window1] at h1
    change _ = (n.val : Int) at h0
    change _ = (c.val : Int) at h1
    exact ⟨by omega, Fin.ext (by omega)⟩
  · rintro ⟨h0, rfl⟩ a
    match a with
    | ⟨0, _⟩ =>
      show (rowDims N E H hwf).start (ix2 e c') idx (0 : Fin 2) + ((rowDims N E H hwf).window (ix2 e c') (0 : Fin 2) : Int)
        = (n.val : Int)
      rw [rows_start0, rows_window0]; omega
    | ⟨1, _⟩ =>
      show (rowDims N E H hwf).start (ix2 e c') idx (1 : Fin 2) + ((rowDims N E H hwf).window (ix2 e c') (1 : Fin 2) : Int)
        = (c'.val : Int)
      rw [rows_start1, rows_window1]; omega

/-- The row scatter read at row `n`, column `c`: the operand's element plus the sum, over the updates whose scatter
    index (read signed) is `n`, of their column-`c` elements. -/
theorem scatterRows_apply {w : Nat} (hwf : ScatterDims.WF ⟨2, ![N, H]⟩ ⟨2, ![E, 1]⟩ ⟨2, ![E, H]⟩ [1] [0] [0] 1)
    (x : (⟨2, ![N, H]⟩ : Shape).Idx → EReal) (idx : IVec ⟨2, ![E, 1]⟩ w) (upd : (⟨2, ![E, H]⟩ : Shape).Idx → EReal)
    (n : Fin N) (c : Fin H) :
    Ideal.hostScatterAdd (⟨[1], [0], [0], 1, hwf⟩ : ScatterDims ⟨2, ![N, H]⟩ ⟨2, ![E, 1]⟩ ⟨2, ![E, H]⟩) x idx upd (ix2 n c)
      = x (ix2 n c) + ∑ e ∈ Finset.univ.filter (fun e : Fin E => (idx (ix2 e (0 : Fin 1))).toInt = (n.val : Int)),
          upd (ix2 e c) := by
  show Ideal.hostScatterAdd (rowDims N E H hwf) x idx upd (ix2 n c) = _
  unfold Ideal.hostScatterAdd
  congr 1
  rw [Finset.sum_filter, sum_idx2, Finset.sum_filter]
  refine Finset.sum_congr rfl (fun e _ => ?_)
  by_cases h : (idx (ix2 e (0 : Fin 1))).toInt = (n.val : Int)
  · rw [if_pos h, Finset.sum_eq_single c]
    · rw [if_pos ((rows_resultIdx?_iff N E H hwf idx e c c n).2 ⟨h, rfl⟩)]
    · intro c' _ hc'
      rw [if_neg (fun hh => hc' ((rows_resultIdx?_iff N E H hwf idx e c' c n).1 hh).2)]
    · intro hc; exact absurd (Finset.mem_univ c) hc
  · rw [if_neg h]
    refine Finset.sum_eq_zero (fun c' _ => ?_)
    rw [if_neg (fun hh => h ((rows_resultIdx?_iff N E H hwf idx e c' c n).1 hh).1)]

/-- The vector scatter's dimension numbers. -/
abbrev vecDims (hwf : ScatterDims.WF ⟨1, ![N]⟩ ⟨2, ![E, 1]⟩ ⟨1, ![E]⟩ [] [0] [0] 1) :
    ScatterDims ⟨1, ![N]⟩ ⟨2, ![E, 1]⟩ ⟨1, ![E]⟩ := ⟨[], [0], [0], 1, hwf⟩

/-- A vector update reads its scatter index at its own position, component `0`. -/
theorem vec_siIdx (hwf) (e : Fin E) (c) :
    (vecDims N E hwf).siIdx (ix1 e) c = ix2 e (0 : Fin 1) := by
  funext b
  match b with
  | ⟨0, _⟩ =>
    apply Fin.ext
    simp only [ScatterDims.siIdx]
    rw [dif_neg (by decide)]
    simp only [ScatterDims.siCoord, Fin.coe_cast]
    exact idx_val_congr (ix1 e) rfl
  | ⟨1, _⟩ =>
    apply Fin.ext
    simp only [ScatterDims.siIdx]
    rw [dif_pos trivial]
    have := c.isLt
    simp only [List.length_singleton] at this
    show c.val = 0
    omega

/-- A vector update's window starts at its scatter index, read signed. -/
theorem vec_start0 {w : Nat} (hwf) (e : Fin E) (idx : IVec ⟨2, ![E, 1]⟩ w) :
    (vecDims N E hwf).start (ix1 e) idx (0 : Fin 1) = (idx (ix2 e (0 : Fin 1))).toInt := by
  unfold ScatterDims.start
  rw [dif_pos (show (0 : Fin 1) ∈ [(0 : Fin 1)] by decide)]
  rw [vec_siIdx]

/-- A vector update has no window coordinate on the one (inserted) axis. -/
theorem vec_window0 (hwf) (e : Fin E) :
    (vecDims N E hwf).window (ix1 e) (0 : Fin 1) = 0 := by
  unfold ScatterDims.window
  have h : (0 : Fin 1) ∉ (vecDims N E hwf).sKept := (show (0 : Fin 1) ∉ ([] : List (Fin 1)) by decide)
  rw [dif_neg h]

/-- A vector update lands at position `n` exactly when its scatter index, read signed, is `n`. -/
theorem vec_resultIdx?_iff {w : Nat} (hwf) (idx : IVec ⟨2, ![E, 1]⟩ w) (e : Fin E) (n : Fin N) :
    (vecDims N E hwf).resultIdx? (ix1 e) idx = some (ix1 n)
      ↔ (idx (ix2 e (0 : Fin 1))).toInt = (n.val : Int) := by
  rw [resultIdx?_eq_some_iff]
  constructor
  · intro h
    have h0 := h (0 : Fin 1)
    rw [vec_start0, vec_window0] at h0
    change _ = (n.val : Int) at h0
    omega
  · intro h0 a
    match a with
    | ⟨0, _⟩ =>
      show (vecDims N E hwf).start (ix1 e) idx (0 : Fin 1) + ((vecDims N E hwf).window (ix1 e) (0 : Fin 1) : Int)
        = (n.val : Int)
      rw [vec_start0, vec_window0]; omega

/-- A sum over a rank-1 index set is the sum over its coordinate. -/
theorem sum_idx1 {M : Type*} [AddCommMonoid M] {n0 : Nat} (f : (⟨1, ![n0]⟩ : Shape).Idx → M) :
    ∑ i, f i = ∑ a : Fin n0, f (ix1 a) := by
  refine Fintype.sum_equiv ⟨fun i => i 0, fun a => ix1 a, fun i => (eq_ix1 i).symm, fun _ => rfl⟩ _ _ (fun i => ?_)
  exact congrArg f (eq_ix1 i)

/-- The vector scatter read at position `n`: the operand's element plus the sum of the updates whose scatter index
    (read signed) is `n`. -/
theorem scatterVec_apply {w : Nat} (hwf : ScatterDims.WF ⟨1, ![N]⟩ ⟨2, ![E, 1]⟩ ⟨1, ![E]⟩ [] [0] [0] 1)
    (x : (⟨1, ![N]⟩ : Shape).Idx → EReal) (idx : IVec ⟨2, ![E, 1]⟩ w) (upd : (⟨1, ![E]⟩ : Shape).Idx → EReal) (n : Fin N) :
    Ideal.hostScatterAdd (⟨[], [0], [0], 1, hwf⟩ : ScatterDims ⟨1, ![N]⟩ ⟨2, ![E, 1]⟩ ⟨1, ![E]⟩) x idx upd (ix1 n)
      = x (ix1 n) + ∑ e ∈ Finset.univ.filter (fun e : Fin E => (idx (ix2 e (0 : Fin 1))).toInt = (n.val : Int)),
          upd (ix1 e) := by
  show Ideal.hostScatterAdd (vecDims N E hwf) x idx upd (ix1 n) = _
  unfold Ideal.hostScatterAdd
  congr 1
  rw [Finset.sum_filter, sum_idx1, Finset.sum_filter]
  refine Finset.sum_congr rfl (fun e _ => ?_)
  by_cases h : (idx (ix2 e (0 : Fin 1))).toInt = (n.val : Int)
  · rw [if_pos h, if_pos ((vec_resultIdx?_iff N E hwf idx e n).2 h)]
  · rw [if_neg h, if_neg (fun hh => h ((vec_resultIdx?_iff N E hwf idx e n).1 hh))]

end Cert.LibScatterRows
-- ==== Proof.KStagesRead.lean ====
/-
  The host stages around the kernel program's regions, read at one position.

  A vector used as a one-row matrix reads the vector's entry; the scalar used as a one-by-one matrix reads the scalar.
  The batch mean read at a feature is the column sum divided by the count, the variance by moments the column sum of
  squares divided by the count minus the square of that mean: division, subtraction and product act entry by entry and
  the count is one constant spread over the row. A gather only re-reads entries of its operand, so it keeps "every
  entry is a real"; a segment sum into zeros reads, at each position, zero plus a finite sum of the summed array's
  entries, so it keeps it too.
-/
import proofs.«167392_j80126909874572_1_alg».proof.Proof.KStages
import proofs.«167392_j80126909874572_1_alg».proof.Proof.RealEntries
import proofs.«167392_j80126909874572_1_alg».proof.Proof.LibGatherRows
import proofs.«167392_j80126909874572_1_alg».proof.Proof.LibScatterRows
import proofs.«167392_j80126909874572_1_alg».proof.Proof.LibColSum
import proofs.«167392_j80126909874572_1_alg».proof.Proof.LibHostBroadcast

set_option maxRecDepth 16384

noncomputable section

namespace Cert.KernelIdeal.Fold

open Idealize.ShloMosaic Idealize.ShloMosaic.TcCoe Idealize.ShloMosaic.StableHlo Idealize.ShloMosaic.ValueIdx
open Cert.KernelIdeal Cert.KernelIdeal.Gen Cert.Gnn

/-- A vector of 128 features used as a one-row matrix reads, at column c, the vector's entry c. -/
theorem ofRow_row (v : FVec Ideal S128 .f32) (c : Fin 128) : ofRow (row v) c = ofVct v c := by
  show shapeCast S1x128 v Facts₀.shapeCasts_S128_S1x128 (ix2 (0 : Fin 1) c) = v (ix1 c)
  exact Cert.LibColSum.row_of_vec v _ c

/-- The scalar used as a one-by-one matrix reads the scalar: the shape with no axes has one index. -/
theorem cell_apply (v : FVec Ideal S_ .f32) : cell v (ValueIdx.ix2 (0 : Fin 1) (0 : Fin 1)) = v ValueIdx.ix0 := by
  show v (Shape.reshapeEquiv Facts₀.shapeCasts_S_S1x1 (ix2 (0 : Fin 1) (0 : Fin 1))) = v ix0
  exact congrArg v (eq_ix0 _)

/-- The count spread over the row reads, at every position, the number its word denotes. -/
theorem cnt_apply (w : BitVec 32) (i : S1x128.Idx) : cnt w i = Ideal.ofBits .f32 w :=
  Cert.LibHostBroadcast.scalar_to_any (constant (F := Ideal) S_ .f32 w) _ i

/-- The batch mean at feature c: the column sum divided by the count. -/
theorem ofRow_meanK (w : BitVec 32) (s : FVec Ideal S1x128 .f32) (c : Fin 128) :
    ofRow (meanK w s) c = Ideal.div (ofRow s c) (Ideal.ofBits .f32 w) := by
  show Ideal.div (s (ix2 (0 : Fin 1) c)) (cnt w (ix2 (0 : Fin 1) c)) = _
  rw [cnt_apply]
  rfl

/-- The batch variance at feature c, by moments: the column sum of squares divided by the count, minus the square of
    the mean. -/
theorem ofRow_varK (w : BitVec 32) (s q : FVec Ideal S1x128 .f32) (c : Fin 128) :
    ofRow (varK w s q) c
      = Ideal.div (ofRow q c) (Ideal.ofBits .f32 w) - ofRow (meanK w s) c * ofRow (meanK w s) c := by
  show Ideal.div (q (ix2 (0 : Fin 1) c)) (cnt w (ix2 (0 : Fin 1) c))
      - meanK w s (ix2 (0 : Fin 1) c) * meanK w s (ix2 (0 : Fin 1) c) = _
  rw [cnt_apply]
  rfl

/-- Rows gathered from an array of reals are reals: every entry of the result is an entry of the operand. -/
theorem gath_real (x : FVec Ideal S50000x128 .f32) (i : IVec S640000x1 32) (hx : ∀ j, IsReal (x j)) :
    ∀ j, IsReal (gath x i j) :=
  fun j => hx (gather_S50000x128_S640000x1_S640000x128_1_0_n_n_0_1_1128.operandIdx j i)

/-- Every entry of the array of zeros is the real number zero. -/
theorem zerosN_real (j : S50000x128.Idx) : IsReal (zerosN j) :=
  ⟨0, by
    show Ideal.ofBits .f32 0x00000000#32 = ((0 : ℝ) : EReal)
    rw [Ideal.ofBits_zero_f32, EReal.coe_zero]⟩

/-- A segment sum of reals into zeros has real entries: each is zero plus a finite sum of entries of the summed
    array. -/
theorem aggK_real (u : FVec Ideal S640000x128 .f32) (seg : IVec S640000x1 32) (hu : ∀ j, IsReal (u j)) :
    ∀ j, IsReal (aggK u seg j) := by
  intro j
  show IsReal (zerosN j + ∑ k ∈ _, u k)
  exact (zerosN_real j).add (isReal_sum _ _ hu)

end Cert.KernelIdeal.Fold

end
-- ==== Proof.KBridge.lean ====
/-
  What the kernel program computes, in the specification's words.

  The program takes its batch statistics by moments from column sums: the mean is the column sum over the count, the
  variance the column sum of squares over the count minus the square of the mean. The specification's variance is the
  centred one. On real entries the two agree, and every value on the way is a real when the arguments are: gathered
  rows of a real array, products of real matrices, the gate of a real, a segment sum of reals. So the updated edge
  features are the specification's edge update with the centred statistics over the 640000 edges, and the updated node
  features the specification's node update with the centred statistics over the 50000 nodes. The edge update adds its
  second bias either before or after the residual; the two sums are one by associativity.
-/
import proofs.«167392_j80126909874572_1_alg».proof.Proof.KTerms
import proofs.«167392_j80126909874572_1_alg».proof.Proof.KStagesRead
import proofs.«167392_j80126909874572_1_alg».proof.Proof.VarLaw
import proofs.«167392_j80126909874572_1_alg».proof.Proof.RealEntries

set_option maxRecDepth 16384

noncomputable section

namespace Cert.KernelIdeal.Fold

open Idealize.ShloMosaic Idealize.ShloMosaic.TcCoe Idealize.ShloMosaic.StableHlo Idealize.ShloMosaic.ValueIdx
open Cert.KernelIdeal Cert.KernelIdeal.Gen Cert.Gnn

/-- The mean taken from the column sums of a family y is the specification's column mean of y. -/
theorem ofRow_meanK_colSum {a : ℕ} (w : BitVec 32) (y : Fin a → Fin 128 → EReal) :
    ofRow (meanK w (fun j : S1x128.Idx => colSum y (j 1))) = mean (Ideal.ofBits .f32 w) y := by
  funext c
  rw [ofRow_meanK]
  rfl

/-- The variance by moments taken from the column sums and the column sums of squares of a family y of reals over
    a > 0 rows, the count being a, is the specification's centred column variance of y. -/
theorem ofRow_varK_colSum {a : ℕ} (ha : 0 < a) (w : BitVec 32) (hw : Ideal.ofBits .f32 w = ((a : ℝ) : EReal))
    (y : Fin a → Fin 128 → EReal) (hy : ∀ r c, IsReal (y r c)) :
    ofRow (varK w (fun j : S1x128.Idx => colSum y (j 1)) (fun j : S1x128.Idx => colSumSq y (j 1)))
      = varC (Ideal.ofBits .f32 w) y := by
  funext c
  rw [ofRow_varK, congrFun (ofRow_meanK_colSum w y) c, ← varM_eq_varC ha _ hw y hy c]
  rfl

/-- A vector used as a one-row matrix, read by column, is the vector read by position. -/
theorem ofRow_row_fun (v : FVec Ideal S128 .f32) : ofRow (row v) = ofVct v := funext (ofRow_row v)

/-- The updated edge features the program computes are the specification's edge update of the normalised edge
    pre-activation, its statistics the column mean and the centred column variance over the 640000 edges. -/
theorem KE_spec (a0 : FVec Ideal S50000x128 .f32) (a1 : FVec Ideal S640000x128 .f32) (a2 : IVec S2x640000 32)
    (a3 a4 a5 a8 : FVec Ideal S128x128 .f32) (a9 : FVec Ideal S128 .f32) (a10 : FVec Ideal S128x128 .f32)
    (a11 a12 a13 : FVec Ideal S128 .f32)
    (h0 : ∀ j, IsReal (a0 j)) (h1 : ∀ j, IsReal (a1 j)) (h3 : ∀ j, IsReal (a3 j)) (h4 : ∀ j, IsReal (a4 j))
    (h5 : ∀ j, IsReal (a5 j)) :
    KE a0 a1 a2 a3 a4 a5 a8 a9 a10 a11 a12 a13
      = toMat (enew (a := 640000) (d := 128) a1
          (hidden
            (bn eps (ehat a1 (hsK a0 a2) (hdK a0 a2) a3 a4 a5)
              (mean (Ideal.ofBits .f32 wE) (ehat a1 (hsK a0 a2) (hdK a0 a2) a3 a4 a5))
              (varC (Ideal.ofBits .f32 wE) (ehat a1 (hsK a0 a2) (hdK a0 a2) a3 a4 a5))
              (ofVct a12) (ofVct a13))
            a8 (ofVct a9))
          a10 (ofVct a11)) := by
  have hhs : ∀ j, IsReal (hsK a0 a2 j) := gath_real a0 (wrapCol (srcVec a2)) h0
  have hhd : ∀ j, IsReal (hdK a0 a2 j) := gath_real a0 (wrapCol (dstVec a2)) h0
  have hyr : ∀ r c, IsReal (ehat a1 (hsK a0 a2) (hdK a0 a2) a3 a4 a5 r c) :=
    isReal_ehat a1 (hsK a0 a2) (hdK a0 a2) a3 a4 a5 h1 hhs hhd h3 h4 h5
  have hmean : ofRow (meanK wE (esumF a1 (hsK a0 a2) (hdK a0 a2) a3 a4 a5))
      = mean (Ideal.ofBits .f32 wE) (ehat a1 (hsK a0 a2) (hdK a0 a2) a3 a4 a5) :=
    ofRow_meanK_colSum wE (ehat a1 (hsK a0 a2) (hdK a0 a2) a3 a4 a5)
  have hvar : ofRow (varK wE (esumF a1 (hsK a0 a2) (hdK a0 a2) a3 a4 a5) (esumsqF a1 (hsK a0 a2) (hdK a0 a2) a3 a4 a5))
      = varC (Ideal.ofBits .f32 wE) (ehat a1 (hsK a0 a2) (hdK a0 a2) a3 a4 a5) :=
    ofRow_varK_colSum (by norm_num) wE ofBits_640000 (ehat a1 (hsK a0 a2) (hdK a0 a2) a3 a4 a5) hyr
  unfold KE enewF
  rw [hmean, hvar, ofRow_row_fun a12, ofRow_row_fun a13, ofRow_row_fun a9, ofRow_row_fun a11]
  exact congrArg toMat (funext fun r => funext fun c => enew'_eq _ _ _ _ r c)

/-- The messages the program computes are the specification's: the gate of the edge pre-activation times the target
    rows of the node projection. -/
theorem KMsg_eq (a0 : FVec Ideal S50000x128 .f32) (a1 : FVec Ideal S640000x128 .f32) (a2 : IVec S2x640000 32)
    (a3 a4 a5 a7 : FVec Ideal S128x128 .f32) :
    KMsg a0 a1 a2 a3 a4 a5 a7
      = toMat (msg (ehat a1 (hsK a0 a2) (hdK a0 a2) a3 a4 a5) (gath (projF a0 a7) (wrapCol (dstVec a2)))) := rfl

/-- The summed messages are reals when the arguments are. -/
theorem KAgg_real (a0 : FVec Ideal S50000x128 .f32) (a1 : FVec Ideal S640000x128 .f32) (a2 : IVec S2x640000 32)
    (a3 a4 a5 a7 : FVec Ideal S128x128 .f32)
    (h0 : ∀ j, IsReal (a0 j)) (h1 : ∀ j, IsReal (a1 j)) (h3 : ∀ j, IsReal (a3 j)) (h4 : ∀ j, IsReal (a4 j))
    (h5 : ∀ j, IsReal (a5 j)) (h7 : ∀ j, IsReal (a7 j)) : ∀ j, IsReal (KAgg a0 a1 a2 a3 a4 a5 a7 j) := by
  have hhs : ∀ j, IsReal (hsK a0 a2 j) := gath_real a0 (wrapCol (srcVec a2)) h0
  have hhd : ∀ j, IsReal (hdK a0 a2 j) := gath_real a0 (wrapCol (dstVec a2)) h0
  have hyr : ∀ r c, IsReal (ehat a1 (hsK a0 a2) (hdK a0 a2) a3 a4 a5 r c) :=
    isReal_ehat a1 (hsK a0 a2) (hdK a0 a2) a3 a4 a5 h1 hhs hhd h3 h4 h5
  have hproj : ∀ j, IsReal (projF a0 a7 j) := fun j => isReal_dot a0 a7 h0 h7 (j 0) (j 1)
  have hv : ∀ j, IsReal (gath (projF a0 a7) (wrapCol (dstVec a2)) j) :=
    gath_real (projF a0 a7) (wrapCol (dstVec a2)) hproj
  have hmsg : ∀ j, IsReal (KMsg a0 a1 a2 a3 a4 a5 a7 j) := fun j =>
    isReal_msg (ehat a1 (hsK a0 a2) (hdK a0 a2) a3 a4 a5) (gath (projF a0 a7) (wrapCol (dstVec a2))) hyr hv (j 0) (j 1)
  exact aggK_real (KMsg a0 a1 a2 a3 a4 a5 a7) (rawCol (srcVec a2)) hmsg

/-- The updated node features the program computes are the specification's node update of the normalised node
    pre-activation, its statistics the column mean and the centred column variance over the 50000 nodes. -/
theorem KH_spec (a0 : FVec Ideal S50000x128 .f32) (a1 : FVec Ideal S640000x128 .f32) (a2 : IVec S2x640000 32)
    (a3 a4 a5 a6 a7 : FVec Ideal S128x128 .f32) (a14 a15 : FVec Ideal S128 .f32) (a16 : FVec Ideal S_ .f32)
    (h0 : ∀ j, IsReal (a0 j)) (h1 : ∀ j, IsReal (a1 j)) (h3 : ∀ j, IsReal (a3 j)) (h4 : ∀ j, IsReal (a4 j))
    (h5 : ∀ j, IsReal (a5 j)) (h6 : ∀ j, IsReal (a6 j)) (h7 : ∀ j, IsReal (a7 j)) :
    KH a0 a1 a2 a3 a4 a5 a6 a7 a14 a15 a16
      = toMat (hnew (n := 50000) (d := 128) a0 (a16 ValueIdx.ix0)
          (bn eps (pre a0 a6 (KAgg a0 a1 a2 a3 a4 a5 a7))
            (mean (Ideal.ofBits .f32 wN) (pre a0 a6 (KAgg a0 a1 a2 a3 a4 a5 a7)))
            (varC (Ideal.ofBits .f32 wN) (pre a0 a6 (KAgg a0 a1 a2 a3 a4 a5 a7)))
            (ofVct a14) (ofVct a15))) := by
  have hagg : ∀ j, IsReal (KAgg a0 a1 a2 a3 a4 a5 a7 j) := KAgg_real a0 a1 a2 a3 a4 a5 a7 h0 h1 h3 h4 h5 h7
  have hsr : ∀ r c, IsReal (pre a0 a6 (KAgg a0 a1 a2 a3 a4 a5 a7) r c) :=
    isReal_pre a0 a6 (KAgg a0 a1 a2 a3 a4 a5 a7) h0 h6 hagg
  have hmean : ofRow (meanK wN (nsumF a0 (KAgg a0 a1 a2 a3 a4 a5 a7) a6))
      = mean (Ideal.ofBits .f32 wN) (pre a0 a6 (KAgg a0 a1 a2 a3 a4 a5 a7)) :=
    ofRow_meanK_colSum wN (pre a0 a6 (KAgg a0 a1 a2 a3 a4 a5 a7))
  have hvar : ofRow (varK wN (nsumF a0 (KAgg a0 a1 a2 a3 a4 a5 a7) a6) (nsumsqF a0 (KAgg a0 a1 a2 a3 a4 a5 a7) a6))
      = varC (Ideal.ofBits .f32 wN) (pre a0 a6 (KAgg a0 a1 a2 a3 a4 a5 a7)) :=
    ofRow_varK_colSum (by norm_num) wN ofBits_50000 (pre a0 a6 (KAgg a0 a1 a2 a3 a4 a5 a7)) hsr
  unfold KH hnewF
  rw [hmean, hvar, ofRow_row_fun a14, ofRow_row_fun a15, cell_apply]

end Cert.KernelIdeal.Fold

end
-- ==== Proof.Link.lean ====
/-
  The reference program's node result is the kernel program's.

  The two programs name the same host stages: the index table's rows wrapped into start indices, the rows gathered at
  them, the messages summed per source node. So the reference's edge pre-activation is the specification's on the
  kernel's gathered rows, its node sum the specification's node pre-activation of the kernel's summed messages, and
  its node result - the node update with the centred batch statistics - is what the kernel computes with the
  statistics by moments, once every argument entry is a real.
-/
import proofs.«167392_j80126909874572_1_alg».proof.Proof.RefRunTerms
import proofs.«167392_j80126909874572_1_alg».proof.Proof.RefValueEhat
import proofs.«167392_j80126909874572_1_alg».proof.Proof.RefValueH
import proofs.«167392_j80126909874572_1_alg».proof.Proof.KBridge

set_option maxRecDepth 16384

noncomputable section

namespace Cert.Link

open Idealize.ShloMosaic Idealize.ShloMosaic.ValueIdx
open Cert.KernelIdeal.Fold Cert.ReferenceIdeal.RefRun Cert.Gnn

/-- The reference's start indices at the first end of every edge are the kernel's. -/
theorem srcIdx_eq (a2 : CT) : srcIdx a2 = wrapCol (srcVec a2) := rfl
/-- The reference's start indices at the second end of every edge are the kernel's. -/
theorem dstIdx_eq (a2 : CT) : dstIdx a2 = wrapCol (dstVec a2) := rfl
/-- The reference's segment labels are the kernel's. -/
theorem segIdx_eq (a2 : CT) : segIdx a2 = rawCol (srcVec a2) := rfl
/-- The reference's gather of node rows is the kernel's. -/
theorem gather_eq (x : CN) (i : CJ) :
    Host.gather Cert.ReferenceIdeal.gather_S50000x128_S640000x1_S640000x128_1_0_n_n_0_1_1128 x i = gath x i := rfl
/-- The reference's sum of the messages per node is the kernel's. -/
theorem aggR_eq (u : CE) (seg : CJ) : aggR u seg = aggK u seg := rfl

/-- A family written as a matrix and read back by row and column is the family. -/
theorem ofMat_toMat_fun {a b : ℕ} (f : Fin a → Fin b → EReal) : ofMat (toMat f) = f := rfl

/-- The reference's edge pre-activation is the specification's on the kernel's gathered rows. -/
theorem ehatOf_eq (a0 : CN) (a1 : CE) (a2 : CT) (a3 a4 a5 : CW) :
    ehatOf a0 a1 a2 a3 a4 a5 = toMat (ehat a1 (hsK a0 a2) (hdK a0 a2) a3 a4 a5) := by
  unfold ehatOf
  rw [ehatR_eq, gather_eq, gather_eq, srcIdx_eq, dstIdx_eq]
  rfl

/-- The reference's node sum is the specification's node pre-activation of the kernel's summed messages. -/
theorem sOf_eq (a0 : CN) (a1 : CE) (a2 : CT) (a3 a4 a5 a6 a7 : CW) :
    sOf a0 a1 a2 a3 a4 a5 a6 a7 = toMat (pre a0 a6 (KAgg a0 a1 a2 a3 a4 a5 a7)) := by
  unfold sOf
  rw [sR_eq, msgR_eq, ehatOf_eq, projR_eq, gather_eq, dstIdx_eq, segIdx_eq, aggR_eq, ofMat_toMat_fun]
  rfl

/-- With every argument entry a real, the reference's node result is the kernel's. -/
theorem RefH_eq_KH (a0 : CN) (a1 : CE) (a2 : CT) (a3 a4 a5 a6 a7 a8 : CW) (a9 : CV) (a10 : CW)
    (a11 a12 a13 a14 a15 : CV) (a16 : CS)
    (h0 : ∀ j, IsReal (a0 j)) (h1 : ∀ j, IsReal (a1 j)) (h3 : ∀ j, IsReal (a3 j)) (h4 : ∀ j, IsReal (a4 j))
    (h5 : ∀ j, IsReal (a5 j)) (h6 : ∀ j, IsReal (a6 j)) (h7 : ∀ j, IsReal (a7 j)) :
    RefH a0 a1 a2 a3 a4 a5 a6 a7 a8 a9 a10 a11 a12 a13 a14 a15 a16 = KH a0 a1 a2 a3 a4 a5 a6 a7 a14 a15 a16 := by
  rw [RefH_spec, sOf_eq, ofMat_toMat_fun, KH_spec a0 a1 a2 a3 a4 a5 a6 a7 a14 a15 a16 h0 h1 h3 h4 h5 h6 h7]

end Cert.Link

end
-- ==== Proof.RefValueE.lean ====
/-
  The reference's edge result read against the layer's specification, entry by entry, on the extended reals.

  Each stage of the composition is read at one row and column: a column sum from the zero word is the sum down the
  column; a row vector spread over the rows reads its own entry; a scalar spread over a shape reads the scalar. With
  these the column mean is the column sum over the count; the variance's divisor is the count less the integer zero,
  a positive real, so the selection takes the quotient, which is the centred variance of the specification; the
  normalization and the two-layer update are the specification's expressions, and so is their composition. No entry is
  asked to be finite.
-/
import proofs.«167392_j80126909874572_1_alg».proof.Proof.RefRunTerms
import proofs.«167392_j80126909874572_1_alg».proof.Proof.Spec
import proofs.«167392_j80126909874572_1_alg».proof.Proof.VarLaw
import proofs.«167392_j80126909874572_1_alg».proof.Proof.LibXnorHost
import proofs.«167392_j80126909874572_1_alg».proof.Proof.LibHostBroadcast
import proofs.«167392_j80126909874572_1_alg».proof.Proof.RefValueEhat
import Idealize.ShloMosaic.Lib.StableHlo.Run

noncomputable section

namespace Cert.ReferenceIdeal.RefRun

open Cert.ReferenceIdeal Cert.ReferenceIdeal.Gen Idealize.ShloMosaic Idealize.ShloMosaic.ValueIdx Cert.Gnn

variable {s : Shape} {φ : FTy}

/-- The host's quotient and reciprocal square root, read at an index. -/
theorem hdivf_apply (a b : FVec Ideal s φ) (i : s.Idx) : Host.divf a b i = Ideal.div (a i) (b i) := rfl
theorem hrsqrt_apply (a : FVec Ideal s φ) (i : s.Idx) : Host.rsqrt a i = Ideal.rsqrt (a i) := rfl

/-- A scalar spread over a row vector, over a one-row matrix and over an edge array reads the scalar. -/
theorem bcastV_scalar {α : Type} (v : S_.Idx → α) (i : S128.Idx) : broadcastInDim S128 ![] bcast_S_S128 v i = v ix0 :=
  Cert.LibHostBroadcast.scalar_to_any v bcast_S_S128 i
theorem bcastRow_scalar {α : Type} (v : S_.Idx → α) (i : S1x128.Idx) : broadcastInDim S1x128 ![] bcast_S_S1x128 v i = v ix0 :=
  Cert.LibHostBroadcast.scalar_to_any v bcast_S_S1x128 i
theorem bcastE_scalar {α : Type} (v : S_.Idx → α) (i : S640000x128.Idx) :
    broadcastInDim S640000x128 ![] bcast_S_S640000x128 v i = v ix0 :=
  Cert.LibHostBroadcast.scalar_to_any v bcast_S_S640000x128 i

/-- The column reduction of an edge array keeps one axis. -/
theorem hRe : (⟨2, ![640000, 128]⟩ : Shape).Reduces [0] ⟨1, ![128]⟩ := by decide

/-- A row vector repeated over the edges reads the vector's entry. -/
theorem rowsE_apply (v : CV) (r : Fin 640000) (c : Fin 128) : rowsE v (ix2 r c) = v (ix1 c) :=
  Cert.LibHostBroadcast.vec_along_cols v bcast_S128_S1x128_1 bcast_S1x128_S640000x128_0_1 r c

/-- The column mean read at a column. -/
theorem meanR_apply (x : CE) (c : Fin 128) : meanR x (ix1 c) = mean (Ideal.ofBits .f32 0x491C4000#32) (ofMat x) c := by
  unfold meanR
  simp only [hdivf_apply, Cert.LibXnorHost.colsum_host (hR := hRe), bcastV_scalar, constant_apply,
    Ideal.ofBits_zero_f32, zero_add]
  rfl

/-- The deviation from the column mean read at an entry. -/
theorem ctrR_apply (x : CE) (r : Fin 640000) (c : Fin 128) :
    ctrR x (ix2 r c) = x (ix2 r c) - mean (Ideal.ofBits .f32 0x491C4000#32) (ofMat x) c := by
  unfold ctrR
  rw [subf_apply, Cert.LibHostBroadcast.row_to_mat, hdivf_apply, Cert.LibHostBroadcast.vec_to_row,
    Cert.LibXnorHost.colsum_host (hR := hRe), bcastRow_scalar]
  simp only [constant_apply, Ideal.ofBits_zero_f32, zero_add]
  rfl

/-- The variance's divisor is the edge count: the correction is the integer zero. -/
theorem dofR_apply : dofR ix0 = (Ideal.ofBits .f32 0x491C4000#32) := by
  have h0 : (((0#32 : BitVec 32).toInt : ℝ) : EReal) = 0 := by simp
  show (Ideal.ofBits .f32 0x491C4000#32) - (((0#32 : BitVec 32).toInt : ℝ) : EReal) = _
  rw [h0, sub_zero]

/-- The edge count is a positive real, so the comparison's bit is one. -/
theorem cmp_dof' : Ideal.cmp .ogt (Ideal.ofBits .f32 0x491C4000#32) 0 = 1#1 := by
  rw [Cert.Gnn.ofBits_640000]
  have h : (0 : EReal) < (((640000 : ℕ) : ℝ) : EReal) := by exact_mod_cast (by norm_num : (0 : ℝ) < ((640000 : ℕ) : ℝ))
  simp [Ideal.cmp, h]
theorem cmp_dof : FloatOps.cmpf (F := Ideal) (φ := .f32) .ogt (Ideal.ofBits .f32 0x491C4000#32) 0 = 1#1 := cmp_dof'

/-- The column variance read at a column: the centred form. -/
theorem varR_apply (x : CE) (c : Fin 128) : varR x (ix1 c) = varC (Ideal.ofBits .f32 0x491C4000#32) (ofMat x) c := by
  unfold varR
  rw [select_apply, bcastV_scalar, cmpf_apply, dofR_apply, constant_apply, Ideal.ofBits_zero_f32, cmp_dof, select_one,
    hdivf_apply, bcastV_scalar, dofR_apply, Cert.LibXnorHost.colsum_host (hR := hRe), constant_apply, Ideal.ofBits_zero_f32,
    zero_add]
  simp only [mulf_apply, ctrR_apply]
  rfl

/-- The normalization read at an entry. -/
theorem bnR_apply (x : CE) (m v g b : CV) (r : Fin 640000) (c : Fin 128) :
    bnR x m v g b (ix2 r c) = bn (Ideal.ofBits .f32 0x3727C5AC#32) (ofMat x) (ofVct m) (ofVct v) (ofVct g) (ofVct b) r c := by
  unfold bnR
  simp only [addf_apply, mulf_apply, subf_apply, rowsE_apply, hrsqrt_apply, bcastV_scalar, constant_apply]
  rfl

/-- The zero word spread over an edge array is the zero array. -/
theorem zerosE : broadcastInDim S640000x128 ![] bcast_S_S640000x128 (constant (F := Ideal) S_ .f32 0x00000000#32) = fun _ => (0 : EReal) :=
  funext fun i => by rw [bcastE_scalar, constant_apply, Ideal.ofBits_zero_f32]

/-- The edge update read at an entry. -/
theorem enewR_apply (e z : CE) (W1 : CW) (b1 : CV) (W2 : CW) (b2 : CV) (r : Fin 640000) (c : Fin 128) :
    enewR e z W1 b1 W2 b2 (ix2 r c) = enew e (hidden (ofMat z) W1 (ofVct b1)) W2 (ofVct b2) r c := by
  unfold enewR
  rw [zerosE]
  simp only [addf_apply, maximumf_apply, dotE_apply, rowsE_apply]
  rfl

/-- The edge result is the specification's edge update of the normalized pre-activation. -/
theorem RefE_spec (a0 : CN) (a1 : CE) (a2 : CT) (a3 a4 a5 a6 a7 a8 : CW) (a9 : CV) (a10 : CW) (a11 a12 a13 a14 a15 : CV) (a16 : CS) :
    RefE a0 a1 a2 a3 a4 a5 a6 a7 a8 a9 a10 a11 a12 a13 a14 a15 a16
      = toMat (enew a1 (hidden (bn (Ideal.ofBits .f32 0x3727C5AC#32) (ehat a1 (Host.gather gather_S50000x128_S640000x1_S640000x128_1_0_n_n_0_1_1128 a0 (srcIdx a2)) (Host.gather gather_S50000x128_S640000x1_S640000x128_1_0_n_n_0_1_1128 a0 (dstIdx a2)) a3 a4 a5)
          (mean (Ideal.ofBits .f32 0x491C4000#32) (ehat a1 (Host.gather gather_S50000x128_S640000x1_S640000x128_1_0_n_n_0_1_1128 a0 (srcIdx a2)) (Host.gather gather_S50000x128_S640000x1_S640000x128_1_0_n_n_0_1_1128 a0 (dstIdx a2)) a3 a4 a5))
          (varC (Ideal.ofBits .f32 0x491C4000#32) (ehat a1 (Host.gather gather_S50000x128_S640000x1_S640000x128_1_0_n_n_0_1_1128 a0 (srcIdx a2)) (Host.gather gather_S50000x128_S640000x1_S640000x128_1_0_n_n_0_1_1128 a0 (dstIdx a2)) a3 a4 a5))
          (ofVct a12) (ofVct a13)) a8 (ofVct a9)) a10 (ofVct a11)) := by
  have hE : ehatOf a0 a1 a2 a3 a4 a5 = toMat (ehat a1 (Host.gather gather_S50000x128_S640000x1_S640000x128_1_0_n_n_0_1_1128 a0 (srcIdx a2)) (Host.gather gather_S50000x128_S640000x1_S640000x128_1_0_n_n_0_1_1128 a0 (dstIdx a2)) a3 a4 a5) := ehatR_eq _ _ _ _ _ _
  unfold RefE
  rw [hE]
  generalize (ehat a1 (Host.gather gather_S50000x128_S640000x1_S640000x128_1_0_n_n_0_1_1128 a0 (srcIdx a2)) (Host.gather gather_S50000x128_S640000x1_S640000x128_1_0_n_n_0_1_1128 a0 (dstIdx a2)) a3 a4 a5) = y
  have hm : ofVct (meanR (toMat y)) = mean (Ideal.ofBits .f32 0x491C4000#32) y := funext fun c => meanR_apply (toMat y) c
  have hv : ofVct (varR (toMat y)) = varC (Ideal.ofBits .f32 0x491C4000#32) y := funext fun c => varR_apply (toMat y) c
  have hz : ofMat (bnR (toMat y) (meanR (toMat y)) (varR (toMat y)) a12 a13)
      = bn (Ideal.ofBits .f32 0x3727C5AC#32) y (mean (Ideal.ofBits .f32 0x491C4000#32) y) (varC (Ideal.ofBits .f32 0x491C4000#32) y) (ofVct a12) (ofVct a13) := by
    funext r c
    rw [← hm, ← hv]
    exact bnR_apply (toMat y) _ _ a12 a13 r c
  funext j
  obtain ⟨r, c, rfl⟩ : ∃ (r : Fin 640000) (c : Fin 128), j = ix2 r c := ⟨j 0, j 1, eq_ix2 j⟩
  rw [enewR_apply, hz]
  rfl

end Cert.ReferenceIdeal.RefRun

end
-- ==== Proof.LinkE.lean ====
/-
  The reference program's edge result is the kernel program's.

  The reference's edge result is the specification's edge update of the normalised edge pre-activation with the column
  mean and the centred column variance over the 640000 edges, on the rows gathered at the wrapped start indices; the
  kernel's is the same update with the variance by moments, which is the centred one once every argument entry is a
  real. The gathers and the start indices of the two programs are the same stages.
-/
import proofs.«167392_j80126909874572_1_alg».proof.Proof.Link
import proofs.«167392_j80126909874572_1_alg».proof.Proof.RefValueE

set_option maxRecDepth 16384

noncomputable section

namespace Cert.Link

open Idealize.ShloMosaic Idealize.ShloMosaic.ValueIdx
open Cert.KernelIdeal.Fold Cert.ReferenceIdeal.RefRun Cert.Gnn

/-- The kernel's source rows are the rows gathered at the wrapped source numbers. -/
theorem hsK_eq (a0 : CN) (a2 : CT) : hsK a0 a2 = gath a0 (wrapCol (srcVec a2)) := rfl
/-- The kernel's target rows are the rows gathered at the wrapped target numbers. -/
theorem hdK_eq (a0 : CN) (a2 : CT) : hdK a0 a2 = gath a0 (wrapCol (dstVec a2)) := rfl

/-- With every argument entry a real, the reference's edge result is the kernel's. -/
theorem RefE_eq_KE (a0 : CN) (a1 : CE) (a2 : CT) (a3 a4 a5 a6 a7 a8 : CW) (a9 : CV) (a10 : CW)
    (a11 a12 a13 a14 a15 : CV) (a16 : CS)
    (h0 : ∀ j, IsReal (a0 j)) (h1 : ∀ j, IsReal (a1 j)) (h3 : ∀ j, IsReal (a3 j)) (h4 : ∀ j, IsReal (a4 j))
    (h5 : ∀ j, IsReal (a5 j)) (h6 : ∀ j, IsReal (a6 j)) (h7 : ∀ j, IsReal (a7 j)) :
    RefE a0 a1 a2 a3 a4 a5 a6 a7 a8 a9 a10 a11 a12 a13 a14 a15 a16 = KE a0 a1 a2 a3 a4 a5 a8 a9 a10 a11 a12 a13 := by
  rw [RefE_spec, gather_eq, gather_eq, srcIdx_eq, dstIdx_eq, ← hsK_eq, ← hdK_eq,
    KE_spec a0 a1 a2 a3 a4 a5 a8 a9 a10 a11 a12 a13 h0 h1 h3 h4 h5]

end Cert.Link

end
-- ==== Proof.LibRealEntries.lean ====
/-
  When an entry of an array of extended reals is a real number — each fact stated once, over the library alone.

    * `sum_real`: a finite sum of reals is a real.
    * `ofBits_inf`: the 32-bit word 0x7F800000 is +∞.
    * `ofBool_eq_one`: the one-bit word made from a truth value is 1 only when the value is true.
    * `real_of_abs_lt_top`: an extended real x with max x (-x) < +∞ is a real.
    * `real_of_cmp`: the same, from the comparison bit "max x (-x) < the word of +∞" being 1 — the form in which a test
      "every entry is finite" states it.
-/
import Idealize.ShloMosaic.PureOps.Ideal

noncomputable section

namespace Cert.LibRealEntries

open Idealize.ShloMosaic

/-- A finite sum of reals is a real: the sum of the reals, by induction on the index set. -/
theorem sum_real {ι : Type} (s : Finset ι) (f : ι → EReal) (hf : ∀ k, ∃ r : ℝ, f k = (r : EReal)) :
    ∃ r : ℝ, ∑ k ∈ s, f k = (r : EReal) := by
  classical
  refine Finset.induction_on s ⟨0, by simp⟩ ?_
  intro k t hk ih
  obtain ⟨r, hr⟩ := ih
  obtain ⟨q, hq⟩ := hf k
  exact ⟨q + r, by rw [Finset.sum_insert hk, hr, hq, EReal.coe_add]⟩

/-- The word 0x7F800000 is +∞. -/
theorem ofBits_inf : Ideal.ofBits .f32 0x7F800000#32 = ⊤ := by simp [Ideal.ofBits, Ideal.ieee]

/-- A one-bit word made from a truth value is 1 only when the value is true. -/
theorem ofBool_eq_one (b : Bool) (h : BitVec.ofBool b = 1#1) : b = true := by
  cases b
  · exact absurd h (by decide)
  · rfl

/-- An extended real whose absolute value max x (-x) is below +∞ is a real: at -∞ and at +∞ that maximum is +∞. -/
theorem real_of_abs_lt_top (x : EReal) (h : max x (-x) < ⊤) : ∃ r : ℝ, x = (r : EReal) := by
  induction x using EReal.rec with
  | bot => simp at h
  | coe r => exact ⟨r, rfl⟩
  | top => simp at h

/-- The same, from the comparison bit |x| < (the word of +∞) being 1. -/
theorem real_of_cmp (x : EReal)
    (hx : Ideal.cmp .olt (max x (-x)) (Ideal.ofBits .f32 0x7F800000#32) = 1#1) : ∃ r : ℝ, x = (r : EReal) := by
  have hlt : max x (-x) < Ideal.ofBits .f32 0x7F800000#32 := of_decide_eq_true (ofBool_eq_one _ hx)
  rw [ofBits_inf] at hlt
  exact real_of_abs_lt_top x hlt

end Cert.LibRealEntries

end
-- ==== Proof.PreReal.lean ====
/-
  From the precondition "every float argument passes all(|x| < +infinity)" to "every entry of every float argument is a
  real number".

  The precondition is a chain of sixteen tests joined by "and"; its value is the one-bit word 1. A conjunction of bits
  is 1 only when both are; an "and"-reduction over all axes that came out 1 met a 1 at every index; and the bit
  "max x (-x) < +infinity" is 1 only for a real x (at either infinity that maximum is +infinity). The integer
  argument has no test and no conclusion.
-/
import proofs.«167392_j80126909874572_1_alg».proof.Pre_finite_inputs
import proofs.«167392_j80126909874572_1_alg».proof.Proof.VarLaw
import proofs.«167392_j80126909874572_1_alg».proof.Proof.LibRealEntries
import Idealize.ShloMosaic.Lib.ReduceAll

noncomputable section

namespace Cert.PreReal

open Idealize.ShloMosaic Idealize.ShloMosaic.ValueIdx Cert.Pre_finite_inputs Cert.Gnn

/-- The shape with no axes has exactly one index. -/
instance : Subsingleton S_.Idx := ⟨fun _ _ => funext fun d => d.elim0⟩

/-- An extended real whose bit "max x (-x) < +infinity" is 1 is a real. -/
theorem isReal_of_bit (x : EReal)
    (h : Ideal.cmp .olt (max x (-x)) (Ideal.ofBits .f32 0x7F800000#32) = 1#1) : IsReal x :=
  Cert.LibRealEntries.real_of_cmp x h

/-- If the "and" over all indices of an array of bits p is 1, and p j is the bit "max (x j) (-(x j)) < +infinity",
    then every x j is a real: every p j is 1, and the bit is 1 only at a real. -/
theorem reals_of_all {s : Shape} {axes : List (Fin s.rank)} (x : FVec Ideal s .f32) {p : IVec s 1} {init : IVec S_ 1}
    {hr : s.ReducesTo axes S_} {hu : 0 < S_.numel}
    (e : Host.reduce IntOp.andi p init hr hu ix0 = 1#1)
    (hp : ∀ j, p j = Ideal.cmp .olt (max (x j) (-(x j))) (Ideal.ofBits .f32 0x7F800000#32)) (j : s.Idx) :
    IsReal (x j) :=
  isReal_of_bit (x j) ((hp j).symm.trans (Host.reduce_andi_all p init hr hu ix0 e j))

variable [Facts]

/-- The last two tests (and the conjunction with what came before them). -/
theorem part4 (a15 : FVec Ideal S128 .f32) (a16 : FVec Ideal S_ .f32) (v63 v67 : IVec S_ 1)
    (h : fn_part4 (F := Ideal) a15 a16 v63 v67 ix0 = 1#1) :
    v63 ix0 = 1#1 ∧ v67 ix0 = 1#1 ∧ (∀ j, IsReal (a15 j)) ∧ (∀ j, IsReal (a16 j)) := by
  dsimp only [fn_part4] at h
  obtain ⟨h, h16⟩ := IntOp.andi_eq_one.1 h
  obtain ⟨h, h15⟩ := IntOp.andi_eq_one.1 h
  obtain ⟨h63, h67⟩ := IntOp.andi_eq_one.1 h
  exact ⟨h63, h67, reals_of_all a15 h15 (fun _ => rfl), reals_of_all a16 h16 (fun _ => rfl)⟩

/-- The tests of the twelfth to the fourteenth vector, the pending comparison handed in, and the rest. -/
theorem part3 (a12 a13 a14 a15 : FVec Ideal S128 .f32) (a16 : FVec Ideal S_ .f32) (v48 : IVec S_ 1)
    (v49 v50 : FVec Ideal S128 .f32)
    (h : fn_part3 (F := Ideal) a12 a13 a14 a15 a16 v48 v49 v50 ix0 = 1#1) :
    v48 ix0 = 1#1 ∧ (∀ j, cmpf .olt v49 v50 j = 1#1) ∧ (∀ j, IsReal (a12 j)) ∧ (∀ j, IsReal (a13 j))
      ∧ (∀ j, IsReal (a14 j)) ∧ (∀ j, IsReal (a15 j)) ∧ (∀ j, IsReal (a16 j)) := by
  dsimp only [fn_part3] at h
  obtain ⟨h63, h14, h15, h16⟩ := part4 _ _ _ _ h
  obtain ⟨h58, h13⟩ := IntOp.andi_eq_one.1 h63
  obtain ⟨h53, h12⟩ := IntOp.andi_eq_one.1 h58
  obtain ⟨h48, h11⟩ := IntOp.andi_eq_one.1 h53
  exact ⟨h48, fun j => Host.reduce_andi_all _ _ _ _ ix0 h11 j, reals_of_all a12 h12 (fun _ => rfl),
    reals_of_all a13 h13 (fun _ => rfl), reals_of_all a14 h14 (fun _ => rfl), h15, h16⟩

/-- The tests of the eighth to the eleventh argument, and the rest. -/
theorem part2 (a8 : FVec Ideal S128x128 .f32) (a9 : FVec Ideal S128 .f32) (a10 : FVec Ideal S128x128 .f32)
    (a11 a12 a13 a14 a15 : FVec Ideal S128 .f32) (a16 : FVec Ideal S_ .f32) (v33 : IVec S_ 1)
    (h : fn_part2 (F := Ideal) a8 a9 a10 a11 a12 a13 a14 a15 a16 v33 ix0 = 1#1) :
    v33 ix0 = 1#1 ∧ (∀ j, IsReal (a8 j)) ∧ (∀ j, IsReal (a9 j)) ∧ (∀ j, IsReal (a10 j)) ∧ (∀ j, IsReal (a11 j))
      ∧ (∀ j, IsReal (a12 j)) ∧ (∀ j, IsReal (a13 j)) ∧ (∀ j, IsReal (a14 j)) ∧ (∀ j, IsReal (a15 j))
      ∧ (∀ j, IsReal (a16 j)) := by
  dsimp only [fn_part2] at h
  obtain ⟨h48, h11, h12, h13, h14, h15, h16⟩ := part3 _ _ _ _ _ _ _ _ h
  obtain ⟨h43, h10⟩ := IntOp.andi_eq_one.1 h48
  obtain ⟨h38, h9⟩ := IntOp.andi_eq_one.1 h43
  obtain ⟨h33, h8⟩ := IntOp.andi_eq_one.1 h38
  exact ⟨h33, reals_of_all a8 h8 (fun _ => rfl), reals_of_all a9 h9 (fun _ => rfl),
    reals_of_all a10 h10 (fun _ => rfl), fun j => isReal_of_bit (a11 j) (h11 j), h12, h13, h14, h15, h16⟩

/-- The pending comparison handed in, the tests of the fifth to the seventh matrix, and the rest. -/
theorem part1 (a5 a6 a7 a8 : FVec Ideal S128x128 .f32) (a9 : FVec Ideal S128 .f32) (a10 : FVec Ideal S128x128 .f32)
    (a11 a12 a13 a14 a15 : FVec Ideal S128 .f32) (a16 : FVec Ideal S_ .f32) (v13 : IVec S_ 1)
    (v16 : IVec S128x128 1)
    (h : fn_part1 (F := Ideal) a5 a6 a7 a8 a9 a10 a11 a12 a13 a14 a15 a16 v13 v16 ix0 = 1#1) :
    v13 ix0 = 1#1 ∧ (∀ j, v16 j = 1#1) ∧ (∀ j, IsReal (a5 j)) ∧ (∀ j, IsReal (a6 j)) ∧ (∀ j, IsReal (a7 j))
      ∧ (∀ j, IsReal (a8 j)) ∧ (∀ j, IsReal (a9 j)) ∧ (∀ j, IsReal (a10 j)) ∧ (∀ j, IsReal (a11 j))
      ∧ (∀ j, IsReal (a12 j)) ∧ (∀ j, IsReal (a13 j)) ∧ (∀ j, IsReal (a14 j)) ∧ (∀ j, IsReal (a15 j))
      ∧ (∀ j, IsReal (a16 j)) := by
  dsimp only [fn_part1] at h
  obtain ⟨h33, h8, h9, h10, h11, h12, h13, h14, h15, h16⟩ := part2 _ _ _ _ _ _ _ _ _ _ h
  obtain ⟨h28, h7⟩ := IntOp.andi_eq_one.1 h33
  obtain ⟨h23, h6⟩ := IntOp.andi_eq_one.1 h28
  obtain ⟨h18, h5⟩ := IntOp.andi_eq_one.1 h23
  obtain ⟨h13', h4⟩ := IntOp.andi_eq_one.1 h18
  exact ⟨h13', fun j => Host.reduce_andi_all _ _ _ _ ix0 h4 j, reals_of_all a5 h5 (fun _ => rfl),
    reals_of_all a6 h6 (fun _ => rfl), reals_of_all a7 h7 (fun _ => rfl), h8, h9, h10, h11, h12, h13, h14, h15, h16⟩

/-- If the precondition holds (its bit is 1), every entry of every float argument is a real. -/
theorem reals_of_pre (a0 : FVec Ideal S50000x128 .f32) (a1 : FVec Ideal S640000x128 .f32) (a2 : IVec S2x640000 32)
    (a3 a4 a5 a6 a7 a8 : FVec Ideal S128x128 .f32) (a9 : FVec Ideal S128 .f32) (a10 : FVec Ideal S128x128 .f32)
    (a11 a12 a13 a14 a15 : FVec Ideal S128 .f32) (a16 : FVec Ideal S_ .f32)
    (h : Cert.Pre_finite_inputs.fn (F := Ideal) a0 a1 a2 a3 a4 a5 a6 a7 a8 a9 a10 a11 a12 a13 a14 a15 a16
      = fun _ => 1#1) :
    (∀ j, IsReal (a0 j)) ∧ (∀ j, IsReal (a1 j)) ∧ (∀ j, IsReal (a3 j)) ∧ (∀ j, IsReal (a4 j)) ∧ (∀ j, IsReal (a5 j))
      ∧ (∀ j, IsReal (a6 j)) ∧ (∀ j, IsReal (a7 j)) ∧ (∀ j, IsReal (a8 j)) ∧ (∀ j, IsReal (a9 j))
      ∧ (∀ j, IsReal (a10 j)) ∧ (∀ j, IsReal (a11 j)) ∧ (∀ j, IsReal (a12 j)) ∧ (∀ j, IsReal (a13 j))
      ∧ (∀ j, IsReal (a14 j)) ∧ (∀ j, IsReal (a15 j)) ∧ (∀ j, IsReal (a16 j)) := by
  have h0 : Cert.Pre_finite_inputs.fn (F := Ideal) a0 a1 a2 a3 a4 a5 a6 a7 a8 a9 a10 a11 a12 a13 a14 a15 a16 ix0
      = 1#1 := congrFun h ix0
  dsimp only [Cert.Pre_finite_inputs.fn] at h0
  obtain ⟨h13, h4, h5, h6, h7, h8, h9, h10, h11, h12, h13', h14, h15, h16⟩ :=
    part1 _ _ _ _ _ _ _ _ _ _ _ _ _ _ h0
  obtain ⟨h8', h3⟩ := IntOp.andi_eq_one.1 h13
  obtain ⟨h0', h1⟩ := IntOp.andi_eq_one.1 h8'
  exact ⟨reals_of_all a0 h0' (fun _ => rfl), reals_of_all a1 h1 (fun _ => rfl), reals_of_all a3 h3 (fun _ => rfl),
    fun j => isReal_of_bit (a4 j) (h4 j), h5, h6, h7, h8, h9, h10, h11, h12, h13', h14, h15, h16⟩

end Cert.PreReal

end
-- ==== Proof.lean ====
/-
  One gated graph-convolution layer with batch normalisation: the tiled kernel program against its plain reference, on
  the extended reals.

  Both programs gather the source and target node rows of the 640000 edges, form the edge pre-activation
  y = e·P + hs·Q + hd·R, normalise it over the edges, update the edge features by a two-layer perceptron of the
  normalised value, gate the projected target rows by logistic(y), sum these messages per source node, add the sum to
  h·U, normalise over the 50000 nodes, and update the node features. They differ in three ways only. The kernel
  program cuts every array into row tiles and treats them in five passes, the two statistics passes adding the tiles'
  column sums into an accumulator: a finite sum taken tile by tile is the whole sum. It adds the second bias to the
  perceptron before the residual, the reference after: addition is associative. And it takes the batch variance by
  moments, (Σ y²)/n − ((Σ y)/n)², where the reference takes the mean of the squared deviations: these agree when every
  y is a real number, which holds because every float argument is finite — y, the gate, the messages and their sums
  are then finite sums of products of reals.

  So from memories that agree on the arguments both programs end with the same two arrays, and each leaves its
  arguments as they were. The idealized kernel program is the printed program read at exact arithmetic, with no rewrite
  to account for.
-/
import proofs.«167392_j80126909874572_1_alg».proof.Defs
import proofs.«167392_j80126909874572_1_alg».proof.Proof.Gen.Kernel
import proofs.«167392_j80126909874572_1_alg».proof.Proof.Gen.KernelIdeal
import proofs.«167392_j80126909874572_1_alg».proof.Proof.Gen.ReferenceIdeal
import proofs.«167392_j80126909874572_1_alg».proof.Proof.Gen.Pre_finite_inputs
import proofs.«167392_j80126909874572_1_alg».proof.Proof.Patched.KernelFrame
import proofs.«167392_j80126909874572_1_alg».proof.Proof.Patched.KernelIdealFrame
import proofs.«167392_j80126909874572_1_alg».proof.Proof.KRun
import proofs.«167392_j80126909874572_1_alg».proof.Proof.KValue
import proofs.«167392_j80126909874572_1_alg».proof.Proof.KRegions
import proofs.«167392_j80126909874572_1_alg».proof.Proof.RefRun
import proofs.«167392_j80126909874572_1_alg».proof.Proof.Link
import proofs.«167392_j80126909874572_1_alg».proof.Proof.LinkE
import proofs.«167392_j80126909874572_1_alg».proof.Proof.PreReal
import Idealize.ShloMosaic.Adequacy
import Idealize.ShloMosaic.Init

set_option maxRecDepth 16384

noncomputable section

namespace Cert.Proof

open Idealize.ShloMosaic Idealize.SL.Sem
open Cert.KernelIdeal.Fold

/-- The printed kernel program runs and keeps its arguments. -/
theorem frame_k : Cert.frame_Kernel := fun m ρ _ => Cert.Kernel.GenP.frame m ρ

/-- So does the program read at exact arithmetic. -/
theorem frame_ki : Cert.frame_KernelIdeal := fun m ρ _ => Cert.KernelIdeal.GenP.frame m ρ

/-- The reference runs and keeps its arguments: its run with the two results dropped. -/
theorem frame_ri : Cert.frame_ReferenceIdeal := fun m ρ _ =>
  (θ_run Cert.ReferenceIdeal.defs _ _).mono (fun _ h c => (h c).2.2) (Cert.ReferenceIdeal.RefRun.run m ρ)

set_option maxHeartbeats 2000000 in
/-- From memories agreeing on the arguments, all of them finite, the two programs end with the same updated node
    features and the same updated edge features: the kernel program's, as the common value. -/
theorem algebraic : Cert.algebraic_KernelIdeal_ReferenceIdeal := by
  intro m ρ m' ρ' hpre hagree
  refine ⟨fun c => KH (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)),
    fun c => KE (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)), ?_, ?_⟩
  · exact (θ_run (Cert.KernelIdeal.defs (F := Ideal)) _ _).mono
      (fun r h c => ⟨(h c).1.trans (W10_v51 m ρ regions c), (h c).2.1.trans (W10_v40_0 m ρ regions c), (h c).2.2⟩)
      (Cert.KernelIdeal.KRun.run_W10 m ρ)
  · refine (θ_run (Cert.ReferenceIdeal.defs (F := Ideal)) _ _).mono (fun r h c => ?_) (Cert.ReferenceIdeal.RefRun.run m' ρ')
    obtain ⟨e0, e1, e2, e3, e4, e5, e6, e7, e8, e9, e10, e11, e12, e13, e14, e15, e16⟩ := hagree c
    obtain ⟨r0, r1, r3, r4, r5, r6, r7, -⟩ := Cert.PreReal.reals_of_pre _ _ _ _ _ _ _ _ _ _ _ _ _ _ _ _ _ (hpre c)
    refine ⟨(h c).1.trans ?_, (h c).2.1.trans ?_, (h c).2.2⟩
    · rw [e0, e1, e2, e3, e4, e5, e6, e7, e8, e9, e10, e11, e12, e13, e14, e15, e16]
      exact Cert.Link.RefH_eq_KH _ _ _ _ _ _ _ _ _ _ _ _ _ _ _ _ _ r0 r1 r3 r4 r5 r6 r7
    · rw [e0, e1, e2, e3, e4, e5, e6, e7, e8, e9, e10, e11, e12, e13, e14, e15, e16]
      exact Cert.Link.RefE_eq_KE _ _ _ _ _ _ _ _ _ _ _ _ _ _ _ _ _ r0 r1 r3 r4 r5 r6 r7

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
